-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12_3)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v24_0)) (v4 : (c : Dev Cert.KernelIdeal.nD) → Buf (Elt Ideal) ((c.tc : Thread Cert.KernelIdeal.nD Cert.KernelIdeal.τ).loc Cert.KernelIdeal.main_v25_0)) (v5 : (c : Dev Cert.KernelIdeal.nD) → Buf (Elt Ideal) ((c.tc : Thread Cert.KernelIdeal.nD Cert.KernelIdeal.τ).loc Cert.KernelIdeal.main_v26_0)) (v6 : (c : Dev Cert.KernelIdeal.nD) → Buf (Elt Ideal) ((c.tc : Thread Cert.KernelIdeal.nD Cert.KernelIdeal.τ).loc Cert.KernelIdeal.main_v24_1)) (v7 : (c : Dev Cert.KernelIdeal.nD) → Buf (Elt Ideal) ((c.tc : Thread Cert.KernelIdeal.nD Cert.KernelIdeal.τ).loc Cert.KernelIdeal.main_v25_1)) (v8 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_3) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v24_0) = v3 c
          ∧ r.2.mem ((c.tc : Thread Cert.KernelIdeal.nD Cert.KernelIdeal.τ).loc Cert.KernelIdeal.main_v25_0) = v4 c
          ∧ r.2.mem ((c.tc : Thread Cert.KernelIdeal.nD Cert.KernelIdeal.τ).loc Cert.KernelIdeal.main_v26_0) = v5 c
          ∧ r.2.mem ((c.tc : Thread Cert.KernelIdeal.nD Cert.KernelIdeal.τ).loc Cert.KernelIdeal.main_v24_1) = v6 c
          ∧ r.2.mem ((c.tc : Thread Cert.KernelIdeal.nD Cert.KernelIdeal.τ).loc Cert.KernelIdeal.main_v25_1) = v7 c
          ∧ r.2.mem ((c.tc : Thread Cert.KernelIdeal.nD Cert.KernelIdeal.τ).loc Cert.KernelIdeal.main_v26_1) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_v54) = v6 c
          ∧ r.2.mem ((c.tc : Thread Cert.ReferenceIdeal.nD Cert.ReferenceIdeal.τ).loc Cert.ReferenceIdeal.main_v43) = v7 c
          ∧ r.2.mem ((c.tc : Thread Cert.ReferenceIdeal.nD Cert.ReferenceIdeal.τ).loc Cert.ReferenceIdeal.main_v32) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048x2050 : Shape := ⟨2, ![2048, 2050]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x2050 : S_.BroadcastsInDim S2048x2050 (![] : Fin 0 → Fin S2048x2050.rank)
  reducesTo_S2048x2050_S_d0_1 : S2048x2050.ReducesTo [0, 1] S_
  reducesTo_S_S_d : S_.ReducesTo [] S_

variable [Facts]

def fn_part3 {F : FTy → Type} [FloatOps F] (main_v48 : IVec S_ 1) (main_v50 : IVec S_ 1) : IVec S_ 1 :=
  let main_c_19 : IVec S_ 1 := constantI S_ 1 1#1
  let main_v51 : IVec S_ 1 := (fun x v => Host.reduce IntOp.andi x v reducesTo_S_S_d h_S_) main_v50 main_c_19
  let main_v52 : IVec S_ 1 := andi main_v48 main_v51
  main_v52

def fn_part2 {F : FTy → Type} [FloatOps F] (main_arg7 : FVec F S2048x2048 .f32) (main_arg8 : FVec F S2048x2048 .f32) (main_arg9 : FVec F S2048x2050 .f32) (main_arg10 : FVec F S_ .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2050 .f32 := Host.absf main_arg9
  let main_cst_16 : FVec F S_ .f32 := constant S_ .f32 0x7F800000#32
  let main_v45 : FVec F S2048x2050 .f32 := broadcastInDim S2048x2050 ![] bcast_S_S2048x2050 main_cst_16
  let main_v46 : IVec S2048x2050 1 := cmpf .olt main_v44 main_v45
  let main_c_17 : IVec S_ 1 := constantI S_ 1 1#1
  let main_v47 : IVec S_ 1 := (fun x v => Host.reduce IntOp.andi x v reducesTo_S2048x2050_S_d0_1 h_S_) main_v46 main_c_17
  let main_v48 : IVec S_ 1 := andi main_v43 main_v47
  let main_v49 : FVec F S_ .f32 := Host.absf main_arg10
  let main_cst_18 : FVec F S_ .f32 := constant S_ .f32 0x7F800000#32
  let main_v50 : IVec S_ 1 := cmpf .olt main_v49 main_cst_18
  fn_part3 (F := F) main_v48 main_v50

def fn_part1 {F : FTy → Type} [FloatOps F] (main_arg4 : FVec F S2048x2048 .f32) (main_arg5 : FVec F S2048x2048 .f32) (main_arg6 : FVec F S2048x2050 .f32) (main_arg7 : FVec F S2048x2048 .f32) (main_arg8 : FVec F S2048x2048 .f32) (main_arg9 : FVec F S2048x2050 .f32) (main_arg10 : FVec F S_ .f32) (main_v13 : IVec S_ 1) (main_v16 : IVec S2048x2050 1) : IVec S_ 1 :=
  let main_c_5 : IVec S_ 1 := constantI S_ 1 1#1
  let main_v17 : IVec S_ 1 := (fun x v => Host.reduce IntOp.andi x v reducesTo_S2048x2050_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2050 .f32 := Host.absf main_arg6
  let main_cst_10 : FVec F S_ .f32 := constant S_ .f32 0x7F800000#32
  let main_v30 : FVec F S2048x2050 .f32 := broadcastInDim S2048x2050 ![] bcast_S_S2048x2050 main_cst_10
  let main_v31 : IVec S2048x2050 1 := cmpf .olt main_v29 main_v30
  let main_c_11 : IVec S_ 1 := constantI S_ 1 1#1
  let main_v32 : IVec S_ 1 := (fun x v => Host.reduce IntOp.andi x v reducesTo_S2048x2050_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S2048x2048 .f32) (main_arg2 : FVec F S2048x2048 .f32) (main_arg3 : FVec F S2048x2050 .f32) (main_arg4 : FVec F S2048x2048 .f32) (main_arg5 : FVec F S2048x2048 .f32) (main_arg6 : FVec F S2048x2050 .f32) (main_arg7 : FVec F S2048x2048 .f32) (main_arg8 : FVec F S2048x2048 .f32) (main_arg9 : FVec F S2048x2050 .f32) (main_arg10 : FVec F S_ .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2050 .f32 := Host.absf main_arg3
  let main_cst_4 : FVec F S_ .f32 := constant S_ .f32 0x7F800000#32
  let main_v15 : FVec F S2048x2050 .f32 := broadcastInDim S2048x2050 ![] bcast_S_S2048x2050 main_cst_4
  let main_v16 : IVec S2048x2050 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x2048 : Shape := ⟨2, ![2048, 2048]⟩
abbrev S2048x2050 : Shape := ⟨2, ![2048, 2050]⟩
abbrev S_ : Shape := ⟨0, ![]⟩
abbrev S4096x2050 : Shape := ⟨2, ![4096, 2050]⟩
abbrev S128x2048 : Shape := ⟨2, ![128, 2048]⟩
abbrev S128x2050 : Shape := ⟨2, ![128, 2050]⟩
abbrev S4096x1 : Shape := ⟨2, ![4096, 1]⟩
abbrev S1x1 : Shape := ⟨2, ![1, 1]⟩
abbrev S512x512 : Shape := ⟨2, ![512, 512]⟩
abbrev S512x1024 : Shape := ⟨2, ![512, 1024]⟩
abbrev S1024x512 : Shape := ⟨2, ![1024, 512]⟩
abbrev S1024x1024 : Shape := ⟨2, ![1024, 1024]⟩
abbrev S1024x256 : Shape := ⟨2, ![1024, 256]⟩
abbrev S1024x2050 : Shape := ⟨2, ![1024, 2050]⟩
abbrev S256x2050 : Shape := ⟨2, ![256, 2050]⟩

abbrev nBuf : Space → Nat
  | .hbm => 48
  | .vmem => 55
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2050, .f32⟩
  | .hbm, ⟨4, _⟩ => ⟨S2048x2048, .f32⟩
  | .hbm, ⟨5, _⟩ => ⟨S2048x2048, .f32⟩
  | .hbm, ⟨6, _⟩ => ⟨S2048x2050, .f32⟩
  | .hbm, ⟨7, _⟩ => ⟨S2048x2048, .f32⟩
  | .hbm, ⟨8, _⟩ => ⟨S2048x2048, .f32⟩
  | .hbm, ⟨9, _⟩ => ⟨S2048x2050, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | .hbm, ⟨19, _⟩ => ⟨S2048x2050, .f32⟩
  | .hbm, ⟨20, _⟩ => ⟨S2048x2050, .f32⟩
  | .hbm, ⟨21, _⟩ => ⟨S2048x2050, .f32⟩
  | .hbm, ⟨22, _⟩ => ⟨S2048x2050, .bf16⟩
  | .hbm, ⟨23, _⟩ => ⟨S4096x2048, .bf16⟩
  | .hbm, ⟨24, _⟩ => ⟨S4096x2048, .bf16⟩
  | .hbm, ⟨25, _⟩ => ⟨S4096x2050, .bf16⟩
  | .hbm, ⟨26, _⟩ => ⟨S4096x2048, .f32⟩
  | .hbm, ⟨27, _⟩ => ⟨S4096x1, .bf16⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x1, .bf16⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x1, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2050, .f32⟩
  | .hbm, ⟨47, _⟩ => ⟨S2048x2050, .f32⟩
  | .local _ .vmem, ⟨0, _⟩ => ⟨S128x2048, .f32⟩
  | .local _ .vmem, ⟨1, _⟩ => ⟨S128x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x2050, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2050, .bf16⟩
  | .local _ .vmem, ⟨10, _⟩ => ⟨S128x2050, .bf16⟩
  | .local _ .vmem, ⟨11, _⟩ => ⟨S128x2048, .f32⟩
  | .local _ .vmem, ⟨12, _⟩ => ⟨S128x2048, .f32⟩
  | .local _ .vmem, ⟨13, _⟩ => ⟨S512x512, .f32⟩
  | .local _ .vmem, ⟨14, _⟩ => ⟨S512x512, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x1, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1024x512, .bf16⟩
  | .local _ .vmem, ⟨28, _⟩ => ⟨S1024x512, .bf16⟩
  | .local _ .vmem, ⟨29, _⟩ => ⟨S1024x1024, .bf16⟩
  | .local _ .vmem, ⟨30, _⟩ => ⟨S1024x1024, .bf16⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S1x1, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S1024x256, .bf16⟩
  | .local _ .vmem, ⟨42, _⟩ => ⟨S1024x256, .bf16⟩
  | .local _ .vmem, ⟨43, _⟩ => ⟨S1024x2050, .bf16⟩
  | .local _ .vmem, ⟨44, _⟩ => ⟨S1024x2050, .bf16⟩
  | .local _ .vmem, ⟨45, _⟩ => ⟨S256x2050, .f32⟩
  | .local _ .vmem, ⟨46, _⟩ => ⟨S256x2050, .f32⟩
  | .local _ .vmem, ⟨47, _⟩ => ⟨S256x2050, .f32⟩
  | .local _ .vmem, ⟨48, _⟩ => ⟨S256x2050, .f32⟩
  | .local _ .vmem, ⟨49, _⟩ => ⟨S1x1, .f32⟩
  | .local _ .vmem, ⟨50, _⟩ => ⟨S256x2050, .f32⟩
  | .local _ .vmem, ⟨51, _⟩ => ⟨S256x2050, .f32⟩
  | .local _ .vmem, ⟨52, _⟩ => ⟨S256x2050, .f32⟩
  | .local _ .vmem, ⟨53, _⟩ => ⟨S256x2050, .f32⟩
  | .local _ .vmem, ⟨54, _⟩ => ⟨S256x2050, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v25_0 : Ref sig .tc := ⟨.hbm, 44, rfl⟩
abbrev main_v25_1 : Ref sig .tc := ⟨.hbm, 45, rfl⟩
abbrev main_v26_0 : Ref sig .tc := ⟨.hbm, 46, rfl⟩
abbrev main_v26_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc2_scratch0 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg3_1 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg5_1 : Ref sig .tc := ⟨.vmem, 51, rfl⟩
abbrev cc3_stg6_0 : Ref sig .tc := ⟨.vmem, 52, rfl⟩
abbrev cc3_stg6_1 : Ref sig .tc := ⟨.vmem, 53, rfl⟩
abbrev cc3_scratch0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem5_1 : DmaSem sig := 36
abbrev cc2_sem6_0 : DmaSem sig := 37
abbrev cc2_sem6_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem5_0 : DmaSem sig := 48
abbrev cc3_sem5_1 : DmaSem sig := 49
abbrev cc3_sem6_0 : DmaSem sig := 50
abbrev cc3_sem6_1 : DmaSem sig := 51

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2050 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2050 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨3, ![4, 2, 4], ![false, false, false]⟩

def k2_cond2 (i : grid2.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_9 : BitVec 32 := 0#32
  let v17 : BitVec 1 := Scalar.cmpi .ne v16 c0_i32_9
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev grid3 : Pipeline.Grid := ⟨3, ![8, 1, 4], ![false, false, false]⟩

def k3_cond2 (i : grid3.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_9 : BitVec 32 := 0#32
  let v17 : BitVec 1 := Scalar.cmpi .ne v16 c0_i32_9
  v17

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2050 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S256x2050 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S256x2050 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, false]

abbrev stage3_5 : Fin 2 → Memref sig .tc .vmem S256x2050 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S256x2050 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

class Facts₀ : Prop where
  bcast_S_S2048x2048 : S_.BroadcastsInDim S2048x2048 (![] : Fin 0 → Fin S2048x2048.rank)
  bitsLt_bf16_f32 : FTy.bits .bf16 < FTy.bits .f32
  bcast_S_S2048x2050 : S_.BroadcastsInDim S2048x2050 (![] : Fin 0 → Fin S2048x2050.rank)
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x2050_S2048x2050_0_0 : ∀ a, (![0, 0] : Fin 2 → Nat) a + S2048x2050.size a ≤ S2048x2050.size a
  h_S2048x2050 : 0 < S2048x2050.numel
  shapeCasts_S2048x2050_S2048x2050 : S2048x2050.ShapeCasts S2048x2050
  packedbf16_S128x2048_S128x2048_0_0 : (Rect.unit (s := S128x2048) ![0, 0] S128x2048.size inb_S128x2048_S128x2048_0_0).PackedRows (EltTy.packing .bf16)
  inb_S128x2050_S128x2050_0_0 : ∀ a, (![0, 0] : Fin 2 → Nat) a + S128x2050.size a ≤ S128x2050.size a
  h_S128x2050 : 0 < S128x2050.numel
  packedbf16_S128x2050_S128x2050_0_0 : (Rect.unit (s := S128x2050) ![0, 0] S128x2050.size inb_S128x2050_S128x2050_0_0).PackedRows (EltTy.packing .bf16)
  slices_S128x2050_o0_0_S128x2048 : S128x2050.Slices ![0, 0] S128x2048
  slices_S4096x2050_S4096x1_0_2048 : S4096x2050.Slices ![0, 2048] S4096x1
  reducesTo_S4096x1_S_d0_1 : S4096x1.ReducesTo [0, 1] S_
  h_S_ : 0 < S_.numel
  slices_S4096x2050_S4096x1_0_2047 : S4096x2050.Slices ![0, 2047] S4096x1
  shapeCasts_S_S1x1 : S_.ShapeCasts S1x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x2050_S256x2050_0_0 : ∀ a, (![0, 0] : Fin 2 → Nat) a + S256x2050.size a ≤ S256x2050.size a
  h_S256x2050 : 0 < S256x2050.numel
  shapeCasts_S256x2050_S256x2050 : S256x2050.ShapeCasts S256x2050
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2050_S1024x2050_0_0 : ∀ a, (![0, 0] : Fin 2 → Nat) a + S1024x2050.size a ≤ S1024x2050.size a
  h_S1024x2050 : 0 < S1024x2050.numel
  shapeCasts_S1024x2050_S1024x2050 : S1024x2050.ShapeCasts S1024x2050
  dot_S128x2048_S2048x2048_S128x2048_1_0_0_1_n_n_wf : DotDims.WF S128x2048 S2048x2048 S128x2048 [1] [0] [0] [1] [] []
  dot_S128x2048_S2048x2050_S128x2050_1_0_0_1_n_n_wf : DotDims.WF S128x2048 S2048x2050 S128x2050 [1] [0] [0] [1] [] []
  dot_S512x512_S512x1024_S512x1024_0_0_1_1_n_n_wf : DotDims.WF S512x512 S512x1024 S512x1024 [0] [0] [1] [1] [] []
  dot_S1024x512_S1024x1024_S512x1024_0_0_1_1_n_n_wf : DotDims.WF S1024x512 S1024x1024 S512x1024 [0] [0] [1] [1] [] []
  dot_S1024x256_S1024x2050_S256x2050_0_0_1_1_n_n_wf : DotDims.WF S1024x256 S1024x2050 S256x2050 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2050.size a ≤ S2048x2050.size a
  hwx0_3 : ∀ i : grid0.Coords, EltTy.bits .bf16 = 32 ∨ (Rect.block (s := S2048x2050) S2048x2050.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S4096x2048.size a
  hwx0_4 : ∀ i : grid0.Coords, EltTy.bits .bf16 = 32 ∨ (Rect.block (s := S4096x2048) S128x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .bf16 = 32 ∨ (Rect.block (s := S4096x2048) S128x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2050.size a ≤ S4096x2050.size a
  hwx0_6 : ∀ i : grid0.Coords, EltTy.bits .bf16 = 32 ∨ (Rect.block (s := S4096x2050) S128x2050.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S4096x2048.size a
  hwx0_7 : ∀ i : grid0.Coords, EltTy.bits .f32 = 32 ∨ (Rect.block (s := S4096x2048) S128x2048.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x2048.size a
  hwx1_0 : ∀ i : grid1.Coords, EltTy.bits .f32 = 32 ∨ (Rect.block (s := S4096x2048) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x2048.size a
  hwx1_1 : ∀ i : grid1.Coords, EltTy.bits .bf16 = 32 ∨ (Rect.block (s := S4096x2048) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S2048x2048.size a
  hwx1_2 : ∀ i : grid1.Coords, EltTy.bits .f32 = 32 ∨ (Rect.block (s := S2048x2048) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S2048x2048.size a
  hwx1_3 : ∀ i : grid1.Coords, EltTy.bits .f32 = 32 ∨ (Rect.block (s := S2048x2048) S512x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S2048x2048.size a
  hwx1_5 : ∀ i : grid1.Coords, EltTy.bits .f32 = 32 ∨ (Rect.block (s := S2048x2048) S512x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S2048x2048.size a
  hwx1_6 : ∀ i : grid1.Coords, EltTy.bits .f32 = 32 ∨ (Rect.block (s := S2048x2048) S512x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x2048.size a
  hwx2_0 : ∀ i : grid2.Coords, EltTy.bits .bf16 = 32 ∨ (Rect.block (s := S4096x2048) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x2048.size a
  hwx2_1 : ∀ i : grid2.Coords, EltTy.bits .bf16 = 32 ∨ (Rect.block (s := S4096x2048) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S2048x2048.size a
  hwx2_2 : ∀ i : grid2.Coords, EltTy.bits .f32 = 32 ∨ (Rect.block (s := S2048x2048) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S2048x2048.size a
  hwx2_3 : ∀ i : grid2.Coords, EltTy.bits .f32 = 32 ∨ (Rect.block (s := S2048x2048) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S2048x2048.size a
  hwx2_5 : ∀ i : grid2.Coords, EltTy.bits .f32 = 32 ∨ (Rect.block (s := S2048x2048) S512x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S2048x2048.size a
  hwx2_6 : ∀ i : grid2.Coords, EltTy.bits .f32 = 32 ∨ (Rect.block (s := S2048x2048) S512x1024.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S4096x2048.size a
  hwx3_0 : ∀ i : grid3.Coords, EltTy.bits .bf16 = 32 ∨ (Rect.block (s := S4096x2048) S1024x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2050.size a ≤ S4096x2050.size a
  hwx3_1 : ∀ i : grid3.Coords, EltTy.bits .bf16 = 32 ∨ (Rect.block (s := S4096x2050) S1024x2050.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x2050.size a ≤ S2048x2050.size a
  hwx3_2 : ∀ i : grid3.Coords, EltTy.bits .f32 = 32 ∨ (Rect.block (s := S2048x2050) S256x2050.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2050.size a ≤ S2048x2050.size a
  hwx3_3 : ∀ i : grid3.Coords, EltTy.bits .f32 = 32 ∨ (Rect.block (s := S2048x2050) S256x2050.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x2050.size a ≤ S2048x2050.size a
  hwx3_5 : ∀ i : grid3.Coords, EltTy.bits .f32 = 32 ∨ (Rect.block (s := S2048x2050) S256x2050.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S256x2050.size a ≤ S2048x2050.size a
  hwx3_6 : ∀ i : grid3.Coords, EltTy.bits .f32 = 32 ∨ (Rect.block (s := S2048x2050) S256x2050.size (cc3_transform_6 i) (hinb3_6 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x2050_S128x2050_1_0_0_1_n_n : DotDims S128x2048 S2048x2050 S128x2050 where
  lhsContracting := [1]
  rhsContracting := [0]
  lhsNonContracting := [0]
  rhsNonContracting := [1]
  lhsBatch := []
  rhsBatch := []
  wf := dot_S128x2048_S2048x2050_S128x2050_1_0_0_1_n_n_wf
def dot_S512x512_S512x1024_S512x1024_0_0_1_1_n_n : DotDims S512x512 S512x1024 S512x1024 where
  lhsContracting := [0]
  rhsContracting := [0]
  lhsNonContracting := [1]
  rhsNonContracting := [1]
  lhsBatch := []
  rhsBatch := []
  wf := dot_S512x512_S512x1024_S512x1024_0_0_1_1_n_n_wf
def dot_S1024x512_S1024x1024_S512x1024_0_0_1_1_n_n : DotDims S1024x512 S1024x1024 S512x1024 where
  lhsContracting := [0]
  rhsContracting := [0]
  lhsNonContracting := [1]
  rhsNonContracting := [1]
  lhsBatch := []
  rhsBatch := []
  wf := dot_S1024x512_S1024x1024_S512x1024_0_0_1_1_n_n_wf
def dot_S1024x256_S1024x2050_S256x2050_0_0_1_1_n_n : DotDims S1024x256 S1024x2050 S256x2050 where
  lhsContracting := [0]
  rhsContracting := [0]
  lhsNonContracting := [1]
  rhsNonContracting := [1]
  lhsBatch := []
  rhsBatch := []
  wf := dot_S1024x256_S1024x2050_S256x2050_0_0_1_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x2050.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S128x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S128x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_2) S128x2050.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_3) S128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S512x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v12_0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25_0) S512x1024.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v25_1) S512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v12_1) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12_2) S1024x2050.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S256x2050.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S256x2050.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v26_0) S256x2050.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v26_1) S256x2050.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048x2050 : Shape := ⟨2, ![2048, 2050]⟩
abbrev S_ : Shape := ⟨0, ![]⟩
abbrev S4096x2050 : Shape := ⟨2, ![4096, 2050]⟩
abbrev S4096x1 : Shape := ⟨2, ![4096, 1]⟩
abbrev S2048x4096 : Shape := ⟨2, ![2048, 4096]⟩

abbrev nBuf : Space → Nat
  | .hbm => 102
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2050, .f32⟩
  | .hbm, ⟨4, _⟩ => ⟨S2048x2048, .f32⟩
  | .hbm, ⟨5, _⟩ => ⟨S2048x2048, .f32⟩
  | .hbm, ⟨6, _⟩ => ⟨S2048x2050, .f32⟩
  | .hbm, ⟨7, _⟩ => ⟨S2048x2048, .f32⟩
  | .hbm, ⟨8, _⟩ => ⟨S2048x2048, .f32⟩
  | .hbm, ⟨9, _⟩ => ⟨S2048x2050, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S2048x2050, .f32⟩
  | .hbm, ⟨26, _⟩ => ⟨S2048x2050, .f32⟩
  | .hbm, ⟨27, _⟩ => ⟨S2048x2050, .f32⟩
  | .hbm, ⟨28, _⟩ => ⟨S4096x2050, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048x2050, .f32⟩
  | .hbm, ⟨43, _⟩ => ⟨S2048x2050, .f32⟩
  | .hbm, ⟨44, _⟩ => ⟨S2048x4096, .f32⟩
  | .hbm, ⟨45, _⟩ => ⟨S2048x2050, .f32⟩
  | .hbm, ⟨46, _⟩ => ⟨S_, .f32⟩
  | .hbm, ⟨47, _⟩ => ⟨S2048x2050, .f32⟩
  | .hbm, ⟨48, _⟩ => ⟨S2048x2050, .f32⟩
  | .hbm, ⟨49, _⟩ => ⟨S2048x2050, .f32⟩
  | .hbm, ⟨50, _⟩ => ⟨S2048x2050, .f32⟩
  | .hbm, ⟨51, _⟩ => ⟨S2048x2050, .f32⟩
  | .hbm, ⟨52, _⟩ => ⟨S2048x2050, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2048x2050, .f32⟩
  | .hbm, ⟨57, _⟩ => ⟨S2048x2050, .f32⟩
  | .hbm, ⟨58, _⟩ => ⟨S_, .f32⟩
  | .hbm, ⟨59, _⟩ => ⟨S2048x2050, .f32⟩
  | .hbm, ⟨60, _⟩ => ⟨S2048x2050, .f32⟩
  | .hbm, ⟨61, _⟩ => ⟨S_, .f32⟩
  | .hbm, ⟨62, _⟩ => ⟨S2048x2048, .f32⟩
  | .hbm, ⟨63, _⟩ => ⟨S2048x2048, .f32⟩
  | .hbm, ⟨64, _⟩ => ⟨S2048x4096, .f32⟩
  | .hbm, ⟨65, _⟩ => ⟨S2048x2048, .f32⟩
  | .hbm, ⟨66, _⟩ => ⟨S_, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048x2048, .f32⟩
  | .hbm, ⟨83, _⟩ => ⟨S2048x2048, .f32⟩
  | .hbm, ⟨84, _⟩ => ⟨S2048x4096, .f32⟩
  | .hbm, ⟨85, _⟩ => ⟨S2048x2048, .f32⟩
  | .hbm, ⟨86, _⟩ => ⟨S_, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S2048x2048, .f32⟩
  | .hbm, ⟨97, _⟩ => ⟨S2048x2048, .f32⟩
  | .hbm, ⟨98, _⟩ => ⟨S_, .f32⟩
  | .hbm, ⟨99, _⟩ => ⟨S2048x2048, .f32⟩
  | .hbm, ⟨100, _⟩ => ⟨S2048x2048, .f32⟩
  | .hbm, ⟨101, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_cst_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_cst_10 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v43 : Ref sig .tc := ⟨.hbm, 80, rfl⟩
abbrev main_cst_11 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_12 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_13 : Ref sig .tc := ⟨.hbm, 93, rfl⟩
abbrev main_cst_14 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v54 : Ref sig .tc := ⟨.hbm, 100, rfl⟩
abbrev main_v55 : Ref sig .tc := ⟨.hbm, 101, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S4096x2048 : S_.BroadcastsInDim S4096x2048 (![] : Fin 0 → Fin S4096x2048.rank)
  bcast_S_S2048x2050 : S_.BroadcastsInDim S2048x2050 (![] : Fin 0 → Fin S2048x2050.rank)
  slices_S4096x2050_S4096x1_0_2048 : S4096x2050.Slices ![0, 2048] S4096x1
  reducesTo_S4096x1_S_d0_1 : S4096x1.ReducesTo [0, 1] S_
  h_S_ : 0 < S_.numel
  slices_S4096x2050_S4096x1_0_2047 : S4096x2050.Slices ![0, 2047] S4096x1
  transposes_S4096x2048_S2048x4096_1_0 : S4096x2048.Transposes [1, 0] S2048x4096
  slices_S4096x2050_S4096x2048_0_0 : S4096x2050.Slices ![0, 0] S4096x2048
  dot_S4096x2048_S2048x2048_S4096x2048_1_0_0_1_n_n_wf : DotDims.WF S4096x2048 S2048x2048 S4096x2048 [1] [0] [0] [1] [] []
  dot_S4096x2048_S2048x2050_S4096x2050_1_0_0_1_n_n_wf : DotDims.WF S4096x2048 S2048x2050 S4096x2050 [1] [0] [0] [1] [] []
  dot_S2048x4096_S4096x2050_S2048x2050_1_0_0_1_n_n_wf : DotDims.WF S2048x4096 S4096x2050 S2048x2050 [1] [0] [0] [1] [] []
  dot_S2048x4096_S4096x2048_S2048x2048_1_0_0_1_n_n_wf : DotDims.WF S2048x4096 S4096x2048 S2048x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x2050_S4096x2050_1_0_0_1_n_n : DotDims S4096x2048 S2048x2050 S4096x2050 where
  lhsContracting := [1]
  rhsContracting := [0]
  lhsNonContracting := [0]
  rhsNonContracting := [1]
  lhsBatch := []
  rhsBatch := []
  wf := dot_S4096x2048_S2048x2050_S4096x2050_1_0_0_1_n_n_wf
def dot_S2048x4096_S4096x2050_S2048x2050_1_0_0_1_n_n : DotDims S2048x4096 S4096x2050 S2048x2050 where
  lhsContracting := [1]
  rhsContracting := [0]
  lhsNonContracting := [0]
  rhsNonContracting := [1]
  lhsBatch := []
  rhsBatch := []
  wf := dot_S2048x4096_S4096x2050_S2048x2050_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.K.Run.lean ====
/-
  The whole program as a chain of six segments — a stretch of host operations, the forward region, a second stretch of
  host operations, and the three Hebbian-update regions — run from any launch memory, given for each region its proof
  data and the few facts about them the launch needs (`Halves`).

  The contents of every unscoped buffer at the seven segment boundaries are a fold from the launch memory: a host stretch
  applies its operations; a region replaces its windows' arrays by what its write-backs leave and touches nothing else.
  The run ends with every unscoped buffer at the last boundary's contents. An array that is only ever an input window
  (or no window at all) passes every region unchanged, so the eleven argument arrays end as launched.
-/
import proofs.«178145_j14508399526340_2_alg».proof.Proof.Gen.Kernel.Launch
import proofs.«178145_j14508399526340_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the launch needs of each region's proof data: the arrays are the entry contents, every share is full, nothing is
    owed, the body obligation holds, and the region's invariant starts from and ends at the class of invariants that
    only mention the kernel's scoped buffers and the generator register. -/
structure Halves (F : FTy → Type) [FloatOps F] where
  /-- Region 0's proof data, at the contents the region is entered with. -/
  d0 : ((c : Dev nD) → (b : Ref sig .tc) → Buf (Elt F) ((c : Thread nD τ).loc b)) → (c : Dev nD) → Dat τ (Elt F) Unit ℕ (UR sig nD τ) ℕ cfg0 c
  A0 : ∀ V c w, (d0 V c).A w = V c (Pipeline.arrRef spec0 w)
  q0 : ∀ V c w, (d0 V c).q w = fullShare
  o0 : ∀ V c t, (d0 V c).owed t = 0
  b0 : ∀ V c, BodyObligation (d0 V c) (defs₀ (F := F)) Variants.none () Set.univ
  i0 : ∀ V c, (Pipeline.ΦA spec0 c : sProp (MT nD τ sig Unit (Elt F) ℕ (UR sig nD τ) ℕ)) ⊢ (d0 V c).Φ 0
  x0 : ∀ V c, (d0 V c).Φ (Fin.last cfg0.N) ⊢ (Pipeline.ΦA spec0 c : sProp (MT nD τ sig Unit (Elt F) ℕ (UR sig nD τ) ℕ))
  r0 : ∀ V c t, (d0 V c).recorded t = Set.univ
  /-- Region 1's proof data, at the contents the region is entered with. -/
  d1 : ((c : Dev nD) → (b : Ref sig .tc) → Buf (Elt F) ((c : Thread nD τ).loc b)) → (c : Dev nD) → Dat τ (Elt F) Unit ℕ (UR sig nD τ) ℕ cfg1 c
  A1 : ∀ V c w, (d1 V c).A w = V c (Pipeline.arrRef spec1 w)
  q1 : ∀ V c w, (d1 V c).q w = fullShare
  o1 : ∀ V c t, (d1 V c).owed t = 0
  b1 : ∀ V c, BodyObligation (d1 V c) (defs₀ (F := F)) Variants.none () Set.univ
  i1 : ∀ V c, (Pipeline.ΦA spec1 c : sProp (MT nD τ sig Unit (Elt F) ℕ (UR sig nD τ) ℕ)) ⊢ (d1 V c).Φ 0
  x1 : ∀ V c, (d1 V c).Φ (Fin.last cfg1.N) ⊢ (Pipeline.ΦA spec1 c : sProp (MT nD τ sig Unit (Elt F) ℕ (UR sig nD τ) ℕ))
  r1 : ∀ V c t, (d1 V c).recorded t = Set.univ
  /-- Region 2's proof data, at the contents the region is entered with. -/
  d2 : ((c : Dev nD) → (b : Ref sig .tc) → Buf (Elt F) ((c : Thread nD τ).loc b)) → (c : Dev nD) → Dat τ (Elt F) Unit ℕ (UR sig nD τ) ℕ cfg2 c
  A2 : ∀ V c w, (d2 V c).A w = V c (Pipeline.arrRef spec2 w)
  q2 : ∀ V c w, (d2 V c).q w = fullShare
  o2 : ∀ V c t, (d2 V c).owed t = 0
  b2 : ∀ V c, BodyObligation (d2 V c) (defs₀ (F := F)) Variants.none () Set.univ
  i2 : ∀ V c, (Pipeline.ΦA spec2 c : sProp (MT nD τ sig Unit (Elt F) ℕ (UR sig nD τ) ℕ)) ⊢ (d2 V c).Φ 0
  x2 : ∀ V c, (d2 V c).Φ (Fin.last cfg2.N) ⊢ (Pipeline.ΦA spec2 c : sProp (MT nD τ sig Unit (Elt F) ℕ (UR sig nD τ) ℕ))
  r2 : ∀ V c t, (d2 V c).recorded t = Set.univ
  /-- Region 3's proof data, at the contents the region is entered with. -/
  d3 : ((c : Dev nD) → (b : Ref sig .tc) → Buf (Elt F) ((c : Thread nD τ).loc b)) → (c : Dev nD) → Dat τ (Elt F) Unit ℕ (UR sig nD τ) ℕ cfg3 c
  A3 : ∀ V c w, (d3 V c).A w = V c (Pipeline.arrRef spec3 w)
  q3 : ∀ V c w, (d3 V c).q w = fullShare
  o3 : ∀ V c t, (d3 V c).owed t = 0
  b3 : ∀ V c, BodyObligation (d3 V c) (defs₀ (F := F)) Variants.none () Set.univ
  i3 : ∀ V c, (Pipeline.ΦA spec3 c : sProp (MT nD τ sig Unit (Elt F) ℕ (UR sig nD τ) ℕ)) ⊢ (d3 V c).Φ 0
  x3 : ∀ V c, (d3 V c).Φ (Fin.last cfg3.N) ⊢ (Pipeline.ΦA spec3 c : sProp (MT nD τ sig Unit (Elt F) ℕ (UR sig nD τ) ℕ))
  r3 : ∀ V c t, (d3 V c).recorded t = Set.univ

variable (H : Halves F) (m : (ℓ : Loc nD τ sig) → Buf (Elt F) ℓ)

/-! ## The buffers' contents at each segment boundary -/

/-- At launch. -/
abbrev B0 : Dev nD → Valuation τ sig (Elt F) := fun c b => m (c, b)
/-- After the first stretch of host operations. -/
abbrev B1 : Dev nD → Valuation τ sig (Elt F) := fun c => StableHlo.after hostOps0 (B0 m c)

/-- The same read at the TensorCore's references: what region 0 is entered with. -/
abbrev E1 : (c : Dev nD) → (b : Ref sig .tc) → Buf (Elt F) ((c : Thread nD τ).loc b) := fun c b => B1 m c b
/-- After region 0: its arrays at what its write-backs leave, every other buffer as it was. -/
def B2 (c : Dev nD) : Valuation τ sig (Elt F) :=
  Pipeline.withArrays spec0 c (B1 m c) fun w => (H.d0 (E1 m) c).arrAt w cfg0.N
theorem B2_arr (c : Dev nD) (w : Fin cfg0.W) :
    B2 H m c (Proc.devRef .tc (Pipeline.arrRef spec0 w)) = (H.d0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 H m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 H m c b
theorem hF0 (c : Dev nD) (w : Fin cfg0.W) : (H.d0 (E1 m) c).arrAt w cfg0.N = E2 H m c (Pipeline.arrRef spec0 w) :=
  (B2_arr H m c w).symm
theorem hrest0 (c : Dev nD) : ∀ b, b ∉ Finset.univ.image (Pipeline.arrRef spec0) → E2 H m c b = E1 m c b :=
  fun b hb => B2_of_ne H m c b fun w e => hb (Finset.mem_image.mpr ⟨w, Finset.mem_univ _, e⟩)
/-- A buffer that is no OUTPUT window's array of region 0 leaves the region as it entered: an input window's array is
    read only, and any other buffer is not touched. -/
theorem B2_keep (c : Dev nD) (b : Ref sig .tc) (hb : ∀ w : Fin cfg0.W, (cfg0.win w).isOut = true → Pipeline.arrRef spec0 w ≠ b) :
    B2 H m c (Proc.devRef .tc b) = B1 m c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact (B2_arr H m c w).trans (((H.d0 (E1 m) c).arrAt_in w hin _).trans (H.A0 _ c w))
  · exact B2_of_ne H m c b fun w e => h ⟨w, e⟩

/-- After the second stretch of host operations. -/
abbrev B3 : Dev nD → Valuation τ sig (Elt F) := fun c => StableHlo.after hostOps1 (B2 H m c)

/-- The same read at the TensorCore's references: what region 1 is entered with. -/
abbrev E3 : (c : Dev nD) → (b : Ref sig .tc) → Buf (Elt F) ((c : Thread nD τ).loc b) := fun c b => B3 H m c b
/-- After region 1: its arrays at what its write-backs leave, every other buffer as it was. -/
def B4 (c : Dev nD) : Valuation τ sig (Elt F) :=
  Pipeline.withArrays spec1 c (B3 H m c) fun w => (H.d1 (E3 H m) c).arrAt w cfg1.N
theorem B4_arr (c : Dev nD) (w : Fin cfg1.W) :
    B4 H m c (Proc.devRef .tc (Pipeline.arrRef spec1 w)) = (H.d1 (E3 H m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 H m c (Proc.devRef .tc b) = B3 H m c (Proc.devRef .tc b) := by
  unfold B4; exact Pipeline.withArrays_of_ne spec1 c _ _ b hb
abbrev E4 : (c : Dev nD) → (b : Ref sig .tc) → Buf (Elt F) ((c : Thread nD τ).loc b) := fun c b => B4 H m c b
theorem hF1 (c : Dev nD) (w : Fin cfg1.W) : (H.d1 (E3 H m) c).arrAt w cfg1.N = E4 H m c (Pipeline.arrRef spec1 w) :=
  (B4_arr H m c w).symm
theorem hrest1 (c : Dev nD) : ∀ b, b ∉ Finset.univ.image (Pipeline.arrRef spec1) → E4 H m c b = E3 H m c b :=
  fun b hb => B4_of_ne H m c b fun w e => hb (Finset.mem_image.mpr ⟨w, Finset.mem_univ _, e⟩)
/-- A buffer that is no OUTPUT window's array of region 1 leaves the region as it entered: an input window's array is
    read only, and any other buffer is not touched. -/
theorem B4_keep (c : Dev nD) (b : Ref sig .tc) (hb : ∀ w : Fin cfg1.W, (cfg1.win w).isOut = true → Pipeline.arrRef spec1 w ≠ b) :
    B4 H m c (Proc.devRef .tc b) = B3 H m c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact (B4_arr H m c w).trans (((H.d1 (E3 H m) c).arrAt_in w hin _).trans (H.A1 _ c w))
  · exact B4_of_ne H m c b fun w e => h ⟨w, e⟩

/-- After region 2: its arrays at what its write-backs leave, every other buffer as it was. -/
def B5 (c : Dev nD) : Valuation τ sig (Elt F) :=
  Pipeline.withArrays spec2 c (B4 H m c) fun w => (H.d2 (E4 H m) c).arrAt w cfg2.N
theorem B5_arr (c : Dev nD) (w : Fin cfg2.W) :
    B5 H m c (Proc.devRef .tc (Pipeline.arrRef spec2 w)) = (H.d2 (E4 H m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 H m c (Proc.devRef .tc b) = B4 H m c (Proc.devRef .tc b) := by
  unfold B5; exact Pipeline.withArrays_of_ne spec2 c _ _ b hb
abbrev E5 : (c : Dev nD) → (b : Ref sig .tc) → Buf (Elt F) ((c : Thread nD τ).loc b) := fun c b => B5 H m c b
theorem hF2 (c : Dev nD) (w : Fin cfg2.W) : (H.d2 (E4 H m) c).arrAt w cfg2.N = E5 H m c (Pipeline.arrRef spec2 w) :=
  (B5_arr H m c w).symm
theorem hrest2 (c : Dev nD) : ∀ b, b ∉ Finset.univ.image (Pipeline.arrRef spec2) → E5 H m c b = E4 H m c b :=
  fun b hb => B5_of_ne H m c b fun w e => hb (Finset.mem_image.mpr ⟨w, Finset.mem_univ _, e⟩)
/-- A buffer that is no OUTPUT window's array of region 2 leaves the region as it entered: an input window's array is
    read only, and any other buffer is not touched. -/
theorem B5_keep (c : Dev nD) (b : Ref sig .tc) (hb : ∀ w : Fin cfg2.W, (cfg2.win w).isOut = true → Pipeline.arrRef spec2 w ≠ b) :
    B5 H m c (Proc.devRef .tc b) = B4 H m c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact (B5_arr H m c w).trans (((H.d2 (E4 H m) c).arrAt_in w hin _).trans (H.A2 _ c w))
  · exact B5_of_ne H m c b fun w e => h ⟨w, e⟩

/-- After region 3: its arrays at what its write-backs leave, every other buffer as it was. -/
def B6 (c : Dev nD) : Valuation τ sig (Elt F) :=
  Pipeline.withArrays spec3 c (B5 H m c) fun w => (H.d3 (E5 H m) c).arrAt w cfg3.N
theorem B6_arr (c : Dev nD) (w : Fin cfg3.W) :
    B6 H m c (Proc.devRef .tc (Pipeline.arrRef spec3 w)) = (H.d3 (E5 H m) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 H m c (Proc.devRef .tc b) = B5 H m c (Proc.devRef .tc b) := by
  unfold B6; exact Pipeline.withArrays_of_ne spec3 c _ _ b hb
abbrev E6 : (c : Dev nD) → (b : Ref sig .tc) → Buf (Elt F) ((c : Thread nD τ).loc b) := fun c b => B6 H m c b
theorem hF3 (c : Dev nD) (w : Fin cfg3.W) : (H.d3 (E5 H m) c).arrAt w cfg3.N = E6 H m c (Pipeline.arrRef spec3 w) :=
  (B6_arr H m c w).symm
theorem hrest3 (c : Dev nD) : ∀ b, b ∉ Finset.univ.image (Pipeline.arrRef spec3) → E6 H m c b = E5 H m c b :=
  fun b hb => B6_of_ne H m c b fun w e => hb (Finset.mem_image.mpr ⟨w, Finset.mem_univ _, e⟩)
/-- A buffer that is no OUTPUT window's array of region 3 leaves the region as it entered: an input window's array is
    read only, and any other buffer is not touched. -/
theorem B6_keep (c : Dev nD) (b : Ref sig .tc) (hb : ∀ w : Fin cfg3.W, (cfg3.win w).isOut = true → Pipeline.arrRef spec3 w ≠ b) :
    B6 H m c (Proc.devRef .tc b) = B5 H m c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact (B6_arr H m c w).trans (((H.d3 (E5 H m) c).arrAt_in w hin _).trans (H.A3 _ c w))
  · exact B6_of_ne H m c b fun w e => h ⟨w, e⟩

/-- A buffer the first stretch of host operations does not write keeps its launch contents. -/
theorem B1_keep (c : Dev nD) (r : Ref sig .tc) (h : r ∉ hostOps0_W) : B1 m c (Proc.devRef .tc r) = m ((c : Thread nD τ).loc r) :=
  StableHlo.after_of_writes_sub hostOps0 _ hostOps0_writes h
/-- A buffer the second stretch does not write keeps what region 0 left. -/
theorem B3_keep (c : Dev nD) (r : Ref sig .tc) (h : r ∉ hostOps1_W) : B3 H m c (Proc.devRef .tc r) = B2 H m c (Proc.devRef .tc r) :=
  StableHlo.after_of_writes_sub hostOps1 _ hostOps1_writes h

/-! ## The proof data family and the thread state -/

/-- No region has a prefetched table. -/
abbrev admH : (p : Fin 4) → (pcfgs (F := F) p).Adm := fun p => (cfgs p).toPCfg_adm
/-- Every region's proof data at the contents it is entered with. -/
def pdatsH : (p : Fin 4) → (c : Dev nD) → Dat τ (Elt F) Unit ℕ (UR sig nD τ) ℕ (Pipeline.pin (pcfgs (F := F)) admH p) c
  | ⟨0, _⟩ => fun c => H.d0 (E1 m) c
  | ⟨1, _⟩ => fun c => H.d1 (E3 H m) c
  | ⟨2, _⟩ => fun c => H.d2 (E4 H m) c
  | ⟨3, _⟩ => fun c => H.d3 (E5 H m) c
abbrev 𝒱H : Variants := Variants.none
/-- No core owes another anything. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A stretch of host operations as a segment over the unscoped buffers. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev TnH (c : Dev nD) : sProp 𝕄 := iprop(StableHlo.held (c : Thread nD τ) (Pipeline.ucRefs τ sig) (B6 H m c) ∗ ∃ r, prngReg c r)

/-! ## The regions as segments -/

set_option backward.isDefEq.respectTransparency.types false in
set_option maxHeartbeats 2000000 in
/-- Region 0 as a segment: entered with every unscoped buffer at the contents before it, left with them at the contents
    after it. Its windows' arrays are split out of the unscoped buffers on entry and put back, at what the write-backs
    leave, on exit; the generator register goes into the region's invariant and comes back; nothing is owed; the kernel
    has no semaphore of its own. -/
def reg0 : Pipeline.RegionSeg (pcfgs (F := F)) admH (pdatsH H m) () defs₀ 𝒱H LH lvH 0 where
  win := launch0.win.to₀
  block_pos := launch0.block_pos
  stage_whole := launch0.stage_whole
  K := PEmpty
  osem k := k.elim
  ho := Pipeline.OwnSemFacts.none _
  hbody c := (H.b0 (E1 m) c).loose
  hwaits := Pipeline.hwaits_of_owed_zero _ _ _ _ LH lvH 0 fun c t => H.o0 (E1 m) c t
  pre c := iprop(StableHlo.held (c : Thread nD τ) (Pipeline.ucRefs τ sig) (B1 m c) ∗ RH c)
  post c := iprop(StableHlo.held (c : Thread nD τ) (Pipeline.ucRefs τ sig) (B2 H m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH H m) launch0.win launch0.arr_whole c
      ((pdatsH H m 0 c).share_full fun w => H.q0 (E1 m) c w) (E1 m c) fun w => H.A0 (E1 m) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsH H m 0 c).owed 0 = 0 from H.o0 (E1 m) c 0]
      icases HO with ⟨%W, HO⟩; iexists W; isplitr
      · ipureintro
        exact fun x _ => Or.inl (by rw [show (pdatsH H m 0 c).recorded 0 = Set.univ from H.r0 (E1 m) c 0]; trivial)
      iexact HO
    isplitl [Hp]; · iexact Hp
    iexact Hrest
  hin c := by
    refine BIBase.Entails.trans ?_ (H.i0 (E1 m) c)
    unfold Pipeline.ΦA
    iintro ⟨Hp, -, Hr⟩
    isplitl [Hr]; · iexact Hr
    iexact Hp
  hout c := by
    rw [Pipeline.ownSems0_none]
    refine BIBase.Entails.trans (H.x0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH H m) ((pdatsH H m 0 c).share_full fun w => H.q0 (E1 m) c w)
      (E1 m c) (E2 H m c) ((pdatsH H m 0 c).arrAt · cfg0.N) (hF0 H m c) (hrest0 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdatsH H m 0 c).owed (Fin.last _) = 0 from H.o0 (E1 m) c _]
    icases HO with ⟨%W, -, HO⟩; iexists W; iexact HO

set_option backward.isDefEq.respectTransparency.types false in
set_option maxHeartbeats 2000000 in
/-- Region 1 as a segment: entered with every unscoped buffer at the contents before it, left with them at the contents
    after it. Its windows' arrays are split out of the unscoped buffers on entry and put back, at what the write-backs
    leave, on exit; the generator register goes into the region's invariant and comes back; nothing is owed; the kernel
    has no semaphore of its own. -/
def reg1 : Pipeline.RegionSeg (pcfgs (F := F)) admH (pdatsH H m) () defs₀ 𝒱H LH lvH 1 where
  win := launch1.win.to₀
  block_pos := launch1.block_pos
  stage_whole := launch1.stage_whole
  K := PEmpty
  osem k := k.elim
  ho := Pipeline.OwnSemFacts.none _
  hbody c := (H.b1 (E3 H m) c).loose
  hwaits := Pipeline.hwaits_of_owed_zero _ _ _ _ LH lvH 1 fun c t => H.o1 (E3 H m) c t
  pre c := iprop(StableHlo.held (c : Thread nD τ) (Pipeline.ucRefs τ sig) (B3 H m c) ∗ RH c)
  post c := iprop(StableHlo.held (c : Thread nD τ) (Pipeline.ucRefs τ sig) (B4 H m c) ∗ RH c)
  X c := iprop(∃ r, prngReg c r)
  Y c := iprop(∃ r, prngReg c r)
  Z c := Pipeline.unscopedRest (Ix := Unit) (Name := ℕ) (U := UR sig nD τ) (Lvl := ℕ) spec1 c (E3 H m c)
  hentry c := by
    rw [Pipeline.ownSems0_none]
    have hsplit := Pipeline.arrays_of_unscopedBufs (p := 1) (pcfgs (F := F)) admH (pdatsH H m) launch1.win launch1.arr_whole c
      ((pdatsH H m 1 c).share_full fun w => H.q1 (E3 H m) c w) (E3 H m c) fun w => H.A1 (E3 H m) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsH H m 1 c).owed 0 = 0 from H.o1 (E3 H m) c 0]
      icases HO with ⟨%W, HO⟩; iexists W; isplitr
      · ipureintro
        exact fun x _ => Or.inl (by rw [show (pdatsH H m 1 c).recorded 0 = Set.univ from H.r1 (E3 H m) c 0]; trivial)
      iexact HO
    isplitl [Hp]; · iexact Hp
    iexact Hrest
  hin c := by
    refine BIBase.Entails.trans ?_ (H.i1 (E3 H m) c)
    unfold Pipeline.ΦA
    iintro ⟨Hp, -, Hr⟩
    isplitl [Hr]; · iexact Hr
    iexact Hp
  hout c := by
    rw [Pipeline.ownSems0_none]
    refine BIBase.Entails.trans (H.x1 (E3 H m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH H m) ((pdatsH H m 1 c).share_full fun w => H.q1 (E3 H m) c w)
      (E3 H m c) (E4 H m c) ((pdatsH H m 1 c).arrAt · cfg1.N) (hF1 H m c) (hrest1 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdatsH H m 1 c).owed (Fin.last _) = 0 from H.o1 (E3 H m) c _]
    icases HO with ⟨%W, -, HO⟩; iexists W; iexact HO

set_option backward.isDefEq.respectTransparency.types false in
set_option maxHeartbeats 2000000 in
/-- Region 2 as a segment: entered with every unscoped buffer at the contents before it, left with them at the contents
    after it. Its windows' arrays are split out of the unscoped buffers on entry and put back, at what the write-backs
    leave, on exit; the generator register goes into the region's invariant and comes back; nothing is owed; the kernel
    has no semaphore of its own. -/
def reg2 : Pipeline.RegionSeg (pcfgs (F := F)) admH (pdatsH H m) () defs₀ 𝒱H LH lvH 2 where
  win := launch2.win.to₀
  block_pos := launch2.block_pos
  stage_whole := launch2.stage_whole
  K := PEmpty
  osem k := k.elim
  ho := Pipeline.OwnSemFacts.none _
  hbody c := (H.b2 (E4 H m) c).loose
  hwaits := Pipeline.hwaits_of_owed_zero _ _ _ _ LH lvH 2 fun c t => H.o2 (E4 H m) c t
  pre c := iprop(StableHlo.held (c : Thread nD τ) (Pipeline.ucRefs τ sig) (B4 H m c) ∗ RH c)
  post c := iprop(StableHlo.held (c : Thread nD τ) (Pipeline.ucRefs τ sig) (B5 H m c) ∗ RH c)
  X c := iprop(∃ r, prngReg c r)
  Y c := iprop(∃ r, prngReg c r)
  Z c := Pipeline.unscopedRest (Ix := Unit) (Name := ℕ) (U := UR sig nD τ) (Lvl := ℕ) spec2 c (E4 H m c)
  hentry c := by
    rw [Pipeline.ownSems0_none]
    have hsplit := Pipeline.arrays_of_unscopedBufs (p := 2) (pcfgs (F := F)) admH (pdatsH H m) launch2.win launch2.arr_whole c
      ((pdatsH H m 2 c).share_full fun w => H.q2 (E4 H m) c w) (E4 H m c) fun w => H.A2 (E4 H m) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsH H m 2 c).owed 0 = 0 from H.o2 (E4 H m) c 0]
      icases HO with ⟨%W, HO⟩; iexists W; isplitr
      · ipureintro
        exact fun x _ => Or.inl (by rw [show (pdatsH H m 2 c).recorded 0 = Set.univ from H.r2 (E4 H m) c 0]; trivial)
      iexact HO
    isplitl [Hp]; · iexact Hp
    iexact Hrest
  hin c := by
    refine BIBase.Entails.trans ?_ (H.i2 (E4 H m) c)
    unfold Pipeline.ΦA
    iintro ⟨Hp, -, Hr⟩
    isplitl [Hr]; · iexact Hr
    iexact Hp
  hout c := by
    rw [Pipeline.ownSems0_none]
    refine BIBase.Entails.trans (H.x2 (E4 H m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH H m) ((pdatsH H m 2 c).share_full fun w => H.q2 (E4 H m) c w)
      (E4 H m c) (E5 H m c) ((pdatsH H m 2 c).arrAt · cfg2.N) (hF2 H m c) (hrest2 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdatsH H m 2 c).owed (Fin.last _) = 0 from H.o2 (E4 H m) c _]
    icases HO with ⟨%W, -, HO⟩; iexists W; iexact HO

set_option backward.isDefEq.respectTransparency.types false in
set_option maxHeartbeats 2000000 in
/-- Region 3 as a segment: entered with every unscoped buffer at the contents before it, left with them at the contents
    after it. Its windows' arrays are split out of the unscoped buffers on entry and put back, at what the write-backs
    leave, on exit; the generator register goes into the region's invariant and comes back; nothing is owed; the kernel
    has no semaphore of its own. -/
def reg3 : Pipeline.RegionSeg (pcfgs (F := F)) admH (pdatsH H m) () defs₀ 𝒱H LH lvH 3 where
  win := launch3.win.to₀
  block_pos := launch3.block_pos
  stage_whole := launch3.stage_whole
  K := PEmpty
  osem k := k.elim
  ho := Pipeline.OwnSemFacts.none _
  hbody c := (H.b3 (E5 H m) c).loose
  hwaits := Pipeline.hwaits_of_owed_zero _ _ _ _ LH lvH 3 fun c t => H.o3 (E5 H m) c t
  pre c := iprop(StableHlo.held (c : Thread nD τ) (Pipeline.ucRefs τ sig) (B5 H m c) ∗ RH c)
  post c := iprop(TnH H m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E5 H m c)
  hentry c := by
    rw [Pipeline.ownSems0_none]
    have hsplit := Pipeline.arrays_of_unscopedBufs (p := 3) (pcfgs (F := F)) admH (pdatsH H m) launch3.win launch3.arr_whole c
      ((pdatsH H m 3 c).share_full fun w => H.q3 (E5 H m) c w) (E5 H m c) fun w => H.A3 (E5 H m) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsH H m 3 c).owed 0 = 0 from H.o3 (E5 H m) c 0]
      icases HO with ⟨%W, HO⟩; iexists W; isplitr
      · ipureintro
        exact fun x _ => Or.inl (by rw [show (pdatsH H m 3 c).recorded 0 = Set.univ from H.r3 (E5 H m) c 0]; trivial)
      iexact HO
    isplitl [Hp]; · iexact Hp
    iexact Hrest
  hin c := by
    refine BIBase.Entails.trans ?_ (H.i3 (E5 H m) c)
    unfold Pipeline.ΦA
    iintro ⟨Hp, -, Hr⟩
    isplitl [Hr]; · iexact Hr
    iexact Hp
  hout c := by
    rw [Pipeline.ownSems0_none]
    refine BIBase.Entails.trans (H.x3 (E5 H m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH H m) ((pdatsH H m 3 c).share_full fun w => H.q3 (E5 H m) c w)
      (E5 H m c) (E6 H m c) ((pdatsH H m 3 c).arrAt · cfg3.N) (hF3 H m c) (hrest3 H m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdatsH H m 3 c).owed (Fin.last _) = 0 from H.o3 (E5 H m) c _]
    icases HO with ⟨%W, -, HO⟩; iexists W; iexact HO

/-! ## The launch -/

/-- The six segments in order. -/
abbrev segsH : List (Pipeline.Seg (pcfgs (F := F)) admH (pdatsH H m) () defs₀ 𝒱H LH lvH) :=
  [ .host (hsegH hostOps0 hostOps0_sub hostOps0_fresh (B0 m)),
    .region (reg0 H m),
    .host (hsegH hostOps1 hostOps1_sub hostOps1_fresh (B2 H m)),
    .region (reg1 H m),
    .region (reg2 H m),
    .region (reg3 H m) ]
/-- The program is the run of its segments. -/
theorem main_runH (c : Dev nD) : main (F := F) c = Pipeline.Seg.run (segsH H m) := (main_chain c).trans (by chain_rfl)

set_option backward.isDefEq.respectTransparency.types false in
/-- From any launch memory with zero counters, every weakly fair execution terminates, nothing faulting, and the final
    memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B6 H m c b) :=
  Pipeline.θ_run_regions_kit (pcfgs (F := F)) admH (pdatsH H m) () cellOf_inj emb₁ defs₀ 𝒱H LH lvH m ρ main (segsH H m)
    (fun c Q => by rw [main_runH H m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RH c)) (Tₙ := TnH H m)
    (hch := ⟨fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 H m c b)
    (hfin := fun c s' => by
      iintro ⟨⟨Hh, -⟩, HSI⟩
      unfold StableHlo.held
      imodintro
      iapply (pointsTo_read_all (Pipeline.ucRefs τ sig) (fun b => (((c : Thread nD τ)).1, b)) (B6 H m c) s')
      isplitl [Hh] <;> iassumption)
    (hQ := fun s h => h)

end Cert.Kernel.Hand

end
-- ==== Proof.K.Frame.lean ====
/-
  The frame of the whole program: every argument array ends as launched. No host operation writes an argument, and every
  region meets an argument only as an input window's array or not at all, so each argument's buffer at the last segment
  boundary walks back through the fold to the launch memory.
-/
import proofs.«178145_j14508399526340_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ)

/-- A buffer that no host operation writes and that is no output window's array of any region holds at the last
    boundary what the launch memory held. -/
theorem B6_of_untouched (c : Dev nD) (r : Ref sig .tc)
    (h0 : ∀ w : Fin cfg0.W, (cfg0.win w).isOut = true → Pipeline.arrRef spec0 w ≠ r)
    (h1 : ∀ w : Fin cfg1.W, (cfg1.win w).isOut = true → Pipeline.arrRef spec1 w ≠ r)
    (h2 : ∀ w : Fin cfg2.W, (cfg2.win w).isOut = true → Pipeline.arrRef spec2 w ≠ r)
    (h3 : ∀ w : Fin cfg3.W, (cfg3.win w).isOut = true → Pipeline.arrRef spec3 w ≠ r)
    (hh0 : r ∉ hostOps0_W) (hh1 : r ∉ hostOps1_W) :
    B6 H m c (Proc.devRef .tc r) = m ((c : Thread nD τ).loc r) :=
  (B6_keep H m c r h3).trans <| (B5_keep H m c r h2).trans <| (B4_keep H m c r h1).trans <|
    (B3_keep H m c r hh1).trans <| (B2_keep H m c r h0).trans (B1_keep m c r hh0)

theorem B6_main_arg0 (c : Dev nD) : B6 H m c (Proc.devRef .tc main_arg0) = m ((c : Thread nD τ).loc main_arg0) :=
  B6_of_untouched H m c main_arg0 (by decide) (by decide) (by decide) (by decide) (by decide) (by decide)
theorem B6_main_arg1 (c : Dev nD) : B6 H m c (Proc.devRef .tc main_arg1) = m ((c : Thread nD τ).loc main_arg1) :=
  B6_of_untouched H m c main_arg1 (by decide) (by decide) (by decide) (by decide) (by decide) (by decide)
theorem B6_main_arg2 (c : Dev nD) : B6 H m c (Proc.devRef .tc main_arg2) = m ((c : Thread nD τ).loc main_arg2) :=
  B6_of_untouched H m c main_arg2 (by decide) (by decide) (by decide) (by decide) (by decide) (by decide)
theorem B6_main_arg3 (c : Dev nD) : B6 H m c (Proc.devRef .tc main_arg3) = m ((c : Thread nD τ).loc main_arg3) :=
  B6_of_untouched H m c main_arg3 (by decide) (by decide) (by decide) (by decide) (by decide) (by decide)
theorem B6_main_arg4 (c : Dev nD) : B6 H m c (Proc.devRef .tc main_arg4) = m ((c : Thread nD τ).loc main_arg4) :=
  B6_of_untouched H m c main_arg4 (by decide) (by decide) (by decide) (by decide) (by decide) (by decide)
theorem B6_main_arg5 (c : Dev nD) : B6 H m c (Proc.devRef .tc main_arg5) = m ((c : Thread nD τ).loc main_arg5) :=
  B6_of_untouched H m c main_arg5 (by decide) (by decide) (by decide) (by decide) (by decide) (by decide)
theorem B6_main_arg6 (c : Dev nD) : B6 H m c (Proc.devRef .tc main_arg6) = m ((c : Thread nD τ).loc main_arg6) :=
  B6_of_untouched H m c main_arg6 (by decide) (by decide) (by decide) (by decide) (by decide) (by decide)
theorem B6_main_arg7 (c : Dev nD) : B6 H m c (Proc.devRef .tc main_arg7) = m ((c : Thread nD τ).loc main_arg7) :=
  B6_of_untouched H m c main_arg7 (by decide) (by decide) (by decide) (by decide) (by decide) (by decide)
theorem B6_main_arg8 (c : Dev nD) : B6 H m c (Proc.devRef .tc main_arg8) = m ((c : Thread nD τ).loc main_arg8) :=
  B6_of_untouched H m c main_arg8 (by decide) (by decide) (by decide) (by decide) (by decide) (by decide)
theorem B6_main_arg9 (c : Dev nD) : B6 H m c (Proc.devRef .tc main_arg9) = m ((c : Thread nD τ).loc main_arg9) :=
  B6_of_untouched H m c main_arg9 (by decide) (by decide) (by decide) (by decide) (by decide) (by decide)
theorem B6_main_arg10 (c : Dev nD) : B6 H m c (Proc.devRef .tc main_arg10) = m ((c : Thread nD τ).loc main_arg10) :=
  B6_of_untouched H m c main_arg10 (by decide) (by decide) (by decide) (by decide) (by decide) (by decide)

/-- Every weakly fair execution of the program terminates, nothing faulting, with each argument array as launched. -/
theorem frameH (H : Halves F) (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_ucH main_arg0 (by decide))).trans (B6_main_arg0 H m c),
     (h c _ (mem_ucH main_arg1 (by decide))).trans (B6_main_arg1 H m c),
     (h c _ (mem_ucH main_arg2 (by decide))).trans (B6_main_arg2 H m c),
     (h c _ (mem_ucH main_arg3 (by decide))).trans (B6_main_arg3 H m c),
     (h c _ (mem_ucH main_arg4 (by decide))).trans (B6_main_arg4 H m c),
     (h c _ (mem_ucH main_arg5 (by decide))).trans (B6_main_arg5 H m c),
     (h c _ (mem_ucH main_arg6 (by decide))).trans (B6_main_arg6 H m c),
     (h c _ (mem_ucH main_arg7 (by decide))).trans (B6_main_arg7 H m c),
     (h c _ (mem_ucH main_arg8 (by decide))).trans (B6_main_arg8 H m c),
     (h c _ (mem_ucH main_arg9 (by decide))).trans (B6_main_arg9 H m c),
     (h c _ (mem_ucH main_arg10 (by decide))).trans (B6_main_arg10 H m c)⟩)
    (run_all H m ρ)

end Cert.Kernel.Hand

end
-- ==== Proof.K.R0.lean ====
import proofs.«178145_j14508399526340_2_alg».proof.Proof.Gen.Kernel.Launch
import proofs.«178145_j14508399526340_2_alg».proof.Proof.Gen.Kernel.Skeleton
import proofs.«178145_j14508399526340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The forward region (the first TensorCore call of the program), at the buffer contents `V` it is entered with

One grid point handles one block of 128 rows of the activations. The body reads that row block and the three whole
weight matrices, forms the three layers one after the other (a product, then the positive part feeding the next
product) and writes one row block of each of four results. Nothing is carried from one grid point to the next, so
what each result buffer holds after the body is a closed function of the four blocks read at that point. -/

section Region0

variable (V : (c : Dev nD) → (b : Ref sig .tc) → Buf (Elt F) ((c : Thread nD τ).loc b))

/-! ## The blocks of the windows -/

/-- The block of window `w` at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The body only reads its four inputs, so an input's buffer holds the window's block at every grid point: at a point
where the block is brought in this is what the transfer delivers, and at a point where it is not (the three weight
matrices have one block, brought in once at the first point) the block index is the one of the point before and the
buffer has not been written since. Stated for any proof data with the array `V`'s and the block left in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

abbrev r0A : Rect S128x2048 := Rect.unit (s := S128x2048) ![0, 0] S128x2048.size inb_S128x2048_S128x2048_0_0
abbrev r0B : Rect S2048x2048 := Rect.unit (s := S2048x2048) ![0, 0] S2048x2048.size inb_S2048x2048_S2048x2048_0_0
abbrev r0C : Rect S2048x2050 := Rect.unit (s := S2048x2050) ![0, 0] S2048x2050.size inb_S2048x2050_S2048x2050_0_0
abbrev r0D : Rect S128x2050 := Rect.unit (s := S128x2050) ![0, 0] S128x2050.size inb_S128x2050_S128x2050_0_0

/-! ## What the body leaves in the four result buffers

Each result buffer receives exactly one store, over the whole buffer, so its contents afterwards are that store's
value: the first layer rounded, the second layer rounded, the third layer rounded, and the third layer's leading
2048 columns unrounded. -/

def out0_4 (x0 : Vec F S128x2048 .f32) (x1 : Vec F S2048x2048 .bf16) : Vec F S128x2048 .bf16 :=
  View.canon [⟨r0A, k0_pay4 (View.ld x0 r0A) (View.ld x1 r0B)⟩]

def out0_5 (x0 : Vec F S128x2048 .f32) (x1 x2 : Vec F S2048x2048 .bf16) : Vec F S128x2048 .bf16 :=
  View.canon [⟨r0A, k0_pay5 (View.ld x0 r0A) (View.ld x1 r0B) (View.ld x2 r0B)⟩]

def out0_6 (x0 : Vec F S128x2048 .f32) (x1 x2 : Vec F S2048x2048 .bf16) (x3 : Vec F S2048x2050 .bf16) : Vec F S128x2050 .bf16 :=
  View.canon [⟨r0D, k0_pay6 (View.ld x0 r0A) (View.ld x1 r0B) (View.ld x2 r0B) (View.ld x3 r0C)⟩]

def out0_7 (x0 : Vec F S128x2048 .f32) (x1 x2 : Vec F S2048x2048 .bf16) (x3 : Vec F S2048x2050 .bf16) : Vec F S128x2048 .f32 :=
  View.canon [⟨r0A, k0_pay7 (View.ld x0 r0A) (View.ld x1 r0B) (View.ld x2 r0B) (View.ld x3 r0C)⟩]

/-- A single store over the whole of a 128 x 2048 buffer reaches every index of it; -/
theorem cover0A {e : EltTy} (p0 : r0A.shape.Idx → Elt F e) (y : S128x2048.Idx) :
    ∃ pc ∈ ([⟨r0A, p0⟩] : List (View.Piece (Elt F) S128x2048 e)), y ∈ pc.1.set :=
  View.cover_of_tiled [⟨r0A, p0⟩] S128x2048.size (by rfl) y

/-- and the same of a 128 x 2050 buffer. -/
theorem cover0D {e : EltTy} (p0 : r0D.shape.Idx → Elt F e) (y : S128x2050.Idx) :
    ∃ pc ∈ ([⟨r0D, p0⟩] : List (View.Piece (Elt F) S128x2050 e)), y ∈ pc.1.set :=
  View.cover_of_tiled [⟨r0D, p0⟩] S128x2050.size (by rfl) y

/-! ## The body's triple -/

set_option maxHeartbeats 4000000 in
/-- The body run on eight whole buffers — the four inputs read as `x0 … x3`, the four results holding anything —
    ends with the inputs unchanged and each result buffer at its closed form. The body also reads each result
    buffer just before overwriting it; what it reads there is discarded. -/
theorem sound_kernel0 (c : Dev nD) (E : Set ℕ) (i : grid0.Coords)
    (arg1 : Memref sig .tc .vmem S128x2048 .f32) (harg1 : arg1.IsWhole) (arg2 : Memref sig .tc .vmem S2048x2048 .bf16) (harg2 : arg2.IsWhole)
    (arg3 : Memref sig .tc .vmem S2048x2048 .bf16) (harg3 : arg3.IsWhole) (arg4 : Memref sig .tc .vmem S2048x2050 .bf16) (harg4 : arg4.IsWhole)
    (arg5 : Memref sig .tc .vmem S128x2048 .bf16) (harg5 : arg5.IsWhole) (arg6 : Memref sig .tc .vmem S128x2048 .bf16) (harg6 : arg6.IsWhole)
    (arg7 : Memref sig .tc .vmem S128x2050 .bf16) (harg7 : arg7.IsWhole) (arg8 : Memref sig .tc .vmem S128x2048 .f32) (harg8 : arg8.IsWhole)
    (x0 : Vec F S128x2048 .f32) (x1 x2 : Vec F S2048x2048 .bf16) (x3 : Vec F S2048x2050 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x2 x3) ∗ owns (c : Thread nD τ) arg8 fullShare (out0_7 x0 x1 x2 x3)) -∗ K ⟨⟩))
      ⊢ wp frame (wpE (defs₀ (F := F)) Variants.none c none) E
          (cc0__fwd_kernel i arg1 harg1 arg2 harg2 arg3 harg3 arg4 harg4 arg5 harg5 arg6 harg6 arg7 harg7 arg8 harg8) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0A _)
  isplitl [H5]
  · iexists _; isplitr
    swap; · iexact H5
    ipureintro
    exact View.read_writes_eq_canon _ _ _ (cover0A _)
  isplitl [H6]
  · iexists _; isplitr
    swap; · iexact H6
    ipureintro
    exact View.read_writes_eq_canon _ _ _ (cover0D _)
  iexists _; isplitr
  swap; · iexact H7
  ipureintro
  exact View.read_writes_eq_canon _ _ _ (cover0A _)

/-! ## The proof data of the region -/

/-- The arrays are the ones the region is entered with; after the body at point `t` an input's buffer still holds its
    block and a result's buffer holds its closed form at the four input blocks; the invariant is the plain one (the
    scoped buffers and the generator register pass through untouched); every share is whole; no core owes anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) := by dsimp only [dat0]
theorem after0_7 (c : Dev nD) (t : Fin cfg0.N) :
    (dat0 V c).after 7 t = out0_7 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at a generic grid point -/

/-- What the body is entered with at point `t`: the invariant, the core's debts, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any grid point: its four input buffers hold their blocks, so the triple above applies; the invariant
    and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region, at every grid point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Runs.lean ====
import proofs.«178145_j14508399526340_2_alg».proof.Proof.Gen.Kernel.Launch
import proofs.«178145_j14508399526340_2_alg».proof.Proof.Gen.Kernel.Skeleton
import proofs.«178145_j14508399526340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks of region 1, read off the contents `V` the region is entered with -/

/-- The block of window `w` at grid position `t`: the rectangle of the window's array that the index map selects
    there, read from `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whenever the body is called its current buffer holds the window's block at that position, whether the
    block was transferred at this position or at an earlier one with the same block index, provided the body leaves the
    buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whenever the body is called its current buffer holds the window's block at that position, whether the
    block was transferred at this position or at an earlier one with the same block index, provided the body leaves the
    buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whenever the body is called its current buffer holds the window's block at that position, whether the
    block was transferred at this position or at an earlier one with the same block index, provided the body leaves the
    buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: whenever the body is called its current buffer holds the window's block at that position, whether the
    block was transferred at this position or at an earlier one with the same block index, provided the body leaves the
    buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: whenever the body is called its current buffer holds the window's block at that position, whether the
    block was transferred at this position or at an earlier one with the same block index, provided the body leaves the
    buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions of the body, as functions of the grid position -/

/-- The first conditional (zero the accumulator): the innermost coordinate is 0. -/
abbrev cond1_0 (i : grid1.Coords) : Prop := (Scalar.cmpi .ne (Scalar.extui (Scalar.cmpi .eq (BitVec.ofNat 32 (i 2).val) 0#32)) 0#32) = 1#1
/-- In the linear order of the grid this is: position ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (finish: store the two outputs): the innermost coordinate is the last one. -/
abbrev cond1_1 (i : grid1.Coords) : Prop := k1_cond2 i = 1#1
/-- In the linear order of the grid this is: position ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where each window is live and where it is idle -/

/-- Input window 0 is live at every position. -/
theorem liveAt1_0 : ∀ t : Fin cfg1.N, cfg1.idle 0 (grid1.coords t) = false := by decide +kernel
/-- Input window 1 is live at every position. -/
theorem liveAt1_1 : ∀ t : Fin cfg1.N, cfg1.idle 1 (grid1.coords t) = false := by decide +kernel
/-- Input window 2 is live at every position. -/
theorem liveAt1_2 : ∀ t : Fin cfg1.N, cfg1.idle 2 (grid1.coords t) = false := by decide +kernel
/-- Input window 3 is live at every position. -/
theorem liveAt1_3 : ∀ t : Fin cfg1.N, cfg1.idle 3 (grid1.coords t) = false := by decide +kernel
/-- Input window 4 is live at every position. -/
theorem liveAt1_4 : ∀ t : Fin cfg1.N, cfg1.idle 4 (grid1.coords t) = false := by decide +kernel

/-- Output window 5 is idle where the accumulator is zeroed and the outputs are not yet stored, -/
theorem idleAt1_5_A : ∀ t : Fin cfg1.N, cond1_0 (grid1.coords t) → ¬cond1_1 (grid1.coords t) → cfg1.idle 5 (grid1.coords t) = true := by decide +kernel
/-- and its block is not written back there; -/
theorem noFlush1_5_A : ∀ t : Fin cfg1.N, cond1_0 (grid1.coords t) → ¬cond1_1 (grid1.coords t) → (cfg1.win 5).flush t = false := by decide +kernel
/-- idle at the positions in the middle of an accumulation, -/
theorem idleAt1_5_B : ∀ t : Fin cfg1.N, ¬cond1_0 (grid1.coords t) → ¬cond1_1 (grid1.coords t) → cfg1.idle 5 (grid1.coords t) = true := by decide +kernel
/-- not written back there either; -/
theorem noFlush1_5_B : ∀ t : Fin cfg1.N, ¬cond1_0 (grid1.coords t) → ¬cond1_1 (grid1.coords t) → (cfg1.win 5).flush t = false := by decide +kernel
/-- and live where the accumulation finishes. -/
theorem liveAt1_5_C : ∀ t : Fin cfg1.N, ¬cond1_0 (grid1.coords t) → cond1_1 (grid1.coords t) → cfg1.idle 5 (grid1.coords t) = false := by decide +kernel

/-- Output window 6 is idle where the accumulator is zeroed and the outputs are not yet stored, -/
theorem idleAt1_6_A : ∀ t : Fin cfg1.N, cond1_0 (grid1.coords t) → ¬cond1_1 (grid1.coords t) → cfg1.idle 6 (grid1.coords t) = true := by decide +kernel
/-- and its block is not written back there; -/
theorem noFlush1_6_A : ∀ t : Fin cfg1.N, cond1_0 (grid1.coords t) → ¬cond1_1 (grid1.coords t) → (cfg1.win 6).flush t = false := by decide +kernel
/-- idle at the positions in the middle of an accumulation, -/
theorem idleAt1_6_B : ∀ t : Fin cfg1.N, ¬cond1_0 (grid1.coords t) → ¬cond1_1 (grid1.coords t) → cfg1.idle 6 (grid1.coords t) = true := by decide +kernel
/-- not written back there either; -/
theorem noFlush1_6_B : ∀ t : Fin cfg1.N, ¬cond1_0 (grid1.coords t) → ¬cond1_1 (grid1.coords t) → (cfg1.win 6).flush t = false := by decide +kernel
/-- and live where the accumulation finishes. -/
theorem liveAt1_6_C : ∀ t : Fin cfg1.N, ¬cond1_0 (grid1.coords t) → cond1_1 (grid1.coords t) → cfg1.idle 6 (grid1.coords t) = false := by decide +kernel

/-! ## The buffers the body is called on -/

/-- The accumulator: a whole buffer of the kernel's own, carried from one position to the next. -/
abbrev scM1_0 : Memref sig .tc .vmem S512x1024 .f32 := Memref.whole cc1_scratch0
/-- The accumulator as a view: its contents are stated through it. -/
abbrev VS1_0 : View sig .tc .vmem S512x1024 .f32 := scM1_0.view
/-- One buffer of each output window, through which that window's contents are stated (which of the window's buffers is
    chosen makes no difference to what is read back). -/
abbrev VO1_5 : View sig .tc .vmem S512x1024 .f32 := (Memref.whole cc1_stg5_0 : Memref sig .tc .vmem S512x1024 .f32).view
abbrev VO1_6 : View sig .tc .vmem S512x1024 .f32 := (Memref.whole cc1_stg6_0 : Memref sig .tc .vmem S512x1024 .f32).view
/-- The buffer window 0 is on at position `t`, and that it is a whole buffer. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
/-- The buffer window 1 is on at position `t`, and that it is a whole buffer. -/
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
/-- The buffer window 2 is on at position `t`, and that it is a whole buffer. -/
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
/-- The buffer window 3 is on at position `t`, and that it is a whole buffer. -/
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The buffer window 4 is on at position `t`, and that it is a whole buffer. -/
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The buffer window 5 is on at position `t`, and that it is a whole buffer. -/
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
/-- The buffer window 6 is on at position `t`, and that it is a whole buffer. -/
abbrev ms1_6 (t : Fin cfg1.N) : Memref sig .tc .vmem S512x1024 .f32 := win1_6.stage (cfg1.slots t 6)
abbrev hs1_6 (t : Fin cfg1.N) : (ms1_6 t).IsWhole := hstage1_6 ((cfg1.slots t 6).cast nbuf1_6)

/-- What the region's invariant is made of before the first position: the accumulator at some contents, every other
    buffer local to the core that no window uses (kept closed), and the random-number register at some state. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.K.R1RunA.lean ====
import proofs.«178145_j14508399526340_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation starts (the accumulator is zeroed first, the outputs are not stored). On whole buffers —
    the five inputs at given contents, the two outputs at contents that are handed back untouched, the accumulator at
    anything (it is overwritten whole before its value is used) — the body runs and hands back everything but the
    accumulator unchanged, and the accumulator with a list of written pieces (latest first). The lists of pieces (empty
    for the two outputs) are the first components; the triple is the last. -/
noncomputable def kernelRun1_A (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond1_0 i) (hc1 : ¬cond1_1 i)
    (x0 : Vec F S512x512 .f32) (x1 : Vec F S512x1024 .bf16) (x2 : Vec F S512x1024 .f32) (x3 : Vec F S512x1024 .f32) (x4 : Vec F S1x1 .f32) :
    Σ' (L5 : List (View.Piece (Elt F) S512x1024 .f32)) (L6 : List (View.Piece (Elt F) S512x1024 .f32)), { LS0 : List (View.Piece (Elt F) S512x1024 .f32) //
      ∀ (xi5 : Vec F S512x1024 .f32) (xi6 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9 arg10 harg10) K } := by
  refine ⟨[], [], ?_, fun xi5 xi6 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.K.R1RunB.lean ====
import proofs.«178145_j14508399526340_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the middle of an accumulation (the accumulator is neither zeroed nor are the outputs stored). On whole
    buffers — the five inputs at given contents, the two outputs at contents that are handed back untouched, the
    accumulator at what the position before left — the body runs and hands back everything but the accumulator
    unchanged, and the accumulator with a list of written pieces (latest first). The lists of pieces (empty for the two
    outputs) are the first components; the triple is the last. -/
noncomputable def kernelRun1_B (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : ¬cond1_1 i)
    (x0 : Vec F S512x512 .f32) (x1 : Vec F S512x1024 .bf16) (x2 : Vec F S512x1024 .f32) (x3 : Vec F S512x1024 .f32) (x4 : Vec F S1x1 .f32) (xs0 : Vec F S512x1024 .f32) :
    Σ' (L5 : List (View.Piece (Elt F) S512x1024 .f32)) (L6 : List (View.Piece (Elt F) S512x1024 .f32)), { LS0 : List (View.Piece (Elt F) S512x1024 .f32) //
      ∀ (xi5 : Vec F S512x1024 .f32) (xi6 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9 arg10 harg10) K } := by
  refine ⟨[], [], ?_, fun xi5 xi6 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.K.R1RunC.lean ====
import proofs.«178145_j14508399526340_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation finishes (the accumulator is not zeroed, the outputs are stored). On whole buffers — the
    five inputs at given contents, the two outputs at anything, the accumulator at what the position before left — the
    body runs and hands back the inputs unchanged, and the two outputs and the accumulator each with a list of written
    pieces (latest first). The three lists are the first components; the triple is the last. -/
noncomputable def kernelRun1_C (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) :
    Σ' (L5 : List (View.Piece (Elt F) S512x1024 .f32)) (L6 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9 arg10 harg10) K } := by
  refine ⟨?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.Kernel.Hand

end
-- ==== Proof.K.R1.lean ====
import proofs.«178145_j14508399526340_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case of the body leaves in the two outputs and in the accumulator -/

/-- Nothing is written into output 5 where an accumulation starts: a placeholder value that is never consulted, since the window is idle
    and not written back at these positions. -/
def out1_A_5 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond1_0 i) (hc1 : ¬cond1_1 i)
    (x0 : Vec F S512x512 .f32) (x1 : Vec F S512x1024 .bf16) (x2 : Vec F S512x1024 .f32) (x3 : Vec F S512x1024 .f32) (x4 : Vec F S1x1 .f32) : Vec F S512x1024 .f32 :=
  VO1_5.read (Elt F) (VO1_5.writes (Elt F) VO1_5.junk (kernelRun1_A c i arg3 harg3 arg4 harg4 arg5 harg5 arg6 harg6 arg7 harg7 arg8 harg8 arg9 harg9 arg10 harg10 hc0 hc1 x0 x1 x2 x3 x4).1)

/-- Nothing is written into output 6 where an accumulation starts: a placeholder value that is never consulted, since the window is idle
    and not written back at these positions. -/
def out1_A_6 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond1_0 i) (hc1 : ¬cond1_1 i)
    (x0 : Vec F S512x512 .f32) (x1 : Vec F S512x1024 .bf16) (x2 : Vec F S512x1024 .f32) (x3 : Vec F S512x1024 .f32) (x4 : Vec F S1x1 .f32) : Vec F S512x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4).2.1)

/-- The pieces the body writes into the accumulator where an accumulation starts tile it, so every index lies in one of them. -/
theorem scover1_A_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond1_0 i) (hc1 : ¬cond1_1 i)
    (x0 : Vec F S512x512 .f32) (x1 : Vec F S512x1024 .bf16) (x2 : Vec F S512x1024 .f32) (x3 : Vec F S512x1024 .f32) (x4 : Vec F S1x1 .f32) (y : S512x1024.Idx) :
    ∃ pc ∈ (kernelRun1_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).2.2.1 S512x1024.size (by sl_kernel_rfl) y

/-- What the accumulator holds after the body where an accumulation starts: the written pieces read back. -/
def sout1_A_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond1_0 i) (hc1 : ¬cond1_1 i)
    (x0 : Vec F S512x512 .f32) (x1 : Vec F S512x1024 .bf16) (x2 : Vec F S512x1024 .f32) (x3 : Vec F S512x1024 .f32) (x4 : Vec F S1x1 .f32) : Vec F S512x1024 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4).2.2.1)

/-- Nothing is written into output 5 in the middle of an accumulation: a placeholder value that is never consulted, since the window is idle
    and not written back at these positions. -/
def out1_B_5 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : ¬cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VO1_5.read (Elt F) (VO1_5.writes (Elt F) VO1_5.junk (kernelRun1_B c i arg3 harg3 arg4 harg4 arg5 harg5 arg6 harg6 arg7 harg7 arg8 harg8 arg9 harg9 arg10 harg10 hc0 hc1 x0 x1 x2 x3 x4 xs0).1)

/-- Nothing is written into output 6 in the middle of an accumulation: a placeholder value that is never consulted, since the window is idle
    and not written back at these positions. -/
def out1_B_6 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : ¬cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 xs0).2.1)

/-- The pieces the body writes into the accumulator in the middle of an accumulation tile it, so every index lies in one of them. -/
theorem scover1_B_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : ¬cond1_1 i)
    (x0 : Vec F S512x512 .f32) (x1 : Vec F S512x1024 .bf16) (x2 : Vec F S512x1024 .f32) (x3 : Vec F S512x1024 .f32) (x4 : Vec F S1x1 .f32) (xs0 : Vec F S512x1024 .f32) (y : S512x1024.Idx) :
    ∃ pc ∈ (kernelRun1_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).2.2.1 S512x1024.size (by sl_kernel_rfl) y

/-- What the accumulator holds after the body in the middle of an accumulation: the written pieces read back. -/
def sout1_B_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : ¬cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 xs0).2.2.1)

/-- The pieces the body writes into output 5 where an accumulation finishes tile the whole block, so every index lies in one of them. -/
theorem cover1_C_5 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) (y : S512x1024.Idx) :
    ∃ pc ∈ (kernelRun1_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).1 S512x1024.size (by sl_kernel_rfl) y

/-- What output 5's buffer holds where an accumulation finishes: the written pieces read back. -/
def out1_C_5 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VO1_5.read (Elt F) (VO1_5.writes (Elt F) VO1_5.junk (kernelRun1_C c i arg3 harg3 arg4 harg4 arg5 harg5 arg6 harg6 arg7 harg7 arg8 harg8 arg9 harg9 arg10 harg10 hc0 hc1 x0 x1 x2 x3 x4 xs0).1)

/-- The pieces the body writes into output 6 where an accumulation finishes tile the whole block, so every index lies in one of them. -/
theorem cover1_C_6 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) (y : S512x1024.Idx) :
    ∃ pc ∈ (kernelRun1_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.1 S512x1024.size (by sl_kernel_rfl) y

/-- What output 6's buffer holds where an accumulation finishes: the written pieces read back. -/
def out1_C_6 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 xs0).2.1)

/-- The pieces the body writes into the accumulator where an accumulation finishes tile it, so every index lies in one of them. -/
theorem scover1_C_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) (y : S512x1024.Idx) :
    ∃ pc ∈ (kernelRun1_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.2.1 S512x1024.size (by sl_kernel_rfl) y

/-- What the accumulator holds after the body where an accumulation finishes: the written pieces read back. -/
def sout1_C_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 xs0).2.2.1)

/-! ## The accumulation, position by position -/

/-- What the two outputs' buffers and the accumulator hold after the body at position `n` (output 5, output 6, accumulator):
    the case selected by `n` modulo 8, run on the position's buffers and input blocks, with the accumulator entering at
    what position `n - 1` left in it (at the start of an accumulation it is overwritten, so nothing enters). -/
def outsAt1 (c : Dev nD) : (n : ℕ) → n < cfg1.N → Vec F S512x1024 .f32 × Vec F S512x1024 .f32 × Vec F S512x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2)

/-- At the start of an accumulation. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- In the middle of an accumulation: over what the position before left in the accumulator. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the end of an accumulation: over what the position before left in the accumulator. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first position: the accumulator at anything, the other local buffers closed, the random-number register at some
    state. Before any later position: the accumulator at exactly what the position before left in it, the rest as before. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data of the region -/

/-- The arrays as the region finds them; after the body each input's buffer at its block, the two outputs' at the
    accumulation's components; the invariant above; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at position `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- At every position: the inputs' buffers hold their blocks; the position's residue modulo 8 says which case of the body
    runs; the invariant hands the body the accumulator at what the position before left (at anything before the first
    position) and takes it back at what this position leaves; where the outputs are not stored their buffers come back
    untouched; the closed local buffers and the random-number register pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_5 out1_C_6 sout1_C_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The obligation in the library's form. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the invariant gives back what the launch handed over: the accumulator's contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- In particular after the last one. -/
theorem hout1 (c : Dev nD) : (dat1 V c).Φ (Fin.last cfg1.N) ⊢ Pipeline.ΦA spec1 c :=
  Phi_out1 V c _ (by rw [Fin.val_last]; have : cfg1.N = 64 := N_1; omega)

end

end Cert.Kernel.Hand

end
-- ==== Proof.K.R2Runs.lean ====
import proofs.«178145_j14508399526340_2_alg».proof.Proof.Gen.Kernel.Launch
import proofs.«178145_j14508399526340_2_alg».proof.Proof.Gen.Kernel.Skeleton
import proofs.«178145_j14508399526340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks of region 2, read off the contents `V` the region is entered with -/

/-- The block of window `w` at grid position `t`: the rectangle of the window's array that the index map selects
    there, read from `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whenever the body is called its current buffer holds the window's block at that position, whether the
    block was transferred at this position or at an earlier one with the same block index, provided the body leaves the
    buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: whenever the body is called its current buffer holds the window's block at that position, whether the
    block was transferred at this position or at an earlier one with the same block index, provided the body leaves the
    buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: whenever the body is called its current buffer holds the window's block at that position, whether the
    block was transferred at this position or at an earlier one with the same block index, provided the body leaves the
    buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: whenever the body is called its current buffer holds the window's block at that position, whether the
    block was transferred at this position or at an earlier one with the same block index, provided the body leaves the
    buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: whenever the body is called its current buffer holds the window's block at that position, whether the
    block was transferred at this position or at an earlier one with the same block index, provided the body leaves the
    buffer as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end

/-! ## The two conditions of the body, as functions of the grid position -/

/-- The first conditional (zero the accumulator): the innermost coordinate is 0. -/
abbrev cond2_0 (i : grid2.Coords) : Prop := (Scalar.cmpi .ne (Scalar.extui (Scalar.cmpi .eq (BitVec.ofNat 32 (i 2).val) 0#32)) 0#32) = 1#1
/-- In the linear order of the grid this is: position ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional (finish: store the two outputs): the innermost coordinate is the last one. -/
abbrev cond2_1 (i : grid2.Coords) : Prop := k2_cond2 i = 1#1
/-- In the linear order of the grid this is: position ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where each window is live and where it is idle -/

/-- Input window 0 is live at every position. -/
theorem liveAt2_0 : ∀ t : Fin cfg2.N, cfg2.idle 0 (grid2.coords t) = false := by decide +kernel
/-- Input window 1 is live at every position. -/
theorem liveAt2_1 : ∀ t : Fin cfg2.N, cfg2.idle 1 (grid2.coords t) = false := by decide +kernel
/-- Input window 2 is live at every position. -/
theorem liveAt2_2 : ∀ t : Fin cfg2.N, cfg2.idle 2 (grid2.coords t) = false := by decide +kernel
/-- Input window 3 is live at every position. -/
theorem liveAt2_3 : ∀ t : Fin cfg2.N, cfg2.idle 3 (grid2.coords t) = false := by decide +kernel
/-- Input window 4 is live at every position. -/
theorem liveAt2_4 : ∀ t : Fin cfg2.N, cfg2.idle 4 (grid2.coords t) = false := by decide +kernel

/-- Output window 5 is idle where the accumulator is zeroed and the outputs are not yet stored, -/
theorem idleAt2_5_A : ∀ t : Fin cfg2.N, cond2_0 (grid2.coords t) → ¬cond2_1 (grid2.coords t) → cfg2.idle 5 (grid2.coords t) = true := by decide +kernel
/-- and its block is not written back there; -/
theorem noFlush2_5_A : ∀ t : Fin cfg2.N, cond2_0 (grid2.coords t) → ¬cond2_1 (grid2.coords t) → (cfg2.win 5).flush t = false := by decide +kernel
/-- idle at the positions in the middle of an accumulation, -/
theorem idleAt2_5_B : ∀ t : Fin cfg2.N, ¬cond2_0 (grid2.coords t) → ¬cond2_1 (grid2.coords t) → cfg2.idle 5 (grid2.coords t) = true := by decide +kernel
/-- not written back there either; -/
theorem noFlush2_5_B : ∀ t : Fin cfg2.N, ¬cond2_0 (grid2.coords t) → ¬cond2_1 (grid2.coords t) → (cfg2.win 5).flush t = false := by decide +kernel
/-- and live where the accumulation finishes. -/
theorem liveAt2_5_C : ∀ t : Fin cfg2.N, ¬cond2_0 (grid2.coords t) → cond2_1 (grid2.coords t) → cfg2.idle 5 (grid2.coords t) = false := by decide +kernel

/-- Output window 6 is idle where the accumulator is zeroed and the outputs are not yet stored, -/
theorem idleAt2_6_A : ∀ t : Fin cfg2.N, cond2_0 (grid2.coords t) → ¬cond2_1 (grid2.coords t) → cfg2.idle 6 (grid2.coords t) = true := by decide +kernel
/-- and its block is not written back there; -/
theorem noFlush2_6_A : ∀ t : Fin cfg2.N, cond2_0 (grid2.coords t) → ¬cond2_1 (grid2.coords t) → (cfg2.win 6).flush t = false := by decide +kernel
/-- idle at the positions in the middle of an accumulation, -/
theorem idleAt2_6_B : ∀ t : Fin cfg2.N, ¬cond2_0 (grid2.coords t) → ¬cond2_1 (grid2.coords t) → cfg2.idle 6 (grid2.coords t) = true := by decide +kernel
/-- not written back there either; -/
theorem noFlush2_6_B : ∀ t : Fin cfg2.N, ¬cond2_0 (grid2.coords t) → ¬cond2_1 (grid2.coords t) → (cfg2.win 6).flush t = false := by decide +kernel
/-- and live where the accumulation finishes. -/
theorem liveAt2_6_C : ∀ t : Fin cfg2.N, ¬cond2_0 (grid2.coords t) → cond2_1 (grid2.coords t) → cfg2.idle 6 (grid2.coords t) = false := by decide +kernel

/-! ## The buffers the body is called on -/

/-- The accumulator: a whole buffer of the kernel's own, carried from one position to the next. -/
abbrev scM2_0 : Memref sig .tc .vmem S512x1024 .f32 := Memref.whole cc2_scratch0
/-- The accumulator as a view: its contents are stated through it. -/
abbrev VS2_0 : View sig .tc .vmem S512x1024 .f32 := scM2_0.view
/-- One buffer of each output window, through which that window's contents are stated (which of the window's buffers is
    chosen makes no difference to what is read back). -/
abbrev VO2_5 : View sig .tc .vmem S512x1024 .f32 := (Memref.whole cc2_stg5_0 : Memref sig .tc .vmem S512x1024 .f32).view
abbrev VO2_6 : View sig .tc .vmem S512x1024 .f32 := (Memref.whole cc2_stg6_0 : Memref sig .tc .vmem S512x1024 .f32).view
/-- The buffer window 0 is on at position `t`, and that it is a whole buffer. -/
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
/-- The buffer window 1 is on at position `t`, and that it is a whole buffer. -/
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
/-- The buffer window 2 is on at position `t`, and that it is a whole buffer. -/
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
/-- The buffer window 3 is on at position `t`, and that it is a whole buffer. -/
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The buffer window 4 is on at position `t`, and that it is a whole buffer. -/
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The buffer window 5 is on at position `t`, and that it is a whole buffer. -/
abbrev ms2_5 (t : Fin cfg2.N) : Memref sig .tc .vmem S512x1024 .f32 := win2_5.stage (cfg2.slots t 5)
abbrev hs2_5 (t : Fin cfg2.N) : (ms2_5 t).IsWhole := hstage2_5 ((cfg2.slots t 5).cast nbuf2_5)
/-- The buffer window 6 is on at position `t`, and that it is a whole buffer. -/
abbrev ms2_6 (t : Fin cfg2.N) : Memref sig .tc .vmem S512x1024 .f32 := win2_6.stage (cfg2.slots t 6)
abbrev hs2_6 (t : Fin cfg2.N) : (ms2_6 t).IsWhole := hstage2_6 ((cfg2.slots t 6).cast nbuf2_6)

/-- What the region's invariant is made of before the first position: the accumulator at some contents, every other
    buffer local to the core that no window uses (kept closed), and the random-number register at some state. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.K.R2RunA.lean ====
import proofs.«178145_j14508399526340_2_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation starts (the accumulator is zeroed first, the outputs are not stored). On whole buffers —
    the five inputs at given contents, the two outputs at contents that are handed back untouched, the accumulator at
    anything (it is overwritten whole before its value is used) — the body runs and hands back everything but the
    accumulator unchanged, and the accumulator with a list of written pieces (latest first). The lists of pieces (empty
    for the two outputs) are the first components; the triple is the last. -/
noncomputable def kernelRun2_A (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond2_0 i) (hc1 : ¬cond2_1 i)
    (x0 : Vec F S1024x512 .bf16) (x1 : Vec F S1024x1024 .bf16) (x2 : Vec F S512x1024 .f32) (x3 : Vec F S512x1024 .f32) (x4 : Vec F S1x1 .f32) :
    Σ' (L5 : List (View.Piece (Elt F) S512x1024 .f32)) (L6 : List (View.Piece (Elt F) S512x1024 .f32)), { LS0 : List (View.Piece (Elt F) S512x1024 .f32) //
      ∀ (xi5 : Vec F S512x1024 .f32) (xi6 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc2_kernel i arg3 harg3 arg4 harg4 arg5 harg5 arg6 harg6 arg7 harg7 arg8 harg8 arg9 harg9 arg10 harg10) K } := by
  refine ⟨[], [], ?_, fun xi5 xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.K.R2RunB.lean ====
import proofs.«178145_j14508399526340_2_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the middle of an accumulation (the accumulator is neither zeroed nor are the outputs stored). On whole
    buffers — the five inputs at given contents, the two outputs at contents that are handed back untouched, the
    accumulator at what the position before left — the body runs and hands back everything but the accumulator
    unchanged, and the accumulator with a list of written pieces (latest first). The lists of pieces (empty for the two
    outputs) are the first components; the triple is the last. -/
noncomputable def kernelRun2_B (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) :
    Σ' (L5 : List (View.Piece (Elt F) S512x1024 .f32)) (L6 : List (View.Piece (Elt F) S512x1024 .f32)), { LS0 : List (View.Piece (Elt F) S512x1024 .f32) //
      ∀ (xi5 : Vec F S512x1024 .f32) (xi6 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc2_kernel i arg3 harg3 arg4 harg4 arg5 harg5 arg6 harg6 arg7 harg7 arg8 harg8 arg9 harg9 arg10 harg10) K } := by
  refine ⟨[], [], ?_, fun xi5 xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.K.R2RunC.lean ====
import proofs.«178145_j14508399526340_2_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation finishes (the accumulator is not zeroed, the outputs are stored). On whole buffers — the
    five inputs at given contents, the two outputs at anything, the accumulator at what the position before left — the
    body runs and hands back the inputs unchanged, and the two outputs and the accumulator each with a list of written
    pieces (latest first). The three lists are the first components; the triple is the last. -/
noncomputable def kernelRun2_C (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) :
    Σ' (L5 : List (View.Piece (Elt F) S512x1024 .f32)) (L6 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc2_kernel i arg3 harg3 arg4 harg4 arg5 harg5 arg6 harg6 arg7 harg7 arg8 harg8 arg9 harg9 arg10 harg10) K } := by
  refine ⟨?_, ?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.Kernel.Hand

end
-- ==== Proof.K.R2.lean ====
import proofs.«178145_j14508399526340_2_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case of the body leaves in the two outputs and in the accumulator -/

/-- Nothing is written into output 5 where an accumulation starts: a placeholder value that is never consulted, since the window is idle
    and not written back at these positions. -/
def out2_A_5 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond2_0 i) (hc1 : ¬cond2_1 i)
    (x0 : Vec F S1024x512 .bf16) (x1 : Vec F S1024x1024 .bf16) (x2 : Vec F S512x1024 .f32) (x3 : Vec F S512x1024 .f32) (x4 : Vec F S1x1 .f32) : Vec F S512x1024 .f32 :=
  VO2_5.read (Elt F) (VO2_5.writes (Elt F) VO2_5.junk (kernelRun2_A c i arg3 harg3 arg4 harg4 arg5 harg5 arg6 harg6 arg7 harg7 arg8 harg8 arg9 harg9 arg10 harg10 hc0 hc1 x0 x1 x2 x3 x4).1)

/-- Nothing is written into output 6 where an accumulation starts: a placeholder value that is never consulted, since the window is idle
    and not written back at these positions. -/
def out2_A_6 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond2_0 i) (hc1 : ¬cond2_1 i)
    (x0 : Vec F S1024x512 .bf16) (x1 : Vec F S1024x1024 .bf16) (x2 : Vec F S512x1024 .f32) (x3 : Vec F S512x1024 .f32) (x4 : Vec F S1x1 .f32) : Vec F S512x1024 .f32 :=
  VO2_6.read (Elt F) (VO2_6.writes (Elt F) VO2_6.junk (kernelRun2_A c i arg3 harg3 arg4 harg4 arg5 harg5 arg6 harg6 arg7 harg7 arg8 harg8 arg9 harg9 arg10 harg10 hc0 hc1 x0 x1 x2 x3 x4).2.1)

/-- The pieces the body writes into the accumulator where an accumulation starts tile it, so every index lies in one of them. -/
theorem scover2_A_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (y : S512x1024.Idx) :
    ∃ pc ∈ (kernelRun2_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun2_A c i arg3 harg3 arg4 harg4 arg5 harg5 arg6 harg6 arg7 harg7 arg8 harg8 arg9 harg9 arg10 harg10 hc0 hc1 x0 x1 x2 x3 x4).2.2.1 S512x1024.size (by sl_kernel_rfl) y

/-- What the accumulator holds after the body where an accumulation starts: the written pieces read back. -/
def sout2_A_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond2_0 i) (hc1 : ¬cond2_1 i)
    (x0 : Vec F S1024x512 .bf16) (x1 : Vec F S1024x1024 .bf16) (x2 : Vec F S512x1024 .f32) (x3 : Vec F S512x1024 .f32) (x4 : Vec F S1x1 .f32) : Vec F S512x1024 .f32 :=
  VS2_0.read (Elt F) (VS2_0.writes (Elt F) VS2_0.junk (kernelRun2_A c i arg3 harg3 arg4 harg4 arg5 harg5 arg6 harg6 arg7 harg7 arg8 harg8 arg9 harg9 arg10 harg10 hc0 hc1 x0 x1 x2 x3 x4).2.2.1)

/-- Nothing is written into output 5 in the middle of an accumulation: a placeholder value that is never consulted, since the window is idle
    and not written back at these positions. -/
def out2_B_5 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VO2_5.read (Elt F) (VO2_5.writes (Elt F) VO2_5.junk (kernelRun2_B c i arg3 harg3 arg4 harg4 arg5 harg5 arg6 harg6 arg7 harg7 arg8 harg8 arg9 harg9 arg10 harg10 hc0 hc1 x0 x1 x2 x3 x4 xs0).1)

/-- Nothing is written into output 6 in the middle of an accumulation: a placeholder value that is never consulted, since the window is idle
    and not written back at these positions. -/
def out2_B_6 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VO2_6.read (Elt F) (VO2_6.writes (Elt F) VO2_6.junk (kernelRun2_B c i arg3 harg3 arg4 harg4 arg5 harg5 arg6 harg6 arg7 harg7 arg8 harg8 arg9 harg9 arg10 harg10 hc0 hc1 x0 x1 x2 x3 x4 xs0).2.1)

/-- The pieces the body writes into the accumulator in the middle of an accumulation tile it, so every index lies in one of them. -/
theorem scover2_B_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) (y : S512x1024.Idx) :
    ∃ pc ∈ (kernelRun2_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun2_B c i arg3 harg3 arg4 harg4 arg5 harg5 arg6 harg6 arg7 harg7 arg8 harg8 arg9 harg9 arg10 harg10 hc0 hc1 x0 x1 x2 x3 x4 xs0).2.2.1 S512x1024.size (by sl_kernel_rfl) y

/-- What the accumulator holds after the body in the middle of an accumulation: the written pieces read back. -/
def sout2_B_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VS2_0.read (Elt F) (VS2_0.writes (Elt F) VS2_0.junk (kernelRun2_B c i arg3 harg3 arg4 harg4 arg5 harg5 arg6 harg6 arg7 harg7 arg8 harg8 arg9 harg9 arg10 harg10 hc0 hc1 x0 x1 x2 x3 x4 xs0).2.2.1)

/-- The pieces the body writes into output 5 where an accumulation finishes tile the whole block, so every index lies in one of them. -/
theorem cover2_C_5 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) (y : S512x1024.Idx) :
    ∃ pc ∈ (kernelRun2_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun2_C c i arg3 harg3 arg4 harg4 arg5 harg5 arg6 harg6 arg7 harg7 arg8 harg8 arg9 harg9 arg10 harg10 hc0 hc1 x0 x1 x2 x3 x4 xs0).1 S512x1024.size (by sl_kernel_rfl) y

/-- What output 5's buffer holds where an accumulation finishes: the written pieces read back. -/
def out2_C_5 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VO2_5.read (Elt F) (VO2_5.writes (Elt F) VO2_5.junk (kernelRun2_C c i arg3 harg3 arg4 harg4 arg5 harg5 arg6 harg6 arg7 harg7 arg8 harg8 arg9 harg9 arg10 harg10 hc0 hc1 x0 x1 x2 x3 x4 xs0).1)

/-- The pieces the body writes into output 6 where an accumulation finishes tile the whole block, so every index lies in one of them. -/
theorem cover2_C_6 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) (y : S512x1024.Idx) :
    ∃ pc ∈ (kernelRun2_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun2_C c i arg3 harg3 arg4 harg4 arg5 harg5 arg6 harg6 arg7 harg7 arg8 harg8 arg9 harg9 arg10 harg10 hc0 hc1 x0 x1 x2 x3 x4 xs0).2.1 S512x1024.size (by sl_kernel_rfl) y

/-- What output 6's buffer holds where an accumulation finishes: the written pieces read back. -/
def out2_C_6 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VO2_6.read (Elt F) (VO2_6.writes (Elt F) VO2_6.junk (kernelRun2_C c i arg3 harg3 arg4 harg4 arg5 harg5 arg6 harg6 arg7 harg7 arg8 harg8 arg9 harg9 arg10 harg10 hc0 hc1 x0 x1 x2 x3 x4 xs0).2.1)

/-- The pieces the body writes into the accumulator where an accumulation finishes tile it, so every index lies in one of them. -/
theorem scover2_C_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) (y : S512x1024.Idx) :
    ∃ pc ∈ (kernelRun2_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun2_C c i arg3 harg3 arg4 harg4 arg5 harg5 arg6 harg6 arg7 harg7 arg8 harg8 arg9 harg9 arg10 harg10 hc0 hc1 x0 x1 x2 x3 x4 xs0).2.2.1 S512x1024.size (by sl_kernel_rfl) y

/-- What the accumulator holds after the body where an accumulation finishes: the written pieces read back. -/
def sout2_C_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VS2_0.read (Elt F) (VS2_0.writes (Elt F) VS2_0.junk (kernelRun2_C c i arg3 harg3 arg4 harg4 arg5 harg5 arg6 harg6 arg7 harg7 arg8 harg8 arg9 harg9 arg10 harg10 hc0 hc1 x0 x1 x2 x3 x4 xs0).2.2.1)

/-! ## The accumulation, position by position -/

/-- What the two outputs' buffers and the accumulator hold after the body at position `n` (output 5, output 6, accumulator):
    the case selected by `n` modulo 4, run on the position's buffers and input blocks, with the accumulator entering at
    what position `n - 1` left in it (at the start of an accumulation it is overwritten, so nothing enters). -/
def outsAt2 (c : Dev nD) : (n : ℕ) → n < cfg2.N → Vec F S512x1024 .f32 × Vec F S512x1024 .f32 × Vec F S512x1024 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2)

/-- At the start of an accumulation. -/
theorem outsAt2_A (c : Dev nD) (t : Fin cfg2.N) (h0 : t.val % 4 = 0) (h1 : ¬t.val % 4 = 3) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- In the middle of an accumulation: over what the position before left in the accumulator. -/
theorem outsAt2_B (c : Dev nD) (t : Fin cfg2.N) (h0 : ¬t.val % 4 = 0) (h1 : ¬t.val % 4 = 3) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the end of an accumulation: over what the position before left in the accumulator. -/
theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first position: the accumulator at anything, the other local buffers closed, the random-number register at some
    state. Before any later position: the accumulator at exactly what the position before left in it, the rest as before. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data of the region -/

/-- The arrays as the region finds them; after the body each input's buffer at its block, the two outputs' at the
    accumulation's components; the invariant above; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at position `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it hands back. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- At every position: the inputs' buffers hold their blocks; the position's residue modulo 4 says which case of the body
    runs; the invariant hands the body the accumulator at what the position before left (at anything before the first
    position) and takes it back at what this position leaves; where the outputs are not stored their buffers come back
    untouched; the closed local buffers and the random-number register pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_5 out2_C_6 sout2_C_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_C_5 c _ _ _ _ _ _ _ _ _ _ _ _ _ _ _ _ _ _ _ _ _ _ _ _ _)
        unfold owns; iexists _; isplitr
        swap; · iexact H6
        ipureintro; exact View.read_writes_of_cover _ _ _ _ _ (cover2_C_6 c _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The obligation in the library's form. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first position. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any position but the first the invariant gives back what the launch handed over: the accumulator's contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- In particular after the last one. -/
theorem hout2 (c : Dev nD) : (dat2 V c).Φ (Fin.last cfg2.N) ⊢ Pipeline.ΦA spec2 c :=
  Phi_out2 V c _ (by rw [Fin.val_last]; have : cfg2.N = 32 := N_2; omega)

end

end Cert.Kernel.Hand

end
-- ==== Proof.K.R3Runs.lean ====
import proofs.«178145_j14508399526340_2_alg».proof.Proof.Gen.Kernel.Launch
import proofs.«178145_j14508399526340_2_alg».proof.Proof.Gen.Kernel.Skeleton
import proofs.«178145_j14508399526340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks of region 3, read off the contents `V` the region is entered with -/

/-- The block of window `w` at grid position `t`: the rectangle of the window's array that the index map selects
    there, read from `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whenever the body is called its current buffer holds the window's block at that position, whether the
    block was transferred at this position or at an earlier one with the same block index, provided the body leaves the
    buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whenever the body is called its current buffer holds the window's block at that position, whether the
    block was transferred at this position or at an earlier one with the same block index, provided the body leaves the
    buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whenever the body is called its current buffer holds the window's block at that position, whether the
    block was transferred at this position or at an earlier one with the same block index, provided the body leaves the
    buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: whenever the body is called its current buffer holds the window's block at that position, whether the
    block was transferred at this position or at an earlier one with the same block index, provided the body leaves the
    buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: whenever the body is called its current buffer holds the window's block at that position, whether the
    block was transferred at this position or at an earlier one with the same block index, provided the body leaves the
    buffer as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

end

/-! ## The two conditions of the body, as functions of the grid position -/

/-- The first conditional (zero the accumulator): the innermost coordinate is 0. -/
abbrev cond3_0 (i : grid3.Coords) : Prop := (Scalar.cmpi .ne (Scalar.extui (Scalar.cmpi .eq (BitVec.ofNat 32 (i 2).val) 0#32)) 0#32) = 1#1
/-- In the linear order of the grid this is: position ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional (finish: store the two outputs): the innermost coordinate is the last one. -/
abbrev cond3_1 (i : grid3.Coords) : Prop := k3_cond2 i = 1#1
/-- In the linear order of the grid this is: position ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where each window is live and where it is idle -/

/-- Input window 0 is live at every position. -/
theorem liveAt3_0 : ∀ t : Fin cfg3.N, cfg3.idle 0 (grid3.coords t) = false := by decide +kernel
/-- Input window 1 is live at every position. -/
theorem liveAt3_1 : ∀ t : Fin cfg3.N, cfg3.idle 1 (grid3.coords t) = false := by decide +kernel
/-- Input window 2 is live at every position. -/
theorem liveAt3_2 : ∀ t : Fin cfg3.N, cfg3.idle 2 (grid3.coords t) = false := by decide +kernel
/-- Input window 3 is live at every position. -/
theorem liveAt3_3 : ∀ t : Fin cfg3.N, cfg3.idle 3 (grid3.coords t) = false := by decide +kernel
/-- Input window 4 is live at every position. -/
theorem liveAt3_4 : ∀ t : Fin cfg3.N, cfg3.idle 4 (grid3.coords t) = false := by decide +kernel

/-- Output window 5 is idle where the accumulator is zeroed and the outputs are not yet stored, -/
theorem idleAt3_5_A : ∀ t : Fin cfg3.N, cond3_0 (grid3.coords t) → ¬cond3_1 (grid3.coords t) → cfg3.idle 5 (grid3.coords t) = true := by decide +kernel
/-- and its block is not written back there; -/
theorem noFlush3_5_A : ∀ t : Fin cfg3.N, cond3_0 (grid3.coords t) → ¬cond3_1 (grid3.coords t) → (cfg3.win 5).flush t = false := by decide +kernel
/-- idle at the positions in the middle of an accumulation, -/
theorem idleAt3_5_B : ∀ t : Fin cfg3.N, ¬cond3_0 (grid3.coords t) → ¬cond3_1 (grid3.coords t) → cfg3.idle 5 (grid3.coords t) = true := by decide +kernel
/-- not written back there either; -/
theorem noFlush3_5_B : ∀ t : Fin cfg3.N, ¬cond3_0 (grid3.coords t) → ¬cond3_1 (grid3.coords t) → (cfg3.win 5).flush t = false := by decide +kernel
/-- and live where the accumulation finishes. -/
theorem liveAt3_5_C : ∀ t : Fin cfg3.N, ¬cond3_0 (grid3.coords t) → cond3_1 (grid3.coords t) → cfg3.idle 5 (grid3.coords t) = false := by decide +kernel

/-- Output window 6 is idle where the accumulator is zeroed and the outputs are not yet stored, -/
theorem idleAt3_6_A : ∀ t : Fin cfg3.N, cond3_0 (grid3.coords t) → ¬cond3_1 (grid3.coords t) → cfg3.idle 6 (grid3.coords t) = true := by decide +kernel
/-- and its block is not written back there; -/
theorem noFlush3_6_A : ∀ t : Fin cfg3.N, cond3_0 (grid3.coords t) → ¬cond3_1 (grid3.coords t) → (cfg3.win 6).flush t = false := by decide +kernel
/-- idle at the positions in the middle of an accumulation, -/
theorem idleAt3_6_B : ∀ t : Fin cfg3.N, ¬cond3_0 (grid3.coords t) → ¬cond3_1 (grid3.coords t) → cfg3.idle 6 (grid3.coords t) = true := by decide +kernel
/-- not written back there either; -/
theorem noFlush3_6_B : ∀ t : Fin cfg3.N, ¬cond3_0 (grid3.coords t) → ¬cond3_1 (grid3.coords t) → (cfg3.win 6).flush t = false := by decide +kernel
/-- and live where the accumulation finishes. -/
theorem liveAt3_6_C : ∀ t : Fin cfg3.N, ¬cond3_0 (grid3.coords t) → cond3_1 (grid3.coords t) → cfg3.idle 6 (grid3.coords t) = false := by decide +kernel

/-! ## The buffers the body is called on -/

/-- The accumulator: a whole buffer of the kernel's own, carried from one position to the next. -/
abbrev scM3_0 : Memref sig .tc .vmem S256x2050 .f32 := Memref.whole cc3_scratch0
/-- The accumulator as a view: its contents are stated through it. -/
abbrev VS3_0 : View sig .tc .vmem S256x2050 .f32 := scM3_0.view
/-- One buffer of each output window, through which that window's contents are stated (which of the window's buffers is
    chosen makes no difference to what is read back). -/
abbrev VO3_5 : View sig .tc .vmem S256x2050 .f32 := (Memref.whole cc3_stg5_0 : Memref sig .tc .vmem S256x2050 .f32).view
abbrev VO3_6 : View sig .tc .vmem S256x2050 .f32 := (Memref.whole cc3_stg6_0 : Memref sig .tc .vmem S256x2050 .f32).view
/-- The buffer window 0 is on at position `t`, and that it is a whole buffer. -/
abbrev ms3_0 (t : Fin cfg3.N) : Memref sig .tc .vmem S1024x256 .bf16 := win3_0.stage (cfg3.slots t 0)
abbrev hs3_0 (t : Fin cfg3.N) : (ms3_0 t).IsWhole := hstage3_0 ((cfg3.slots t 0).cast nbuf3_0)
/-- The buffer window 1 is on at position `t`, and that it is a whole buffer. -/
abbrev ms3_1 (t : Fin cfg3.N) : Memref sig .tc .vmem S1024x2050 .bf16 := win3_1.stage (cfg3.slots t 1)
abbrev hs3_1 (t : Fin cfg3.N) : (ms3_1 t).IsWhole := hstage3_1 ((cfg3.slots t 1).cast nbuf3_1)
/-- The buffer window 2 is on at position `t`, and that it is a whole buffer. -/
abbrev ms3_2 (t : Fin cfg3.N) : Memref sig .tc .vmem S256x2050 .f32 := win3_2.stage (cfg3.slots t 2)
abbrev hs3_2 (t : Fin cfg3.N) : (ms3_2 t).IsWhole := hstage3_2 ((cfg3.slots t 2).cast nbuf3_2)
/-- The buffer window 3 is on at position `t`, and that it is a whole buffer. -/
abbrev ms3_3 (t : Fin cfg3.N) : Memref sig .tc .vmem S256x2050 .f32 := win3_3.stage (cfg3.slots t 3)
abbrev hs3_3 (t : Fin cfg3.N) : (ms3_3 t).IsWhole := hstage3_3 ((cfg3.slots t 3).cast nbuf3_3)
/-- The buffer window 4 is on at position `t`, and that it is a whole buffer. -/
abbrev ms3_4 (t : Fin cfg3.N) : Memref sig .tc .vmem S1x1 .f32 := win3_4.stage (cfg3.slots t 4)
abbrev hs3_4 (t : Fin cfg3.N) : (ms3_4 t).IsWhole := hstage3_4 ((cfg3.slots t 4).cast nbuf3_4)
/-- The buffer window 5 is on at position `t`, and that it is a whole buffer. -/
abbrev ms3_5 (t : Fin cfg3.N) : Memref sig .tc .vmem S256x2050 .f32 := win3_5.stage (cfg3.slots t 5)
abbrev hs3_5 (t : Fin cfg3.N) : (ms3_5 t).IsWhole := hstage3_5 ((cfg3.slots t 5).cast nbuf3_5)
/-- The buffer window 6 is on at position `t`, and that it is a whole buffer. -/
abbrev ms3_6 (t : Fin cfg3.N) : Memref sig .tc .vmem S256x2050 .f32 := win3_6.stage (cfg3.slots t 6)
abbrev hs3_6 (t : Fin cfg3.N) : (ms3_6 t).IsWhole := hstage3_6 ((cfg3.slots t 6).cast nbuf3_6)

/-- What the region's invariant is made of before the first position: the accumulator at some contents, every other
    buffer local to the core that no window uses (kept closed), and the random-number register at some state. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Hand

end
-- ==== Proof.K.R3RunA.lean ====
import proofs.«178145_j14508399526340_2_alg».proof.Proof.K.R3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation starts (the accumulator is zeroed first, the outputs are not stored). On whole buffers —
    the five inputs at given contents, the two outputs at contents that are handed back untouched, the accumulator at
    anything (it is overwritten whole before its value is used) — the body runs and hands back everything but the
    accumulator unchanged, and the accumulator with a list of written pieces (latest first). The lists of pieces (empty
    for the two outputs) are the first components; the triple is the last. -/
noncomputable def kernelRun3_A (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : cond3_0 i) (hc1 : ¬cond3_1 i)
    (x0 : Vec F S1024x256 .bf16) (x1 : Vec F S1024x2050 .bf16) (x2 : Vec F S256x2050 .f32) (x3 : Vec F S256x2050 .f32) (x4 : Vec F S1x1 .f32) :
    Σ' (L5 : List (View.Piece (Elt F) S256x2050 .f32)) (L6 : List (View.Piece (Elt F) S256x2050 .f32)), { LS0 : List (View.Piece (Elt F) S256x2050 .f32) //
      ∀ (xi5 : Vec F S256x2050 .f32) (xi6 : Vec F S256x2050 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc3_kernel i arg3 harg3 arg4 harg4 arg5 harg5 arg6 harg6 arg7 harg7 arg8 harg8 arg9 harg9 arg10 harg10) K } := by
  refine ⟨[], [], ?_, fun xi5 xi6 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.K.R3RunB.lean ====
import proofs.«178145_j14508399526340_2_alg».proof.Proof.K.R3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the middle of an accumulation (the accumulator is neither zeroed nor are the outputs stored). On whole
    buffers — the five inputs at given contents, the two outputs at contents that are handed back untouched, the
    accumulator at what the position before left — the body runs and hands back everything but the accumulator
    unchanged, and the accumulator with a list of written pieces (latest first). The lists of pieces (empty for the two
    outputs) are the first components; the triple is the last. -/
noncomputable def kernelRun3_B (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) :
    Σ' (L5 : List (View.Piece (Elt F) S256x2050 .f32)) (L6 : List (View.Piece (Elt F) S256x2050 .f32)), { LS0 : List (View.Piece (Elt F) S256x2050 .f32) //
      ∀ (xi5 : Vec F S256x2050 .f32) (xi6 : Vec F S256x2050 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc3_kernel i arg3 harg3 arg4 harg4 arg5 harg5 arg6 harg6 arg7 harg7 arg8 harg8 arg9 harg9 arg10 harg10) K } := by
  refine ⟨[], [], ?_, fun xi5 xi6 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.K.R3RunC.lean ====
import proofs.«178145_j14508399526340_2_alg».proof.Proof.K.R3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation finishes (the accumulator is not zeroed, the outputs are stored). On whole buffers — the
    five inputs at given contents, the two outputs at anything, the accumulator at what the position before left — the
    body runs and hands back the inputs unchanged, and the two outputs and the accumulator each with a list of written
    pieces (latest first). The three lists are the first components; the triple is the last. -/
noncomputable def kernelRun3_C (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) :
    Σ' (L5 : List (View.Piece (Elt F) S256x2050 .f32)) (L6 : List (View.Piece (Elt F) S256x2050 .f32)), { LS0 : List (View.Piece (Elt F) S256x2050 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc3_kernel i arg3 harg3 arg4 harg4 arg5 harg5 arg6 harg6 arg7 harg7 arg8 harg8 arg9 harg9 arg10 harg10) K } := by
  refine ⟨?_, ?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.Kernel.Hand

end
-- ==== Proof.K.R3.lean ====
import proofs.«178145_j14508399526340_2_alg».proof.Proof.K.R3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case of the body leaves in the two outputs and in the accumulator -/

/-- Nothing is written into output 5 where an accumulation starts: a placeholder value that is never consulted, since the window is idle
    and not written back at these positions. -/
def out3_A_5 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : cond3_0 i) (hc1 : ¬cond3_1 i)
    (x0 : Vec F S1024x256 .bf16) (x1 : Vec F S1024x2050 .bf16) (x2 : Vec F S256x2050 .f32) (x3 : Vec F S256x2050 .f32) (x4 : Vec F S1x1 .f32) : Vec F S256x2050 .f32 :=
  VO3_5.read (Elt F) (VO3_5.writes (Elt F) VO3_5.junk (kernelRun3_A c i arg3 harg3 arg4 harg4 arg5 harg5 arg6 harg6 arg7 harg7 arg8 harg8 arg9 harg9 arg10 harg10 hc0 hc1 x0 x1 x2 x3 x4).1)

/-- Nothing is written into output 6 where an accumulation starts: a placeholder value that is never consulted, since the window is idle
    and not written back at these positions. -/
def out3_A_6 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : cond3_0 i) (hc1 : ¬cond3_1 i)
    (x0 : Vec F S1024x256 .bf16) (x1 : Vec F S1024x2050 .bf16) (x2 : Vec F S256x2050 .f32) (x3 : Vec F S256x2050 .f32) (x4 : Vec F S1x1 .f32) : Vec F S256x2050 .f32 :=
  VO3_6.read (Elt F) (VO3_6.writes (Elt F) VO3_6.junk (kernelRun3_A c i arg3 harg3 arg4 harg4 arg5 harg5 arg6 harg6 arg7 harg7 arg8 harg8 arg9 harg9 arg10 harg10 hc0 hc1 x0 x1 x2 x3 x4).2.1)

/-- The pieces the body writes into the accumulator where an accumulation starts tile it, so every index lies in one of them. -/
theorem scover3_A_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (y : S256x2050.Idx) :
    ∃ pc ∈ (kernelRun3_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun3_A c i arg3 harg3 arg4 harg4 arg5 harg5 arg6 harg6 arg7 harg7 arg8 harg8 arg9 harg9 arg10 harg10 hc0 hc1 x0 x1 x2 x3 x4).2.2.1 S256x2050.size (by sl_kernel_rfl) y

/-- What the accumulator holds after the body where an accumulation starts: the written pieces read back. -/
def sout3_A_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : cond3_0 i) (hc1 : ¬cond3_1 i)
    (x0 : Vec F S1024x256 .bf16) (x1 : Vec F S1024x2050 .bf16) (x2 : Vec F S256x2050 .f32) (x3 : Vec F S256x2050 .f32) (x4 : Vec F S1x1 .f32) : Vec F S256x2050 .f32 :=
  VS3_0.read (Elt F) (VS3_0.writes (Elt F) VS3_0.junk (kernelRun3_A c i arg3 harg3 arg4 harg4 arg5 harg5 arg6 harg6 arg7 harg7 arg8 harg8 arg9 harg9 arg10 harg10 hc0 hc1 x0 x1 x2 x3 x4).2.2.1)

/-- Nothing is written into output 5 in the middle of an accumulation: a placeholder value that is never consulted, since the window is idle
    and not written back at these positions. -/
def out3_B_5 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VO3_5.read (Elt F) (VO3_5.writes (Elt F) VO3_5.junk (kernelRun3_B c i arg3 harg3 arg4 harg4 arg5 harg5 arg6 harg6 arg7 harg7 arg8 harg8 arg9 harg9 arg10 harg10 hc0 hc1 x0 x1 x2 x3 x4 xs0).1)

/-- Nothing is written into output 6 in the middle of an accumulation: a placeholder value that is never consulted, since the window is idle
    and not written back at these positions. -/
def out3_B_6 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VO3_6.read (Elt F) (VO3_6.writes (Elt F) VO3_6.junk (kernelRun3_B c i arg3 harg3 arg4 harg4 arg5 harg5 arg6 harg6 arg7 harg7 arg8 harg8 arg9 harg9 arg10 harg10 hc0 hc1 x0 x1 x2 x3 x4 xs0).2.1)

/-- The pieces the body writes into the accumulator in the middle of an accumulation tile it, so every index lies in one of them. -/
theorem scover3_B_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) (y : S256x2050.Idx) :
    ∃ pc ∈ (kernelRun3_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 x4 xs0).2.2.1 S256x2050.size (by sl_kernel_rfl) y

/-- What the accumulator holds after the body in the middle of an accumulation: the written pieces read back. -/
def sout3_B_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VS3_0.read (Elt F) (VS3_0.writes (Elt F) VS3_0.junk (kernelRun3_B c i arg3 harg3 arg4 harg4 arg5 harg5 arg6 harg6 arg7 harg7 arg8 harg8 arg9 harg9 arg10 harg10 hc0 hc1 x0 x1 x2 x3 x4 xs0).2.2.1)

/-- The pieces the body writes into output 5 where an accumulation finishes tile the whole block, so every index lies in one of them. -/
theorem cover3_C_5 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) (y : S256x2050.Idx) :
    ∃ pc ∈ (kernelRun3_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).1 S256x2050.size (by sl_kernel_rfl) y

/-- What output 5's buffer holds where an accumulation finishes: the written pieces read back. -/
def out3_C_5 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VO3_5.read (Elt F) (VO3_5.writes (Elt F) VO3_5.junk (kernelRun3_C c i arg3 harg3 arg4 harg4 arg5 harg5 arg6 harg6 arg7 harg7 arg8 harg8 arg9 harg9 arg10 harg10 hc0 hc1 x0 x1 x2 x3 x4 xs0).1)

/-- The pieces the body writes into output 6 where an accumulation finishes tile the whole block, so every index lies in one of them. -/
theorem cover3_C_6 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) (y : S256x2050.Idx) :
    ∃ pc ∈ (kernelRun3_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).2.1 S256x2050.size (by sl_kernel_rfl) y

/-- What output 6's buffer holds where an accumulation finishes: the written pieces read back. -/
def out3_C_6 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VO3_6.read (Elt F) (VO3_6.writes (Elt F) VO3_6.junk (kernelRun3_C c i arg3 harg3 arg4 harg4 arg5 harg5 arg6 harg6 arg7 harg7 arg8 harg8 arg9 harg9 arg10 harg10 hc0 hc1 x0 x1 x2 x3 x4 xs0).2.1)

/-- The pieces the body writes into the accumulator where an accumulation finishes tile it, so every index lies in one of them. -/
theorem scover3_C_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) (y : S256x2050.Idx) :
    ∃ pc ∈ (kernelRun3_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).2.2.1 S256x2050.size (by sl_kernel_rfl) y

/-- What the accumulator holds after the body where an accumulation finishes: the written pieces read back. -/
def sout3_C_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VS3_0.read (Elt F) (VS3_0.writes (Elt F) VS3_0.junk (kernelRun3_C c i arg3 harg3 arg4 harg4 arg5 harg5 arg6 harg6 arg7 harg7 arg8 harg8 arg9 harg9 arg10 harg10 hc0 hc1 x0 x1 x2 x3 x4 xs0).2.2.1)

/-! ## The accumulation, position by position -/

/-- What the two outputs' buffers and the accumulator hold after the body at position `n` (output 5, output 6, accumulator):
    the case selected by `n` modulo 4, run on the position's buffers and input blocks, with the accumulator entering at
    what position `n - 1` left in it (at the start of an accumulation it is overwritten, so nothing enters). -/
def outsAt3 (c : Dev nD) : (n : ℕ) → n < cfg3.N → Vec F S256x2050 .f32 × Vec F S256x2050 .f32 × Vec F S256x2050 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h0 : (n + 1) % 4 = 0 then
      if h1 : (n + 1) % 4 = 3 then
        False.elim (by omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
    else
      if h1 : (n + 1) % 4 = 3 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2)
      else
        (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2)

/-- At the start of an accumulation. -/
theorem outsAt3_A (c : Dev nD) (t : Fin cfg3.N) (h0 : t.val % 4 = 0) (h1 : ¬t.val % 4 = 3) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans rfl)

/-- In the middle of an accumulation: over what the position before left in the accumulator. -/
theorem outsAt3_B (c : Dev nD) (t : Fin cfg3.N) (h0 : ¬t.val % 4 = 0) (h1 : ¬t.val % 4 = 3) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2, out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the end of an accumulation: over what the position before left in the accumulator. -/
theorem outsAt3_C (c : Dev nD) (t : Fin cfg3.N) (h0 : ¬t.val % 4 = 0) (h1 : t.val % 4 = 3) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2, out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first position: the accumulator at anything, the other local buffers closed, the random-number register at some
    state. Before any later position: the accumulator at exactly what the position before left in it, the rest as before. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2.2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2.2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data of the region -/

/-- The arrays as the region finds them; after the body each input's buffer at its block, the two outputs' at the
    accumulation's components; the invariant above; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is called with at position `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it hands back. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 8000000 in
/-- At every position: the inputs' buffers hold their blocks; the position's residue modulo 4 says which case of the body
    runs; the invariant hands the body the accumulator at what the position before left (at anything before the first
    position) and takes it back at what this position leaves; where the outputs are not stored their buffers come back
    untouched; the closed local buffers and the random-number register pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 4 = 0
  · by_cases h1 : t.val % 4 = 3
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5_A t ((hcond3_0 t).mpr h0) (fun h => h1 ((hcond3_1 t).mp h))) (noFlush3_5_A t ((hcond3_0 t).mpr h0) (fun h => h1 ((hcond3_1 t).mp h)))]
      rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h)))]
      rw [outsAt3_A V c t h0 h1]
      unfold sout3_A_0; (try dsimp only)
      by_cases hz : t.val = 0
      ·
        rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 4 = 3
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5_C t (fun h => h0 ((hcond3_0 t).mp h)) ((hcond3_1 t).mpr h1)], after3_5]
      rw [show (dat3 V c).leavesExact 6 t = owns (c : Thread nD τ) (ms3_6 t) fullShare ((dat3 V c).after 6 t) from by
        unfold Dat.leavesExact; rw [liveAt3_6_C t (fun h => h0 ((hcond3_0 t).mp h)) ((hcond3_1 t).mpr h1)], after3_6]
      rw [outsAt3_C V c t h0 h1]
      unfold out3_C_5 out3_C_6 sout3_C_0; (try dsimp only)
      by_cases hz : t.val = 0
      · exfalso; omega
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_C_5 c _ _ _ _ _ _ _ _ _ _ _ _ _ _ _ _ _ _ _ _ _ _ _ _ _)
        unfold owns; iexists _; isplitr
        swap; · iexact H6
        ipureintro; exact View.read_writes_of_cover _ _ _ _ _ (cover3_C_6 c _ _ _ _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5_B t (fun h => h0 ((hcond3_0 t).mp h)) (fun h => h1 ((hcond3_1 t).mp h))) (noFlush3_5_B t (fun h => h0 ((hcond3_0 t).mp h)) (fun h => h1 ((hcond3_1 t).mp h)))]
      rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h)))]
      rw [outsAt3_B V c t h0 h1]
      unfold sout3_B_0; (try dsimp only)
      by_cases hz : t.val = 0
      · exfalso; omega
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The obligation in the library's form. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first position. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any position but the first the invariant gives back what the launch handed over: the accumulator's contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- In particular after the last one. -/
theorem hout3 (c : Dev nD) : (dat3 V c).Φ (Fin.last cfg3.N) ⊢ Pipeline.ΦA spec3 c :=
  Phi_out3 V c _ (by rw [Fin.val_last]; have : cfg3.N = 32 := N_3; omega)

end

end Cert.Kernel.Hand

end
-- ==== Proof.K.Halves.lean ====
/-
  The four regions' proof data put together: each region's proof data meets what the launch asks of it, so the whole
  program runs to the end with every unscoped buffer at the last segment boundary's contents, and in particular every
  argument array ends as launched.
-/
import proofs.«178145_j14508399526340_2_alg».proof.Proof.K.Frame
import proofs.«178145_j14508399526340_2_alg».proof.Proof.K.R0
import proofs.«178145_j14508399526340_2_alg».proof.Proof.K.R1
import proofs.«178145_j14508399526340_2_alg».proof.Proof.K.R2
import proofs.«178145_j14508399526340_2_alg».proof.Proof.K.R3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four regions' proof data: the forward region's invariant never changes; each Hebbian-update region's invariant
    starts from, and ends at, one that forgets what its accumulator holds. -/
def halves : Halves F where
  d0 := dat0
  A0 := A_eq0
  q0 := fun _ _ _ => rfl
  o0 := fun _ _ _ => rfl
  b0 := body_obligation0
  i0 := fun _ _ => .rfl
  x0 := fun _ _ => .rfl
  r0 := fun _ _ _ => rfl
  d1 := dat1
  A1 := A_eq1
  q1 := fun _ _ _ => rfl
  o1 := fun _ _ _ => rfl
  b1 := body_obligation1
  i1 := hin1
  x1 := hout1
  r1 := fun _ _ _ => rfl
  d2 := dat2
  A2 := A_eq2
  q2 := fun _ _ _ => rfl
  o2 := fun _ _ _ => rfl
  b2 := body_obligation2
  i2 := hin2
  x2 := hout2
  r2 := fun _ _ _ => rfl
  d3 := dat3
  A3 := A_eq3
  q3 := fun _ _ _ => rfl
  o3 := fun _ _ _ => rfl
  b3 := body_obligation3
  i3 := hin3
  x3 := hout3
  r3 := fun _ _ _ => rfl

/-- Every weakly fair execution of the program terminates, nothing faulting, with each argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frameH (halves (F := F)) m ρ

end Cert.Kernel.Hand

end
-- ==== Proof.KI.Run.lean ====
/-
  The whole program as a chain of six segments — a stretch of host operations, the forward region, a second stretch of
  host operations, and the three Hebbian-update regions — run from any launch memory, given for each region its proof
  data and the few facts about them the launch needs (`Halves`).

  The contents of every unscoped buffer at the seven segment boundaries are a fold from the launch memory: a host stretch
  applies its operations; a region replaces its windows' arrays by what its write-backs leave and touches nothing else.
  The run ends with every unscoped buffer at the last boundary's contents. An array that is only ever an input window
  (or no window at all) passes every region unchanged, so the eleven argument arrays end as launched.
-/
import proofs.«178145_j14508399526340_2_alg».proof.Proof.Gen.KernelIdeal.Launch
import proofs.«178145_j14508399526340_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the launch needs of each region's proof data: the arrays are the entry contents, every share is full, nothing is
    owed, the body obligation holds, and the region's invariant starts from and ends at the class of invariants that
    only mention the kernel's scoped buffers and the generator register. -/
structure Halves (F : FTy → Type) [FloatOps F] where
  /-- Region 0's proof data, at the contents the region is entered with. -/
  d0 : ((c : Dev nD) → (b : Ref sig .tc) → Buf (Elt F) ((c : Thread nD τ).loc b)) → (c : Dev nD) → Dat τ (Elt F) Unit ℕ (UR sig nD τ) ℕ cfg0 c
  A0 : ∀ V c w, (d0 V c).A w = V c (Pipeline.arrRef spec0 w)
  q0 : ∀ V c w, (d0 V c).q w = fullShare
  o0 : ∀ V c t, (d0 V c).owed t = 0
  b0 : ∀ V c, BodyObligation (d0 V c) (defs₀ (F := F)) Variants.none () Set.univ
  i0 : ∀ V c, (Pipeline.ΦA spec0 c : sProp (MT nD τ sig Unit (Elt F) ℕ (UR sig nD τ) ℕ)) ⊢ (d0 V c).Φ 0
  x0 : ∀ V c, (d0 V c).Φ (Fin.last cfg0.N) ⊢ (Pipeline.ΦA spec0 c : sProp (MT nD τ sig Unit (Elt F) ℕ (UR sig nD τ) ℕ))
  r0 : ∀ V c t, (d0 V c).recorded t = Set.univ
  /-- Region 1's proof data, at the contents the region is entered with. -/
  d1 : ((c : Dev nD) → (b : Ref sig .tc) → Buf (Elt F) ((c : Thread nD τ).loc b)) → (c : Dev nD) → Dat τ (Elt F) Unit ℕ (UR sig nD τ) ℕ cfg1 c
  A1 : ∀ V c w, (d1 V c).A w = V c (Pipeline.arrRef spec1 w)
  q1 : ∀ V c w, (d1 V c).q w = fullShare
  o1 : ∀ V c t, (d1 V c).owed t = 0
  b1 : ∀ V c, BodyObligation (d1 V c) (defs₀ (F := F)) Variants.none () Set.univ
  i1 : ∀ V c, (Pipeline.ΦA spec1 c : sProp (MT nD τ sig Unit (Elt F) ℕ (UR sig nD τ) ℕ)) ⊢ (d1 V c).Φ 0
  x1 : ∀ V c, (d1 V c).Φ (Fin.last cfg1.N) ⊢ (Pipeline.ΦA spec1 c : sProp (MT nD τ sig Unit (Elt F) ℕ (UR sig nD τ) ℕ))
  r1 : ∀ V c t, (d1 V c).recorded t = Set.univ
  /-- Region 2's proof data, at the contents the region is entered with. -/
  d2 : ((c : Dev nD) → (b : Ref sig .tc) → Buf (Elt F) ((c : Thread nD τ).loc b)) → (c : Dev nD) → Dat τ (Elt F) Unit ℕ (UR sig nD τ) ℕ cfg2 c
  A2 : ∀ V c w, (d2 V c).A w = V c (Pipeline.arrRef spec2 w)
  q2 : ∀ V c w, (d2 V c).q w = fullShare
  o2 : ∀ V c t, (d2 V c).owed t = 0
  b2 : ∀ V c, BodyObligation (d2 V c) (defs₀ (F := F)) Variants.none () Set.univ
  i2 : ∀ V c, (Pipeline.ΦA spec2 c : sProp (MT nD τ sig Unit (Elt F) ℕ (UR sig nD τ) ℕ)) ⊢ (d2 V c).Φ 0
  x2 : ∀ V c, (d2 V c).Φ (Fin.last cfg2.N) ⊢ (Pipeline.ΦA spec2 c : sProp (MT nD τ sig Unit (Elt F) ℕ (UR sig nD τ) ℕ))
  r2 : ∀ V c t, (d2 V c).recorded t = Set.univ
  /-- Region 3's proof data, at the contents the region is entered with. -/
  d3 : ((c : Dev nD) → (b : Ref sig .tc) → Buf (Elt F) ((c : Thread nD τ).loc b)) → (c : Dev nD) → Dat τ (Elt F) Unit ℕ (UR sig nD τ) ℕ cfg3 c
  A3 : ∀ V c w, (d3 V c).A w = V c (Pipeline.arrRef spec3 w)
  q3 : ∀ V c w, (d3 V c).q w = fullShare
  o3 : ∀ V c t, (d3 V c).owed t = 0
  b3 : ∀ V c, BodyObligation (d3 V c) (defs₀ (F := F)) Variants.none () Set.univ
  i3 : ∀ V c, (Pipeline.ΦA spec3 c : sProp (MT nD τ sig Unit (Elt F) ℕ (UR sig nD τ) ℕ)) ⊢ (d3 V c).Φ 0
  x3 : ∀ V c, (d3 V c).Φ (Fin.last cfg3.N) ⊢ (Pipeline.ΦA spec3 c : sProp (MT nD τ sig Unit (Elt F) ℕ (UR sig nD τ) ℕ))
  r3 : ∀ V c t, (d3 V c).recorded t = Set.univ

variable (H : Halves F) (m : (ℓ : Loc nD τ sig) → Buf (Elt F) ℓ)

/-! ## The buffers' contents at each segment boundary -/

/-- At launch. -/
abbrev B0 : Dev nD → Valuation τ sig (Elt F) := fun c b => m (c, b)
/-- After the first stretch of host operations. -/
abbrev B1 : Dev nD → Valuation τ sig (Elt F) := fun c => StableHlo.after hostOps0 (B0 m c)

/-- The same read at the TensorCore's references: what region 0 is entered with. -/
abbrev E1 : (c : Dev nD) → (b : Ref sig .tc) → Buf (Elt F) ((c : Thread nD τ).loc b) := fun c b => B1 m c b
/-- After region 0: its arrays at what its write-backs leave, every other buffer as it was. -/
def B2 (c : Dev nD) : Valuation τ sig (Elt F) :=
  Pipeline.withArrays spec0 c (B1 m c) fun w => (H.d0 (E1 m) c).arrAt w cfg0.N
theorem B2_arr (c : Dev nD) (w : Fin cfg0.W) :
    B2 H m c (Proc.devRef .tc (Pipeline.arrRef spec0 w)) = (H.d0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 H m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 H m c b
theorem hF0 (c : Dev nD) (w : Fin cfg0.W) : (H.d0 (E1 m) c).arrAt w cfg0.N = E2 H m c (Pipeline.arrRef spec0 w) :=
  (B2_arr H m c w).symm
theorem hrest0 (c : Dev nD) : ∀ b, b ∉ Finset.univ.image (Pipeline.arrRef spec0) → E2 H m c b = E1 m c b :=
  fun b hb => B2_of_ne H m c b fun w e => hb (Finset.mem_image.mpr ⟨w, Finset.mem_univ _, e⟩)
/-- A buffer that is no OUTPUT window's array of region 0 leaves the region as it entered: an input window's array is
    read only, and any other buffer is not touched. -/
theorem B2_keep (c : Dev nD) (b : Ref sig .tc) (hb : ∀ w : Fin cfg0.W, (cfg0.win w).isOut = true → Pipeline.arrRef spec0 w ≠ b) :
    B2 H m c (Proc.devRef .tc b) = B1 m c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact (B2_arr H m c w).trans (((H.d0 (E1 m) c).arrAt_in w hin _).trans (H.A0 _ c w))
  · exact B2_of_ne H m c b fun w e => h ⟨w, e⟩

/-- After the second stretch of host operations. -/
abbrev B3 : Dev nD → Valuation τ sig (Elt F) := fun c => StableHlo.after hostOps1 (B2 H m c)

/-- The same read at the TensorCore's references: what region 1 is entered with. -/
abbrev E3 : (c : Dev nD) → (b : Ref sig .tc) → Buf (Elt F) ((c : Thread nD τ).loc b) := fun c b => B3 H m c b
/-- After region 1: its arrays at what its write-backs leave, every other buffer as it was. -/
def B4 (c : Dev nD) : Valuation τ sig (Elt F) :=
  Pipeline.withArrays spec1 c (B3 H m c) fun w => (H.d1 (E3 H m) c).arrAt w cfg1.N
theorem B4_arr (c : Dev nD) (w : Fin cfg1.W) :
    B4 H m c (Proc.devRef .tc (Pipeline.arrRef spec1 w)) = (H.d1 (E3 H m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 H m c (Proc.devRef .tc b) = B3 H m c (Proc.devRef .tc b) := by
  unfold B4; exact Pipeline.withArrays_of_ne spec1 c _ _ b hb
abbrev E4 : (c : Dev nD) → (b : Ref sig .tc) → Buf (Elt F) ((c : Thread nD τ).loc b) := fun c b => B4 H m c b
theorem hF1 (c : Dev nD) (w : Fin cfg1.W) : (H.d1 (E3 H m) c).arrAt w cfg1.N = E4 H m c (Pipeline.arrRef spec1 w) :=
  (B4_arr H m c w).symm
theorem hrest1 (c : Dev nD) : ∀ b, b ∉ Finset.univ.image (Pipeline.arrRef spec1) → E4 H m c b = E3 H m c b :=
  fun b hb => B4_of_ne H m c b fun w e => hb (Finset.mem_image.mpr ⟨w, Finset.mem_univ _, e⟩)
/-- A buffer that is no OUTPUT window's array of region 1 leaves the region as it entered: an input window's array is
    read only, and any other buffer is not touched. -/
theorem B4_keep (c : Dev nD) (b : Ref sig .tc) (hb : ∀ w : Fin cfg1.W, (cfg1.win w).isOut = true → Pipeline.arrRef spec1 w ≠ b) :
    B4 H m c (Proc.devRef .tc b) = B3 H m c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact (B4_arr H m c w).trans (((H.d1 (E3 H m) c).arrAt_in w hin _).trans (H.A1 _ c w))
  · exact B4_of_ne H m c b fun w e => h ⟨w, e⟩

/-- After region 2: its arrays at what its write-backs leave, every other buffer as it was. -/
def B5 (c : Dev nD) : Valuation τ sig (Elt F) :=
  Pipeline.withArrays spec2 c (B4 H m c) fun w => (H.d2 (E4 H m) c).arrAt w cfg2.N
theorem B5_arr (c : Dev nD) (w : Fin cfg2.W) :
    B5 H m c (Proc.devRef .tc (Pipeline.arrRef spec2 w)) = (H.d2 (E4 H m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 H m c (Proc.devRef .tc b) = B4 H m c (Proc.devRef .tc b) := by
  unfold B5; exact Pipeline.withArrays_of_ne spec2 c _ _ b hb
abbrev E5 : (c : Dev nD) → (b : Ref sig .tc) → Buf (Elt F) ((c : Thread nD τ).loc b) := fun c b => B5 H m c b
theorem hF2 (c : Dev nD) (w : Fin cfg2.W) : (H.d2 (E4 H m) c).arrAt w cfg2.N = E5 H m c (Pipeline.arrRef spec2 w) :=
  (B5_arr H m c w).symm
theorem hrest2 (c : Dev nD) : ∀ b, b ∉ Finset.univ.image (Pipeline.arrRef spec2) → E5 H m c b = E4 H m c b :=
  fun b hb => B5_of_ne H m c b fun w e => hb (Finset.mem_image.mpr ⟨w, Finset.mem_univ _, e⟩)
/-- A buffer that is no OUTPUT window's array of region 2 leaves the region as it entered: an input window's array is
    read only, and any other buffer is not touched. -/
theorem B5_keep (c : Dev nD) (b : Ref sig .tc) (hb : ∀ w : Fin cfg2.W, (cfg2.win w).isOut = true → Pipeline.arrRef spec2 w ≠ b) :
    B5 H m c (Proc.devRef .tc b) = B4 H m c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact (B5_arr H m c w).trans (((H.d2 (E4 H m) c).arrAt_in w hin _).trans (H.A2 _ c w))
  · exact B5_of_ne H m c b fun w e => h ⟨w, e⟩

/-- After region 3: its arrays at what its write-backs leave, every other buffer as it was. -/
def B6 (c : Dev nD) : Valuation τ sig (Elt F) :=
  Pipeline.withArrays spec3 c (B5 H m c) fun w => (H.d3 (E5 H m) c).arrAt w cfg3.N
theorem B6_arr (c : Dev nD) (w : Fin cfg3.W) :
    B6 H m c (Proc.devRef .tc (Pipeline.arrRef spec3 w)) = (H.d3 (E5 H m) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 H m c (Proc.devRef .tc b) = B5 H m c (Proc.devRef .tc b) := by
  unfold B6; exact Pipeline.withArrays_of_ne spec3 c _ _ b hb
abbrev E6 : (c : Dev nD) → (b : Ref sig .tc) → Buf (Elt F) ((c : Thread nD τ).loc b) := fun c b => B6 H m c b
theorem hF3 (c : Dev nD) (w : Fin cfg3.W) : (H.d3 (E5 H m) c).arrAt w cfg3.N = E6 H m c (Pipeline.arrRef spec3 w) :=
  (B6_arr H m c w).symm
theorem hrest3 (c : Dev nD) : ∀ b, b ∉ Finset.univ.image (Pipeline.arrRef spec3) → E6 H m c b = E5 H m c b :=
  fun b hb => B6_of_ne H m c b fun w e => hb (Finset.mem_image.mpr ⟨w, Finset.mem_univ _, e⟩)
/-- A buffer that is no OUTPUT window's array of region 3 leaves the region as it entered: an input window's array is
    read only, and any other buffer is not touched. -/
theorem B6_keep (c : Dev nD) (b : Ref sig .tc) (hb : ∀ w : Fin cfg3.W, (cfg3.win w).isOut = true → Pipeline.arrRef spec3 w ≠ b) :
    B6 H m c (Proc.devRef .tc b) = B5 H m c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact (B6_arr H m c w).trans (((H.d3 (E5 H m) c).arrAt_in w hin _).trans (H.A3 _ c w))
  · exact B6_of_ne H m c b fun w e => h ⟨w, e⟩

/-- A buffer the first stretch of host operations does not write keeps its launch contents. -/
theorem B1_keep (c : Dev nD) (r : Ref sig .tc) (h : r ∉ hostOps0_W) : B1 m c (Proc.devRef .tc r) = m ((c : Thread nD τ).loc r) :=
  StableHlo.after_of_writes_sub hostOps0 _ hostOps0_writes h
/-- A buffer the second stretch does not write keeps what region 0 left. -/
theorem B3_keep (c : Dev nD) (r : Ref sig .tc) (h : r ∉ hostOps1_W) : B3 H m c (Proc.devRef .tc r) = B2 H m c (Proc.devRef .tc r) :=
  StableHlo.after_of_writes_sub hostOps1 _ hostOps1_writes h

/-! ## The proof data family and the thread state -/

/-- No region has a prefetched table. -/
abbrev admH : (p : Fin 4) → (pcfgs (F := F) p).Adm := fun p => (cfgs p).toPCfg_adm
/-- Every region's proof data at the contents it is entered with. -/
def pdatsH : (p : Fin 4) → (c : Dev nD) → Dat τ (Elt F) Unit ℕ (UR sig nD τ) ℕ (Pipeline.pin (pcfgs (F := F)) admH p) c
  | ⟨0, _⟩ => fun c => H.d0 (E1 m) c
  | ⟨1, _⟩ => fun c => H.d1 (E3 H m) c
  | ⟨2, _⟩ => fun c => H.d2 (E4 H m) c
  | ⟨3, _⟩ => fun c => H.d3 (E5 H m) c
abbrev 𝒱H : Variants := Variants.none
/-- No core owes another anything. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A stretch of host operations as a segment over the unscoped buffers. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev TnH (c : Dev nD) : sProp 𝕄 := iprop(StableHlo.held (c : Thread nD τ) (Pipeline.ucRefs τ sig) (B6 H m c) ∗ ∃ r, prngReg c r)

/-! ## The regions as segments -/

set_option backward.isDefEq.respectTransparency.types false in
set_option maxHeartbeats 2000000 in
/-- Region 0 as a segment: entered with every unscoped buffer at the contents before it, left with them at the contents
    after it. Its windows' arrays are split out of the unscoped buffers on entry and put back, at what the write-backs
    leave, on exit; the generator register goes into the region's invariant and comes back; nothing is owed; the kernel
    has no semaphore of its own. -/
def reg0 : Pipeline.RegionSeg (pcfgs (F := F)) admH (pdatsH H m) () defs₀ 𝒱H LH lvH 0 where
  win := launch0.win.to₀
  block_pos := launch0.block_pos
  stage_whole := launch0.stage_whole
  K := PEmpty
  osem k := k.elim
  ho := Pipeline.OwnSemFacts.none _
  hbody c := (H.b0 (E1 m) c).loose
  hwaits := Pipeline.hwaits_of_owed_zero _ _ _ _ LH lvH 0 fun c t => H.o0 (E1 m) c t
  pre c := iprop(StableHlo.held (c : Thread nD τ) (Pipeline.ucRefs τ sig) (B1 m c) ∗ RH c)
  post c := iprop(StableHlo.held (c : Thread nD τ) (Pipeline.ucRefs τ sig) (B2 H m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH H m) launch0.win launch0.arr_whole c
      ((pdatsH H m 0 c).share_full fun w => H.q0 (E1 m) c w) (E1 m c) fun w => H.A0 (E1 m) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsH H m 0 c).owed 0 = 0 from H.o0 (E1 m) c 0]
      icases HO with ⟨%W, HO⟩; iexists W; isplitr
      · ipureintro
        exact fun x _ => Or.inl (by rw [show (pdatsH H m 0 c).recorded 0 = Set.univ from H.r0 (E1 m) c 0]; trivial)
      iexact HO
    isplitl [Hp]; · iexact Hp
    iexact Hrest
  hin c := by
    refine BIBase.Entails.trans ?_ (H.i0 (E1 m) c)
    unfold Pipeline.ΦA
    iintro ⟨Hp, -, Hr⟩
    isplitl [Hr]; · iexact Hr
    iexact Hp
  hout c := by
    rw [Pipeline.ownSems0_none]
    refine BIBase.Entails.trans (H.x0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH H m) ((pdatsH H m 0 c).share_full fun w => H.q0 (E1 m) c w)
      (E1 m c) (E2 H m c) ((pdatsH H m 0 c).arrAt · cfg0.N) (hF0 H m c) (hrest0 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdatsH H m 0 c).owed (Fin.last _) = 0 from H.o0 (E1 m) c _]
    icases HO with ⟨%W, -, HO⟩; iexists W; iexact HO

set_option backward.isDefEq.respectTransparency.types false in
set_option maxHeartbeats 2000000 in
/-- Region 1 as a segment: entered with every unscoped buffer at the contents before it, left with them at the contents
    after it. Its windows' arrays are split out of the unscoped buffers on entry and put back, at what the write-backs
    leave, on exit; the generator register goes into the region's invariant and comes back; nothing is owed; the kernel
    has no semaphore of its own. -/
def reg1 : Pipeline.RegionSeg (pcfgs (F := F)) admH (pdatsH H m) () defs₀ 𝒱H LH lvH 1 where
  win := launch1.win.to₀
  block_pos := launch1.block_pos
  stage_whole := launch1.stage_whole
  K := PEmpty
  osem k := k.elim
  ho := Pipeline.OwnSemFacts.none _
  hbody c := (H.b1 (E3 H m) c).loose
  hwaits := Pipeline.hwaits_of_owed_zero _ _ _ _ LH lvH 1 fun c t => H.o1 (E3 H m) c t
  pre c := iprop(StableHlo.held (c : Thread nD τ) (Pipeline.ucRefs τ sig) (B3 H m c) ∗ RH c)
  post c := iprop(StableHlo.held (c : Thread nD τ) (Pipeline.ucRefs τ sig) (B4 H m c) ∗ RH c)
  X c := iprop(∃ r, prngReg c r)
  Y c := iprop(∃ r, prngReg c r)
  Z c := Pipeline.unscopedRest (Ix := Unit) (Name := ℕ) (U := UR sig nD τ) (Lvl := ℕ) spec1 c (E3 H m c)
  hentry c := by
    rw [Pipeline.ownSems0_none]
    have hsplit := Pipeline.arrays_of_unscopedBufs (p := 1) (pcfgs (F := F)) admH (pdatsH H m) launch1.win launch1.arr_whole c
      ((pdatsH H m 1 c).share_full fun w => H.q1 (E3 H m) c w) (E3 H m c) fun w => H.A1 (E3 H m) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsH H m 1 c).owed 0 = 0 from H.o1 (E3 H m) c 0]
      icases HO with ⟨%W, HO⟩; iexists W; isplitr
      · ipureintro
        exact fun x _ => Or.inl (by rw [show (pdatsH H m 1 c).recorded 0 = Set.univ from H.r1 (E3 H m) c 0]; trivial)
      iexact HO
    isplitl [Hp]; · iexact Hp
    iexact Hrest
  hin c := by
    refine BIBase.Entails.trans ?_ (H.i1 (E3 H m) c)
    unfold Pipeline.ΦA
    iintro ⟨Hp, -, Hr⟩
    isplitl [Hr]; · iexact Hr
    iexact Hp
  hout c := by
    rw [Pipeline.ownSems0_none]
    refine BIBase.Entails.trans (H.x1 (E3 H m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH H m) ((pdatsH H m 1 c).share_full fun w => H.q1 (E3 H m) c w)
      (E3 H m c) (E4 H m c) ((pdatsH H m 1 c).arrAt · cfg1.N) (hF1 H m c) (hrest1 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdatsH H m 1 c).owed (Fin.last _) = 0 from H.o1 (E3 H m) c _]
    icases HO with ⟨%W, -, HO⟩; iexists W; iexact HO

set_option backward.isDefEq.respectTransparency.types false in
set_option maxHeartbeats 2000000 in
/-- Region 2 as a segment: entered with every unscoped buffer at the contents before it, left with them at the contents
    after it. Its windows' arrays are split out of the unscoped buffers on entry and put back, at what the write-backs
    leave, on exit; the generator register goes into the region's invariant and comes back; nothing is owed; the kernel
    has no semaphore of its own. -/
def reg2 : Pipeline.RegionSeg (pcfgs (F := F)) admH (pdatsH H m) () defs₀ 𝒱H LH lvH 2 where
  win := launch2.win.to₀
  block_pos := launch2.block_pos
  stage_whole := launch2.stage_whole
  K := PEmpty
  osem k := k.elim
  ho := Pipeline.OwnSemFacts.none _
  hbody c := (H.b2 (E4 H m) c).loose
  hwaits := Pipeline.hwaits_of_owed_zero _ _ _ _ LH lvH 2 fun c t => H.o2 (E4 H m) c t
  pre c := iprop(StableHlo.held (c : Thread nD τ) (Pipeline.ucRefs τ sig) (B4 H m c) ∗ RH c)
  post c := iprop(StableHlo.held (c : Thread nD τ) (Pipeline.ucRefs τ sig) (B5 H m c) ∗ RH c)
  X c := iprop(∃ r, prngReg c r)
  Y c := iprop(∃ r, prngReg c r)
  Z c := Pipeline.unscopedRest (Ix := Unit) (Name := ℕ) (U := UR sig nD τ) (Lvl := ℕ) spec2 c (E4 H m c)
  hentry c := by
    rw [Pipeline.ownSems0_none]
    have hsplit := Pipeline.arrays_of_unscopedBufs (p := 2) (pcfgs (F := F)) admH (pdatsH H m) launch2.win launch2.arr_whole c
      ((pdatsH H m 2 c).share_full fun w => H.q2 (E4 H m) c w) (E4 H m c) fun w => H.A2 (E4 H m) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsH H m 2 c).owed 0 = 0 from H.o2 (E4 H m) c 0]
      icases HO with ⟨%W, HO⟩; iexists W; isplitr
      · ipureintro
        exact fun x _ => Or.inl (by rw [show (pdatsH H m 2 c).recorded 0 = Set.univ from H.r2 (E4 H m) c 0]; trivial)
      iexact HO
    isplitl [Hp]; · iexact Hp
    iexact Hrest
  hin c := by
    refine BIBase.Entails.trans ?_ (H.i2 (E4 H m) c)
    unfold Pipeline.ΦA
    iintro ⟨Hp, -, Hr⟩
    isplitl [Hr]; · iexact Hr
    iexact Hp
  hout c := by
    rw [Pipeline.ownSems0_none]
    refine BIBase.Entails.trans (H.x2 (E4 H m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH H m) ((pdatsH H m 2 c).share_full fun w => H.q2 (E4 H m) c w)
      (E4 H m c) (E5 H m c) ((pdatsH H m 2 c).arrAt · cfg2.N) (hF2 H m c) (hrest2 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdatsH H m 2 c).owed (Fin.last _) = 0 from H.o2 (E4 H m) c _]
    icases HO with ⟨%W, -, HO⟩; iexists W; iexact HO

set_option backward.isDefEq.respectTransparency.types false in
set_option maxHeartbeats 2000000 in
/-- Region 3 as a segment: entered with every unscoped buffer at the contents before it, left with them at the contents
    after it. Its windows' arrays are split out of the unscoped buffers on entry and put back, at what the write-backs
    leave, on exit; the generator register goes into the region's invariant and comes back; nothing is owed; the kernel
    has no semaphore of its own. -/
def reg3 : Pipeline.RegionSeg (pcfgs (F := F)) admH (pdatsH H m) () defs₀ 𝒱H LH lvH 3 where
  win := launch3.win.to₀
  block_pos := launch3.block_pos
  stage_whole := launch3.stage_whole
  K := PEmpty
  osem k := k.elim
  ho := Pipeline.OwnSemFacts.none _
  hbody c := (H.b3 (E5 H m) c).loose
  hwaits := Pipeline.hwaits_of_owed_zero _ _ _ _ LH lvH 3 fun c t => H.o3 (E5 H m) c t
  pre c := iprop(StableHlo.held (c : Thread nD τ) (Pipeline.ucRefs τ sig) (B5 H m c) ∗ RH c)
  post c := iprop(TnH H m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E5 H m c)
  hentry c := by
    rw [Pipeline.ownSems0_none]
    have hsplit := Pipeline.arrays_of_unscopedBufs (p := 3) (pcfgs (F := F)) admH (pdatsH H m) launch3.win launch3.arr_whole c
      ((pdatsH H m 3 c).share_full fun w => H.q3 (E5 H m) c w) (E5 H m c) fun w => H.A3 (E5 H m) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsH H m 3 c).owed 0 = 0 from H.o3 (E5 H m) c 0]
      icases HO with ⟨%W, HO⟩; iexists W; isplitr
      · ipureintro
        exact fun x _ => Or.inl (by rw [show (pdatsH H m 3 c).recorded 0 = Set.univ from H.r3 (E5 H m) c 0]; trivial)
      iexact HO
    isplitl [Hp]; · iexact Hp
    iexact Hrest
  hin c := by
    refine BIBase.Entails.trans ?_ (H.i3 (E5 H m) c)
    unfold Pipeline.ΦA
    iintro ⟨Hp, -, Hr⟩
    isplitl [Hr]; · iexact Hr
    iexact Hp
  hout c := by
    rw [Pipeline.ownSems0_none]
    refine BIBase.Entails.trans (H.x3 (E5 H m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH H m) ((pdatsH H m 3 c).share_full fun w => H.q3 (E5 H m) c w)
      (E5 H m c) (E6 H m c) ((pdatsH H m 3 c).arrAt · cfg3.N) (hF3 H m c) (hrest3 H m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdatsH H m 3 c).owed (Fin.last _) = 0 from H.o3 (E5 H m) c _]
    icases HO with ⟨%W, -, HO⟩; iexists W; iexact HO

/-! ## The launch -/

/-- The six segments in order. -/
abbrev segsH : List (Pipeline.Seg (pcfgs (F := F)) admH (pdatsH H m) () defs₀ 𝒱H LH lvH) :=
  [ .host (hsegH hostOps0 hostOps0_sub hostOps0_fresh (B0 m)),
    .region (reg0 H m),
    .host (hsegH hostOps1 hostOps1_sub hostOps1_fresh (B2 H m)),
    .region (reg1 H m),
    .region (reg2 H m),
    .region (reg3 H m) ]
/-- The program is the run of its segments. -/
theorem main_runH (c : Dev nD) : main (F := F) c = Pipeline.Seg.run (segsH H m) := (main_chain c).trans (by chain_rfl)

set_option backward.isDefEq.respectTransparency.types false in
/-- From any launch memory with zero counters, every weakly fair execution terminates, nothing faulting, and the final
    memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B6 H m c b) :=
  Pipeline.θ_run_regions_kit (pcfgs (F := F)) admH (pdatsH H m) () cellOf_inj emb₁ defs₀ 𝒱H LH lvH m ρ main (segsH H m)
    (fun c Q => by rw [main_runH H m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RH c)) (Tₙ := TnH H m)
    (hch := ⟨fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 H m c b)
    (hfin := fun c s' => by
      iintro ⟨⟨Hh, -⟩, HSI⟩
      unfold StableHlo.held
      imodintro
      iapply (pointsTo_read_all (Pipeline.ucRefs τ sig) (fun b => (((c : Thread nD τ)).1, b)) (B6 H m c) s')
      isplitl [Hh] <;> iassumption)
    (hQ := fun s h => h)

end Cert.KernelIdeal.Hand

end
-- ==== Proof.KI.Frame.lean ====
/-
  The frame of the whole program: every argument array ends as launched. No host operation writes an argument, and every
  region meets an argument only as an input window's array or not at all, so each argument's buffer at the last segment
  boundary walks back through the fold to the launch memory.
-/
import proofs.«178145_j14508399526340_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ)

/-- A buffer that no host operation writes and that is no output window's array of any region holds at the last
    boundary what the launch memory held. -/
theorem B6_of_untouched (c : Dev nD) (r : Ref sig .tc)
    (h0 : ∀ w : Fin cfg0.W, (cfg0.win w).isOut = true → Pipeline.arrRef spec0 w ≠ r)
    (h1 : ∀ w : Fin cfg1.W, (cfg1.win w).isOut = true → Pipeline.arrRef spec1 w ≠ r)
    (h2 : ∀ w : Fin cfg2.W, (cfg2.win w).isOut = true → Pipeline.arrRef spec2 w ≠ r)
    (h3 : ∀ w : Fin cfg3.W, (cfg3.win w).isOut = true → Pipeline.arrRef spec3 w ≠ r)
    (hh0 : r ∉ hostOps0_W) (hh1 : r ∉ hostOps1_W) :
    B6 H m c (Proc.devRef .tc r) = m ((c : Thread nD τ).loc r) :=
  (B6_keep H m c r h3).trans <| (B5_keep H m c r h2).trans <| (B4_keep H m c r h1).trans <|
    (B3_keep H m c r hh1).trans <| (B2_keep H m c r h0).trans (B1_keep m c r hh0)

theorem B6_main_arg0 (c : Dev nD) : B6 H m c (Proc.devRef .tc main_arg0) = m ((c : Thread nD τ).loc main_arg0) :=
  B6_of_untouched H m c main_arg0 (by decide) (by decide) (by decide) (by decide) (by decide) (by decide)
theorem B6_main_arg1 (c : Dev nD) : B6 H m c (Proc.devRef .tc main_arg1) = m ((c : Thread nD τ).loc main_arg1) :=
  B6_of_untouched H m c main_arg1 (by decide) (by decide) (by decide) (by decide) (by decide) (by decide)
theorem B6_main_arg2 (c : Dev nD) : B6 H m c (Proc.devRef .tc main_arg2) = m ((c : Thread nD τ).loc main_arg2) :=
  B6_of_untouched H m c main_arg2 (by decide) (by decide) (by decide) (by decide) (by decide) (by decide)
theorem B6_main_arg3 (c : Dev nD) : B6 H m c (Proc.devRef .tc main_arg3) = m ((c : Thread nD τ).loc main_arg3) :=
  B6_of_untouched H m c main_arg3 (by decide) (by decide) (by decide) (by decide) (by decide) (by decide)
theorem B6_main_arg4 (c : Dev nD) : B6 H m c (Proc.devRef .tc main_arg4) = m ((c : Thread nD τ).loc main_arg4) :=
  B6_of_untouched H m c main_arg4 (by decide) (by decide) (by decide) (by decide) (by decide) (by decide)
theorem B6_main_arg5 (c : Dev nD) : B6 H m c (Proc.devRef .tc main_arg5) = m ((c : Thread nD τ).loc main_arg5) :=
  B6_of_untouched H m c main_arg5 (by decide) (by decide) (by decide) (by decide) (by decide) (by decide)
theorem B6_main_arg6 (c : Dev nD) : B6 H m c (Proc.devRef .tc main_arg6) = m ((c : Thread nD τ).loc main_arg6) :=
  B6_of_untouched H m c main_arg6 (by decide) (by decide) (by decide) (by decide) (by decide) (by decide)
theorem B6_main_arg7 (c : Dev nD) : B6 H m c (Proc.devRef .tc main_arg7) = m ((c : Thread nD τ).loc main_arg7) :=
  B6_of_untouched H m c main_arg7 (by decide) (by decide) (by decide) (by decide) (by decide) (by decide)
theorem B6_main_arg8 (c : Dev nD) : B6 H m c (Proc.devRef .tc main_arg8) = m ((c : Thread nD τ).loc main_arg8) :=
  B6_of_untouched H m c main_arg8 (by decide) (by decide) (by decide) (by decide) (by decide) (by decide)
theorem B6_main_arg9 (c : Dev nD) : B6 H m c (Proc.devRef .tc main_arg9) = m ((c : Thread nD τ).loc main_arg9) :=
  B6_of_untouched H m c main_arg9 (by decide) (by decide) (by decide) (by decide) (by decide) (by decide)
theorem B6_main_arg10 (c : Dev nD) : B6 H m c (Proc.devRef .tc main_arg10) = m ((c : Thread nD τ).loc main_arg10) :=
  B6_of_untouched H m c main_arg10 (by decide) (by decide) (by decide) (by decide) (by decide) (by decide)

/-- Every weakly fair execution of the program terminates, nothing faulting, with each argument array as launched. -/
theorem frameH (H : Halves F) (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_ucH main_arg0 (by decide))).trans (B6_main_arg0 H m c),
     (h c _ (mem_ucH main_arg1 (by decide))).trans (B6_main_arg1 H m c),
     (h c _ (mem_ucH main_arg2 (by decide))).trans (B6_main_arg2 H m c),
     (h c _ (mem_ucH main_arg3 (by decide))).trans (B6_main_arg3 H m c),
     (h c _ (mem_ucH main_arg4 (by decide))).trans (B6_main_arg4 H m c),
     (h c _ (mem_ucH main_arg5 (by decide))).trans (B6_main_arg5 H m c),
     (h c _ (mem_ucH main_arg6 (by decide))).trans (B6_main_arg6 H m c),
     (h c _ (mem_ucH main_arg7 (by decide))).trans (B6_main_arg7 H m c),
     (h c _ (mem_ucH main_arg8 (by decide))).trans (B6_main_arg8 H m c),
     (h c _ (mem_ucH main_arg9 (by decide))).trans (B6_main_arg9 H m c),
     (h c _ (mem_ucH main_arg10 (by decide))).trans (B6_main_arg10 H m c)⟩)
    (run_all H m ρ)

end Cert.KernelIdeal.Hand

end
-- ==== Proof.KI.R0.lean ====
import proofs.«178145_j14508399526340_2_alg».proof.Proof.Gen.KernelIdeal.Launch
import proofs.«178145_j14508399526340_2_alg».proof.Proof.Gen.KernelIdeal.Skeleton
import proofs.«178145_j14508399526340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The forward region (the first TensorCore call of the program), at the buffer contents `V` it is entered with

One grid point handles one block of 128 rows of the activations. The body reads that row block and the three whole
weight matrices, forms the three layers one after the other (a product, then the positive part feeding the next
product) and writes one row block of each of four results. Nothing is carried from one grid point to the next, so
what each result buffer holds after the body is a closed function of the four blocks read at that point. -/

section Region0

variable (V : (c : Dev nD) → (b : Ref sig .tc) → Buf (Elt F) ((c : Thread nD τ).loc b))

/-! ## The blocks of the windows -/

/-- The block of window `w` at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The body only reads its four inputs, so an input's buffer holds the window's block at every grid point: at a point
where the block is brought in this is what the transfer delivers, and at a point where it is not (the three weight
matrices have one block, brought in once at the first point) the block index is the one of the point before and the
buffer has not been written since. Stated for any proof data with the array `V`'s and the block left in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

abbrev r0A : Rect S128x2048 := Rect.unit (s := S128x2048) ![0, 0] S128x2048.size inb_S128x2048_S128x2048_0_0
abbrev r0B : Rect S2048x2048 := Rect.unit (s := S2048x2048) ![0, 0] S2048x2048.size inb_S2048x2048_S2048x2048_0_0
abbrev r0C : Rect S2048x2050 := Rect.unit (s := S2048x2050) ![0, 0] S2048x2050.size inb_S2048x2050_S2048x2050_0_0
abbrev r0D : Rect S128x2050 := Rect.unit (s := S128x2050) ![0, 0] S128x2050.size inb_S128x2050_S128x2050_0_0

/-! ## What the body leaves in the four result buffers

Each result buffer receives exactly one store, over the whole buffer, so its contents afterwards are that store's
value: the first layer rounded, the second layer rounded, the third layer rounded, and the third layer's leading
2048 columns unrounded. -/

def out0_4 (x0 : Vec F S128x2048 .f32) (x1 : Vec F S2048x2048 .bf16) : Vec F S128x2048 .bf16 :=
  View.canon [⟨r0A, k0_pay4 (View.ld x0 r0A) (View.ld x1 r0B)⟩]

def out0_5 (x0 : Vec F S128x2048 .f32) (x1 x2 : Vec F S2048x2048 .bf16) : Vec F S128x2048 .bf16 :=
  View.canon [⟨r0A, k0_pay5 (View.ld x0 r0A) (View.ld x1 r0B) (View.ld x2 r0B)⟩]

def out0_6 (x0 : Vec F S128x2048 .f32) (x1 x2 : Vec F S2048x2048 .bf16) (x3 : Vec F S2048x2050 .bf16) : Vec F S128x2050 .bf16 :=
  View.canon [⟨r0D, k0_pay6 (View.ld x0 r0A) (View.ld x1 r0B) (View.ld x2 r0B) (View.ld x3 r0C)⟩]

def out0_7 (x0 : Vec F S128x2048 .f32) (x1 x2 : Vec F S2048x2048 .bf16) (x3 : Vec F S2048x2050 .bf16) : Vec F S128x2048 .f32 :=
  View.canon [⟨r0A, k0_pay7 (View.ld x0 r0A) (View.ld x1 r0B) (View.ld x2 r0B) (View.ld x3 r0C)⟩]

/-- A single store over the whole of a 128 x 2048 buffer reaches every index of it; -/
theorem cover0A {e : EltTy} (p0 : r0A.shape.Idx → Elt F e) (y : S128x2048.Idx) :
    ∃ pc ∈ ([⟨r0A, p0⟩] : List (View.Piece (Elt F) S128x2048 e)), y ∈ pc.1.set :=
  View.cover_of_tiled [⟨r0A, p0⟩] S128x2048.size (by rfl) y

/-- and the same of a 128 x 2050 buffer. -/
theorem cover0D {e : EltTy} (p0 : r0D.shape.Idx → Elt F e) (y : S128x2050.Idx) :
    ∃ pc ∈ ([⟨r0D, p0⟩] : List (View.Piece (Elt F) S128x2050 e)), y ∈ pc.1.set :=
  View.cover_of_tiled [⟨r0D, p0⟩] S128x2050.size (by rfl) y

/-! ## The body's triple -/

set_option maxHeartbeats 4000000 in
/-- The body run on eight whole buffers — the four inputs read as `x0 … x3`, the four results holding anything —
    ends with the inputs unchanged and each result buffer at its closed form. The body also reads each result
    buffer just before overwriting it; what it reads there is discarded. -/
theorem sound_kernel0 (c : Dev nD) (E : Set ℕ) (i : grid0.Coords)
    (arg1 : Memref sig .tc .vmem S128x2048 .f32) (harg1 : arg1.IsWhole) (arg2 : Memref sig .tc .vmem S2048x2048 .bf16) (harg2 : arg2.IsWhole)
    (arg3 : Memref sig .tc .vmem S2048x2048 .bf16) (harg3 : arg3.IsWhole) (arg4 : Memref sig .tc .vmem S2048x2050 .bf16) (harg4 : arg4.IsWhole)
    (arg5 : Memref sig .tc .vmem S128x2048 .bf16) (harg5 : arg5.IsWhole) (arg6 : Memref sig .tc .vmem S128x2048 .bf16) (harg6 : arg6.IsWhole)
    (arg7 : Memref sig .tc .vmem S128x2050 .bf16) (harg7 : arg7.IsWhole) (arg8 : Memref sig .tc .vmem S128x2048 .f32) (harg8 : arg8.IsWhole)
    (x0 : Vec F S128x2048 .f32) (x1 x2 : Vec F S2048x2048 .bf16) (x3 : Vec F S2048x2050 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x2 x3) ∗ owns (c : Thread nD τ) arg8 fullShare (out0_7 x0 x1 x2 x3)) -∗ K ⟨⟩))
      ⊢ wp frame (wpE (defs₀ (F := F)) Variants.none c none) E
          (cc0__fwd_kernel i arg1 harg1 arg2 harg2 arg3 harg3 arg4 harg4 arg5 harg5 arg6 harg6 arg7 harg7 arg8 harg8) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0A _)
  isplitl [H5]
  · iexists _; isplitr
    swap; · iexact H5
    ipureintro
    exact View.read_writes_eq_canon _ _ _ (cover0A _)
  isplitl [H6]
  · iexists _; isplitr
    swap; · iexact H6
    ipureintro
    exact View.read_writes_eq_canon _ _ _ (cover0D _)
  iexists _; isplitr
  swap; · iexact H7
  ipureintro
  exact View.read_writes_eq_canon _ _ _ (cover0A _)

/-! ## The proof data of the region -/

/-- The arrays are the ones the region is entered with; after the body at point `t` an input's buffer still holds its
    block and a result's buffer holds its closed form at the four input blocks; the invariant is the plain one (the
    scoped buffers and the generator register pass through untouched); every share is whole; no core owes anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) := by dsimp only [dat0]
theorem after0_7 (c : Dev nD) (t : Fin cfg0.N) :
    (dat0 V c).after 7 t = out0_7 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at a generic grid point -/

/-- What the body is entered with at point `t`: the invariant, the core's debts, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any grid point: its four input buffers hold their blocks, so the triple above applies; the invariant
    and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region, at every grid point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Runs.lean ====
import proofs.«178145_j14508399526340_2_alg».proof.Proof.Gen.KernelIdeal.Launch
import proofs.«178145_j14508399526340_2_alg».proof.Proof.Gen.KernelIdeal.Skeleton
import proofs.«178145_j14508399526340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks of region 1, read off the contents `V` the region is entered with -/

/-- The block of window `w` at grid position `t`: the rectangle of the window's array that the index map selects
    there, read from `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whenever the body is called its current buffer holds the window's block at that position, whether the
    block was transferred at this position or at an earlier one with the same block index, provided the body leaves the
    buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whenever the body is called its current buffer holds the window's block at that position, whether the
    block was transferred at this position or at an earlier one with the same block index, provided the body leaves the
    buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whenever the body is called its current buffer holds the window's block at that position, whether the
    block was transferred at this position or at an earlier one with the same block index, provided the body leaves the
    buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: whenever the body is called its current buffer holds the window's block at that position, whether the
    block was transferred at this position or at an earlier one with the same block index, provided the body leaves the
    buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: whenever the body is called its current buffer holds the window's block at that position, whether the
    block was transferred at this position or at an earlier one with the same block index, provided the body leaves the
    buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions of the body, as functions of the grid position -/

/-- The first conditional (zero the accumulator): the innermost coordinate is 0. -/
abbrev cond1_0 (i : grid1.Coords) : Prop := (Scalar.cmpi .ne (Scalar.extui (Scalar.cmpi .eq (BitVec.ofNat 32 (i 2).val) 0#32)) 0#32) = 1#1
/-- In the linear order of the grid this is: position ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (finish: store the two outputs): the innermost coordinate is the last one. -/
abbrev cond1_1 (i : grid1.Coords) : Prop := k1_cond2 i = 1#1
/-- In the linear order of the grid this is: position ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where each window is live and where it is idle -/

/-- Input window 0 is live at every position. -/
theorem liveAt1_0 : ∀ t : Fin cfg1.N, cfg1.idle 0 (grid1.coords t) = false := by decide +kernel
/-- Input window 1 is live at every position. -/
theorem liveAt1_1 : ∀ t : Fin cfg1.N, cfg1.idle 1 (grid1.coords t) = false := by decide +kernel
/-- Input window 2 is live at every position. -/
theorem liveAt1_2 : ∀ t : Fin cfg1.N, cfg1.idle 2 (grid1.coords t) = false := by decide +kernel
/-- Input window 3 is live at every position. -/
theorem liveAt1_3 : ∀ t : Fin cfg1.N, cfg1.idle 3 (grid1.coords t) = false := by decide +kernel
/-- Input window 4 is live at every position. -/
theorem liveAt1_4 : ∀ t : Fin cfg1.N, cfg1.idle 4 (grid1.coords t) = false := by decide +kernel

/-- Output window 5 is idle where the accumulator is zeroed and the outputs are not yet stored, -/
theorem idleAt1_5_A : ∀ t : Fin cfg1.N, cond1_0 (grid1.coords t) → ¬cond1_1 (grid1.coords t) → cfg1.idle 5 (grid1.coords t) = true := by decide +kernel
/-- and its block is not written back there; -/
theorem noFlush1_5_A : ∀ t : Fin cfg1.N, cond1_0 (grid1.coords t) → ¬cond1_1 (grid1.coords t) → (cfg1.win 5).flush t = false := by decide +kernel
/-- idle at the positions in the middle of an accumulation, -/
theorem idleAt1_5_B : ∀ t : Fin cfg1.N, ¬cond1_0 (grid1.coords t) → ¬cond1_1 (grid1.coords t) → cfg1.idle 5 (grid1.coords t) = true := by decide +kernel
/-- not written back there either; -/
theorem noFlush1_5_B : ∀ t : Fin cfg1.N, ¬cond1_0 (grid1.coords t) → ¬cond1_1 (grid1.coords t) → (cfg1.win 5).flush t = false := by decide +kernel
/-- and live where the accumulation finishes. -/
theorem liveAt1_5_C : ∀ t : Fin cfg1.N, ¬cond1_0 (grid1.coords t) → cond1_1 (grid1.coords t) → cfg1.idle 5 (grid1.coords t) = false := by decide +kernel

/-- Output window 6 is idle where the accumulator is zeroed and the outputs are not yet stored, -/
theorem idleAt1_6_A : ∀ t : Fin cfg1.N, cond1_0 (grid1.coords t) → ¬cond1_1 (grid1.coords t) → cfg1.idle 6 (grid1.coords t) = true := by decide +kernel
/-- and its block is not written back there; -/
theorem noFlush1_6_A : ∀ t : Fin cfg1.N, cond1_0 (grid1.coords t) → ¬cond1_1 (grid1.coords t) → (cfg1.win 6).flush t = false := by decide +kernel
/-- idle at the positions in the middle of an accumulation, -/
theorem idleAt1_6_B : ∀ t : Fin cfg1.N, ¬cond1_0 (grid1.coords t) → ¬cond1_1 (grid1.coords t) → cfg1.idle 6 (grid1.coords t) = true := by decide +kernel
/-- not written back there either; -/
theorem noFlush1_6_B : ∀ t : Fin cfg1.N, ¬cond1_0 (grid1.coords t) → ¬cond1_1 (grid1.coords t) → (cfg1.win 6).flush t = false := by decide +kernel
/-- and live where the accumulation finishes. -/
theorem liveAt1_6_C : ∀ t : Fin cfg1.N, ¬cond1_0 (grid1.coords t) → cond1_1 (grid1.coords t) → cfg1.idle 6 (grid1.coords t) = false := by decide +kernel

/-! ## The buffers the body is called on -/

/-- The accumulator: a whole buffer of the kernel's own, carried from one position to the next. -/
abbrev scM1_0 : Memref sig .tc .vmem S512x1024 .f32 := Memref.whole cc1_scratch0
/-- The accumulator as a view: its contents are stated through it. -/
abbrev VS1_0 : View sig .tc .vmem S512x1024 .f32 := scM1_0.view
/-- One buffer of each output window, through which that window's contents are stated (which of the window's buffers is
    chosen makes no difference to what is read back). -/
abbrev VO1_5 : View sig .tc .vmem S512x1024 .f32 := (Memref.whole cc1_stg5_0 : Memref sig .tc .vmem S512x1024 .f32).view
abbrev VO1_6 : View sig .tc .vmem S512x1024 .f32 := (Memref.whole cc1_stg6_0 : Memref sig .tc .vmem S512x1024 .f32).view
/-- The buffer window 0 is on at position `t`, and that it is a whole buffer. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
/-- The buffer window 1 is on at position `t`, and that it is a whole buffer. -/
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
/-- The buffer window 2 is on at position `t`, and that it is a whole buffer. -/
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
/-- The buffer window 3 is on at position `t`, and that it is a whole buffer. -/
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The buffer window 4 is on at position `t`, and that it is a whole buffer. -/
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The buffer window 5 is on at position `t`, and that it is a whole buffer. -/
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
/-- The buffer window 6 is on at position `t`, and that it is a whole buffer. -/
abbrev ms1_6 (t : Fin cfg1.N) : Memref sig .tc .vmem S512x1024 .f32 := win1_6.stage (cfg1.slots t 6)
abbrev hs1_6 (t : Fin cfg1.N) : (ms1_6 t).IsWhole := hstage1_6 ((cfg1.slots t 6).cast nbuf1_6)

/-- What the region's invariant is made of before the first position: the accumulator at some contents, every other
    buffer local to the core that no window uses (kept closed), and the random-number register at some state. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.R1RunA.lean ====
import proofs.«178145_j14508399526340_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation starts (the accumulator is zeroed first, the outputs are not stored). On whole buffers —
    the five inputs at given contents, the two outputs at contents that are handed back untouched, the accumulator at
    anything (it is overwritten whole before its value is used) — the body runs and hands back everything but the
    accumulator unchanged, and the accumulator with a list of written pieces (latest first). The lists of pieces (empty
    for the two outputs) are the first components; the triple is the last. -/
noncomputable def kernelRun1_A (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond1_0 i) (hc1 : ¬cond1_1 i)
    (x0 : Vec F S512x512 .f32) (x1 : Vec F S512x1024 .bf16) (x2 : Vec F S512x1024 .f32) (x3 : Vec F S512x1024 .f32) (x4 : Vec F S1x1 .f32) :
    Σ' (L5 : List (View.Piece (Elt F) S512x1024 .f32)) (L6 : List (View.Piece (Elt F) S512x1024 .f32)), { LS0 : List (View.Piece (Elt F) S512x1024 .f32) //
      ∀ (xi5 : Vec F S512x1024 .f32) (xi6 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9 arg10 harg10) K } := by
  refine ⟨[], [], ?_, fun xi5 xi6 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.KI.R1RunB.lean ====
import proofs.«178145_j14508399526340_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the middle of an accumulation (the accumulator is neither zeroed nor are the outputs stored). On whole
    buffers — the five inputs at given contents, the two outputs at contents that are handed back untouched, the
    accumulator at what the position before left — the body runs and hands back everything but the accumulator
    unchanged, and the accumulator with a list of written pieces (latest first). The lists of pieces (empty for the two
    outputs) are the first components; the triple is the last. -/
noncomputable def kernelRun1_B (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : ¬cond1_1 i)
    (x0 : Vec F S512x512 .f32) (x1 : Vec F S512x1024 .bf16) (x2 : Vec F S512x1024 .f32) (x3 : Vec F S512x1024 .f32) (x4 : Vec F S1x1 .f32) (xs0 : Vec F S512x1024 .f32) :
    Σ' (L5 : List (View.Piece (Elt F) S512x1024 .f32)) (L6 : List (View.Piece (Elt F) S512x1024 .f32)), { LS0 : List (View.Piece (Elt F) S512x1024 .f32) //
      ∀ (xi5 : Vec F S512x1024 .f32) (xi6 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9 arg10 harg10) K } := by
  refine ⟨[], [], ?_, fun xi5 xi6 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.KI.R1RunC.lean ====
import proofs.«178145_j14508399526340_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation finishes (the accumulator is not zeroed, the outputs are stored). On whole buffers — the
    five inputs at given contents, the two outputs at anything, the accumulator at what the position before left — the
    body runs and hands back the inputs unchanged, and the two outputs and the accumulator each with a list of written
    pieces (latest first). The three lists are the first components; the triple is the last. -/
noncomputable def kernelRun1_C (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) :
    Σ' (L5 : List (View.Piece (Elt F) S512x1024 .f32)) (L6 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9 arg10 harg10) K } := by
  refine ⟨?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.KernelIdeal.Hand

end
-- ==== Proof.KI.R1.lean ====
import proofs.«178145_j14508399526340_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case of the body leaves in the two outputs and in the accumulator -/

/-- Nothing is written into output 5 where an accumulation starts: a placeholder value that is never consulted, since the window is idle
    and not written back at these positions. -/
def out1_A_5 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond1_0 i) (hc1 : ¬cond1_1 i)
    (x0 : Vec F S512x512 .f32) (x1 : Vec F S512x1024 .bf16) (x2 : Vec F S512x1024 .f32) (x3 : Vec F S512x1024 .f32) (x4 : Vec F S1x1 .f32) : Vec F S512x1024 .f32 :=
  VO1_5.read (Elt F) (VO1_5.writes (Elt F) VO1_5.junk (kernelRun1_A c i arg3 harg3 arg4 harg4 arg5 harg5 arg6 harg6 arg7 harg7 arg8 harg8 arg9 harg9 arg10 harg10 hc0 hc1 x0 x1 x2 x3 x4).1)

/-- Nothing is written into output 6 where an accumulation starts: a placeholder value that is never consulted, since the window is idle
    and not written back at these positions. -/
def out1_A_6 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond1_0 i) (hc1 : ¬cond1_1 i)
    (x0 : Vec F S512x512 .f32) (x1 : Vec F S512x1024 .bf16) (x2 : Vec F S512x1024 .f32) (x3 : Vec F S512x1024 .f32) (x4 : Vec F S1x1 .f32) : Vec F S512x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4).2.1)

/-- The pieces the body writes into the accumulator where an accumulation starts tile it, so every index lies in one of them. -/
theorem scover1_A_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond1_0 i) (hc1 : ¬cond1_1 i)
    (x0 : Vec F S512x512 .f32) (x1 : Vec F S512x1024 .bf16) (x2 : Vec F S512x1024 .f32) (x3 : Vec F S512x1024 .f32) (x4 : Vec F S1x1 .f32) (y : S512x1024.Idx) :
    ∃ pc ∈ (kernelRun1_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).2.2.1 S512x1024.size (by sl_kernel_rfl) y

/-- What the accumulator holds after the body where an accumulation starts: the written pieces read back. -/
def sout1_A_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond1_0 i) (hc1 : ¬cond1_1 i)
    (x0 : Vec F S512x512 .f32) (x1 : Vec F S512x1024 .bf16) (x2 : Vec F S512x1024 .f32) (x3 : Vec F S512x1024 .f32) (x4 : Vec F S1x1 .f32) : Vec F S512x1024 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4).2.2.1)

/-- Nothing is written into output 5 in the middle of an accumulation: a placeholder value that is never consulted, since the window is idle
    and not written back at these positions. -/
def out1_B_5 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : ¬cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VO1_5.read (Elt F) (VO1_5.writes (Elt F) VO1_5.junk (kernelRun1_B c i arg3 harg3 arg4 harg4 arg5 harg5 arg6 harg6 arg7 harg7 arg8 harg8 arg9 harg9 arg10 harg10 hc0 hc1 x0 x1 x2 x3 x4 xs0).1)

/-- Nothing is written into output 6 in the middle of an accumulation: a placeholder value that is never consulted, since the window is idle
    and not written back at these positions. -/
def out1_B_6 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : ¬cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 xs0).2.1)

/-- The pieces the body writes into the accumulator in the middle of an accumulation tile it, so every index lies in one of them. -/
theorem scover1_B_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : ¬cond1_1 i)
    (x0 : Vec F S512x512 .f32) (x1 : Vec F S512x1024 .bf16) (x2 : Vec F S512x1024 .f32) (x3 : Vec F S512x1024 .f32) (x4 : Vec F S1x1 .f32) (xs0 : Vec F S512x1024 .f32) (y : S512x1024.Idx) :
    ∃ pc ∈ (kernelRun1_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).2.2.1 S512x1024.size (by sl_kernel_rfl) y

/-- What the accumulator holds after the body in the middle of an accumulation: the written pieces read back. -/
def sout1_B_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : ¬cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 xs0).2.2.1)

/-- The pieces the body writes into output 5 where an accumulation finishes tile the whole block, so every index lies in one of them. -/
theorem cover1_C_5 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) (y : S512x1024.Idx) :
    ∃ pc ∈ (kernelRun1_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).1 S512x1024.size (by sl_kernel_rfl) y

/-- What output 5's buffer holds where an accumulation finishes: the written pieces read back. -/
def out1_C_5 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VO1_5.read (Elt F) (VO1_5.writes (Elt F) VO1_5.junk (kernelRun1_C c i arg3 harg3 arg4 harg4 arg5 harg5 arg6 harg6 arg7 harg7 arg8 harg8 arg9 harg9 arg10 harg10 hc0 hc1 x0 x1 x2 x3 x4 xs0).1)

/-- The pieces the body writes into output 6 where an accumulation finishes tile the whole block, so every index lies in one of them. -/
theorem cover1_C_6 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) (y : S512x1024.Idx) :
    ∃ pc ∈ (kernelRun1_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.1 S512x1024.size (by sl_kernel_rfl) y

/-- What output 6's buffer holds where an accumulation finishes: the written pieces read back. -/
def out1_C_6 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 xs0).2.1)

/-- The pieces the body writes into the accumulator where an accumulation finishes tile it, so every index lies in one of them. -/
theorem scover1_C_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) (y : S512x1024.Idx) :
    ∃ pc ∈ (kernelRun1_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.2.1 S512x1024.size (by sl_kernel_rfl) y

/-- What the accumulator holds after the body where an accumulation finishes: the written pieces read back. -/
def sout1_C_0 (c : Dev nD) (i : grid1.Coords) (arg3 : Memref sig .tc .vmem S512x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond1_0 i) (hc1 : cond1_1 i)
    (x0 : Vec F S512x512 .f32) (x1 : Vec F S512x1024 .bf16) (x2 : Vec F S512x1024 .f32) (x3 : Vec F S512x1024 .f32) (x4 : Vec F S1x1 .f32) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 xs0).2.2.1)

/-! ## The accumulation, position by position -/

/-- What the two outputs' buffers and the accumulator hold after the body at position `n` (output 5, output 6, accumulator):
    the case selected by `n` modulo 8, run on the position's buffers and input blocks, with the accumulator entering at
    what position `n - 1` left in it (at the start of an accumulation it is overwritten, so nothing enters). -/
def outsAt1 (c : Dev nD) : (n : ℕ) → n < cfg1.N → Vec F S512x1024 .f32 × Vec F S512x1024 .f32 × Vec F S512x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2)

/-- At the start of an accumulation. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- In the middle of an accumulation: over what the position before left in the accumulator. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the end of an accumulation: over what the position before left in the accumulator. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first position: the accumulator at anything, the other local buffers closed, the random-number register at some
    state. Before any later position: the accumulator at exactly what the position before left in it, the rest as before. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data of the region -/

/-- The arrays as the region finds them; after the body each input's buffer at its block, the two outputs' at the
    accumulation's components; the invariant above; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at position `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- At every position: the inputs' buffers hold their blocks; the position's residue modulo 8 says which case of the body
    runs; the invariant hands the body the accumulator at what the position before left (at anything before the first
    position) and takes it back at what this position leaves; where the outputs are not stored their buffers come back
    untouched; the closed local buffers and the random-number register pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_5 out1_C_6 sout1_C_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The obligation in the library's form. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the invariant gives back what the launch handed over: the accumulator's contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- In particular after the last one. -/
theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.Hand

end
-- ==== Proof.KI.R2Runs.lean ====
import proofs.«178145_j14508399526340_2_alg».proof.Proof.Gen.KernelIdeal.Launch
import proofs.«178145_j14508399526340_2_alg».proof.Proof.Gen.KernelIdeal.Skeleton
import proofs.«178145_j14508399526340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks of region 2, read off the contents `V` the region is entered with -/

/-- The block of window `w` at grid position `t`: the rectangle of the window's array that the index map selects
    there, read from `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whenever the body is called its current buffer holds the window's block at that position, whether the
    block was transferred at this position or at an earlier one with the same block index, provided the body leaves the
    buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: whenever the body is called its current buffer holds the window's block at that position, whether the
    block was transferred at this position or at an earlier one with the same block index, provided the body leaves the
    buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: whenever the body is called its current buffer holds the window's block at that position, whether the
    block was transferred at this position or at an earlier one with the same block index, provided the body leaves the
    buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: whenever the body is called its current buffer holds the window's block at that position, whether the
    block was transferred at this position or at an earlier one with the same block index, provided the body leaves the
    buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: whenever the body is called its current buffer holds the window's block at that position, whether the
    block was transferred at this position or at an earlier one with the same block index, provided the body leaves the
    buffer as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end

/-! ## The two conditions of the body, as functions of the grid position -/

/-- The first conditional (zero the accumulator): the innermost coordinate is 0. -/
abbrev cond2_0 (i : grid2.Coords) : Prop := (Scalar.cmpi .ne (Scalar.extui (Scalar.cmpi .eq (BitVec.ofNat 32 (i 2).val) 0#32)) 0#32) = 1#1
/-- In the linear order of the grid this is: position ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional (finish: store the two outputs): the innermost coordinate is the last one. -/
abbrev cond2_1 (i : grid2.Coords) : Prop := k2_cond2 i = 1#1
/-- In the linear order of the grid this is: position ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where each window is live and where it is idle -/

/-- Input window 0 is live at every position. -/
theorem liveAt2_0 : ∀ t : Fin cfg2.N, cfg2.idle 0 (grid2.coords t) = false := by decide +kernel
/-- Input window 1 is live at every position. -/
theorem liveAt2_1 : ∀ t : Fin cfg2.N, cfg2.idle 1 (grid2.coords t) = false := by decide +kernel
/-- Input window 2 is live at every position. -/
theorem liveAt2_2 : ∀ t : Fin cfg2.N, cfg2.idle 2 (grid2.coords t) = false := by decide +kernel
/-- Input window 3 is live at every position. -/
theorem liveAt2_3 : ∀ t : Fin cfg2.N, cfg2.idle 3 (grid2.coords t) = false := by decide +kernel
/-- Input window 4 is live at every position. -/
theorem liveAt2_4 : ∀ t : Fin cfg2.N, cfg2.idle 4 (grid2.coords t) = false := by decide +kernel

/-- Output window 5 is idle where the accumulator is zeroed and the outputs are not yet stored, -/
theorem idleAt2_5_A : ∀ t : Fin cfg2.N, cond2_0 (grid2.coords t) → ¬cond2_1 (grid2.coords t) → cfg2.idle 5 (grid2.coords t) = true := by decide +kernel
/-- and its block is not written back there; -/
theorem noFlush2_5_A : ∀ t : Fin cfg2.N, cond2_0 (grid2.coords t) → ¬cond2_1 (grid2.coords t) → (cfg2.win 5).flush t = false := by decide +kernel
/-- idle at the positions in the middle of an accumulation, -/
theorem idleAt2_5_B : ∀ t : Fin cfg2.N, ¬cond2_0 (grid2.coords t) → ¬cond2_1 (grid2.coords t) → cfg2.idle 5 (grid2.coords t) = true := by decide +kernel
/-- not written back there either; -/
theorem noFlush2_5_B : ∀ t : Fin cfg2.N, ¬cond2_0 (grid2.coords t) → ¬cond2_1 (grid2.coords t) → (cfg2.win 5).flush t = false := by decide +kernel
/-- and live where the accumulation finishes. -/
theorem liveAt2_5_C : ∀ t : Fin cfg2.N, ¬cond2_0 (grid2.coords t) → cond2_1 (grid2.coords t) → cfg2.idle 5 (grid2.coords t) = false := by decide +kernel

/-- Output window 6 is idle where the accumulator is zeroed and the outputs are not yet stored, -/
theorem idleAt2_6_A : ∀ t : Fin cfg2.N, cond2_0 (grid2.coords t) → ¬cond2_1 (grid2.coords t) → cfg2.idle 6 (grid2.coords t) = true := by decide +kernel
/-- and its block is not written back there; -/
theorem noFlush2_6_A : ∀ t : Fin cfg2.N, cond2_0 (grid2.coords t) → ¬cond2_1 (grid2.coords t) → (cfg2.win 6).flush t = false := by decide +kernel
/-- idle at the positions in the middle of an accumulation, -/
theorem idleAt2_6_B : ∀ t : Fin cfg2.N, ¬cond2_0 (grid2.coords t) → ¬cond2_1 (grid2.coords t) → cfg2.idle 6 (grid2.coords t) = true := by decide +kernel
/-- not written back there either; -/
theorem noFlush2_6_B : ∀ t : Fin cfg2.N, ¬cond2_0 (grid2.coords t) → ¬cond2_1 (grid2.coords t) → (cfg2.win 6).flush t = false := by decide +kernel
/-- and live where the accumulation finishes. -/
theorem liveAt2_6_C : ∀ t : Fin cfg2.N, ¬cond2_0 (grid2.coords t) → cond2_1 (grid2.coords t) → cfg2.idle 6 (grid2.coords t) = false := by decide +kernel

/-! ## The buffers the body is called on -/

/-- The accumulator: a whole buffer of the kernel's own, carried from one position to the next. -/
abbrev scM2_0 : Memref sig .tc .vmem S512x1024 .f32 := Memref.whole cc2_scratch0
/-- The accumulator as a view: its contents are stated through it. -/
abbrev VS2_0 : View sig .tc .vmem S512x1024 .f32 := scM2_0.view
/-- One buffer of each output window, through which that window's contents are stated (which of the window's buffers is
    chosen makes no difference to what is read back). -/
abbrev VO2_5 : View sig .tc .vmem S512x1024 .f32 := (Memref.whole cc2_stg5_0 : Memref sig .tc .vmem S512x1024 .f32).view
abbrev VO2_6 : View sig .tc .vmem S512x1024 .f32 := (Memref.whole cc2_stg6_0 : Memref sig .tc .vmem S512x1024 .f32).view
/-- The buffer window 0 is on at position `t`, and that it is a whole buffer. -/
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
/-- The buffer window 1 is on at position `t`, and that it is a whole buffer. -/
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
/-- The buffer window 2 is on at position `t`, and that it is a whole buffer. -/
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
/-- The buffer window 3 is on at position `t`, and that it is a whole buffer. -/
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The buffer window 4 is on at position `t`, and that it is a whole buffer. -/
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The buffer window 5 is on at position `t`, and that it is a whole buffer. -/
abbrev ms2_5 (t : Fin cfg2.N) : Memref sig .tc .vmem S512x1024 .f32 := win2_5.stage (cfg2.slots t 5)
abbrev hs2_5 (t : Fin cfg2.N) : (ms2_5 t).IsWhole := hstage2_5 ((cfg2.slots t 5).cast nbuf2_5)
/-- The buffer window 6 is on at position `t`, and that it is a whole buffer. -/
abbrev ms2_6 (t : Fin cfg2.N) : Memref sig .tc .vmem S512x1024 .f32 := win2_6.stage (cfg2.slots t 6)
abbrev hs2_6 (t : Fin cfg2.N) : (ms2_6 t).IsWhole := hstage2_6 ((cfg2.slots t 6).cast nbuf2_6)

/-- What the region's invariant is made of before the first position: the accumulator at some contents, every other
    buffer local to the core that no window uses (kept closed), and the random-number register at some state. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.R2RunA.lean ====
import proofs.«178145_j14508399526340_2_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation starts (the accumulator is zeroed first, the outputs are not stored). On whole buffers —
    the five inputs at given contents, the two outputs at contents that are handed back untouched, the accumulator at
    anything (it is overwritten whole before its value is used) — the body runs and hands back everything but the
    accumulator unchanged, and the accumulator with a list of written pieces (latest first). The lists of pieces (empty
    for the two outputs) are the first components; the triple is the last. -/
noncomputable def kernelRun2_A (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond2_0 i) (hc1 : ¬cond2_1 i)
    (x0 : Vec F S1024x512 .bf16) (x1 : Vec F S1024x1024 .bf16) (x2 : Vec F S512x1024 .f32) (x3 : Vec F S512x1024 .f32) (x4 : Vec F S1x1 .f32) :
    Σ' (L5 : List (View.Piece (Elt F) S512x1024 .f32)) (L6 : List (View.Piece (Elt F) S512x1024 .f32)), { LS0 : List (View.Piece (Elt F) S512x1024 .f32) //
      ∀ (xi5 : Vec F S512x1024 .f32) (xi6 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc2_kernel i arg3 harg3 arg4 harg4 arg5 harg5 arg6 harg6 arg7 harg7 arg8 harg8 arg9 harg9 arg10 harg10) K } := by
  refine ⟨[], [], ?_, fun xi5 xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.KI.R2RunB.lean ====
import proofs.«178145_j14508399526340_2_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the middle of an accumulation (the accumulator is neither zeroed nor are the outputs stored). On whole
    buffers — the five inputs at given contents, the two outputs at contents that are handed back untouched, the
    accumulator at what the position before left — the body runs and hands back everything but the accumulator
    unchanged, and the accumulator with a list of written pieces (latest first). The lists of pieces (empty for the two
    outputs) are the first components; the triple is the last. -/
noncomputable def kernelRun2_B (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) :
    Σ' (L5 : List (View.Piece (Elt F) S512x1024 .f32)) (L6 : List (View.Piece (Elt F) S512x1024 .f32)), { LS0 : List (View.Piece (Elt F) S512x1024 .f32) //
      ∀ (xi5 : Vec F S512x1024 .f32) (xi6 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc2_kernel i arg3 harg3 arg4 harg4 arg5 harg5 arg6 harg6 arg7 harg7 arg8 harg8 arg9 harg9 arg10 harg10) K } := by
  refine ⟨[], [], ?_, fun xi5 xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.KI.R2RunC.lean ====
import proofs.«178145_j14508399526340_2_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation finishes (the accumulator is not zeroed, the outputs are stored). On whole buffers — the
    five inputs at given contents, the two outputs at anything, the accumulator at what the position before left — the
    body runs and hands back the inputs unchanged, and the two outputs and the accumulator each with a list of written
    pieces (latest first). The three lists are the first components; the triple is the last. -/
noncomputable def kernelRun2_C (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) :
    Σ' (L5 : List (View.Piece (Elt F) S512x1024 .f32)) (L6 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc2_kernel i arg3 harg3 arg4 harg4 arg5 harg5 arg6 harg6 arg7 harg7 arg8 harg8 arg9 harg9 arg10 harg10) K } := by
  refine ⟨?_, ?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.KernelIdeal.Hand

end
-- ==== Proof.KI.R2.lean ====
import proofs.«178145_j14508399526340_2_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case of the body leaves in the two outputs and in the accumulator -/

/-- Nothing is written into output 5 where an accumulation starts: a placeholder value that is never consulted, since the window is idle
    and not written back at these positions. -/
def out2_A_5 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond2_0 i) (hc1 : ¬cond2_1 i)
    (x0 : Vec F S1024x512 .bf16) (x1 : Vec F S1024x1024 .bf16) (x2 : Vec F S512x1024 .f32) (x3 : Vec F S512x1024 .f32) (x4 : Vec F S1x1 .f32) : Vec F S512x1024 .f32 :=
  VO2_5.read (Elt F) (VO2_5.writes (Elt F) VO2_5.junk (kernelRun2_A c i arg3 harg3 arg4 harg4 arg5 harg5 arg6 harg6 arg7 harg7 arg8 harg8 arg9 harg9 arg10 harg10 hc0 hc1 x0 x1 x2 x3 x4).1)

/-- Nothing is written into output 6 where an accumulation starts: a placeholder value that is never consulted, since the window is idle
    and not written back at these positions. -/
def out2_A_6 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond2_0 i) (hc1 : ¬cond2_1 i)
    (x0 : Vec F S1024x512 .bf16) (x1 : Vec F S1024x1024 .bf16) (x2 : Vec F S512x1024 .f32) (x3 : Vec F S512x1024 .f32) (x4 : Vec F S1x1 .f32) : Vec F S512x1024 .f32 :=
  VO2_6.read (Elt F) (VO2_6.writes (Elt F) VO2_6.junk (kernelRun2_A c i arg3 harg3 arg4 harg4 arg5 harg5 arg6 harg6 arg7 harg7 arg8 harg8 arg9 harg9 arg10 harg10 hc0 hc1 x0 x1 x2 x3 x4).2.1)

/-- The pieces the body writes into the accumulator where an accumulation starts tile it, so every index lies in one of them. -/
theorem scover2_A_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (y : S512x1024.Idx) :
    ∃ pc ∈ (kernelRun2_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun2_A c i arg3 harg3 arg4 harg4 arg5 harg5 arg6 harg6 arg7 harg7 arg8 harg8 arg9 harg9 arg10 harg10 hc0 hc1 x0 x1 x2 x3 x4).2.2.1 S512x1024.size (by sl_kernel_rfl) y

/-- What the accumulator holds after the body where an accumulation starts: the written pieces read back. -/
def sout2_A_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond2_0 i) (hc1 : ¬cond2_1 i)
    (x0 : Vec F S1024x512 .bf16) (x1 : Vec F S1024x1024 .bf16) (x2 : Vec F S512x1024 .f32) (x3 : Vec F S512x1024 .f32) (x4 : Vec F S1x1 .f32) : Vec F S512x1024 .f32 :=
  VS2_0.read (Elt F) (VS2_0.writes (Elt F) VS2_0.junk (kernelRun2_A c i arg3 harg3 arg4 harg4 arg5 harg5 arg6 harg6 arg7 harg7 arg8 harg8 arg9 harg9 arg10 harg10 hc0 hc1 x0 x1 x2 x3 x4).2.2.1)

/-- Nothing is written into output 5 in the middle of an accumulation: a placeholder value that is never consulted, since the window is idle
    and not written back at these positions. -/
def out2_B_5 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VO2_5.read (Elt F) (VO2_5.writes (Elt F) VO2_5.junk (kernelRun2_B c i arg3 harg3 arg4 harg4 arg5 harg5 arg6 harg6 arg7 harg7 arg8 harg8 arg9 harg9 arg10 harg10 hc0 hc1 x0 x1 x2 x3 x4 xs0).1)

/-- Nothing is written into output 6 in the middle of an accumulation: a placeholder value that is never consulted, since the window is idle
    and not written back at these positions. -/
def out2_B_6 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VO2_6.read (Elt F) (VO2_6.writes (Elt F) VO2_6.junk (kernelRun2_B c i arg3 harg3 arg4 harg4 arg5 harg5 arg6 harg6 arg7 harg7 arg8 harg8 arg9 harg9 arg10 harg10 hc0 hc1 x0 x1 x2 x3 x4 xs0).2.1)

/-- The pieces the body writes into the accumulator in the middle of an accumulation tile it, so every index lies in one of them. -/
theorem scover2_B_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) (y : S512x1024.Idx) :
    ∃ pc ∈ (kernelRun2_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun2_B c i arg3 harg3 arg4 harg4 arg5 harg5 arg6 harg6 arg7 harg7 arg8 harg8 arg9 harg9 arg10 harg10 hc0 hc1 x0 x1 x2 x3 x4 xs0).2.2.1 S512x1024.size (by sl_kernel_rfl) y

/-- What the accumulator holds after the body in the middle of an accumulation: the written pieces read back. -/
def sout2_B_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : ¬cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VS2_0.read (Elt F) (VS2_0.writes (Elt F) VS2_0.junk (kernelRun2_B c i arg3 harg3 arg4 harg4 arg5 harg5 arg6 harg6 arg7 harg7 arg8 harg8 arg9 harg9 arg10 harg10 hc0 hc1 x0 x1 x2 x3 x4 xs0).2.2.1)

/-- The pieces the body writes into output 5 where an accumulation finishes tile the whole block, so every index lies in one of them. -/
theorem cover2_C_5 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) (y : S512x1024.Idx) :
    ∃ pc ∈ (kernelRun2_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun2_C c i arg3 harg3 arg4 harg4 arg5 harg5 arg6 harg6 arg7 harg7 arg8 harg8 arg9 harg9 arg10 harg10 hc0 hc1 x0 x1 x2 x3 x4 xs0).1 S512x1024.size (by sl_kernel_rfl) y

/-- What output 5's buffer holds where an accumulation finishes: the written pieces read back. -/
def out2_C_5 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VO2_5.read (Elt F) (VO2_5.writes (Elt F) VO2_5.junk (kernelRun2_C c i arg3 harg3 arg4 harg4 arg5 harg5 arg6 harg6 arg7 harg7 arg8 harg8 arg9 harg9 arg10 harg10 hc0 hc1 x0 x1 x2 x3 x4 xs0).1)

/-- The pieces the body writes into output 6 where an accumulation finishes tile the whole block, so every index lies in one of them. -/
theorem cover2_C_6 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) (y : S512x1024.Idx) :
    ∃ pc ∈ (kernelRun2_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun2_C c i arg3 harg3 arg4 harg4 arg5 harg5 arg6 harg6 arg7 harg7 arg8 harg8 arg9 harg9 arg10 harg10 hc0 hc1 x0 x1 x2 x3 x4 xs0).2.1 S512x1024.size (by sl_kernel_rfl) y

/-- What output 6's buffer holds where an accumulation finishes: the written pieces read back. -/
def out2_C_6 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VO2_6.read (Elt F) (VO2_6.writes (Elt F) VO2_6.junk (kernelRun2_C c i arg3 harg3 arg4 harg4 arg5 harg5 arg6 harg6 arg7 harg7 arg8 harg8 arg9 harg9 arg10 harg10 hc0 hc1 x0 x1 x2 x3 x4 xs0).2.1)

/-- The pieces the body writes into the accumulator where an accumulation finishes tile it, so every index lies in one of them. -/
theorem scover2_C_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) (y : S512x1024.Idx) :
    ∃ pc ∈ (kernelRun2_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun2_C c i arg3 harg3 arg4 harg4 arg5 harg5 arg6 harg6 arg7 harg7 arg8 harg8 arg9 harg9 arg10 harg10 hc0 hc1 x0 x1 x2 x3 x4 xs0).2.2.1 S512x1024.size (by sl_kernel_rfl) y

/-- What the accumulator holds after the body where an accumulation finishes: the written pieces read back. -/
def sout2_C_0 (c : Dev nD) (i : grid2.Coords) (arg3 : Memref sig .tc .vmem S1024x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond2_0 i) (hc1 : cond2_1 i)
    (x0 : Vec F S1024x512 .bf16) (x1 : Vec F S1024x1024 .bf16) (x2 : Vec F S512x1024 .f32) (x3 : Vec F S512x1024 .f32) (x4 : Vec F S1x1 .f32) (xs0 : Vec F S512x1024 .f32) : Vec F S512x1024 .f32 :=
  VS2_0.read (Elt F) (VS2_0.writes (Elt F) VS2_0.junk (kernelRun2_C c i arg3 harg3 arg4 harg4 arg5 harg5 arg6 harg6 arg7 harg7 arg8 harg8 arg9 harg9 arg10 harg10 hc0 hc1 x0 x1 x2 x3 x4 xs0).2.2.1)

/-! ## The accumulation, position by position -/

/-- What the two outputs' buffers and the accumulator hold after the body at position `n` (output 5, output 6, accumulator):
    the case selected by `n` modulo 4, run on the position's buffers and input blocks, with the accumulator entering at
    what position `n - 1` left in it (at the start of an accumulation it is overwritten, so nothing enters). -/
def outsAt2 (c : Dev nD) : (n : ℕ) → n < cfg2.N → Vec F S512x1024 .f32 × Vec F S512x1024 .f32 × Vec F S512x1024 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2)

/-- At the start of an accumulation. -/
theorem outsAt2_A (c : Dev nD) (t : Fin cfg2.N) (h0 : t.val % 4 = 0) (h1 : ¬t.val % 4 = 3) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- In the middle of an accumulation: over what the position before left in the accumulator. -/
theorem outsAt2_B (c : Dev nD) (t : Fin cfg2.N) (h0 : ¬t.val % 4 = 0) (h1 : ¬t.val % 4 = 3) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the end of an accumulation: over what the position before left in the accumulator. -/
theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first position: the accumulator at anything, the other local buffers closed, the random-number register at some
    state. Before any later position: the accumulator at exactly what the position before left in it, the rest as before. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data of the region -/

/-- The arrays as the region finds them; after the body each input's buffer at its block, the two outputs' at the
    accumulation's components; the invariant above; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at position `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it hands back. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- At every position: the inputs' buffers hold their blocks; the position's residue modulo 4 says which case of the body
    runs; the invariant hands the body the accumulator at what the position before left (at anything before the first
    position) and takes it back at what this position leaves; where the outputs are not stored their buffers come back
    untouched; the closed local buffers and the random-number register pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_5 out2_C_6 sout2_C_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_C_5 c _ _ _ _ _ _ _ _ _ _ _ _ _ _ _ _ _ _ _ _ _ _ _ _ _)
        unfold owns; iexists _; isplitr
        swap; · iexact H6
        ipureintro; exact View.read_writes_of_cover _ _ _ _ _ (cover2_C_6 c _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The obligation in the library's form. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first position. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any position but the first the invariant gives back what the launch handed over: the accumulator's contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- In particular after the last one. -/
theorem hout2 (c : Dev nD) : (dat2 V c).Φ (Fin.last cfg2.N) ⊢ Pipeline.ΦA spec2 c :=
  Phi_out2 V c _ (by rw [Fin.val_last]; have : cfg2.N = 32 := N_2; omega)

end

end Cert.KernelIdeal.Hand

end
-- ==== Proof.KI.R3Runs.lean ====
import proofs.«178145_j14508399526340_2_alg».proof.Proof.Gen.KernelIdeal.Launch
import proofs.«178145_j14508399526340_2_alg».proof.Proof.Gen.KernelIdeal.Skeleton
import proofs.«178145_j14508399526340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks of region 3, read off the contents `V` the region is entered with -/

/-- The block of window `w` at grid position `t`: the rectangle of the window's array that the index map selects
    there, read from `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whenever the body is called its current buffer holds the window's block at that position, whether the
    block was transferred at this position or at an earlier one with the same block index, provided the body leaves the
    buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whenever the body is called its current buffer holds the window's block at that position, whether the
    block was transferred at this position or at an earlier one with the same block index, provided the body leaves the
    buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whenever the body is called its current buffer holds the window's block at that position, whether the
    block was transferred at this position or at an earlier one with the same block index, provided the body leaves the
    buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: whenever the body is called its current buffer holds the window's block at that position, whether the
    block was transferred at this position or at an earlier one with the same block index, provided the body leaves the
    buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: whenever the body is called its current buffer holds the window's block at that position, whether the
    block was transferred at this position or at an earlier one with the same block index, provided the body leaves the
    buffer as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

end

/-! ## The two conditions of the body, as functions of the grid position -/

/-- The first conditional (zero the accumulator): the innermost coordinate is 0. -/
abbrev cond3_0 (i : grid3.Coords) : Prop := (Scalar.cmpi .ne (Scalar.extui (Scalar.cmpi .eq (BitVec.ofNat 32 (i 2).val) 0#32)) 0#32) = 1#1
/-- In the linear order of the grid this is: position ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional (finish: store the two outputs): the innermost coordinate is the last one. -/
abbrev cond3_1 (i : grid3.Coords) : Prop := k3_cond2 i = 1#1
/-- In the linear order of the grid this is: position ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where each window is live and where it is idle -/

/-- Input window 0 is live at every position. -/
theorem liveAt3_0 : ∀ t : Fin cfg3.N, cfg3.idle 0 (grid3.coords t) = false := by decide +kernel
/-- Input window 1 is live at every position. -/
theorem liveAt3_1 : ∀ t : Fin cfg3.N, cfg3.idle 1 (grid3.coords t) = false := by decide +kernel
/-- Input window 2 is live at every position. -/
theorem liveAt3_2 : ∀ t : Fin cfg3.N, cfg3.idle 2 (grid3.coords t) = false := by decide +kernel
/-- Input window 3 is live at every position. -/
theorem liveAt3_3 : ∀ t : Fin cfg3.N, cfg3.idle 3 (grid3.coords t) = false := by decide +kernel
/-- Input window 4 is live at every position. -/
theorem liveAt3_4 : ∀ t : Fin cfg3.N, cfg3.idle 4 (grid3.coords t) = false := by decide +kernel

/-- Output window 5 is idle where the accumulator is zeroed and the outputs are not yet stored, -/
theorem idleAt3_5_A : ∀ t : Fin cfg3.N, cond3_0 (grid3.coords t) → ¬cond3_1 (grid3.coords t) → cfg3.idle 5 (grid3.coords t) = true := by decide +kernel
/-- and its block is not written back there; -/
theorem noFlush3_5_A : ∀ t : Fin cfg3.N, cond3_0 (grid3.coords t) → ¬cond3_1 (grid3.coords t) → (cfg3.win 5).flush t = false := by decide +kernel
/-- idle at the positions in the middle of an accumulation, -/
theorem idleAt3_5_B : ∀ t : Fin cfg3.N, ¬cond3_0 (grid3.coords t) → ¬cond3_1 (grid3.coords t) → cfg3.idle 5 (grid3.coords t) = true := by decide +kernel
/-- not written back there either; -/
theorem noFlush3_5_B : ∀ t : Fin cfg3.N, ¬cond3_0 (grid3.coords t) → ¬cond3_1 (grid3.coords t) → (cfg3.win 5).flush t = false := by decide +kernel
/-- and live where the accumulation finishes. -/
theorem liveAt3_5_C : ∀ t : Fin cfg3.N, ¬cond3_0 (grid3.coords t) → cond3_1 (grid3.coords t) → cfg3.idle 5 (grid3.coords t) = false := by decide +kernel

/-- Output window 6 is idle where the accumulator is zeroed and the outputs are not yet stored, -/
theorem idleAt3_6_A : ∀ t : Fin cfg3.N, cond3_0 (grid3.coords t) → ¬cond3_1 (grid3.coords t) → cfg3.idle 6 (grid3.coords t) = true := by decide +kernel
/-- and its block is not written back there; -/
theorem noFlush3_6_A : ∀ t : Fin cfg3.N, cond3_0 (grid3.coords t) → ¬cond3_1 (grid3.coords t) → (cfg3.win 6).flush t = false := by decide +kernel
/-- idle at the positions in the middle of an accumulation, -/
theorem idleAt3_6_B : ∀ t : Fin cfg3.N, ¬cond3_0 (grid3.coords t) → ¬cond3_1 (grid3.coords t) → cfg3.idle 6 (grid3.coords t) = true := by decide +kernel
/-- not written back there either; -/
theorem noFlush3_6_B : ∀ t : Fin cfg3.N, ¬cond3_0 (grid3.coords t) → ¬cond3_1 (grid3.coords t) → (cfg3.win 6).flush t = false := by decide +kernel
/-- and live where the accumulation finishes. -/
theorem liveAt3_6_C : ∀ t : Fin cfg3.N, ¬cond3_0 (grid3.coords t) → cond3_1 (grid3.coords t) → cfg3.idle 6 (grid3.coords t) = false := by decide +kernel

/-! ## The buffers the body is called on -/

/-- The accumulator: a whole buffer of the kernel's own, carried from one position to the next. -/
abbrev scM3_0 : Memref sig .tc .vmem S256x2050 .f32 := Memref.whole cc3_scratch0
/-- The accumulator as a view: its contents are stated through it. -/
abbrev VS3_0 : View sig .tc .vmem S256x2050 .f32 := scM3_0.view
/-- One buffer of each output window, through which that window's contents are stated (which of the window's buffers is
    chosen makes no difference to what is read back). -/
abbrev VO3_5 : View sig .tc .vmem S256x2050 .f32 := (Memref.whole cc3_stg5_0 : Memref sig .tc .vmem S256x2050 .f32).view
abbrev VO3_6 : View sig .tc .vmem S256x2050 .f32 := (Memref.whole cc3_stg6_0 : Memref sig .tc .vmem S256x2050 .f32).view
/-- The buffer window 0 is on at position `t`, and that it is a whole buffer. -/
abbrev ms3_0 (t : Fin cfg3.N) : Memref sig .tc .vmem S1024x256 .bf16 := win3_0.stage (cfg3.slots t 0)
abbrev hs3_0 (t : Fin cfg3.N) : (ms3_0 t).IsWhole := hstage3_0 ((cfg3.slots t 0).cast nbuf3_0)
/-- The buffer window 1 is on at position `t`, and that it is a whole buffer. -/
abbrev ms3_1 (t : Fin cfg3.N) : Memref sig .tc .vmem S1024x2050 .bf16 := win3_1.stage (cfg3.slots t 1)
abbrev hs3_1 (t : Fin cfg3.N) : (ms3_1 t).IsWhole := hstage3_1 ((cfg3.slots t 1).cast nbuf3_1)
/-- The buffer window 2 is on at position `t`, and that it is a whole buffer. -/
abbrev ms3_2 (t : Fin cfg3.N) : Memref sig .tc .vmem S256x2050 .f32 := win3_2.stage (cfg3.slots t 2)
abbrev hs3_2 (t : Fin cfg3.N) : (ms3_2 t).IsWhole := hstage3_2 ((cfg3.slots t 2).cast nbuf3_2)
/-- The buffer window 3 is on at position `t`, and that it is a whole buffer. -/
abbrev ms3_3 (t : Fin cfg3.N) : Memref sig .tc .vmem S256x2050 .f32 := win3_3.stage (cfg3.slots t 3)
abbrev hs3_3 (t : Fin cfg3.N) : (ms3_3 t).IsWhole := hstage3_3 ((cfg3.slots t 3).cast nbuf3_3)
/-- The buffer window 4 is on at position `t`, and that it is a whole buffer. -/
abbrev ms3_4 (t : Fin cfg3.N) : Memref sig .tc .vmem S1x1 .f32 := win3_4.stage (cfg3.slots t 4)
abbrev hs3_4 (t : Fin cfg3.N) : (ms3_4 t).IsWhole := hstage3_4 ((cfg3.slots t 4).cast nbuf3_4)
/-- The buffer window 5 is on at position `t`, and that it is a whole buffer. -/
abbrev ms3_5 (t : Fin cfg3.N) : Memref sig .tc .vmem S256x2050 .f32 := win3_5.stage (cfg3.slots t 5)
abbrev hs3_5 (t : Fin cfg3.N) : (ms3_5 t).IsWhole := hstage3_5 ((cfg3.slots t 5).cast nbuf3_5)
/-- The buffer window 6 is on at position `t`, and that it is a whole buffer. -/
abbrev ms3_6 (t : Fin cfg3.N) : Memref sig .tc .vmem S256x2050 .f32 := win3_6.stage (cfg3.slots t 6)
abbrev hs3_6 (t : Fin cfg3.N) : (ms3_6 t).IsWhole := hstage3_6 ((cfg3.slots t 6).cast nbuf3_6)

/-- What the region's invariant is made of before the first position: the accumulator at some contents, every other
    buffer local to the core that no window uses (kept closed), and the random-number register at some state. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Hand

end
-- ==== Proof.KI.R3RunA.lean ====
import proofs.«178145_j14508399526340_2_alg».proof.Proof.KI.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation starts (the accumulator is zeroed first, the outputs are not stored). On whole buffers —
    the five inputs at given contents, the two outputs at contents that are handed back untouched, the accumulator at
    anything (it is overwritten whole before its value is used) — the body runs and hands back everything but the
    accumulator unchanged, and the accumulator with a list of written pieces (latest first). The lists of pieces (empty
    for the two outputs) are the first components; the triple is the last. -/
noncomputable def kernelRun3_A (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : cond3_0 i) (hc1 : ¬cond3_1 i)
    (x0 : Vec F S1024x256 .bf16) (x1 : Vec F S1024x2050 .bf16) (x2 : Vec F S256x2050 .f32) (x3 : Vec F S256x2050 .f32) (x4 : Vec F S1x1 .f32) :
    Σ' (L5 : List (View.Piece (Elt F) S256x2050 .f32)) (L6 : List (View.Piece (Elt F) S256x2050 .f32)), { LS0 : List (View.Piece (Elt F) S256x2050 .f32) //
      ∀ (xi5 : Vec F S256x2050 .f32) (xi6 : Vec F S256x2050 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc3_kernel i arg3 harg3 arg4 harg4 arg5 harg5 arg6 harg6 arg7 harg7 arg8 harg8 arg9 harg9 arg10 harg10) K } := by
  refine ⟨[], [], ?_, fun xi5 xi6 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.KI.R3RunB.lean ====
import proofs.«178145_j14508399526340_2_alg».proof.Proof.KI.R3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the middle of an accumulation (the accumulator is neither zeroed nor are the outputs stored). On whole
    buffers — the five inputs at given contents, the two outputs at contents that are handed back untouched, the
    accumulator at what the position before left — the body runs and hands back everything but the accumulator
    unchanged, and the accumulator with a list of written pieces (latest first). The lists of pieces (empty for the two
    outputs) are the first components; the triple is the last. -/
noncomputable def kernelRun3_B (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) :
    Σ' (L5 : List (View.Piece (Elt F) S256x2050 .f32)) (L6 : List (View.Piece (Elt F) S256x2050 .f32)), { LS0 : List (View.Piece (Elt F) S256x2050 .f32) //
      ∀ (xi5 : Vec F S256x2050 .f32) (xi6 : Vec F S256x2050 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc3_kernel i arg3 harg3 arg4 harg4 arg5 harg5 arg6 harg6 arg7 harg7 arg8 harg8 arg9 harg9 arg10 harg10) K } := by
  refine ⟨[], [], ?_, fun xi5 xi6 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.KI.R3RunC.lean ====
import proofs.«178145_j14508399526340_2_alg».proof.Proof.KI.R3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where an accumulation finishes (the accumulator is not zeroed, the outputs are stored). On whole buffers — the
    five inputs at given contents, the two outputs at anything, the accumulator at what the position before left — the
    body runs and hands back the inputs unchanged, and the two outputs and the accumulator each with a list of written
    pieces (latest first). The three lists are the first components; the triple is the last. -/
noncomputable def kernelRun3_C (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) :
    Σ' (L5 : List (View.Piece (Elt F) S256x2050 .f32)) (L6 : List (View.Piece (Elt F) S256x2050 .f32)), { LS0 : List (View.Piece (Elt F) S256x2050 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc3_kernel i arg3 harg3 arg4 harg4 arg5 harg5 arg6 harg6 arg7 harg7 arg8 harg8 arg9 harg9 arg10 harg10) K } := by
  refine ⟨?_, ?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.KernelIdeal.Hand

end
-- ==== Proof.KI.R3.lean ====
import proofs.«178145_j14508399526340_2_alg».proof.Proof.KI.R3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case of the body leaves in the two outputs and in the accumulator -/

/-- Nothing is written into output 5 where an accumulation starts: a placeholder value that is never consulted, since the window is idle
    and not written back at these positions. -/
def out3_A_5 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : cond3_0 i) (hc1 : ¬cond3_1 i)
    (x0 : Vec F S1024x256 .bf16) (x1 : Vec F S1024x2050 .bf16) (x2 : Vec F S256x2050 .f32) (x3 : Vec F S256x2050 .f32) (x4 : Vec F S1x1 .f32) : Vec F S256x2050 .f32 :=
  VO3_5.read (Elt F) (VO3_5.writes (Elt F) VO3_5.junk (kernelRun3_A c i arg3 harg3 arg4 harg4 arg5 harg5 arg6 harg6 arg7 harg7 arg8 harg8 arg9 harg9 arg10 harg10 hc0 hc1 x0 x1 x2 x3 x4).1)

/-- Nothing is written into output 6 where an accumulation starts: a placeholder value that is never consulted, since the window is idle
    and not written back at these positions. -/
def out3_A_6 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : cond3_0 i) (hc1 : ¬cond3_1 i)
    (x0 : Vec F S1024x256 .bf16) (x1 : Vec F S1024x2050 .bf16) (x2 : Vec F S256x2050 .f32) (x3 : Vec F S256x2050 .f32) (x4 : Vec F S1x1 .f32) : Vec F S256x2050 .f32 :=
  VO3_6.read (Elt F) (VO3_6.writes (Elt F) VO3_6.junk (kernelRun3_A c i arg3 harg3 arg4 harg4 arg5 harg5 arg6 harg6 arg7 harg7 arg8 harg8 arg9 harg9 arg10 harg10 hc0 hc1 x0 x1 x2 x3 x4).2.1)

/-- The pieces the body writes into the accumulator where an accumulation starts tile it, so every index lies in one of them. -/
theorem scover3_A_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (y : S256x2050.Idx) :
    ∃ pc ∈ (kernelRun3_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun3_A c i arg3 harg3 arg4 harg4 arg5 harg5 arg6 harg6 arg7 harg7 arg8 harg8 arg9 harg9 arg10 harg10 hc0 hc1 x0 x1 x2 x3 x4).2.2.1 S256x2050.size (by sl_kernel_rfl) y

/-- What the accumulator holds after the body where an accumulation starts: the written pieces read back. -/
def sout3_A_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : cond3_0 i) (hc1 : ¬cond3_1 i)
    (x0 : Vec F S1024x256 .bf16) (x1 : Vec F S1024x2050 .bf16) (x2 : Vec F S256x2050 .f32) (x3 : Vec F S256x2050 .f32) (x4 : Vec F S1x1 .f32) : Vec F S256x2050 .f32 :=
  VS3_0.read (Elt F) (VS3_0.writes (Elt F) VS3_0.junk (kernelRun3_A c i arg3 harg3 arg4 harg4 arg5 harg5 arg6 harg6 arg7 harg7 arg8 harg8 arg9 harg9 arg10 harg10 hc0 hc1 x0 x1 x2 x3 x4).2.2.1)

/-- Nothing is written into output 5 in the middle of an accumulation: a placeholder value that is never consulted, since the window is idle
    and not written back at these positions. -/
def out3_B_5 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VO3_5.read (Elt F) (VO3_5.writes (Elt F) VO3_5.junk (kernelRun3_B c i arg3 harg3 arg4 harg4 arg5 harg5 arg6 harg6 arg7 harg7 arg8 harg8 arg9 harg9 arg10 harg10 hc0 hc1 x0 x1 x2 x3 x4 xs0).1)

/-- Nothing is written into output 6 in the middle of an accumulation: a placeholder value that is never consulted, since the window is idle
    and not written back at these positions. -/
def out3_B_6 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VO3_6.read (Elt F) (VO3_6.writes (Elt F) VO3_6.junk (kernelRun3_B c i arg3 harg3 arg4 harg4 arg5 harg5 arg6 harg6 arg7 harg7 arg8 harg8 arg9 harg9 arg10 harg10 hc0 hc1 x0 x1 x2 x3 x4 xs0).2.1)

/-- The pieces the body writes into the accumulator in the middle of an accumulation tile it, so every index lies in one of them. -/
theorem scover3_B_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) (y : S256x2050.Idx) :
    ∃ pc ∈ (kernelRun3_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 x4 xs0).2.2.1 S256x2050.size (by sl_kernel_rfl) y

/-- What the accumulator holds after the body in the middle of an accumulation: the written pieces read back. -/
def sout3_B_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : ¬cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VS3_0.read (Elt F) (VS3_0.writes (Elt F) VS3_0.junk (kernelRun3_B c i arg3 harg3 arg4 harg4 arg5 harg5 arg6 harg6 arg7 harg7 arg8 harg8 arg9 harg9 arg10 harg10 hc0 hc1 x0 x1 x2 x3 x4 xs0).2.2.1)

/-- The pieces the body writes into output 5 where an accumulation finishes tile the whole block, so every index lies in one of them. -/
theorem cover3_C_5 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) (y : S256x2050.Idx) :
    ∃ pc ∈ (kernelRun3_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).1 S256x2050.size (by sl_kernel_rfl) y

/-- What output 5's buffer holds where an accumulation finishes: the written pieces read back. -/
def out3_C_5 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VO3_5.read (Elt F) (VO3_5.writes (Elt F) VO3_5.junk (kernelRun3_C c i arg3 harg3 arg4 harg4 arg5 harg5 arg6 harg6 arg7 harg7 arg8 harg8 arg9 harg9 arg10 harg10 hc0 hc1 x0 x1 x2 x3 x4 xs0).1)

/-- The pieces the body writes into output 6 where an accumulation finishes tile the whole block, so every index lies in one of them. -/
theorem cover3_C_6 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) (y : S256x2050.Idx) :
    ∃ pc ∈ (kernelRun3_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).2.1 S256x2050.size (by sl_kernel_rfl) y

/-- What output 6's buffer holds where an accumulation finishes: the written pieces read back. -/
def out3_C_6 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VO3_6.read (Elt F) (VO3_6.writes (Elt F) VO3_6.junk (kernelRun3_C c i arg3 harg3 arg4 harg4 arg5 harg5 arg6 harg6 arg7 harg7 arg8 harg8 arg9 harg9 arg10 harg10 hc0 hc1 x0 x1 x2 x3 x4 xs0).2.1)

/-- The pieces the body writes into the accumulator where an accumulation finishes tile it, so every index lies in one of them. -/
theorem scover3_C_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) (y : S256x2050.Idx) :
    ∃ pc ∈ (kernelRun3_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).2.2.1 S256x2050.size (by sl_kernel_rfl) y

/-- What the accumulator holds after the body where an accumulation finishes: the written pieces read back. -/
def sout3_C_0 (c : Dev nD) (i : grid3.Coords) (arg3 : Memref sig .tc .vmem S1024x256 .bf16) (harg3 : arg3.IsWhole) (arg4 : Memref sig .tc .vmem S1024x2050 .bf16) (harg4 : arg4.IsWhole) (arg5 : Memref sig .tc .vmem S256x2050 .f32) (harg5 : arg5.IsWhole) (arg6 : Memref sig .tc .vmem S256x2050 .f32) (harg6 : arg6.IsWhole) (arg7 : Memref sig .tc .vmem S1x1 .f32) (harg7 : arg7.IsWhole) (arg8 : Memref sig .tc .vmem S256x2050 .f32) (harg8 : arg8.IsWhole) (arg9 : Memref sig .tc .vmem S256x2050 .f32) (harg9 : arg9.IsWhole) (arg10 : Memref sig .tc .vmem S256x2050 .f32) (harg10 : arg10.IsWhole) (hc0 : ¬cond3_0 i) (hc1 : cond3_1 i)
    (x0 : Vec F S1024x256 .bf16) (x1 : Vec F S1024x2050 .bf16) (x2 : Vec F S256x2050 .f32) (x3 : Vec F S256x2050 .f32) (x4 : Vec F S1x1 .f32) (xs0 : Vec F S256x2050 .f32) : Vec F S256x2050 .f32 :=
  VS3_0.read (Elt F) (VS3_0.writes (Elt F) VS3_0.junk (kernelRun3_C c i arg3 harg3 arg4 harg4 arg5 harg5 arg6 harg6 arg7 harg7 arg8 harg8 arg9 harg9 arg10 harg10 hc0 hc1 x0 x1 x2 x3 x4 xs0).2.2.1)

/-! ## The accumulation, position by position -/

/-- What the two outputs' buffers and the accumulator hold after the body at position `n` (output 5, output 6, accumulator):
    the case selected by `n` modulo 4, run on the position's buffers and input blocks, with the accumulator entering at
    what position `n - 1` left in it (at the start of an accumulation it is overwritten, so nothing enters). -/
def outsAt3 (c : Dev nD) : (n : ℕ) → n < cfg3.N → Vec F S256x2050 .f32 × Vec F S256x2050 .f32 × Vec F S256x2050 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h0 : (n + 1) % 4 = 0 then
      if h1 : (n + 1) % 4 = 3 then
        False.elim (by omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
    else
      if h1 : (n + 1) % 4 = 3 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2)
      else
        (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2)

/-- At the start of an accumulation. -/
theorem outsAt3_A (c : Dev nD) (t : Fin cfg3.N) (h0 : t.val % 4 = 0) (h1 : ¬t.val % 4 = 3) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans rfl)

/-- In the middle of an accumulation: over what the position before left in the accumulator. -/
theorem outsAt3_B (c : Dev nD) (t : Fin cfg3.N) (h0 : ¬t.val % 4 = 0) (h1 : ¬t.val % 4 = 3) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2, out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the end of an accumulation: over what the position before left in the accumulator. -/
theorem outsAt3_C (c : Dev nD) (t : Fin cfg3.N) (h0 : ¬t.val % 4 = 0) (h1 : t.val % 4 = 3) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2, out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first position: the accumulator at anything, the other local buffers closed, the random-number register at some
    state. Before any later position: the accumulator at exactly what the position before left in it, the rest as before. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2.2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2.2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data of the region -/

/-- The arrays as the region finds them; after the body each input's buffer at its block, the two outputs' at the
    accumulation's components; the invariant above; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is called with at position `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it hands back. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 8000000 in
/-- At every position: the inputs' buffers hold their blocks; the position's residue modulo 4 says which case of the body
    runs; the invariant hands the body the accumulator at what the position before left (at anything before the first
    position) and takes it back at what this position leaves; where the outputs are not stored their buffers come back
    untouched; the closed local buffers and the random-number register pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 4 = 0
  · by_cases h1 : t.val % 4 = 3
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5_A t ((hcond3_0 t).mpr h0) (fun h => h1 ((hcond3_1 t).mp h))) (noFlush3_5_A t ((hcond3_0 t).mpr h0) (fun h => h1 ((hcond3_1 t).mp h)))]
      rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h)))]
      rw [outsAt3_A V c t h0 h1]
      unfold sout3_A_0; (try dsimp only)
      by_cases hz : t.val = 0
      ·
        rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 4 = 3
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5_C t (fun h => h0 ((hcond3_0 t).mp h)) ((hcond3_1 t).mpr h1)], after3_5]
      rw [show (dat3 V c).leavesExact 6 t = owns (c : Thread nD τ) (ms3_6 t) fullShare ((dat3 V c).after 6 t) from by
        unfold Dat.leavesExact; rw [liveAt3_6_C t (fun h => h0 ((hcond3_0 t).mp h)) ((hcond3_1 t).mpr h1)], after3_6]
      rw [outsAt3_C V c t h0 h1]
      unfold out3_C_5 out3_C_6 sout3_C_0; (try dsimp only)
      by_cases hz : t.val = 0
      · exfalso; omega
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_C_5 c _ _ _ _ _ _ _ _ _ _ _ _ _ _ _ _ _ _ _ _ _ _ _ _ _)
        unfold owns; iexists _; isplitr
        swap; · iexact H6
        ipureintro; exact View.read_writes_of_cover _ _ _ _ _ (cover3_C_6 c _ _ _ _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5_B t (fun h => h0 ((hcond3_0 t).mp h)) (fun h => h1 ((hcond3_1 t).mp h))) (noFlush3_5_B t (fun h => h0 ((hcond3_0 t).mp h)) (fun h => h1 ((hcond3_1 t).mp h)))]
      rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h)))]
      rw [outsAt3_B V c t h0 h1]
      unfold sout3_B_0; (try dsimp only)
      by_cases hz : t.val = 0
      · exfalso; omega
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The obligation in the library's form. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first position. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any position but the first the invariant gives back what the launch handed over: the accumulator's contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- In particular after the last one. -/
theorem hout3 (c : Dev nD) : (dat3 V c).Φ (Fin.last cfg3.N) ⊢ Pipeline.ΦA spec3 c :=
  Phi_out3 V c _ (by rw [Fin.val_last]; have : cfg3.N = 32 := N_3; omega)

end

end Cert.KernelIdeal.Hand

end
-- ==== Proof.KI.Halves.lean ====
/-
  The four regions' proof data put together: each region's proof data meets what the launch asks of it, so the whole
  program runs to the end with every unscoped buffer at the last segment boundary's contents, and in particular every
  argument array ends as launched.
-/
import proofs.«178145_j14508399526340_2_alg».proof.Proof.KI.Frame
import proofs.«178145_j14508399526340_2_alg».proof.Proof.KI.R0
import proofs.«178145_j14508399526340_2_alg».proof.Proof.KI.R1
import proofs.«178145_j14508399526340_2_alg».proof.Proof.KI.R2
import proofs.«178145_j14508399526340_2_alg».proof.Proof.KI.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four regions' proof data: the forward region's invariant never changes; each Hebbian-update region's invariant
    starts from, and ends at, one that forgets what its accumulator holds. -/
def halves : Halves F where
  d0 := dat0
  A0 := A_eq0
  q0 := fun _ _ _ => rfl
  o0 := fun _ _ _ => rfl
  b0 := body_obligation0
  i0 := fun _ _ => .rfl
  x0 := fun _ _ => .rfl
  r0 := fun _ _ _ => rfl
  d1 := dat1
  A1 := A_eq1
  q1 := fun _ _ _ => rfl
  o1 := fun _ _ _ => rfl
  b1 := body_obligation1
  i1 := hin1
  x1 := hout1
  r1 := fun _ _ _ => rfl
  d2 := dat2
  A2 := A_eq2
  q2 := fun _ _ _ => rfl
  o2 := fun _ _ _ => rfl
  b2 := body_obligation2
  i2 := hin2
  x2 := hout2
  r2 := fun _ _ _ => rfl
  d3 := dat3
  A3 := A_eq3
  q3 := fun _ _ _ => rfl
  o3 := fun _ _ _ => rfl
  b3 := body_obligation3
  i3 := hin3
  x3 := hout3
  r3 := fun _ _ _ => rfl

/-- Every weakly fair execution of the program terminates, nothing faulting, with each argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frameH (halves (F := F)) m ρ

end Cert.KernelIdeal.Hand

end
-- ==== Proof.Spec.lean ====
/-
  The mathematics both programs compute, on the extended reals, stated once over matrices read at explicit
  coordinates (row, column).

  A dense layer uses the weight  w + s · h  (learned weight plus the scalar state times the Hebbian trace); the three
  layers are  h0x = x · W1,  h10 = relu(h0x) · W2,  y1 = relu(h10) · W3.  The two modulators are the means over the
  batch of tanh of one column of y1.  For each layer the eligibility trace is the exponential average
  0.7 · e + 0.3 · (preᵀ · post)  of the old trace and the correlation of the layer's input with its pre-activation
  output, and the new Hebbian trace is  heb + dopa · e'  clamped to [-0.3, 0.3].  The numerals stay the binary
  single-precision words both programs carry.
-/
import Idealize.ShloMosaic.Lib.ValueIdx
import Idealize.ShloMosaic.PureOps.Ideal.Laws

noncomputable section

namespace Cert.Hebbian

open Idealize.ShloMosaic Idealize.ShloMosaic.ValueIdx

/-- A matrix of extended reals with `a` rows and `b` columns. -/
abbrev Mat (a b : ℕ) : Type := (⟨2, ![a, b]⟩ : Shape).Idx → EReal

/-- The matrix whose entry at row `r`, column `e` is `f r e`. -/
def mat {a b : ℕ} (f : Fin a → Fin b → EReal) : Mat a b := fun i => f (i 0) (i 1)

theorem mat_ix2 {a b : ℕ} (f : Fin a → Fin b → EReal) (r : Fin a) (e : Fin b) : mat f (ix2 r e) = f r e := rfl

/-- Two matrices are equal when they agree at every (row, column). -/
theorem Mat.ext {a b : ℕ} {p q : Mat a b} (h : ∀ (r : Fin a) (e : Fin b), p (ix2 r e) = q (ix2 r e)) : p = q :=
  funext fun i => by rw [eq_ix2 i]; exact h _ _

/-- The single-precision words of 0, 0.7, 0.3, -0.3 and 4096, as extended reals. -/
abbrev zero32 : EReal := Ideal.ofBits .f32 0x00000000#32
abbrev keep32 : EReal := Ideal.ofBits .f32 0x3F333333#32
abbrev rate32 : EReal := Ideal.ofBits .f32 0x3E99999A#32
abbrev negRate32 : EReal := Ideal.ofBits .f32 0xBE99999A#32
abbrev batch32 : EReal := Ideal.ofBits .f32 0x45800000#32

/-- The weight a layer uses: learned weight plus scalar state times Hebbian trace. -/
def weight {a b : ℕ} (w h : Mat a b) (s : EReal) : Mat a b := mat fun r e => w (ix2 r e) + s * h (ix2 r e)

/-- A dense layer: row r of the input against column e of the weight. -/
def layer {m k n : ℕ} (x : Mat m k) (w : Mat k n) : Mat m n := mat fun r e => ∑ j : Fin k, x (ix2 r j) * w (ix2 j e)

/-- The rectifier, entry by entry. -/
def relu {a b : ℕ} (x : Mat a b) : Mat a b := mat fun r e => max (x (ix2 r e)) zero32

/-- The correlation of two batches: column r of the first against column e of the second, summed over the batch. -/
def correlate {b m n : ℕ} (p : Mat b m) (q : Mat b n) : Mat m n := mat fun r e => ∑ j : Fin b, p (ix2 j r) * q (ix2 j e)

/-- The new eligibility trace. -/
def trace {m n : ℕ} (eold acc : Mat m n) : Mat m n := mat fun r e => keep32 * eold (ix2 r e) + rate32 * acc (ix2 r e)

/-- The new Hebbian trace: the old one moved by dopamine times the eligibility, clamped. -/
def clampUpdate {m n : ℕ} (hebold enew : Mat m n) (d : EReal) : Mat m n :=
  mat fun r e => min rate32 (max negRate32 (hebold (ix2 r e) + d * enew (ix2 r e)))

/-- The mean over the batch of tanh of one column. -/
def meanTanhCol {b n : ℕ} (y : Mat b n) (col : Fin n) : EReal :=
  Ideal.div (zero32 + ∑ j : Fin b, Ideal.tanh (y (ix2 j col))) batch32

/-- The first 2048 columns of a 2050-column matrix. -/
def firstCols {b : ℕ} (y : Mat b 2050) : Mat b 2048 := mat fun r e => y (ix2 r ⟨e.val, by omega⟩)

section Network

variable (x : Mat 4096 2048) (w1 w2 : Mat 2048 2048) (w3 : Mat 2048 2050) (e1 e2 : Mat 2048 2048) (e3 : Mat 2048 2050)
  (b1 b2 : Mat 2048 2048) (b3 : Mat 2048 2050) (s : EReal)

/-- First layer's pre-activation. -/
def h0x : Mat 4096 2048 := layer x (weight w1 b1 s)
/-- Second layer's pre-activation. -/
def h10 : Mat 4096 2048 := layer (relu (h0x x w1 b1 s)) (weight w2 b2 s)
/-- Output layer, with its two modulator columns. -/
def y1 : Mat 4096 2050 := layer (relu (h10 x w1 w2 b1 b2 s)) (weight w3 b3 s)
/-- The new scalar state: column 2048. -/
def stateNew : EReal := meanTanhCol (y1 x w1 w2 w3 b1 b2 b3 s) ⟨2048, by omega⟩
/-- Dopamine: column 2047. -/
def dopa : EReal := meanTanhCol (y1 x w1 w2 w3 b1 b2 b3 s) ⟨2047, by omega⟩

end Network

end Cert.Hebbian

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.KI.R0Val.lean ====
import proofs.«178145_j14508399526340_2_alg».proof.Proof.KI.R0
import proofs.«178145_j14508399526340_2_alg».proof.Proof.Spec
import proofs.«178145_j14508399526340_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Hebbian (Mat mat mat_ix2 layer relu firstCols zero32)

/-! # The forward region's results on the extended reals

On the extended reals a change of float format is the identity, so one grid point of the forward region computes, from
128 rows of the activations and the three weight matrices, the same 128 rows of the three layers of the network. Row
blocks commute with everything the body does (a product with a fixed right factor, the positive part, dropping trailing
columns), so the block a point writes back is the row block of the whole-matrix result, and the 32 row blocks tile the
4096 rows. -/

/-! ## Row blocks of a matrix with 4096 rows -/

/-- Rows 128 b … 128 b + 127. -/
def rowBlock0 {n : ℕ} (b : Fin 32) (Y : Mat 4096 n) : Mat 128 n :=
  mat fun p e => Y (ix2 ⟨b.val * 128 + p.val, by have := b.isLt; have := p.isLt; omega⟩ e)

/-- A product's row block is the row block's product. -/
theorem layer_rowBlock0 {k n : ℕ} (b : Fin 32) (Y : Mat 4096 k) (W : Mat k n) :
    layer (rowBlock0 b Y) W = rowBlock0 b (layer Y W) := Mat.ext fun p e => rfl

/-- The positive part is taken entry by entry, so it commutes with taking rows. -/
theorem relu_rowBlock0 {n : ℕ} (b : Fin 32) (Y : Mat 4096 n) : relu (rowBlock0 b Y) = rowBlock0 b (relu Y) :=
  Mat.ext fun p e => rfl

/-- Dropping the last two columns commutes with taking rows. -/
theorem firstCols_rowBlock0 (b : Fin 32) (Y : Mat 4096 2050) : firstCols (rowBlock0 b Y) = rowBlock0 b (firstCols Y) :=
  Mat.ext fun p e => rfl

/-! ## The body's values as matrix operations -/

theorem hz0 : (![0, 0] : Fin 2 → Nat) = fun _ => 0 := funext fun a => by fin_cases a <;> rfl

section AnyFloat
variable {F : FTy → Type} [FloatOps F]

/-- A result buffer holds the value of its one store, a function of the four buffers read whole. -/
theorem out0_4_eq (x0 : Vec F S128x2048 .f32) (x1 : Vec F S2048x2048 .bf16) : out0_4 x0 x1 = k0_pay4 x0 x1 := by
  unfold out0_4
  rw [View.canon_unit_zero hz0]
  simp only [View.ld_unit_zero (S := S128x2048) hz0, View.ld_unit_zero (S := S2048x2048) hz0]
theorem out0_5_eq (x0 : Vec F S128x2048 .f32) (x1 x2 : Vec F S2048x2048 .bf16) : out0_5 x0 x1 x2 = k0_pay5 x0 x1 x2 := by
  unfold out0_5
  rw [View.canon_unit_zero hz0]
  simp only [View.ld_unit_zero (S := S128x2048) hz0, View.ld_unit_zero (S := S2048x2048) hz0]
theorem out0_6_eq (x0 : Vec F S128x2048 .f32) (x1 x2 : Vec F S2048x2048 .bf16) (x3 : Vec F S2048x2050 .bf16) :
    out0_6 x0 x1 x2 x3 = k0_pay6 x0 x1 x2 x3 := by
  unfold out0_6
  rw [View.canon_unit_zero hz0]
  simp only [View.ld_unit_zero (S := S128x2048) hz0, View.ld_unit_zero (S := S2048x2048) hz0, View.ld_unit_zero (S := S2048x2050) hz0]
theorem out0_7_eq (x0 : Vec F S128x2048 .f32) (x1 x2 : Vec F S2048x2048 .bf16) (x3 : Vec F S2048x2050 .bf16) :
    out0_7 x0 x1 x2 x3 = k0_pay7 x0 x1 x2 x3 := by
  unfold out0_7
  rw [View.canon_unit_zero hz0]
  simp only [View.ld_unit_zero (S := S128x2048) hz0, View.ld_unit_zero (S := S2048x2048) hz0, View.ld_unit_zero (S := S2048x2050) hz0]

end AnyFloat

/-- The first product: 128 rows of activations against the first weight matrix. -/
theorem pay0_1_eq (x0 : Vec Ideal S128x2048 .f32) (x1 : Vec Ideal S2048x2048 .bf16) :
    (k0_pay1 x0 x1 : Mat 128 2048) = layer (x0 : Mat 128 2048) (x1 : Mat 2048 2048) := by
  refine Mat.ext fun p q => ?_
  unfold k0_pay1
  refine (matmul_plain_zero_apply dot_S128x2048_S2048x2048_S128x2048_1_0_0_1_n_n rfl none _ _ p q).trans ?_
  rw [shapeCast_self]
  rfl

/-- The second product: the positive part of the first against the second weight matrix. -/
theorem pay0_2_eq (x0 : Vec Ideal S128x2048 .f32) (x1 x2 : Vec Ideal S2048x2048 .bf16) :
    (k0_pay2 x0 x1 x2 : Mat 128 2048) = layer (relu (layer (x0 : Mat 128 2048) (x1 : Mat 2048 2048))) (x2 : Mat 2048 2048) := by
  refine Mat.ext fun p q => ?_
  unfold k0_pay2
  refine (matmul_plain_zero_apply dot_S128x2048_S2048x2048_S128x2048_1_0_0_1_n_n rfl none _ _ p q).trans ?_
  rw [shapeCast_self, pay0_1_eq]
  rfl

/-- The third product: the positive part of the second against the third weight matrix (2050 columns). -/
theorem pay0_3_eq (x0 : Vec Ideal S128x2048 .f32) (x1 x2 : Vec Ideal S2048x2048 .bf16) (x3 : Vec Ideal S2048x2050 .bf16) :
    (k0_pay3 x0 x1 x2 x3 : Mat 128 2050)
      = layer (relu (layer (relu (layer (x0 : Mat 128 2048) (x1 : Mat 2048 2048))) (x2 : Mat 2048 2048))) (x3 : Mat 2048 2050) := by
  refine Mat.ext fun p q => ?_
  unfold k0_pay3
  refine (matmul_plain_zero_apply dot_S128x2048_S2048x2050_S128x2050_1_0_0_1_n_n rfl none _ _ p q).trans ?_
  rw [shapeCast_self, pay0_2_eq]
  rfl

/-- The four stored values: the three products with their format narrowed (no change on the extended reals), and
    the third product's leading 2048 columns. -/
theorem pay0_4_eq (x0 : Vec Ideal S128x2048 .f32) (x1 : Vec Ideal S2048x2048 .bf16) :
    (k0_pay4 x0 x1 : Mat 128 2048) = layer (x0 : Mat 128 2048) (x1 : Mat 2048 2048) := by
  unfold k0_pay4; rw [pay0_1_eq]; rfl
theorem pay0_5_eq (x0 : Vec Ideal S128x2048 .f32) (x1 x2 : Vec Ideal S2048x2048 .bf16) :
    (k0_pay5 x0 x1 x2 : Mat 128 2048) = layer (relu (layer (x0 : Mat 128 2048) (x1 : Mat 2048 2048))) (x2 : Mat 2048 2048) := by
  unfold k0_pay5; rw [pay0_2_eq]; rfl
theorem pay0_6_eq (x0 : Vec Ideal S128x2048 .f32) (x1 x2 : Vec Ideal S2048x2048 .bf16) (x3 : Vec Ideal S2048x2050 .bf16) :
    (k0_pay6 x0 x1 x2 x3 : Mat 128 2050)
      = layer (relu (layer (relu (layer (x0 : Mat 128 2048) (x1 : Mat 2048 2048))) (x2 : Mat 2048 2048))) (x3 : Mat 2048 2050) := by
  unfold k0_pay6; rw [pay0_3_eq]; rfl
theorem pay0_7_eq (x0 : Vec Ideal S128x2048 .f32) (x1 x2 : Vec Ideal S2048x2048 .bf16) (x3 : Vec Ideal S2048x2050 .bf16) :
    (k0_pay7 x0 x1 x2 x3 : Mat 128 2048)
      = firstCols (layer (relu (layer (relu (layer (x0 : Mat 128 2048) (x1 : Mat 2048 2048))) (x2 : Mat 2048 2048))) (x3 : Mat 2048 2050)) := by
  refine Mat.ext fun p q => ?_
  unfold k0_pay7
  rw [pay0_3_eq]
  refine (extractStridedSlice_apply ![0, 0] _ slices_S128x2050_o0_0_S128x2048 (ix2 p q) (ix2 p ⟨q.val, by have := q.isLt; omega⟩) fun a => ?_).trans rfl
  match a with
  | ⟨0, _⟩ => show p.val = 0 + p.val; omega
  | ⟨1, _⟩ => show q.val = 0 + q.val; omega

/-! ## Where the blocks sit

Every window of the region either moves down its array 128 rows per grid point (the activations and the four results)
or stays on its one block (the three weight matrices). -/

theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The grid point as a block number below 32. -/
def pt0 (t : Fin cfg0.N) : Fin 32 := ⟨t.val, by have h : cfg0.N = 32 := N_0; have := t.isLt; omega⟩

/-- Block `t` of window 0, read off a matrix standing at the window's array, is rows 128 t … 128 t + 127 of it. -/
theorem read_blk0_0 (t : Fin cfg0.N) (G : Mat 4096 2048) :
    (((cfg0.win 0).blk t).view.read (Elt Ideal) G : Mat 128 2048) = rowBlock0 (pt0 t) G := by
  obtain ⟨i00, i01, i10, i11, i20, i21, i30, i31, i40, i41, i50, i51, i60, i61, i70, i71⟩ := index_facts0 t
  refine Mat.ext fun p e => ?_
  rw [View.read_apply]
  show G _ = G _
  refine congrArg G (funext fun a => Fin.ext ?_)
  match a with
  | ⟨0, _⟩ => show win0_0.index t (0 : Fin 2) * 128 + 1 * p.val = t.val * 128 + p.val; rw [i00]; omega
  | ⟨1, _⟩ => show win0_0.index t (1 : Fin 2) * 2048 + 1 * e.val = e.val; rw [i01]; omega

/-- Block `t` of window 4, read off a matrix standing at the window's array, is rows 128 t … 128 t + 127 of it. -/
theorem read_blk0_4 (t : Fin cfg0.N) (G : Mat 4096 2048) :
    (((cfg0.win 4).blk t).view.read (Elt Ideal) G : Mat 128 2048) = rowBlock0 (pt0 t) G := by
  obtain ⟨i00, i01, i10, i11, i20, i21, i30, i31, i40, i41, i50, i51, i60, i61, i70, i71⟩ := index_facts0 t
  refine Mat.ext fun p e => ?_
  rw [View.read_apply]
  show G _ = G _
  refine congrArg G (funext fun a => Fin.ext ?_)
  match a with
  | ⟨0, _⟩ => show win0_4.index t (0 : Fin 2) * 128 + 1 * p.val = t.val * 128 + p.val; rw [i40]; omega
  | ⟨1, _⟩ => show win0_4.index t (1 : Fin 2) * 2048 + 1 * e.val = e.val; rw [i41]; omega

/-- Block `t` of window 5, read off a matrix standing at the window's array, is rows 128 t … 128 t + 127 of it. -/
theorem read_blk0_5 (t : Fin cfg0.N) (G : Mat 4096 2048) :
    (((cfg0.win 5).blk t).view.read (Elt Ideal) G : Mat 128 2048) = rowBlock0 (pt0 t) G := by
  obtain ⟨i00, i01, i10, i11, i20, i21, i30, i31, i40, i41, i50, i51, i60, i61, i70, i71⟩ := index_facts0 t
  refine Mat.ext fun p e => ?_
  rw [View.read_apply]
  show G _ = G _
  refine congrArg G (funext fun a => Fin.ext ?_)
  match a with
  | ⟨0, _⟩ => show win0_5.index t (0 : Fin 2) * 128 + 1 * p.val = t.val * 128 + p.val; rw [i50]; omega
  | ⟨1, _⟩ => show win0_5.index t (1 : Fin 2) * 2048 + 1 * e.val = e.val; rw [i51]; omega

/-- Block `t` of window 6, read off a matrix standing at the window's array, is rows 128 t … 128 t + 127 of it. -/
theorem read_blk0_6 (t : Fin cfg0.N) (G : Mat 4096 2050) :
    (((cfg0.win 6).blk t).view.read (Elt Ideal) G : Mat 128 2050) = rowBlock0 (pt0 t) G := by
  obtain ⟨i00, i01, i10, i11, i20, i21, i30, i31, i40, i41, i50, i51, i60, i61, i70, i71⟩ := index_facts0 t
  refine Mat.ext fun p e => ?_
  rw [View.read_apply]
  show G _ = G _
  refine congrArg G (funext fun a => Fin.ext ?_)
  match a with
  | ⟨0, _⟩ => show win0_6.index t (0 : Fin 2) * 128 + 1 * p.val = t.val * 128 + p.val; rw [i60]; omega
  | ⟨1, _⟩ => show win0_6.index t (1 : Fin 2) * 2050 + 1 * e.val = e.val; rw [i61]; omega

/-- Block `t` of window 7, read off a matrix standing at the window's array, is rows 128 t … 128 t + 127 of it. -/
theorem read_blk0_7 (t : Fin cfg0.N) (G : Mat 4096 2048) :
    (((cfg0.win 7).blk t).view.read (Elt Ideal) G : Mat 128 2048) = rowBlock0 (pt0 t) G := by
  obtain ⟨i00, i01, i10, i11, i20, i21, i30, i31, i40, i41, i50, i51, i60, i61, i70, i71⟩ := index_facts0 t
  refine Mat.ext fun p e => ?_
  rw [View.read_apply]
  show G _ = G _
  refine congrArg G (funext fun a => Fin.ext ?_)
  match a with
  | ⟨0, _⟩ => show win0_7.index t (0 : Fin 2) * 128 + 1 * p.val = t.val * 128 + p.val; rw [i70]; omega
  | ⟨1, _⟩ => show win0_7.index t (1 : Fin 2) * 2048 + 1 * e.val = e.val; rw [i71]; omega

/-- Window 1 has one block, its whole array. -/
theorem read_blk0_1 (t : Fin cfg0.N) (G : Mat 2048 2048) :
    (((cfg0.win 1).blk t).view.read (Elt Ideal) G : Mat 2048 2048) = G := by
  obtain ⟨i00, i01, i10, i11, i20, i21, i30, i31, i40, i41, i50, i51, i60, i61, i70, i71⟩ := index_facts0 t
  refine Mat.ext fun p e => ?_
  rw [View.read_apply]
  show G _ = G _
  refine congrArg G (funext fun a => Fin.ext ?_)
  match a with
  | ⟨0, _⟩ => show win0_1.index t (0 : Fin 2) * 2048 + 1 * p.val = p.val; rw [i10]; omega
  | ⟨1, _⟩ => show win0_1.index t (1 : Fin 2) * 2048 + 1 * e.val = e.val; rw [i11]; omega

/-- Window 2 has one block, its whole array. -/
theorem read_blk0_2 (t : Fin cfg0.N) (G : Mat 2048 2048) :
    (((cfg0.win 2).blk t).view.read (Elt Ideal) G : Mat 2048 2048) = G := by
  obtain ⟨i00, i01, i10, i11, i20, i21, i30, i31, i40, i41, i50, i51, i60, i61, i70, i71⟩ := index_facts0 t
  refine Mat.ext fun p e => ?_
  rw [View.read_apply]
  show G _ = G _
  refine congrArg G (funext fun a => Fin.ext ?_)
  match a with
  | ⟨0, _⟩ => show win0_2.index t (0 : Fin 2) * 2048 + 1 * p.val = p.val; rw [i20]; omega
  | ⟨1, _⟩ => show win0_2.index t (1 : Fin 2) * 2048 + 1 * e.val = e.val; rw [i21]; omega

/-- Window 3 has one block, its whole array. -/
theorem read_blk0_3 (t : Fin cfg0.N) (G : Mat 2048 2050) :
    (((cfg0.win 3).blk t).view.read (Elt Ideal) G : Mat 2048 2050) = G := by
  obtain ⟨i00, i01, i10, i11, i20, i21, i30, i31, i40, i41, i50, i51, i60, i61, i70, i71⟩ := index_facts0 t
  refine Mat.ext fun p e => ?_
  rw [View.read_apply]
  show G _ = G _
  refine congrArg G (funext fun a => Fin.ext ?_)
  match a with
  | ⟨0, _⟩ => show win0_3.index t (0 : Fin 2) * 2048 + 1 * p.val = p.val; rw [i30]; omega
  | ⟨1, _⟩ => show win0_3.index t (1 : Fin 2) * 2050 + 1 * e.val = e.val; rw [i31]; omega

/-! ## The result blocks tile their arrays -/

theorem mem_blk0_4 (t : Fin cfg0.N) (i : S4096x2048.Idx) :
    i ∈ ((cfg0.win 4).blk t).view.set ↔ ∀ a : Fin 2, win0_4.index t a * S128x2048.size a ≤ (i a).val ∧ (i a).val < win0_4.index t a * S128x2048.size a + S128x2048.size a := by
  show i ∈ ((View.whole main_v12_0).slice (win0_4.rect t)).set ↔ _
  rw [View.set_slice_whole, Rect.mem_set_unit]
  exact Iff.rfl

/-- Row `r` of the array lies in the block of grid point `r / 128`, which is written back: the blocks of window 4 cover
    its array. -/
theorem cover0_4 (i : S4096x2048.Idx) : ∃ t : Fin cfg0.N, (cfg0.win 4).flush t = true ∧ i ∈ ((cfg0.win 4).blk t).view.set := by
  have hi0 : (i 0).val < 4096 := (i 0).isLt
  have hi1 : (i 1).val < 2048 := (i 1).isLt
  have hN : cfg0.N = 32 := N_0
  have ht : (i 0).val / 128 < cfg0.N := by omega
  obtain ⟨i00, i01, i10, i11, i20, i21, i30, i31, i40, i41, i50, i51, i60, i61, i70, i71⟩ := index_facts0 ⟨(i 0).val / 128, ht⟩
  refine ⟨⟨(i 0).val / 128, ht⟩, flush0_4 _, ?_⟩
  rw [mem_blk0_4]
  intro a
  match a with
  | ⟨0, _⟩ =>
    show win0_4.index ⟨(i 0).val / 128, ht⟩ (0 : Fin 2) * 128 ≤ (i 0).val ∧ (i 0).val < win0_4.index ⟨(i 0).val / 128, ht⟩ (0 : Fin 2) * 128 + 128
    rw [i40]; show (i 0).val / 128 * 128 ≤ (i 0).val ∧ (i 0).val < (i 0).val / 128 * 128 + 128; omega
  | ⟨1, _⟩ =>
    show win0_4.index ⟨(i 0).val / 128, ht⟩ (1 : Fin 2) * 2048 ≤ (i 1).val ∧ (i 1).val < win0_4.index ⟨(i 0).val / 128, ht⟩ (1 : Fin 2) * 2048 + 2048
    rw [i41]; omega

theorem mem_blk0_5 (t : Fin cfg0.N) (i : S4096x2048.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v12_1).slice (win0_5.rect t)).set ↔ _
  rw [View.set_slice_whole, Rect.mem_set_unit]
  exact Iff.rfl

/-- Row `r` of the array lies in the block of grid point `r / 128`, which is written back: the blocks of window 5 cover
    its array. -/
theorem cover0_5 (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  have hN : cfg0.N = 32 := N_0
  have ht : (i 0).val / 128 < cfg0.N := by omega
  obtain ⟨i00, i01, i10, i11, i20, i21, i30, i31, i40, i41, i50, i51, i60, i61, i70, i71⟩ := index_facts0 ⟨(i 0).val / 128, ht⟩
  refine ⟨⟨(i 0).val / 128, ht⟩, flush0_5 _, ?_⟩
  rw [mem_blk0_5]
  intro a
  match a with
  | ⟨0, _⟩ =>
    show win0_5.index ⟨(i 0).val / 128, ht⟩ (0 : Fin 2) * 128 ≤ (i 0).val ∧ (i 0).val < win0_5.index ⟨(i 0).val / 128, ht⟩ (0 : Fin 2) * 128 + 128
    rw [i50]; show (i 0).val / 128 * 128 ≤ (i 0).val ∧ (i 0).val < (i 0).val / 128 * 128 + 128; omega
  | ⟨1, _⟩ =>
    show win0_5.index ⟨(i 0).val / 128, ht⟩ (1 : Fin 2) * 2048 ≤ (i 1).val ∧ (i 1).val < win0_5.index ⟨(i 0).val / 128, ht⟩ (1 : Fin 2) * 2048 + 2048
    rw [i51]; omega

theorem mem_blk0_6 (t : Fin cfg0.N) (i : S4096x2050.Idx) :
    i ∈ ((cfg0.win 6).blk t).view.set ↔ ∀ a : Fin 2, win0_6.index t a * S128x2050.size a ≤ (i a).val ∧ (i a).val < win0_6.index t a * S128x2050.size a + S128x2050.size a := by
  show i ∈ ((View.whole main_v12_2).slice (win0_6.rect t)).set ↔ _
  rw [View.set_slice_whole, Rect.mem_set_unit]
  exact Iff.rfl

/-- Row `r` of the array lies in the block of grid point `r / 128`, which is written back: the blocks of window 6 cover
    its array. -/
theorem cover0_6 (i : S4096x2050.Idx) : ∃ t : Fin cfg0.N, (cfg0.win 6).flush t = true ∧ i ∈ ((cfg0.win 6).blk t).view.set := by
  have hi0 : (i 0).val < 4096 := (i 0).isLt
  have hi1 : (i 1).val < 2050 := (i 1).isLt
  have hN : cfg0.N = 32 := N_0
  have ht : (i 0).val / 128 < cfg0.N := by omega
  obtain ⟨i00, i01, i10, i11, i20, i21, i30, i31, i40, i41, i50, i51, i60, i61, i70, i71⟩ := index_facts0 ⟨(i 0).val / 128, ht⟩
  refine ⟨⟨(i 0).val / 128, ht⟩, flush0_6 _, ?_⟩
  rw [mem_blk0_6]
  intro a
  match a with
  | ⟨0, _⟩ =>
    show win0_6.index ⟨(i 0).val / 128, ht⟩ (0 : Fin 2) * 128 ≤ (i 0).val ∧ (i 0).val < win0_6.index ⟨(i 0).val / 128, ht⟩ (0 : Fin 2) * 128 + 128
    rw [i60]; show (i 0).val / 128 * 128 ≤ (i 0).val ∧ (i 0).val < (i 0).val / 128 * 128 + 128; omega
  | ⟨1, _⟩ =>
    show win0_6.index ⟨(i 0).val / 128, ht⟩ (1 : Fin 2) * 2050 ≤ (i 1).val ∧ (i 1).val < win0_6.index ⟨(i 0).val / 128, ht⟩ (1 : Fin 2) * 2050 + 2050
    rw [i61]; omega

theorem mem_blk0_7 (t : Fin cfg0.N) (i : S4096x2048.Idx) :
    i ∈ ((cfg0.win 7).blk t).view.set ↔ ∀ a : Fin 2, win0_7.index t a * S128x2048.size a ≤ (i a).val ∧ (i a).val < win0_7.index t a * S128x2048.size a + S128x2048.size a := by
  show i ∈ ((View.whole main_v12_3).slice (win0_7.rect t)).set ↔ _
  rw [View.set_slice_whole, Rect.mem_set_unit]
  exact Iff.rfl

/-- Row `r` of the array lies in the block of grid point `r / 128`, which is written back: the blocks of window 7 cover
    its array. -/
theorem cover0_7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  have hN : cfg0.N = 32 := N_0
  have ht : (i 0).val / 128 < cfg0.N := by omega
  obtain ⟨i00, i01, i10, i11, i20, i21, i30, i31, i40, i41, i50, i51, i60, i61, i70, i71⟩ := index_facts0 ⟨(i 0).val / 128, ht⟩
  refine ⟨⟨(i 0).val / 128, ht⟩, flush0_7 _, ?_⟩
  rw [mem_blk0_7]
  intro a
  match a with
  | ⟨0, _⟩ =>
    show win0_7.index ⟨(i 0).val / 128, ht⟩ (0 : Fin 2) * 128 ≤ (i 0).val ∧ (i 0).val < win0_7.index ⟨(i 0).val / 128, ht⟩ (0 : Fin 2) * 128 + 128
    rw [i70]; show (i 0).val / 128 * 128 ≤ (i 0).val ∧ (i 0).val < (i 0).val / 128 * 128 + 128; omega
  | ⟨1, _⟩ =>
    show win0_7.index ⟨(i 0).val / 128, ht⟩ (1 : Fin 2) * 2048 ≤ (i 1).val ∧ (i 1).val < win0_7.index ⟨(i 0).val / 128, ht⟩ (1 : Fin 2) * 2048 + 2048
    rw [i71]; omega

/-! ## The region's four results as whole matrices

Read the activations and the three weight matrices off the buffers as the region finds them; the four result arrays
end as the first layer, the second layer, the third layer, and the third layer's leading 2048 columns. -/

section Final

variable (V : (c : Dev nD) → (b : Ref sig .tc) → Buf (Elt Ideal) ((c : Thread nD τ).loc b))

/-- The four inputs' blocks at a grid point: 128 rows of the activations, and each weight matrix whole. -/
theorem iblk0_0_eq (c : Dev nD) (t : Fin cfg0.N) :
    (iblk0 V c 0 t : Mat 128 2048) = rowBlock0 (pt0 t) (V c main_arg0 : Mat 4096 2048) := by
  unfold iblk0; exact read_blk0_0 t _
theorem iblk0_1_eq (c : Dev nD) (t : Fin cfg0.N) : (iblk0 V c 1 t : Mat 2048 2048) = (V c main_v3 : Mat 2048 2048) := by
  unfold iblk0; exact read_blk0_1 t _
theorem iblk0_2_eq (c : Dev nD) (t : Fin cfg0.N) : (iblk0 V c 2 t : Mat 2048 2048) = (V c main_v7 : Mat 2048 2048) := by
  unfold iblk0; exact read_blk0_2 t _
theorem iblk0_3_eq (c : Dev nD) (t : Fin cfg0.N) : (iblk0 V c 3 t : Mat 2048 2050) = (V c main_v11 : Mat 2048 2050) := by
  unfold iblk0; exact read_blk0_3 t _

/-- What the body leaves in each result buffer at point `t`: rows 128 t … 128 t + 127 of the result matrix. -/
theorem after0_4_rows (c : Dev nD) (t : Fin cfg0.N) : ((dat0 V c).after 4 t : Mat 128 2048) = rowBlock0 (pt0 t) (layer (V c main_arg0 : Mat 4096 2048) (V c main_v3 : Mat 2048 2048)) := by
  rw [after0_4]
  refine (out0_4_eq (iblk0 V c 0 t) (iblk0 V c 1 t)).trans ?_
  refine (pay0_4_eq (iblk0 V c 0 t) (iblk0 V c 1 t)).trans ?_
  rw [iblk0_0_eq V c t, iblk0_1_eq V c t]
  exact layer_rowBlock0 _ _ _

theorem after0_5_rows (c : Dev nD) (t : Fin cfg0.N) : ((dat0 V c).after 5 t : Mat 128 2048) = rowBlock0 (pt0 t) (layer (relu (layer (V c main_arg0 : Mat 4096 2048) (V c main_v3 : Mat 2048 2048))) (V c main_v7 : Mat 2048 2048)) := by
  rw [after0_5]
  refine (out0_5_eq (iblk0 V c 0 t) (iblk0 V c 1 t) (iblk0 V c 2 t)).trans ?_
  refine (pay0_5_eq (iblk0 V c 0 t) (iblk0 V c 1 t) (iblk0 V c 2 t)).trans ?_
  rw [iblk0_0_eq V c t, iblk0_1_eq V c t, iblk0_2_eq V c t, layer_rowBlock0, relu_rowBlock0, layer_rowBlock0]

theorem after0_6_rows (c : Dev nD) (t : Fin cfg0.N) : ((dat0 V c).after 6 t : Mat 128 2050) = rowBlock0 (pt0 t) (layer (relu (layer (relu (layer (V c main_arg0 : Mat 4096 2048) (V c main_v3 : Mat 2048 2048))) (V c main_v7 : Mat 2048 2048))) (V c main_v11 : Mat 2048 2050)) := by
  rw [after0_6]
  refine (out0_6_eq (iblk0 V c 0 t) (iblk0 V c 1 t) (iblk0 V c 2 t) (iblk0 V c 3 t)).trans ?_
  refine (pay0_6_eq (iblk0 V c 0 t) (iblk0 V c 1 t) (iblk0 V c 2 t) (iblk0 V c 3 t)).trans ?_
  rw [iblk0_0_eq V c t, iblk0_1_eq V c t, iblk0_2_eq V c t, iblk0_3_eq V c t,
    layer_rowBlock0, relu_rowBlock0, layer_rowBlock0, relu_rowBlock0, layer_rowBlock0]

theorem after0_7_rows (c : Dev nD) (t : Fin cfg0.N) : ((dat0 V c).after 7 t : Mat 128 2048) = rowBlock0 (pt0 t) (firstCols (layer (relu (layer (relu (layer (V c main_arg0 : Mat 4096 2048) (V c main_v3 : Mat 2048 2048))) (V c main_v7 : Mat 2048 2048))) (V c main_v11 : Mat 2048 2050))) := by
  rw [after0_7]
  refine (out0_7_eq (iblk0 V c 0 t) (iblk0 V c 1 t) (iblk0 V c 2 t) (iblk0 V c 3 t)).trans ?_
  refine (pay0_7_eq (iblk0 V c 0 t) (iblk0 V c 1 t) (iblk0 V c 2 t) (iblk0 V c 3 t)).trans ?_
  rw [iblk0_0_eq V c t, iblk0_1_eq V c t, iblk0_2_eq V c t, iblk0_3_eq V c t,
    layer_rowBlock0, relu_rowBlock0, layer_rowBlock0, relu_rowBlock0, layer_rowBlock0, firstCols_rowBlock0]

/-- So what point `t` writes back is block `t` of the result matrix. -/
theorem flushed0_4_eq (c : Dev nD) (t : Fin cfg0.N) :
    (dat0 V c).flushed 4 t = ((cfg0.win 4).blk t).view.read (Elt Ideal) (layer (V c main_arg0 : Mat 4096 2048) (V c main_v3 : Mat 2048 2048)) := by
  show (cfg0.win 4).cut (grid0.coords t) ((dat0 V c).after 4 t) = _
  exact (after0_4_rows V c t).trans (read_blk0_4 t _).symm
theorem flushed0_5_eq (c : Dev nD) (t : Fin cfg0.N) :
    (dat0 V c).flushed 5 t = ((cfg0.win 5).blk t).view.read (Elt Ideal) (layer (relu (layer (V c main_arg0 : Mat 4096 2048) (V c main_v3 : Mat 2048 2048))) (V c main_v7 : Mat 2048 2048)) := by
  show (cfg0.win 5).cut (grid0.coords t) ((dat0 V c).after 5 t) = _
  exact (after0_5_rows V c t).trans (read_blk0_5 t _).symm
theorem flushed0_6_eq (c : Dev nD) (t : Fin cfg0.N) :
    (dat0 V c).flushed 6 t = ((cfg0.win 6).blk t).view.read (Elt Ideal) (layer (relu (layer (relu (layer (V c main_arg0 : Mat 4096 2048) (V c main_v3 : Mat 2048 2048))) (V c main_v7 : Mat 2048 2048))) (V c main_v11 : Mat 2048 2050)) := by
  show (cfg0.win 6).cut (grid0.coords t) ((dat0 V c).after 6 t) = _
  exact (after0_6_rows V c t).trans (read_blk0_6 t _).symm
theorem flushed0_7_eq (c : Dev nD) (t : Fin cfg0.N) :
    (dat0 V c).flushed 7 t = ((cfg0.win 7).blk t).view.read (Elt Ideal) (firstCols (layer (relu (layer (relu (layer (V c main_arg0 : Mat 4096 2048) (V c main_v3 : Mat 2048 2048))) (V c main_v7 : Mat 2048 2048))) (V c main_v11 : Mat 2048 2050))) := by
  show (cfg0.win 7).cut (grid0.coords t) ((dat0 V c).after 7 t) = _
  exact (after0_7_rows V c t).trans (read_blk0_7 t _).symm

/-- The four result arrays after the region. -/
theorem final0_4 (c : Dev nD) : (dat0 (F := Ideal) V c).arrAt 4 cfg0.N = layer (V c main_arg0 : Mat 4096 2048) (V c main_v3 : Mat 2048 2048) :=
  (dat0 V c).arrAt_eq_of_cover 4 (layer (V c main_arg0 : Mat 4096 2048) (V c main_v3 : Mat 2048 2048)) (fun t _ => flushed0_4_eq V c t) cover0_4
theorem final0_5 (c : Dev nD) : (dat0 (F := Ideal) V c).arrAt 5 cfg0.N = layer (relu (layer (V c main_arg0 : Mat 4096 2048) (V c main_v3 : Mat 2048 2048))) (V c main_v7 : Mat 2048 2048) :=
  (dat0 V c).arrAt_eq_of_cover 5 (layer (relu (layer (V c main_arg0 : Mat 4096 2048) (V c main_v3 : Mat 2048 2048))) (V c main_v7 : Mat 2048 2048)) (fun t _ => flushed0_5_eq V c t) cover0_5
theorem final0_6 (c : Dev nD) : (dat0 (F := Ideal) V c).arrAt 6 cfg0.N = layer (relu (layer (relu (layer (V c main_arg0 : Mat 4096 2048) (V c main_v3 : Mat 2048 2048))) (V c main_v7 : Mat 2048 2048))) (V c main_v11 : Mat 2048 2050) :=
  (dat0 V c).arrAt_eq_of_cover 6 (layer (relu (layer (relu (layer (V c main_arg0 : Mat 4096 2048) (V c main_v3 : Mat 2048 2048))) (V c main_v7 : Mat 2048 2048))) (V c main_v11 : Mat 2048 2050)) (fun t _ => flushed0_6_eq V c t) cover0_6
theorem final0_7 (c : Dev nD) :
    (dat0 (F := Ideal) V c).arrAt 7 cfg0.N = firstCols (layer (relu (layer (relu (layer (V c main_arg0 : Mat 4096 2048) (V c main_v3 : Mat 2048 2048))) (V c main_v7 : Mat 2048 2048))) (V c main_v11 : Mat 2048 2050)) :=
  (dat0 V c).arrAt_eq_of_cover 7 (firstCols (layer (relu (layer (relu (layer (V c main_arg0 : Mat 4096 2048) (V c main_v3 : Mat 2048 2048))) (V c main_v7 : Mat 2048 2048))) (V c main_v11 : Mat 2048 2050))) (fun t _ => flushed0_7_eq V c t) cover0_7

end Final

end Cert.KernelIdeal.Hand

end
-- ==== Proof.KI.R1Pieces.lean ====
/-
  What one step of the first Hebbian update leaves behind, as arithmetic of the blocks it was given.

  Where an accumulation starts the accumulator is cleared and the step's product of the transposed pre-synaptic block
  with the post-synaptic block is added to the cleared value; at every later step the product is added to what the
  step before left; at the last step of an accumulation the new eligibility trace and the new Hebbian trace are
  computed from the accumulator as that step leaves it.  Each buffer is written by stores that cover it whole, so
  what it holds afterwards is the stored value itself.
-/
import proofs.«178145_j14508399526340_2_alg».proof.Proof.KI.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every store of the body starts at the origin of its buffer. -/
theorem origin1 : (![0, 0] : Fin 2 → Nat) = fun _ => 0 := funext fun a => by fin_cases a <;> rfl

section Pieces

variable (c : Dev nD) (i : grid1.Coords)
  (arg3 : Memref sig .tc .vmem S512x512 .f32) (harg3 : arg3.IsWhole) (arg4 : Memref sig .tc .vmem S512x1024 .bf16) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x1 .f32) (harg7 : arg7.IsWhole) (arg8 : Memref sig .tc .vmem S512x1024 .f32) (harg8 : arg8.IsWhole)
  (arg9 : Memref sig .tc .vmem S512x1024 .f32) (harg9 : arg9.IsWhole) (arg10 : Memref sig .tc .vmem S512x1024 .f32) (harg10 : arg10.IsWhole)
  (x0 : Vec F S512x512 .f32) (x1 : Vec F S512x1024 .bf16) (x2 : Vec F S512x1024 .f32) (x3 : Vec F S512x1024 .f32) (x4 : Vec F S1x1 .f32)
  (xs0 : Vec F S512x1024 .f32)

/-- Where an accumulation starts the accumulator ends at the step's product added to the cleared value. -/
theorem sout1_A_0_eq (hc0 : cond1_0 i) (hc1 : ¬cond1_1 i) :
    sout1_A_0 c i arg3 harg3 arg4 harg4 arg5 harg5 arg6 harg6 arg7 harg7 arg8 harg8 arg9 harg9 arg10 harg10 hc0 hc1 x0 x1 x2 x3 x4 = k1_pay2 x0 x1 k1_pay1 := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero (S := S512x1024) origin1, View.readCov_unit_zero (S := S512x1024) _ origin1]
  simp only [View.readAt_eq_ld, harg3.read_unread, harg4.read_unread, View.ld_unit_zero (S := S512x512) origin1, View.ld_unit_zero (S := S512x1024) origin1, View.ld_unit_zero (S := S512x1024) origin1]

/-- In the middle of an accumulation it ends at the step's product added to what it held. -/
theorem sout1_B_0_eq (hc0 : ¬cond1_0 i) (hc1 : ¬cond1_1 i) :
    sout1_B_0 c i arg3 harg3 arg4 harg4 arg5 harg5 arg6 harg6 arg7 harg7 arg8 harg8 arg9 harg9 arg10 harg10 hc0 hc1 x0 x1 x2 x3 x4 xs0 = k1_pay2 x0 x1 xs0 := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 x3 x4 xs0)]
  unfold kernelRun1_B
  dsimp only
  sl_unfold_words
  rw [View.canon_unit_zero origin1]
  simp only [View.readAt_eq_ld, harg3.read_unread, harg4.read_unread, harg10.read_unread, View.ld_unit_zero (S := S512x512) origin1, View.ld_unit_zero (S := S512x1024) origin1, View.ld_unit_zero (S := S512x1024) origin1]

/-- At the end of an accumulation likewise … -/
theorem sout1_C_0_eq (hc0 : ¬cond1_0 i) (hc1 : cond1_1 i) :
    sout1_C_0 c i arg3 harg3 arg4 harg4 arg5 harg5 arg6 harg6 arg7 harg7 arg8 harg8 arg9 harg9 arg10 harg10 hc0 hc1 x0 x1 x2 x3 x4 xs0 = k1_pay2 x0 x1 xs0 := by
  unfold sout1_C_0
  rw [View.read_writes_eq_canon _ _ _ (scover1_C_0 c i arg3 harg3 arg4 harg4 arg5 harg5 arg6 harg6 arg7 harg7 arg8 harg8 arg9 harg9 arg10 harg10 hc0 hc1 x0 x1 x2 x3 x4 xs0)]
  unfold kernelRun1_C
  dsimp only
  sl_unfold_words
  rw [View.canon_unit_zero origin1]
  simp only [View.readAt_eq_ld, harg3.read_unread, harg4.read_unread, harg10.read_unread, View.ld_unit_zero (S := S512x512) origin1, View.ld_unit_zero (S := S512x1024) origin1, View.ld_unit_zero (S := S512x1024) origin1]

/-- … and the new eligibility trace is computed from the old one and the accumulator as this step leaves it … -/
theorem out1_C_5_eq (hc0 : ¬cond1_0 i) (hc1 : cond1_1 i) :
    out1_C_5 c i arg3 harg3 arg4 harg4 arg5 harg5 arg6 harg6 arg7 harg7 arg8 harg8 arg9 harg9 arg10 harg10 hc0 hc1 x0 x1 x2 x3 x4 xs0 = k1_pay3 x2 (k1_pay2 x0 x1 xs0) := by
  unfold out1_C_5
  rw [View.read_writes_eq_canon _ _ _ (cover1_C_5 c i arg3 harg3 arg4 harg4 arg5 harg5 arg6 harg6 arg7 harg7 arg8 harg8 arg9 harg9 arg10 harg10 hc0 hc1 x0 x1 x2 x3 x4 xs0)]
  unfold kernelRun1_C
  dsimp only
  sl_unfold_words
  rw [View.canon_unit_zero origin1]
  simp only [View.readAt_eq_ld, harg3.read_unread, harg4.read_unread, harg5.read_unread, harg10.read_unread, View.ld_unit_zero (S := S512x512) origin1, View.ld_unit_zero (S := S512x1024) origin1, View.ld_unit_zero (S := S512x1024) origin1, View.readCov_unit_zero (S := S512x1024) _ origin1]

/-- … and the new Hebbian trace from the old one, the dopamine scalar and that new eligibility trace. -/
theorem out1_C_6_eq (hc0 : ¬cond1_0 i) (hc1 : cond1_1 i) :
    out1_C_6 c i arg3 harg3 arg4 harg4 arg5 harg5 arg6 harg6 arg7 harg7 arg8 harg8 arg9 harg9 arg10 harg10 hc0 hc1 x0 x1 x2 x3 x4 xs0 = k1_pay4 x2 (k1_pay2 x0 x1 xs0) x3 x4 := by
  unfold out1_C_6
  rw [View.read_writes_eq_canon _ _ _ (cover1_C_6 c i arg3 harg3 arg4 harg4 arg5 harg5 arg6 harg6 arg7 harg7 arg8 harg8 arg9 harg9 arg10 harg10 hc0 hc1 x0 x1 x2 x3 x4 xs0)]
  unfold kernelRun1_C
  dsimp only
  sl_unfold_words
  rw [View.canon_unit_zero origin1]
  simp only [View.readAt_eq_ld, harg3.read_unread, harg4.read_unread, harg5.read_unread, harg6.read_unread, harg7.read_unread, harg10.read_unread, View.ld_unit_zero (S := S512x512) origin1, View.ld_unit_zero (S := S512x1024) origin1, View.ld_unit_zero (S := S512x1024) origin1, View.ld_unit_zero (S := S1x1) origin1, View.readCov_unit_zero (S := S512x1024) _ origin1]

end Pieces

/-! ## The same, at the points of the grid

The run of points k = 0 … 7 that share a tile of the traces is one accumulation: its first point starts it, its last
finishes it. -/

section Points

variable (V : (c : Dev nD) → (b : Ref sig .tc) → Buf (Elt F) ((c : Thread nD τ).loc b))

/-- After a point that starts an accumulation the accumulator holds the point's product added to the cleared value. -/
theorem scratch1_reset (c : Dev nD) (t : Fin cfg1.N) (h0 : t.val % 8 = 0) :
    (outsAt1 V c t.val t.isLt).2.2 = k1_pay2 (iblk1 V c 0 t) (iblk1 V c 1 t) k1_pay1 := by
  have h1 : ¬t.val % 8 = 7 := by omega
  rw [outsAt1_A V c t h0 h1]
  dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) ((hcond1_0 t).mpr h0) (fun h => h1 ((hcond1_1 t).mp h))

/-- After any other point it holds the point's product added to what the point before left. -/
theorem scratch1_step (c : Dev nD) (t : Fin cfg1.N) (h0 : ¬t.val % 8 = 0) :
    (outsAt1 V c t.val t.isLt).2.2 = k1_pay2 (iblk1 V c 0 t) (iblk1 V c 1 t) (outsAt1 V c (t.val - 1) (Nat.lt_of_le_of_lt (Nat.sub_le _ _) t.isLt)).2.2 := by
  by_cases h1 : t.val % 8 = 7
  · rw [outsAt1_C V c t h0 h1]
    dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (outsAt1 V c (t.val - 1) (Nat.lt_of_le_of_lt (Nat.sub_le _ _) t.isLt)).2.2 (fun h => h0 ((hcond1_0 t).mp h)) ((hcond1_1 t).mpr h1)
  · rw [outsAt1_B V c t h0 h1]
    dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (outsAt1 V c (t.val - 1) (Nat.lt_of_le_of_lt (Nat.sub_le _ _) t.isLt)).2.2 (fun h => h0 ((hcond1_0 t).mp h)) (fun h => h1 ((hcond1_1 t).mp h))

/-- After a point that finishes an accumulation output 5's buffer holds the new eligibility trace of the accumulator as the
    point leaves it … -/
theorem trace1_last (c : Dev nD) (t : Fin cfg1.N) (h1 : t.val % 8 = 7) :
    (outsAt1 V c t.val t.isLt).1 = k1_pay3 (iblk1 V c 2 t) (outsAt1 V c t.val t.isLt).2.2 := by
  have h0 : ¬t.val % 8 = 0 := by omega
  rw [scratch1_step V c t h0, outsAt1_C V c t h0 h1]
  dsimp only
  exact out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (outsAt1 V c (t.val - 1) (Nat.lt_of_le_of_lt (Nat.sub_le _ _) t.isLt)).2.2 (fun h => h0 ((hcond1_0 t).mp h)) ((hcond1_1 t).mpr h1)

/-- … and output 6's the new Hebbian trace. -/
theorem heb1_last (c : Dev nD) (t : Fin cfg1.N) (h1 : t.val % 8 = 7) :
    (outsAt1 V c t.val t.isLt).2.1
      = k1_pay4 (iblk1 V c 2 t) (outsAt1 V c t.val t.isLt).2.2 (iblk1 V c 3 t) (iblk1 V c 4 t) := by
  have h0 : ¬t.val % 8 = 0 := by omega
  rw [scratch1_step V c t h0, outsAt1_C V c t h0 h1]
  dsimp only
  exact out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t) (iblk1 V c 4 t) (outsAt1 V c (t.val - 1) (Nat.lt_of_le_of_lt (Nat.sub_le _ _) t.isLt)).2.2 (fun h => h0 ((hcond1_0 t).mp h)) ((hcond1_1 t).mpr h1)

end Points

end Cert.KernelIdeal.Hand

end
-- ==== Proof.LibColumnProduct.lean ====
/-
  A matrix product that contracts the LEADING axis of both operands, into a zero accumulator, read at an entry, for
  any extents.

  For a [K, M] left operand and a [K, N] right operand contracted row against row (left axis 0 against right axis 0, no
  batch axes) — the product of the left operand's transpose with the right operand — on the extended reals, entry
  (r, e) of the product accumulated into the zero matrix is ∑ k < K, lhs[k, r] · rhs[k, e]: the accumulator contributes
  0 + _, and the contraction's one-axis index is its one coordinate. The dimension record may be any record equal to
  `DotDims.leadingAxes` (a program's own record differs from it only in the proof it carries).
-/
import Idealize.ShloMosaic.Lib.ValueIdx
import Idealize.ShloMosaic.PureOps.Ideal.Laws

noncomputable section

namespace Idealize.ShloMosaic

/-- `<[0], [0], [1], [1], [0, 1, 1, 1], [], []>`: `K×M` by `K×N`, both contracted on their first axis. -/
def DotDims.leadingAxes (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

namespace ValueIdx

/-- Entry (r, e) of a [K, M]ᵀ × [K, N] product into the zero accumulator is ∑ k, lhs[k, r] · rhs[k, e]. -/
theorem matmul_leadingAxes_zero_apply {K M N : ℕ} {φ₁ φ₂ : FTy} (d : DotDims ⟨2, ![K, M]⟩ ⟨2, ![K, N]⟩ ⟨2, ![M, N]⟩)
    (hd : d = DotDims.leadingAxes K M N) (prec : Option ContractPrecision)
    (lhs : FVec Ideal ⟨2, ![K, M]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 k r) * rhs (ix2 k e) := by
  subst hd
  rw [Ideal.matmul_constant_zero_apply, ← Equiv.sum_comp (contrEquiv1 (DotDims.leadingAxes K M N) K rfl rfl).symm]
  refine Finset.sum_congr rfl fun k _ => ?_
  have hk := contrEquiv1_symm_val (DotDims.leadingAxes K M N) K rfl rfl k
  have el : (DotDims.leadingAxes K M N).lhsIdx (ix2 r e) ((contrEquiv1 (DotDims.leadingAxes K M N) K rfl rfl).symm k) = ix2 k r :=
    funext fun a => Fin.ext (by
      match a with
      | ⟨0, _⟩ => exact hk
      | ⟨1, _⟩ => rfl)
  have er : (DotDims.leadingAxes K M N).rhsIdx (ix2 r e) ((contrEquiv1 (DotDims.leadingAxes K M N) K rfl rfl).symm k) = ix2 k e :=
    funext fun a => Fin.ext (by
      match a with
      | ⟨0, _⟩ => exact hk
      | ⟨1, _⟩ => rfl)
  rw [el, er]

end ValueIdx

end Idealize.ShloMosaic

end
-- ==== Proof.KI.HebbPayload.lean ====
/-
  The arithmetic of the Hebbian-update kernel's four stored values, read entry by entry on the extended reals.

  At every grid point the kernel adds to its accumulator the product of the transposed block of pre-synaptic activity
  with the block of post-synaptic activity: entry (r, e) gains the sum over the block's rows k of pre[k, r] · post[k, e]
  (for the second and third layer the pre-synaptic entry is first rectified).  At the last point of a run the new
  eligibility trace is 0.7 · old + 0.3 · accumulator, and the new Hebbian trace is the old one moved by the dopamine
  scalar times the new eligibility, clamped to [-0.3, 0.3].  A change of float format is the identity on extended
  reals, and a reshape to the same shape moves nothing.
-/
import proofs.«178145_j14508399526340_2_alg».proof.Proof.Gen.KernelIdeal.Skeleton
import proofs.«178145_j14508399526340_2_alg».proof.Proof.LibColumnProduct
import proofs.«178145_j14508399526340_2_alg».proof.Proof.Spec
import Idealize.ShloMosaic.Lib.Pipeline.Value
import Idealize.ShloMosaic.Lib.IdealHost

set_option maxRecDepth 16384

noncomputable section

namespace Cert.KernelIdeal.Hand

open Cert.KernelIdeal Cert.KernelIdeal.Gen
open Idealize.ShloMosaic Idealize.ShloMosaic.ValueIdx
open Cert.Hebbian (zero32 keep32 rate32 negRate32)

/-- The one entry of a 1×1 vector, extracted at position (0, 0). -/
theorem extract_one_by_one (v : Vec Ideal S1x1 .f32) (h : ∀ a, (![0, 0] : Fin 2 → Nat) a < S1x1.size a) :
    extractAt ![0, 0] v h = v (ix2 0 0) :=
  congrArg v (funext fun a => by match a with | ⟨0, _⟩ => rfl | ⟨1, _⟩ => rfl)

/-- The rectifier's bf16 zero and the single-precision zero are the same extended real. -/
theorem bf16_zero_eq_zero32 : Ideal.ofBits .bf16 0x0000#16 = zero32 := by
  rw [Ideal.ofBits_zero_bf16]; exact Ideal.ofBits_zero_f32.symm

/-- Adding to the single-precision zero changes nothing. -/
theorem zero32_add (x : EReal) : zero32 + x = x := by
  rw [show zero32 = 0 from Ideal.ofBits_zero_f32, zero_add]

/-! ## First layer: blocks of 512 rows, a [512, 1024] tile of the traces -/

theorem k1_pay1_apply (r : Fin 512) (e : Fin 1024) : k1_pay1 (F := Ideal) (ix2 r e) = zero32 := by
  unfold k1_pay1
  exact congrFun (shapeCast_self _ _) (ix2 r e)

theorem k1_pay2_apply (v3 : Vec Ideal S512x512 .f32) (v4 : Vec Ideal S512x1024 .bf16) (v7 : Vec Ideal S512x1024 .f32)
    (r : Fin 512) (e : Fin 1024) :
    k1_pay2 v3 v4 v7 (ix2 r e) = v7 (ix2 r e) + ∑ k : Fin 512, v3 (ix2 k r) * v4 (ix2 k e) := by
  unfold k1_pay2
  refine (congrFun (shapeCast_self _ _) (ix2 r e)).trans ?_
  refine congrArg (v7 (ix2 r e) + ·) ?_
  refine (ValueIdx.matmul_leadingAxes_zero_apply _ rfl none _ _ r e).trans ?_
  refine Finset.sum_congr rfl fun k _ => ?_
  exact congrArg (v3 (ix2 k r) * ·) (congrFun (shapeCast_self v4 _) (ix2 k e))

theorem k1_pay3_apply (v16 v19 : Vec Ideal S512x1024 .f32) (r : Fin 512) (e : Fin 1024) :
    k1_pay3 v16 v19 (ix2 r e) = keep32 * v16 (ix2 r e) + rate32 * v19 (ix2 r e) := rfl

theorem k1_pay4_apply (v16 v19 v23 : Vec Ideal S512x1024 .f32) (v24 : Vec Ideal S1x1 .f32) (r : Fin 512) (e : Fin 1024) :
    k1_pay4 v16 v19 v23 v24 (ix2 r e)
      = min rate32 (max negRate32 (v23 (ix2 r e) + v24 (ix2 0 0) * k1_pay3 v16 v19 (ix2 r e))) := by
  unfold k1_pay4
  exact congrArg (fun d => min rate32 (max negRate32 (v23 (ix2 r e) + d * k1_pay3 v16 v19 (ix2 r e))))
    (extract_one_by_one v24 _)

/-! ## Second layer: blocks of 1024 rows, rectified pre-synaptic activity, a [512, 1024] tile of the traces -/

theorem k2_pay1_apply (r : Fin 512) (e : Fin 1024) : k2_pay1 (F := Ideal) (ix2 r e) = zero32 := by
  unfold k2_pay1
  exact congrFun (shapeCast_self _ _) (ix2 r e)

theorem k2_pay2_apply (v3 : Vec Ideal S1024x512 .bf16) (v7 : Vec Ideal S1024x1024 .bf16) (v9 : Vec Ideal S512x1024 .f32)
    (r : Fin 512) (e : Fin 1024) :
    k2_pay2 v3 v7 v9 (ix2 r e) = v9 (ix2 r e) + ∑ k : Fin 1024, max (v3 (ix2 k r)) zero32 * v7 (ix2 k e) := by
  unfold k2_pay2
  refine (congrFun (shapeCast_self _ _) (ix2 r e)).trans ?_
  refine congrArg (v9 (ix2 r e) + ·) ?_
  refine (ValueIdx.matmul_leadingAxes_zero_apply _ rfl none _ _ r e).trans ?_
  refine Finset.sum_congr rfl fun k _ => ?_
  have hpre : (maximumf (shapeCast S1024x512 v3 shapeCasts_S1024x512_S1024x512) (broadcast S1024x512 (Scalar.ofBits .bf16 0x0000#16 : Ideal .bf16))
      : FVec Ideal S1024x512 .bf16) (ix2 k r) = max (v3 (ix2 k r)) zero32 := by
    refine (maximumf_apply _ _ _).trans ?_
    rw [shapeCast_self]
    exact congrArg (max (v3 (ix2 k r))) bf16_zero_eq_zero32
  have hpost : (shapeCast S1024x1024 v7 shapeCasts_S1024x1024_S1024x1024 : FVec Ideal S1024x1024 .bf16) (ix2 k e) = v7 (ix2 k e) :=
    congrFun (shapeCast_self v7 _) (ix2 k e)
  rw [hpre, hpost]

theorem k2_pay3_apply (v18 v21 : Vec Ideal S512x1024 .f32) (r : Fin 512) (e : Fin 1024) :
    k2_pay3 v18 v21 (ix2 r e) = keep32 * v18 (ix2 r e) + rate32 * v21 (ix2 r e) := rfl

theorem k2_pay4_apply (v18 v21 v25 : Vec Ideal S512x1024 .f32) (v26 : Vec Ideal S1x1 .f32) (r : Fin 512) (e : Fin 1024) :
    k2_pay4 v18 v21 v25 v26 (ix2 r e)
      = min rate32 (max negRate32 (v25 (ix2 r e) + v26 (ix2 0 0) * k2_pay3 v18 v21 (ix2 r e))) := by
  unfold k2_pay4
  exact congrArg (fun d => min rate32 (max negRate32 (v25 (ix2 r e) + d * k2_pay3 v18 v21 (ix2 r e))))
    (extract_one_by_one v26 _)

/-! ## Third layer: blocks of 1024 rows, rectified pre-synaptic activity, a [256, 2050] tile of the traces -/

theorem k3_pay1_apply (r : Fin 256) (e : Fin 2050) : k3_pay1 (F := Ideal) (ix2 r e) = zero32 := by
  unfold k3_pay1
  exact congrFun (shapeCast_self _ _) (ix2 r e)

theorem k3_pay2_apply (v3 : Vec Ideal S1024x256 .bf16) (v7 : Vec Ideal S1024x2050 .bf16) (v9 : Vec Ideal S256x2050 .f32)
    (r : Fin 256) (e : Fin 2050) :
    k3_pay2 v3 v7 v9 (ix2 r e) = v9 (ix2 r e) + ∑ k : Fin 1024, max (v3 (ix2 k r)) zero32 * v7 (ix2 k e) := by
  unfold k3_pay2
  refine (congrFun (shapeCast_self _ _) (ix2 r e)).trans ?_
  refine congrArg (v9 (ix2 r e) + ·) ?_
  refine (ValueIdx.matmul_leadingAxes_zero_apply _ rfl none _ _ r e).trans ?_
  refine Finset.sum_congr rfl fun k _ => ?_
  have hpre : (maximumf (shapeCast S1024x256 v3 shapeCasts_S1024x256_S1024x256) (broadcast S1024x256 (Scalar.ofBits .bf16 0x0000#16 : Ideal .bf16))
      : FVec Ideal S1024x256 .bf16) (ix2 k r) = max (v3 (ix2 k r)) zero32 := by
    refine (maximumf_apply _ _ _).trans ?_
    rw [shapeCast_self]
    exact congrArg (max (v3 (ix2 k r))) bf16_zero_eq_zero32
  have hpost : (shapeCast S1024x2050 v7 shapeCasts_S1024x2050_S1024x2050 : FVec Ideal S1024x2050 .bf16) (ix2 k e) = v7 (ix2 k e) :=
    congrFun (shapeCast_self v7 _) (ix2 k e)
  rw [hpre, hpost]

theorem k3_pay3_apply (v18 v21 : Vec Ideal S256x2050 .f32) (r : Fin 256) (e : Fin 2050) :
    k3_pay3 v18 v21 (ix2 r e) = keep32 * v18 (ix2 r e) + rate32 * v21 (ix2 r e) := rfl

theorem k3_pay4_apply (v18 v21 v25 : Vec Ideal S256x2050 .f32) (v26 : Vec Ideal S1x1 .f32) (r : Fin 256) (e : Fin 2050) :
    k3_pay4 v18 v21 v25 v26 (ix2 r e)
      = min rate32 (max negRate32 (v25 (ix2 r e) + v26 (ix2 0 0) * k3_pay3 v18 v21 (ix2 r e))) := by
  unfold k3_pay4
  exact congrArg (fun d => min rate32 (max negRate32 (v25 (ix2 r e) + d * k3_pay3 v18 v21 (ix2 r e))))
    (extract_one_by_one v26 _)

end Cert.KernelIdeal.Hand

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.KI.BlockAccum.lean ====
/-
  Sums that a grid accumulates block by block.

  A batch axis of N = T · B rows is cut into T blocks of B rows.  A running total that starts at the first block's
  total and gains one block's total at each later step holds, after step n, the totals of blocks 0 … n; after the last
  step that is the total over all N rows.  Only commutativity and associativity of the addition are used, so the
  statements hold in any commutative additive monoid — in particular on the extended reals, infinities included.
-/
import proofs.«178145_j14508399526340_2_alg».proof.Proof.LibBlockSum

noncomputable section

open scoped BigOperators

namespace Cert.KernelIdeal.Hand

open Idealize.ShloMosaic.ValueIdx

variable {M : Type*} [AddCommMonoid M]

/-- The totals of blocks 0 … n, of T blocks with totals g. -/
def firstBlocks {T : ℕ} (g : Fin T → M) (n : ℕ) : M := ∑ k : Fin T, if k.val ≤ n then g k else 0

/-- After the first step the running total is the first block's total. -/
theorem firstBlocks_zero {T : ℕ} (g : Fin T → M) (hT : 0 < T) : firstBlocks g 0 = g ⟨0, hT⟩ := by
  unfold firstBlocks
  rw [Finset.sum_eq_single (⟨0, hT⟩ : Fin T)]
  · simp
  · intro k _ hk
    have hk' : ¬k.val ≤ 0 := fun h => hk (Fin.ext (Nat.le_zero.mp h))
    rw [if_neg hk']
  · intro h; exact absurd (Finset.mem_univ _) h

/-- A later step adds that step's block. -/
theorem firstBlocks_step {T : ℕ} (g : Fin T → M) (n : ℕ) (hpos : n ≠ 0) (hn : n < T) :
    firstBlocks g n = firstBlocks g (n - 1) + g ⟨n, hn⟩ := by
  unfold firstBlocks
  have hsplit : ∀ k : Fin T, (if k.val ≤ n then g k else 0)
      = (if k.val ≤ n - 1 then g k else 0) + (if k = (⟨n, hn⟩ : Fin T) then g k else 0) := by
    intro k
    by_cases h1 : k.val ≤ n - 1
    · have h2 : k.val ≤ n := by omega
      have h3 : k ≠ (⟨n, hn⟩ : Fin T) := fun h => by rw [h] at h1; dsimp only at h1; omega
      rw [if_pos h1, if_pos h2, if_neg h3, add_zero]
    · by_cases h2 : k.val = n
      · have h3 : k = (⟨n, hn⟩ : Fin T) := Fin.ext h2
        rw [if_neg h1, if_pos (by omega), if_pos h3, zero_add]
      · have h3 : ¬k.val ≤ n := by omega
        have h4 : k ≠ (⟨n, hn⟩ : Fin T) := fun h => h2 (by rw [h])
        rw [if_neg h1, if_neg h3, if_neg h4, add_zero]
  rw [Finset.sum_congr rfl fun k _ => hsplit k, Finset.sum_add_distrib, Finset.sum_ite_eq' Finset.univ (⟨n, hn⟩ : Fin T) g,
    if_pos (Finset.mem_univ _)]

/-- After the last step the running total is the total of all the blocks. -/
theorem firstBlocks_all {T : ℕ} (g : Fin T → M) (n : ℕ) (hn : T ≤ n + 1) : firstBlocks g n = ∑ k, g k := by
  unfold firstBlocks
  refine Finset.sum_congr rfl fun k _ => ?_
  have hk : k.val ≤ n := by have := k.isLt; omega
  rw [if_pos hk]

/-- Row b of block k, as a row of the whole batch of N = T · B rows. -/
def rowOf {T B N : ℕ} (h : T * B = N) (k : Fin T) (b : Fin B) : Fin N := (blockRow k b).cast h

theorem rowOf_val {T B N : ℕ} (h : T * B = N) (k : Fin T) (b : Fin B) : (rowOf h k b).val = k.val * B + b.val := rfl

/-- The blocks' totals add up to the total over the whole batch. -/
theorem sum_blocks {T B N : ℕ} (h : T * B = N) (f : Fin N → M) :
    ∑ k : Fin T, ∑ b : Fin B, f (rowOf h k b) = ∑ n, f n := by
  subst h
  exact (sum_blockRows T B f).symm

end Cert.KernelIdeal.Hand

end
-- ==== Proof.KI.R1Val.lean ====
/-
  The first Hebbian update, read as whole matrices on the extended reals.

  The grid walks the tiles of the two trace matrices and, for each tile, the blocks of the batch.  Over the run of
  points that share a tile the accumulator gathers, block by block, the products of the transposed pre-synaptic block
  with the post-synaptic block; after the run's last point its entry (r, e) is the sum over the whole batch of
  pre[n, R] · post[n, E], where (R, E) is the entry's place in the whole matrix — the correlation of the two batches.
  That last point stores 0.7 · old + 0.3 · correlation as the tile of the new eligibility trace and the clamped
  old + dopamine · (new eligibility) as the tile of the new Hebbian trace, and only these last points are written back.
  Their tiles cover the two arrays, so after the region the arrays hold the two matrices of the specification.  The
  only laws used are that a sum may be cut into blocks and that zero is neutral, so no entry needs to be finite.
-/
import proofs.«178145_j14508399526340_2_alg».proof.Proof.KI.R1Pieces
import proofs.«178145_j14508399526340_2_alg».proof.Proof.KI.HebbPayload
import proofs.«178145_j14508399526340_2_alg».proof.Proof.KI.BlockAccum
import proofs.«178145_j14508399526340_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hebbian (Mat zero32 keep32 rate32 negRate32)

namespace R1V

section
variable (V : (c : Dev nD) → (b : Ref sig .tc) → Buf (Elt Ideal) ((c : Thread nD τ).loc b))

theorem rows1 : 8 * 512 = 4096 := rfl

/-- The arrays the update finds, as matrices: the two batches of activity, the old eligibility and Hebbian traces, the
    dopamine scalar. -/
abbrev pre1 (c : Dev nD) : Mat 4096 2048 := V c main_arg0
abbrev post1 (c : Dev nD) : Mat 4096 2048 := V c main_v12_0
abbrev eold1 (c : Dev nD) : Mat 2048 2048 := V c main_arg4
abbrev hebold1 (c : Dev nD) : Mat 2048 2048 := V c main_arg7
abbrev dopa1 (c : Dev nD) : Mat 1 1 := V c main_v23
/-- The five input blocks at a point. -/
abbrev bPre1 (c : Dev nD) (t : Fin cfg1.N) : Vec Ideal S512x512 .f32 := iblk1 V c 0 t
abbrev bPost1 (c : Dev nD) (t : Fin cfg1.N) : Vec Ideal S512x1024 .bf16 := iblk1 V c 1 t
abbrev bEold1 (c : Dev nD) (t : Fin cfg1.N) : Vec Ideal S512x1024 .f32 := iblk1 V c 2 t
abbrev bHebold1 (c : Dev nD) (t : Fin cfg1.N) : Vec Ideal S512x1024 .f32 := iblk1 V c 3 t
abbrev bDopa1 (c : Dev nD) (t : Fin cfg1.N) : Vec Ideal S1x1 .f32 := iblk1 V c 4 t

/-! ## Where the blocks sit

At a point t of the grid the batch block is k = t.val % 8, the row tile of the traces is i = t.val / 16 and the column tile is
j = t.val / 8 % 2: the pre-synaptic block is rows 512 k … of columns 512 i …, the post-synaptic block rows 512 k … of columns
1024 j …, and the four trace windows are rows 512 i … of columns 1024 j …. -/

theorem index1_0 : ∀ t : Fin cfg1.N, win1_0.index t 0 = t.val % 8 ∧ win1_0.index t 1 = t.val / 16 :=
  (by decide +kernel : ∀ t : Fin grid1.N, win1_0.index t 0 = t.val % 8 ∧ win1_0.index t 1 = t.val / 16)
theorem index1_1 : ∀ t : Fin cfg1.N, win1_1.index t 0 = t.val % 8 ∧ win1_1.index t 1 = t.val / 8 % 2 :=
  (by decide +kernel : ∀ t : Fin grid1.N, win1_1.index t 0 = t.val % 8 ∧ win1_1.index t 1 = t.val / 8 % 2)
theorem index1_2 : ∀ t : Fin cfg1.N, win1_2.index t 0 = t.val / 16 ∧ win1_2.index t 1 = t.val / 8 % 2 :=
  (by decide +kernel : ∀ t : Fin grid1.N, win1_2.index t 0 = t.val / 16 ∧ win1_2.index t 1 = t.val / 8 % 2)
theorem index1_3 : ∀ t : Fin cfg1.N, win1_3.index t 0 = t.val / 16 ∧ win1_3.index t 1 = t.val / 8 % 2 :=
  (by decide +kernel : ∀ t : Fin grid1.N, win1_3.index t 0 = t.val / 16 ∧ win1_3.index t 1 = t.val / 8 % 2)
theorem index1_4 : ∀ t : Fin cfg1.N, win1_4.index t 0 = 0 ∧ win1_4.index t 1 = 0 :=
  (by decide +kernel : ∀ t : Fin grid1.N, win1_4.index t 0 = 0 ∧ win1_4.index t 1 = 0)
theorem index1_5 : ∀ t : Fin cfg1.N, win1_5.index t 0 = t.val / 16 ∧ win1_5.index t 1 = t.val / 8 % 2 :=
  (by decide +kernel : ∀ t : Fin grid1.N, win1_5.index t 0 = t.val / 16 ∧ win1_5.index t 1 = t.val / 8 % 2)
theorem index1_6 : ∀ t : Fin cfg1.N, win1_6.index t 0 = t.val / 16 ∧ win1_6.index t 1 = t.val / 8 % 2 :=
  (by decide +kernel : ∀ t : Fin grid1.N, win1_6.index t 0 = t.val / 16 ∧ win1_6.index t 1 = t.val / 8 % 2)

theorem bPre1_apply (c : Dev nD) (t : Fin cfg1.N) (b : Fin 512) (r : Fin 512) (n : Fin 4096) (R : Fin 2048)
    (hn : n.val = t.val % 8 * 512 + b.val) (hR : R.val = t.val / 16 * 512 + r.val) :
    bPre1 V c t (ix2 b r) = pre1 V c (ix2 n R) := by
  unfold bPre1 pre1 iblk1
  rw [View.read_apply]
  show V c main_arg0 _ = V c main_arg0 _
  refine congrArg (V c main_arg0) (funext fun a => Fin.ext ?_)
  match a with
  | ⟨0, _⟩ => show win1_0.index t 0 * 512 + 1 * b.val = n.val; rw [(index1_0 t).1, hn]; omega
  | ⟨1, _⟩ => show win1_0.index t 1 * 512 + 1 * r.val = R.val; rw [(index1_0 t).2, hR]; omega

theorem bPost1_apply (c : Dev nD) (t : Fin cfg1.N) (b : Fin 512) (e : Fin 1024) (n : Fin 4096) (E : Fin 2048)
    (hn : n.val = t.val % 8 * 512 + b.val) (hE : E.val = t.val / 8 % 2 * 1024 + e.val) :
    bPost1 V c t (ix2 b e) = post1 V c (ix2 n E) := by
  unfold bPost1 post1 iblk1
  rw [View.read_apply]
  show V c main_v12_0 _ = V c main_v12_0 _
  refine congrArg (V c main_v12_0) (funext fun a => Fin.ext ?_)
  match a with
  | ⟨0, _⟩ => show win1_1.index t 0 * 512 + 1 * b.val = n.val; rw [(index1_1 t).1, hn]; omega
  | ⟨1, _⟩ => show win1_1.index t 1 * 1024 + 1 * e.val = E.val; rw [(index1_1 t).2, hE]; omega

theorem bEold1_apply (c : Dev nD) (t : Fin cfg1.N) (r : Fin 512) (e : Fin 1024) (R : Fin 2048) (E : Fin 2048)
    (hR : R.val = t.val / 16 * 512 + r.val) (hE : E.val = t.val / 8 % 2 * 1024 + e.val) :
    bEold1 V c t (ix2 r e) = eold1 V c (ix2 R E) := by
  unfold bEold1 eold1 iblk1
  rw [View.read_apply]
  show V c main_arg4 _ = V c main_arg4 _
  refine congrArg (V c main_arg4) (funext fun a => Fin.ext ?_)
  match a with
  | ⟨0, _⟩ => show win1_2.index t 0 * 512 + 1 * r.val = R.val; rw [(index1_2 t).1, hR]; omega
  | ⟨1, _⟩ => show win1_2.index t 1 * 1024 + 1 * e.val = E.val; rw [(index1_2 t).2, hE]; omega

theorem bHebold1_apply (c : Dev nD) (t : Fin cfg1.N) (r : Fin 512) (e : Fin 1024) (R : Fin 2048) (E : Fin 2048)
    (hR : R.val = t.val / 16 * 512 + r.val) (hE : E.val = t.val / 8 % 2 * 1024 + e.val) :
    bHebold1 V c t (ix2 r e) = hebold1 V c (ix2 R E) := by
  unfold bHebold1 hebold1 iblk1
  rw [View.read_apply]
  show V c main_arg7 _ = V c main_arg7 _
  refine congrArg (V c main_arg7) (funext fun a => Fin.ext ?_)
  match a with
  | ⟨0, _⟩ => show win1_3.index t 0 * 512 + 1 * r.val = R.val; rw [(index1_3 t).1, hR]; omega
  | ⟨1, _⟩ => show win1_3.index t 1 * 1024 + 1 * e.val = E.val; rw [(index1_3 t).2, hE]; omega

theorem bDopa1_apply (c : Dev nD) (t : Fin cfg1.N) :
    bDopa1 V c t (ix2 0 0) = dopa1 V c (ix2 0 0) := by
  unfold bDopa1 dopa1 iblk1
  rw [View.read_apply]
  show V c main_v23 _ = V c main_v23 _
  refine congrArg (V c main_v23) (funext fun a => Fin.ext ?_)
  match a with
  | ⟨0, _⟩ => show win1_4.index t 0 * 1 + 1 * 0 = 0; rw [(index1_4 t).1]
  | ⟨1, _⟩ => show win1_4.index t 1 * 1 + 1 * 0 = 0; rw [(index1_4 t).2]

/-! ## The accumulator -/

/-- Batch block k's share of entry (R, E) of the correlation of the input with the first pre-activation. -/
def corrBlock1 (c : Dev nD) (R : Fin 2048) (E : Fin 2048) (k : Fin 8) : EReal :=
  ∑ b : Fin 512, pre1 V c (ix2 (rowOf rows1 k b) R) * post1 V c (ix2 (rowOf rows1 k b) E)

/-- The blocks' shares add up to the correlation's entry. -/
theorem sum_corrBlock1 (c : Dev nD) (R : Fin 2048) (E : Fin 2048) :
    ∑ k : Fin 8, corrBlock1 V c R E k = Cert.Hebbian.correlate (pre1 V c) (post1 V c) (ix2 R E) :=
  sum_blocks rows1 fun n => pre1 V c (ix2 n R) * post1 V c (ix2 n E)

/-- What one point adds to entry (r, e) of the accumulator: its batch block's share of the entry's place in the whole. -/
theorem point_share1 (c : Dev nD) (t : Fin cfg1.N) (r : Fin 512) (e : Fin 1024) (R : Fin 2048) (E : Fin 2048)
    (hR : R.val = t.val / 16 * 512 + r.val) (hE : E.val = t.val / 8 % 2 * 1024 + e.val) :
    ∑ b : Fin 512, bPre1 V c t (ix2 b r) * bPost1 V c t (ix2 b e)
      = corrBlock1 V c R E ⟨t.val % 8, Nat.mod_lt _ (by decide)⟩ := by
  unfold corrBlock1
  refine Finset.sum_congr rfl fun b _ => ?_
  rw [bPre1_apply V c t b r (rowOf rows1 ⟨t.val % 8, Nat.mod_lt _ (by decide)⟩ b) R rfl hR,
    bPost1_apply V c t b e (rowOf rows1 ⟨t.val % 8, Nat.mod_lt _ (by decide)⟩ b) E rfl hE]

/-- After point n the accumulator's entry holds the shares of the batch blocks 0 … n mod 8 of its run. -/
theorem scratch1_eq (c : Dev nD) : ∀ (n : ℕ) (hn : n < cfg1.N) (r : Fin 512) (e : Fin 1024) (R : Fin 2048) (E : Fin 2048),
    R.val = n / 16 * 512 + r.val → E.val = n / 8 % 2 * 1024 + e.val →
    (outsAt1 V c n hn).2.2 (ix2 r e) = firstBlocks (corrBlock1 V c R E) (n % 8) := by
  intro n
  induction n with
  | zero =>
    intro hn r e R E hR hE
    rw [scratch1_reset V c ⟨0, hn⟩ rfl]
    refine (k1_pay2_apply (bPre1 V c ⟨0, hn⟩) (bPost1 V c ⟨0, hn⟩) (k1_pay1 (F := Ideal)) r e).trans ?_
    rw [k1_pay1_apply, zero32_add, point_share1 V c ⟨0, hn⟩ r e R E hR hE]
    exact (firstBlocks_zero _ (by decide)).symm
  | succ n ih =>
    intro hn r e R E hR hE
    by_cases h0 : (n + 1) % 8 = 0
    · rw [scratch1_reset V c ⟨n + 1, hn⟩ h0]
      refine (k1_pay2_apply (bPre1 V c ⟨n + 1, hn⟩) (bPost1 V c ⟨n + 1, hn⟩) (k1_pay1 (F := Ideal)) r e).trans ?_
      rw [k1_pay1_apply, zero32_add, point_share1 V c ⟨n + 1, hn⟩ r e R E hR hE]
      have hz : (⟨(n + 1) % 8, Nat.mod_lt _ (by decide)⟩ : Fin 8) = ⟨0, by decide⟩ := Fin.ext h0
      rw [hz, h0]
      exact (firstBlocks_zero _ (by decide)).symm
    · rw [scratch1_step V c ⟨n + 1, hn⟩ h0]
      refine (k1_pay2_apply (bPre1 V c ⟨n + 1, hn⟩) (bPost1 V c ⟨n + 1, hn⟩) _ r e).trans ?_
      rw [point_share1 V c ⟨n + 1, hn⟩ r e R E hR hE]
      show (outsAt1 V c n _).2.2 (ix2 r e) + _ = _
      rw [ih (Nat.lt_of_succ_lt hn) r e R E (by omega) (by omega),
        firstBlocks_step (corrBlock1 V c R E) ((n + 1) % 8) h0 (Nat.mod_lt _ (by decide))]
      have hm : (n + 1) % 8 - 1 = n % 8 := by omega
      rw [hm]
end

section
variable (V : (c : Dev nD) → (b : Ref sig .tc) → Buf (Elt Ideal) ((c : Thread nD τ).loc b))

/-! ## The two outputs -/

/-- The new eligibility trace and the new Hebbian trace of the layer, as whole matrices. -/
abbrev traceNew1 (c : Dev nD) : Mat 2048 2048 :=
  Cert.Hebbian.trace (eold1 V c) (Cert.Hebbian.correlate (pre1 V c) (post1 V c))
abbrev hebNew1 (c : Dev nD) : Mat 2048 2048 :=
  Cert.Hebbian.clampUpdate (hebold1 V c) (traceNew1 V c) (dopa1 V c (ix2 0 0))

/-- At the last point of a run the accumulator's entry is the whole correlation's entry, so the stored eligibility is the
    new trace's entry at the tile's place in the whole. -/
theorem trace_entry1 (c : Dev nD) (t : Fin cfg1.N) (h7 : t.val % 8 = 7) (r : Fin 512) (e : Fin 1024) (R : Fin 2048) (E : Fin 2048)
    (hR : R.val = t.val / 16 * 512 + r.val) (hE : E.val = t.val / 8 % 2 * 1024 + e.val) :
    k1_pay3 (bEold1 V c t) (outsAt1 V c t.val t.isLt).2.2 (ix2 r e) = traceNew1 V c (ix2 R E) := by
  refine (k1_pay3_apply (bEold1 V c t) _ r e).trans ?_
  rw [bEold1_apply V c t r e R E hR hE, scratch1_eq V c t.val t.isLt r e R E hR hE,
    firstBlocks_all _ _ (by omega), sum_corrBlock1]
  rfl

/-- A tile of a whole matrix standing at output 5's array, read at a point. -/
theorem read_blk1_5 (t : Fin cfg1.N) (G : Mat 2048 2048) (r : Fin 512) (e : Fin 1024) (R : Fin 2048) (E : Fin 2048)
    (hR : R.val = t.val / 16 * 512 + r.val) (hE : E.val = t.val / 8 % 2 * 1024 + e.val) :
    (((cfg1.win 5).blk t).view.read (Elt Ideal) G : Mat 512 1024) (ix2 r e) = G (ix2 R E) := by
  rw [View.read_apply]
  show G _ = G _
  refine congrArg G (funext fun a => Fin.ext ?_)
  match a with
  | ⟨0, _⟩ => show win1_5.index t (0 : Fin 2) * 512 + 1 * r.val = R.val; rw [(index1_5 t).1, hR]; omega
  | ⟨1, _⟩ => show win1_5.index t (1 : Fin 2) * 1024 + 1 * e.val = E.val; rw [(index1_5 t).2, hE]; omega

theorem read_blk1_6 (t : Fin cfg1.N) (G : Mat 2048 2048) (r : Fin 512) (e : Fin 1024) (R : Fin 2048) (E : Fin 2048)
    (hR : R.val = t.val / 16 * 512 + r.val) (hE : E.val = t.val / 8 % 2 * 1024 + e.val) :
    (((cfg1.win 6).blk t).view.read (Elt Ideal) G : Mat 512 1024) (ix2 r e) = G (ix2 R E) := by
  rw [View.read_apply]
  show G _ = G _
  refine congrArg G (funext fun a => Fin.ext ?_)
  match a with
  | ⟨0, _⟩ => show win1_6.index t (0 : Fin 2) * 512 + 1 * r.val = R.val; rw [(index1_6 t).1, hR]; omega
  | ⟨1, _⟩ => show win1_6.index t (1 : Fin 2) * 1024 + 1 * e.val = E.val; rw [(index1_6 t).2, hE]; omega

/-- The place of a tile's entry in the whole matrix. -/
def tileRow1 (t : Fin cfg1.N) (r : Fin 512) : Fin 2048 :=
  ⟨t.val / 16 * 512 + r.val, by have hN : cfg1.N = 64 := N_1; have := t.isLt; have := r.isLt; omega⟩
def tileCol1 (t : Fin cfg1.N) (e : Fin 1024) : Fin 2048 :=
  ⟨t.val / 8 % 2 * 1024 + e.val, by have := e.isLt; omega⟩

/-- What a flushing point writes back of output 5 is its tile of the new eligibility trace. -/
theorem flushed1_5_eq (c : Dev nD) (t : Fin cfg1.N) (hf : (cfg1.win 5).flush t = true) :
    (dat1 V c).flushed 5 t = ((cfg1.win 5).blk t).view.read (Elt Ideal) (traceNew1 V c) := by
  have h7 : t.val % 8 = 7 := (flush1_5 t).mp hf
  show (cfg1.win 5).cut (grid1.coords t) ((dat1 V c).after 5 t) = _
  rw [after1_5, trace1_last V c t h7]
  refine Cert.Hebbian.Mat.ext (a := 512) (b := 1024) fun r e => ?_
  rw [read_blk1_5 t _ r e (tileRow1 t r) (tileCol1 t e) rfl rfl]
  exact trace_entry1 V c t h7 r e _ _ rfl rfl

/-- And of output 6 its tile of the new Hebbian trace. -/
theorem flushed1_6_eq (c : Dev nD) (t : Fin cfg1.N) (hf : (cfg1.win 6).flush t = true) :
    (dat1 V c).flushed 6 t = ((cfg1.win 6).blk t).view.read (Elt Ideal) (hebNew1 V c) := by
  have h7 : t.val % 8 = 7 := (flush1_6 t).mp hf
  show (cfg1.win 6).cut (grid1.coords t) ((dat1 V c).after 6 t) = _
  rw [after1_6, heb1_last V c t h7]
  refine Cert.Hebbian.Mat.ext (a := 512) (b := 1024) fun r e => ?_
  rw [read_blk1_6 t _ r e (tileRow1 t r) (tileCol1 t e) rfl rfl]
  refine (k1_pay4_apply (bEold1 V c t) _ (bHebold1 V c t) (bDopa1 V c t) r e).trans ?_
  rw [trace_entry1 V c t h7 r e (tileRow1 t r) (tileCol1 t e) rfl rfl,
    bHebold1_apply V c t r e (tileRow1 t r) (tileCol1 t e) rfl rfl, bDopa1_apply V c t]
  rfl

/-! ## The tiles written back cover the arrays -/

theorem mem_blk1_5 (t : Fin cfg1.N) (i : S2048x2048.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v24_0).slice (win1_5.rect t)).set ↔ _
  rw [View.set_slice_whole, Rect.mem_set_unit]
  exact Iff.rfl

theorem mem_blk1_6 (t : Fin cfg1.N) (i : S2048x2048.Idx) :
    i ∈ ((cfg1.win 6).blk t).view.set ↔ ∀ a : Fin 2, win1_6.index t a * S512x1024.size a ≤ (i a).val ∧ (i a).val < win1_6.index t a * S512x1024.size a + S512x1024.size a := by
  show i ∈ ((View.whole main_v24_1).slice (win1_6.rect t)).set ↔ _
  rw [View.set_slice_whole, Rect.mem_set_unit]
  exact Iff.rfl

/-- The last point of the run of the tile an entry lies in. -/
def lastPoint1 (i : S2048x2048.Idx) : Fin cfg1.N :=
  ⟨(i 0).val / 512 * 16 + (i 1).val / 1024 * 8 + 7, by
    have hN : cfg1.N = 64 := N_1
    have h0 : (i 0).val < 2048 := (i 0).isLt
    have h1 : (i 1).val < 2048 := (i 1).isLt
    omega⟩

theorem cover1_5 (i : S2048x2048.Idx) : ∃ t : Fin cfg1.N, (cfg1.win 5).flush t = true ∧ i ∈ ((cfg1.win 5).blk t).view.set := by
  have h0 : (i 0).val < 2048 := (i 0).isLt
  have h1 : (i 1).val < 2048 := (i 1).isLt
  refine ⟨lastPoint1 i, (flush1_5 _).mpr (by show ((i 0).val / 512 * 16 + (i 1).val / 1024 * 8 + 7) % 8 = 7; omega), ?_⟩
  rw [mem_blk1_5]
  intro a
  match a with
  | ⟨0, _⟩ =>
    show win1_5.index (lastPoint1 i) (0 : Fin 2) * 512 ≤ (i 0).val ∧ (i 0).val < win1_5.index (lastPoint1 i) (0 : Fin 2) * 512 + 512
    rw [(index1_5 _).1]; show ((i 0).val / 512 * 16 + (i 1).val / 1024 * 8 + 7) / 16 * 512 ≤ (i 0).val ∧ (i 0).val < ((i 0).val / 512 * 16 + (i 1).val / 1024 * 8 + 7) / 16 * 512 + 512; omega
  | ⟨1, _⟩ =>
    show win1_5.index (lastPoint1 i) (1 : Fin 2) * 1024 ≤ (i 1).val ∧ (i 1).val < win1_5.index (lastPoint1 i) (1 : Fin 2) * 1024 + 1024
    rw [(index1_5 _).2]; show ((i 0).val / 512 * 16 + (i 1).val / 1024 * 8 + 7) / 8 % 2 * 1024 ≤ (i 1).val ∧ (i 1).val < ((i 0).val / 512 * 16 + (i 1).val / 1024 * 8 + 7) / 8 % 2 * 1024 + 1024; omega

theorem cover1_6 (i : S2048x2048.Idx) : ∃ t : Fin cfg1.N, (cfg1.win 6).flush t = true ∧ i ∈ ((cfg1.win 6).blk t).view.set := by
  have h0 : (i 0).val < 2048 := (i 0).isLt
  have h1 : (i 1).val < 2048 := (i 1).isLt
  refine ⟨lastPoint1 i, (flush1_6 _).mpr (by show ((i 0).val / 512 * 16 + (i 1).val / 1024 * 8 + 7) % 8 = 7; omega), ?_⟩
  rw [mem_blk1_6]
  intro a
  match a with
  | ⟨0, _⟩ =>
    show win1_6.index (lastPoint1 i) (0 : Fin 2) * 512 ≤ (i 0).val ∧ (i 0).val < win1_6.index (lastPoint1 i) (0 : Fin 2) * 512 + 512
    rw [(index1_6 _).1]; show ((i 0).val / 512 * 16 + (i 1).val / 1024 * 8 + 7) / 16 * 512 ≤ (i 0).val ∧ (i 0).val < ((i 0).val / 512 * 16 + (i 1).val / 1024 * 8 + 7) / 16 * 512 + 512; omega
  | ⟨1, _⟩ =>
    show win1_6.index (lastPoint1 i) (1 : Fin 2) * 1024 ≤ (i 1).val ∧ (i 1).val < win1_6.index (lastPoint1 i) (1 : Fin 2) * 1024 + 1024
    rw [(index1_6 _).2]; show ((i 0).val / 512 * 16 + (i 1).val / 1024 * 8 + 7) / 8 % 2 * 1024 ≤ (i 1).val ∧ (i 1).val < ((i 0).val / 512 * 16 + (i 1).val / 1024 * 8 + 7) / 8 % 2 * 1024 + 1024; omega

end

end R1V

section
variable (V : (c : Dev nD) → (b : Ref sig .tc) → Buf (Elt Ideal) ((c : Thread nD τ).loc b))

/-! ## The arrays after the region -/

theorem final1_5 (c : Dev nD) : (dat1 (F := Ideal) V c).arrAt 5 cfg1.N
    = Cert.Hebbian.trace (V c main_arg4) (Cert.Hebbian.correlate (V c main_arg0) (V c main_v12_0)) :=
  (dat1 V c).arrAt_eq_of_cover 5 (R1V.traceNew1 V c) (R1V.flushed1_5_eq V c) R1V.cover1_5

theorem final1_6 (c : Dev nD) : (dat1 (F := Ideal) V c).arrAt 6 cfg1.N
    = Cert.Hebbian.clampUpdate (V c main_arg7) (Cert.Hebbian.trace (V c main_arg4) (Cert.Hebbian.correlate (V c main_arg0) (V c main_v12_0)))
        (V c main_v23 (ValueIdx.ix2 0 0)) :=
  (dat1 V c).arrAt_eq_of_cover 6 (R1V.hebNew1 V c) (R1V.flushed1_6_eq V c) R1V.cover1_6
end

end Cert.KernelIdeal.Hand

end
-- ==== Proof.KI.R2Pieces.lean ====
/-
  What one step of the second Hebbian update leaves behind, as arithmetic of the blocks it was given.

  Where an accumulation starts the accumulator is cleared and the step's product of the transposed pre-synaptic block
  with the post-synaptic block is added to the cleared value; at every later step the product is added to what the
  step before left; at the last step of an accumulation the new eligibility trace and the new Hebbian trace are
  computed from the accumulator as that step leaves it.  Each buffer is written by stores that cover it whole, so
  what it holds afterwards is the stored value itself.
-/
import proofs.«178145_j14508399526340_2_alg».proof.Proof.KI.R2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every store of the body starts at the origin of its buffer. -/
theorem origin2 : (![0, 0] : Fin 2 → Nat) = fun _ => 0 := funext fun a => by fin_cases a <;> rfl

section Pieces

variable (c : Dev nD) (i : grid2.Coords)
  (arg3 : Memref sig .tc .vmem S1024x512 .bf16) (harg3 : arg3.IsWhole) (arg4 : Memref sig .tc .vmem S1024x1024 .bf16) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x1 .f32) (harg7 : arg7.IsWhole) (arg8 : Memref sig .tc .vmem S512x1024 .f32) (harg8 : arg8.IsWhole)
  (arg9 : Memref sig .tc .vmem S512x1024 .f32) (harg9 : arg9.IsWhole) (arg10 : Memref sig .tc .vmem S512x1024 .f32) (harg10 : arg10.IsWhole)
  (x0 : Vec F S1024x512 .bf16) (x1 : Vec F S1024x1024 .bf16) (x2 : Vec F S512x1024 .f32) (x3 : Vec F S512x1024 .f32) (x4 : Vec F S1x1 .f32)
  (xs0 : Vec F S512x1024 .f32)

/-- Where an accumulation starts the accumulator ends at the step's product added to the cleared value. -/
theorem sout2_A_0_eq (hc0 : cond2_0 i) (hc1 : ¬cond2_1 i) :
    sout2_A_0 c i arg3 harg3 arg4 harg4 arg5 harg5 arg6 harg6 arg7 harg7 arg8 harg8 arg9 harg9 arg10 harg10 hc0 hc1 x0 x1 x2 x3 x4 = k2_pay2 x0 x1 k2_pay1 := by
  unfold sout2_A_0
  rw [View.read_writes_eq_canon _ _ _ (scover2_A_0 c i arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_cons_unit_zero (S := S512x1024) origin2, View.readCov_unit_zero (S := S512x1024) _ origin2]
  simp only [View.readAt_eq_ld, harg3.read_unread, harg4.read_unread, View.ld_unit_zero (S := S1024x512) origin2, View.ld_unit_zero (S := S1024x1024) origin2, View.ld_unit_zero (S := S512x1024) origin2]

/-- In the middle of an accumulation it ends at the step's product added to what it held. -/
theorem sout2_B_0_eq (hc0 : ¬cond2_0 i) (hc1 : ¬cond2_1 i) :
    sout2_B_0 c i arg3 harg3 arg4 harg4 arg5 harg5 arg6 harg6 arg7 harg7 arg8 harg8 arg9 harg9 arg10 harg10 hc0 hc1 x0 x1 x2 x3 x4 xs0 = k2_pay2 x0 x1 xs0 := by
  unfold sout2_B_0
  rw [View.read_writes_eq_canon _ _ _ (scover2_B_0 c i arg3 harg3 arg4 harg4 arg5 harg5 arg6 harg6 arg7 harg7 arg8 harg8 arg9 harg9 arg10 harg10 hc0 hc1 x0 x1 x2 x3 x4 xs0)]
  unfold kernelRun2_B
  dsimp only
  sl_unfold_words
  rw [View.canon_unit_zero origin2]
  simp only [View.readAt_eq_ld, harg3.read_unread, harg4.read_unread, harg10.read_unread, View.ld_unit_zero (S := S1024x512) origin2, View.ld_unit_zero (S := S1024x1024) origin2, View.ld_unit_zero (S := S512x1024) origin2]

/-- At the end of an accumulation likewise … -/
theorem sout2_C_0_eq (hc0 : ¬cond2_0 i) (hc1 : cond2_1 i) :
    sout2_C_0 c i arg3 harg3 arg4 harg4 arg5 harg5 arg6 harg6 arg7 harg7 arg8 harg8 arg9 harg9 arg10 harg10 hc0 hc1 x0 x1 x2 x3 x4 xs0 = k2_pay2 x0 x1 xs0 := by
  unfold sout2_C_0
  rw [View.read_writes_eq_canon _ _ _ (scover2_C_0 c i arg3 harg3 arg4 harg4 arg5 harg5 arg6 harg6 arg7 harg7 arg8 harg8 arg9 harg9 arg10 harg10 hc0 hc1 x0 x1 x2 x3 x4 xs0)]
  unfold kernelRun2_C
  dsimp only
  sl_unfold_words
  rw [View.canon_unit_zero origin2]
  simp only [View.readAt_eq_ld, harg3.read_unread, harg4.read_unread, harg10.read_unread, View.ld_unit_zero (S := S1024x512) origin2, View.ld_unit_zero (S := S1024x1024) origin2, View.ld_unit_zero (S := S512x1024) origin2]

/-- … and the new eligibility trace is computed from the old one and the accumulator as this step leaves it … -/
theorem out2_C_5_eq (hc0 : ¬cond2_0 i) (hc1 : cond2_1 i) :
    out2_C_5 c i arg3 harg3 arg4 harg4 arg5 harg5 arg6 harg6 arg7 harg7 arg8 harg8 arg9 harg9 arg10 harg10 hc0 hc1 x0 x1 x2 x3 x4 xs0 = k2_pay3 x2 (k2_pay2 x0 x1 xs0) := by
  unfold out2_C_5
  rw [View.read_writes_eq_canon _ _ _ (cover2_C_5 c i arg3 harg3 arg4 harg4 arg5 harg5 arg6 harg6 arg7 harg7 arg8 harg8 arg9 harg9 arg10 harg10 hc0 hc1 x0 x1 x2 x3 x4 xs0)]
  unfold kernelRun2_C
  dsimp only
  sl_unfold_words
  rw [View.canon_unit_zero origin2]
  simp only [View.readAt_eq_ld, harg3.read_unread, harg4.read_unread, harg5.read_unread, harg10.read_unread, View.ld_unit_zero (S := S1024x512) origin2, View.ld_unit_zero (S := S1024x1024) origin2, View.ld_unit_zero (S := S512x1024) origin2, View.readCov_unit_zero (S := S512x1024) _ origin2]

/-- … and the new Hebbian trace from the old one, the dopamine scalar and that new eligibility trace. -/
theorem out2_C_6_eq (hc0 : ¬cond2_0 i) (hc1 : cond2_1 i) :
    out2_C_6 c i arg3 harg3 arg4 harg4 arg5 harg5 arg6 harg6 arg7 harg7 arg8 harg8 arg9 harg9 arg10 harg10 hc0 hc1 x0 x1 x2 x3 x4 xs0 = k2_pay4 x2 (k2_pay2 x0 x1 xs0) x3 x4 := by
  unfold out2_C_6
  rw [View.read_writes_eq_canon _ _ _ (cover2_C_6 c i arg3 harg3 arg4 harg4 arg5 harg5 arg6 harg6 arg7 harg7 arg8 harg8 arg9 harg9 arg10 harg10 hc0 hc1 x0 x1 x2 x3 x4 xs0)]
  unfold kernelRun2_C
  dsimp only
  sl_unfold_words
  rw [View.canon_unit_zero origin2]
  simp only [View.readAt_eq_ld, harg3.read_unread, harg4.read_unread, harg5.read_unread, harg6.read_unread, harg7.read_unread, harg10.read_unread, View.ld_unit_zero (S := S1024x512) origin2, View.ld_unit_zero (S := S1024x1024) origin2, View.ld_unit_zero (S := S512x1024) origin2, View.ld_unit_zero (S := S1x1) origin2, View.readCov_unit_zero (S := S512x1024) _ origin2]

end Pieces

/-! ## The same, at the points of the grid

The run of points k = 0 … 3 that share a tile of the traces is one accumulation: its first point starts it, its last
finishes it. -/

section Points

variable (V : (c : Dev nD) → (b : Ref sig .tc) → Buf (Elt F) ((c : Thread nD τ).loc b))

/-- After a point that starts an accumulation the accumulator holds the point's product added to the cleared value. -/
theorem scratch2_reset (c : Dev nD) (t : Fin cfg2.N) (h0 : t.val % 4 = 0) :
    (outsAt2 V c t.val t.isLt).2.2 = k2_pay2 (iblk2 V c 0 t) (iblk2 V c 1 t) k2_pay1 := by
  have h1 : ¬t.val % 4 = 3 := by omega
  rw [outsAt2_A V c t h0 h1]
  dsimp only
  exact sout2_A_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (iblk2 V c 0 t) (iblk2 V c 1 t) (iblk2 V c 2 t) (iblk2 V c 3 t) (iblk2 V c 4 t) ((hcond2_0 t).mpr h0) (fun h => h1 ((hcond2_1 t).mp h))

/-- After any other point it holds the point's product added to what the point before left. -/
theorem scratch2_step (c : Dev nD) (t : Fin cfg2.N) (h0 : ¬t.val % 4 = 0) :
    (outsAt2 V c t.val t.isLt).2.2 = k2_pay2 (iblk2 V c 0 t) (iblk2 V c 1 t) (outsAt2 V c (t.val - 1) (Nat.lt_of_le_of_lt (Nat.sub_le _ _) t.isLt)).2.2 := by
  by_cases h1 : t.val % 4 = 3
  · rw [outsAt2_C V c t h0 h1]
    dsimp only
    exact sout2_C_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2 (fun h => h0 ((hcond2_0 t).mp h)) ((hcond2_1 t).mpr h1)
  · rw [outsAt2_B V c t h0 h1]
    dsimp only
    exact sout2_B_0_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2 (fun h => h0 ((hcond2_0 t).mp h)) (fun h => h1 ((hcond2_1 t).mp h))

/-- After a point that finishes an accumulation output 5's buffer holds the new eligibility trace of the accumulator as the
    point leaves it … -/
theorem trace2_last (c : Dev nD) (t : Fin cfg2.N) (h1 : t.val % 4 = 3) :
    (outsAt2 V c t.val t.isLt).1 = k2_pay3 (iblk2 V c 2 t) (outsAt2 V c t.val t.isLt).2.2 := by
  have h0 : ¬t.val % 4 = 0 := by omega
  rw [scratch2_step V c t h0, outsAt2_C V c t h0 h1]
  dsimp only
  exact out2_C_5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2 (fun h => h0 ((hcond2_0 t).mp h)) ((hcond2_1 t).mpr h1)

/-- … and output 6's the new Hebbian trace. -/
theorem heb2_last (c : Dev nD) (t : Fin cfg2.N) (h1 : t.val % 4 = 3) :
    (outsAt2 V c t.val t.isLt).2.1
      = k2_pay4 (iblk2 V c 2 t) (outsAt2 V c t.val t.isLt).2.2 (iblk2 V c 3 t) (iblk2 V c 4 t) := by
  have h0 : ¬t.val % 4 = 0 := by omega
  rw [scratch2_step V c t h0, outsAt2_C V c t h0 h1]
  dsimp only
  exact out2_C_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (iblk2 V c 0 t) (iblk2 V c 1 t) (iblk2 V c 2 t) (iblk2 V c 3 t) (iblk2 V c 4 t) (outsAt2 V c (t.val - 1) (Nat.lt_of_le_of_lt (Nat.sub_le _ _) t.isLt)).2.2 (fun h => h0 ((hcond2_0 t).mp h)) ((hcond2_1 t).mpr h1)

end Points

end Cert.KernelIdeal.Hand

end
-- ==== Proof.KI.R2Val.lean ====
/-
  The second Hebbian update, read as whole matrices on the extended reals.

  The grid walks the tiles of the two trace matrices and, for each tile, the blocks of the batch.  Over the run of
  points that share a tile the accumulator gathers, block by block, the products of the transposed pre-synaptic block
  with the post-synaptic block; after the run's last point its entry (r, e) is the sum over the whole batch of
  pre[n, R] · post[n, E], where (R, E) is the entry's place in the whole matrix — the correlation of the two batches.
  That last point stores 0.7 · old + 0.3 · correlation as the tile of the new eligibility trace and the clamped
  old + dopamine · (new eligibility) as the tile of the new Hebbian trace, and only these last points are written back.
  Their tiles cover the two arrays, so after the region the arrays hold the two matrices of the specification.  The
  only laws used are that a sum may be cut into blocks and that zero is neutral, so no entry needs to be finite.
-/
import proofs.«178145_j14508399526340_2_alg».proof.Proof.KI.R2Pieces
import proofs.«178145_j14508399526340_2_alg».proof.Proof.KI.HebbPayload
import proofs.«178145_j14508399526340_2_alg».proof.Proof.KI.BlockAccum
import proofs.«178145_j14508399526340_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hebbian (Mat zero32 keep32 rate32 negRate32)

namespace R2V

section
variable (V : (c : Dev nD) → (b : Ref sig .tc) → Buf (Elt Ideal) ((c : Thread nD τ).loc b))

theorem rows2 : 4 * 1024 = 4096 := rfl

/-- The arrays the update finds, as matrices: the two batches of activity, the old eligibility and Hebbian traces, the
    dopamine scalar. -/
abbrev pre2 (c : Dev nD) : Mat 4096 2048 := V c main_v12_0
abbrev post2 (c : Dev nD) : Mat 4096 2048 := V c main_v12_1
abbrev eold2 (c : Dev nD) : Mat 2048 2048 := V c main_arg5
abbrev hebold2 (c : Dev nD) : Mat 2048 2048 := V c main_arg8
abbrev dopa2 (c : Dev nD) : Mat 1 1 := V c main_v23
/-- The five input blocks at a point. -/
abbrev bPre2 (c : Dev nD) (t : Fin cfg2.N) : Vec Ideal S1024x512 .bf16 := iblk2 V c 0 t
abbrev bPost2 (c : Dev nD) (t : Fin cfg2.N) : Vec Ideal S1024x1024 .bf16 := iblk2 V c 1 t
abbrev bEold2 (c : Dev nD) (t : Fin cfg2.N) : Vec Ideal S512x1024 .f32 := iblk2 V c 2 t
abbrev bHebold2 (c : Dev nD) (t : Fin cfg2.N) : Vec Ideal S512x1024 .f32 := iblk2 V c 3 t
abbrev bDopa2 (c : Dev nD) (t : Fin cfg2.N) : Vec Ideal S1x1 .f32 := iblk2 V c 4 t

/-! ## Where the blocks sit

At a point t of the grid the batch block is k = t.val % 4, the row tile of the traces is i = t.val / 8 and the column tile is
j = t.val / 4 % 2: the pre-synaptic block is rows 1024 k … of columns 512 i …, the post-synaptic block rows 1024 k … of columns
1024 j …, and the four trace windows are rows 512 i … of columns 1024 j …. -/

theorem index2_0 : ∀ t : Fin cfg2.N, win2_0.index t 0 = t.val % 4 ∧ win2_0.index t 1 = t.val / 8 :=
  (by decide +kernel : ∀ t : Fin grid2.N, win2_0.index t 0 = t.val % 4 ∧ win2_0.index t 1 = t.val / 8)
theorem index2_1 : ∀ t : Fin cfg2.N, win2_1.index t 0 = t.val % 4 ∧ win2_1.index t 1 = t.val / 4 % 2 :=
  (by decide +kernel : ∀ t : Fin grid2.N, win2_1.index t 0 = t.val % 4 ∧ win2_1.index t 1 = t.val / 4 % 2)
theorem index2_2 : ∀ t : Fin cfg2.N, win2_2.index t 0 = t.val / 8 ∧ win2_2.index t 1 = t.val / 4 % 2 :=
  (by decide +kernel : ∀ t : Fin grid2.N, win2_2.index t 0 = t.val / 8 ∧ win2_2.index t 1 = t.val / 4 % 2)
theorem index2_3 : ∀ t : Fin cfg2.N, win2_3.index t 0 = t.val / 8 ∧ win2_3.index t 1 = t.val / 4 % 2 :=
  (by decide +kernel : ∀ t : Fin grid2.N, win2_3.index t 0 = t.val / 8 ∧ win2_3.index t 1 = t.val / 4 % 2)
theorem index2_4 : ∀ t : Fin cfg2.N, win2_4.index t 0 = 0 ∧ win2_4.index t 1 = 0 :=
  (by decide +kernel : ∀ t : Fin grid2.N, win2_4.index t 0 = 0 ∧ win2_4.index t 1 = 0)
theorem index2_5 : ∀ t : Fin cfg2.N, win2_5.index t 0 = t.val / 8 ∧ win2_5.index t 1 = t.val / 4 % 2 :=
  (by decide +kernel : ∀ t : Fin grid2.N, win2_5.index t 0 = t.val / 8 ∧ win2_5.index t 1 = t.val / 4 % 2)
theorem index2_6 : ∀ t : Fin cfg2.N, win2_6.index t 0 = t.val / 8 ∧ win2_6.index t 1 = t.val / 4 % 2 :=
  (by decide +kernel : ∀ t : Fin grid2.N, win2_6.index t 0 = t.val / 8 ∧ win2_6.index t 1 = t.val / 4 % 2)

theorem bPre2_apply (c : Dev nD) (t : Fin cfg2.N) (b : Fin 1024) (r : Fin 512) (n : Fin 4096) (R : Fin 2048)
    (hn : n.val = t.val % 4 * 1024 + b.val) (hR : R.val = t.val / 8 * 512 + r.val) :
    bPre2 V c t (ix2 b r) = pre2 V c (ix2 n R) := by
  unfold bPre2 pre2 iblk2
  rw [View.read_apply]
  show V c main_v12_0 _ = V c main_v12_0 _
  refine congrArg (V c main_v12_0) (funext fun a => Fin.ext ?_)
  match a with
  | ⟨0, _⟩ => show win2_0.index t 0 * 1024 + 1 * b.val = n.val; rw [(index2_0 t).1, hn]; omega
  | ⟨1, _⟩ => show win2_0.index t 1 * 512 + 1 * r.val = R.val; rw [(index2_0 t).2, hR]; omega

theorem bPost2_apply (c : Dev nD) (t : Fin cfg2.N) (b : Fin 1024) (e : Fin 1024) (n : Fin 4096) (E : Fin 2048)
    (hn : n.val = t.val % 4 * 1024 + b.val) (hE : E.val = t.val / 4 % 2 * 1024 + e.val) :
    bPost2 V c t (ix2 b e) = post2 V c (ix2 n E) := by
  unfold bPost2 post2 iblk2
  rw [View.read_apply]
  show V c main_v12_1 _ = V c main_v12_1 _
  refine congrArg (V c main_v12_1) (funext fun a => Fin.ext ?_)
  match a with
  | ⟨0, _⟩ => show win2_1.index t 0 * 1024 + 1 * b.val = n.val; rw [(index2_1 t).1, hn]; omega
  | ⟨1, _⟩ => show win2_1.index t 1 * 1024 + 1 * e.val = E.val; rw [(index2_1 t).2, hE]; omega

theorem bEold2_apply (c : Dev nD) (t : Fin cfg2.N) (r : Fin 512) (e : Fin 1024) (R : Fin 2048) (E : Fin 2048)
    (hR : R.val = t.val / 8 * 512 + r.val) (hE : E.val = t.val / 4 % 2 * 1024 + e.val) :
    bEold2 V c t (ix2 r e) = eold2 V c (ix2 R E) := by
  unfold bEold2 eold2 iblk2
  rw [View.read_apply]
  show V c main_arg5 _ = V c main_arg5 _
  refine congrArg (V c main_arg5) (funext fun a => Fin.ext ?_)
  match a with
  | ⟨0, _⟩ => show win2_2.index t 0 * 512 + 1 * r.val = R.val; rw [(index2_2 t).1, hR]; omega
  | ⟨1, _⟩ => show win2_2.index t 1 * 1024 + 1 * e.val = E.val; rw [(index2_2 t).2, hE]; omega

theorem bHebold2_apply (c : Dev nD) (t : Fin cfg2.N) (r : Fin 512) (e : Fin 1024) (R : Fin 2048) (E : Fin 2048)
    (hR : R.val = t.val / 8 * 512 + r.val) (hE : E.val = t.val / 4 % 2 * 1024 + e.val) :
    bHebold2 V c t (ix2 r e) = hebold2 V c (ix2 R E) := by
  unfold bHebold2 hebold2 iblk2
  rw [View.read_apply]
  show V c main_arg8 _ = V c main_arg8 _
  refine congrArg (V c main_arg8) (funext fun a => Fin.ext ?_)
  match a with
  | ⟨0, _⟩ => show win2_3.index t 0 * 512 + 1 * r.val = R.val; rw [(index2_3 t).1, hR]; omega
  | ⟨1, _⟩ => show win2_3.index t 1 * 1024 + 1 * e.val = E.val; rw [(index2_3 t).2, hE]; omega

theorem bDopa2_apply (c : Dev nD) (t : Fin cfg2.N) :
    bDopa2 V c t (ix2 0 0) = dopa2 V c (ix2 0 0) := by
  unfold bDopa2 dopa2 iblk2
  rw [View.read_apply]
  show V c main_v23 _ = V c main_v23 _
  refine congrArg (V c main_v23) (funext fun a => Fin.ext ?_)
  match a with
  | ⟨0, _⟩ => show win2_4.index t 0 * 1 + 1 * 0 = 0; rw [(index2_4 t).1]
  | ⟨1, _⟩ => show win2_4.index t 1 * 1 + 1 * 0 = 0; rw [(index2_4 t).2]

/-! ## The accumulator -/

/-- Batch block k's share of entry (R, E) of the correlation of the rectified first pre-activation with the second. -/
def corrBlock2 (c : Dev nD) (R : Fin 2048) (E : Fin 2048) (k : Fin 4) : EReal :=
  ∑ b : Fin 1024, max (pre2 V c (ix2 (rowOf rows2 k b) R)) zero32 * post2 V c (ix2 (rowOf rows2 k b) E)

/-- The blocks' shares add up to the correlation's entry. -/
theorem sum_corrBlock2 (c : Dev nD) (R : Fin 2048) (E : Fin 2048) :
    ∑ k : Fin 4, corrBlock2 V c R E k = Cert.Hebbian.correlate (Cert.Hebbian.relu (pre2 V c)) (post2 V c) (ix2 R E) :=
  sum_blocks rows2 fun n => max (pre2 V c (ix2 n R)) zero32 * post2 V c (ix2 n E)

/-- What one point adds to entry (r, e) of the accumulator: its batch block's share of the entry's place in the whole. -/
theorem point_share2 (c : Dev nD) (t : Fin cfg2.N) (r : Fin 512) (e : Fin 1024) (R : Fin 2048) (E : Fin 2048)
    (hR : R.val = t.val / 8 * 512 + r.val) (hE : E.val = t.val / 4 % 2 * 1024 + e.val) :
    ∑ b : Fin 1024, max (bPre2 V c t (ix2 b r)) zero32 * bPost2 V c t (ix2 b e)
      = corrBlock2 V c R E ⟨t.val % 4, Nat.mod_lt _ (by decide)⟩ := by
  unfold corrBlock2
  refine Finset.sum_congr rfl fun b _ => ?_
  rw [bPre2_apply V c t b r (rowOf rows2 ⟨t.val % 4, Nat.mod_lt _ (by decide)⟩ b) R rfl hR,
    bPost2_apply V c t b e (rowOf rows2 ⟨t.val % 4, Nat.mod_lt _ (by decide)⟩ b) E rfl hE]

/-- After point n the accumulator's entry holds the shares of the batch blocks 0 … n mod 4 of its run. -/
theorem scratch2_eq (c : Dev nD) : ∀ (n : ℕ) (hn : n < cfg2.N) (r : Fin 512) (e : Fin 1024) (R : Fin 2048) (E : Fin 2048),
    R.val = n / 8 * 512 + r.val → E.val = n / 4 % 2 * 1024 + e.val →
    (outsAt2 V c n hn).2.2 (ix2 r e) = firstBlocks (corrBlock2 V c R E) (n % 4) := by
  intro n
  induction n with
  | zero =>
    intro hn r e R E hR hE
    rw [scratch2_reset V c ⟨0, hn⟩ rfl]
    refine (k2_pay2_apply (bPre2 V c ⟨0, hn⟩) (bPost2 V c ⟨0, hn⟩) (k2_pay1 (F := Ideal)) r e).trans ?_
    rw [k2_pay1_apply, zero32_add, point_share2 V c ⟨0, hn⟩ r e R E hR hE]
    exact (firstBlocks_zero _ (by decide)).symm
  | succ n ih =>
    intro hn r e R E hR hE
    by_cases h0 : (n + 1) % 4 = 0
    · rw [scratch2_reset V c ⟨n + 1, hn⟩ h0]
      refine (k2_pay2_apply (bPre2 V c ⟨n + 1, hn⟩) (bPost2 V c ⟨n + 1, hn⟩) (k2_pay1 (F := Ideal)) r e).trans ?_
      rw [k2_pay1_apply, zero32_add, point_share2 V c ⟨n + 1, hn⟩ r e R E hR hE]
      have hz : (⟨(n + 1) % 4, Nat.mod_lt _ (by decide)⟩ : Fin 4) = ⟨0, by decide⟩ := Fin.ext h0
      rw [hz, h0]
      exact (firstBlocks_zero _ (by decide)).symm
    · rw [scratch2_step V c ⟨n + 1, hn⟩ h0]
      refine (k2_pay2_apply (bPre2 V c ⟨n + 1, hn⟩) (bPost2 V c ⟨n + 1, hn⟩) _ r e).trans ?_
      rw [point_share2 V c ⟨n + 1, hn⟩ r e R E hR hE]
      show (outsAt2 V c n _).2.2 (ix2 r e) + _ = _
      rw [ih (Nat.lt_of_succ_lt hn) r e R E (by omega) (by omega),
        firstBlocks_step (corrBlock2 V c R E) ((n + 1) % 4) h0 (Nat.mod_lt _ (by decide))]
      have hm : (n + 1) % 4 - 1 = n % 4 := by omega
      rw [hm]
end

section
variable (V : (c : Dev nD) → (b : Ref sig .tc) → Buf (Elt Ideal) ((c : Thread nD τ).loc b))

/-! ## The two outputs -/

/-- The new eligibility trace and the new Hebbian trace of the layer, as whole matrices. -/
abbrev traceNew2 (c : Dev nD) : Mat 2048 2048 :=
  Cert.Hebbian.trace (eold2 V c) (Cert.Hebbian.correlate (Cert.Hebbian.relu (pre2 V c)) (post2 V c))
abbrev hebNew2 (c : Dev nD) : Mat 2048 2048 :=
  Cert.Hebbian.clampUpdate (hebold2 V c) (traceNew2 V c) (dopa2 V c (ix2 0 0))

/-- At the last point of a run the accumulator's entry is the whole correlation's entry, so the stored eligibility is the
    new trace's entry at the tile's place in the whole. -/
theorem trace_entry2 (c : Dev nD) (t : Fin cfg2.N) (h7 : t.val % 4 = 3) (r : Fin 512) (e : Fin 1024) (R : Fin 2048) (E : Fin 2048)
    (hR : R.val = t.val / 8 * 512 + r.val) (hE : E.val = t.val / 4 % 2 * 1024 + e.val) :
    k2_pay3 (bEold2 V c t) (outsAt2 V c t.val t.isLt).2.2 (ix2 r e) = traceNew2 V c (ix2 R E) := by
  refine (k2_pay3_apply (bEold2 V c t) _ r e).trans ?_
  rw [bEold2_apply V c t r e R E hR hE, scratch2_eq V c t.val t.isLt r e R E hR hE,
    firstBlocks_all _ _ (by omega), sum_corrBlock2]
  rfl

/-- A tile of a whole matrix standing at output 5's array, read at a point. -/
theorem read_blk2_5 (t : Fin cfg2.N) (G : Mat 2048 2048) (r : Fin 512) (e : Fin 1024) (R : Fin 2048) (E : Fin 2048)
    (hR : R.val = t.val / 8 * 512 + r.val) (hE : E.val = t.val / 4 % 2 * 1024 + e.val) :
    (((cfg2.win 5).blk t).view.read (Elt Ideal) G : Mat 512 1024) (ix2 r e) = G (ix2 R E) := by
  rw [View.read_apply]
  show G _ = G _
  refine congrArg G (funext fun a => Fin.ext ?_)
  match a with
  | ⟨0, _⟩ => show win2_5.index t (0 : Fin 2) * 512 + 1 * r.val = R.val; rw [(index2_5 t).1, hR]; omega
  | ⟨1, _⟩ => show win2_5.index t (1 : Fin 2) * 1024 + 1 * e.val = E.val; rw [(index2_5 t).2, hE]; omega

theorem read_blk2_6 (t : Fin cfg2.N) (G : Mat 2048 2048) (r : Fin 512) (e : Fin 1024) (R : Fin 2048) (E : Fin 2048)
    (hR : R.val = t.val / 8 * 512 + r.val) (hE : E.val = t.val / 4 % 2 * 1024 + e.val) :
    (((cfg2.win 6).blk t).view.read (Elt Ideal) G : Mat 512 1024) (ix2 r e) = G (ix2 R E) := by
  rw [View.read_apply]
  show G _ = G _
  refine congrArg G (funext fun a => Fin.ext ?_)
  match a with
  | ⟨0, _⟩ => show win2_6.index t (0 : Fin 2) * 512 + 1 * r.val = R.val; rw [(index2_6 t).1, hR]; omega
  | ⟨1, _⟩ => show win2_6.index t (1 : Fin 2) * 1024 + 1 * e.val = E.val; rw [(index2_6 t).2, hE]; omega

/-- The place of a tile's entry in the whole matrix. -/
def tileRow2 (t : Fin cfg2.N) (r : Fin 512) : Fin 2048 :=
  ⟨t.val / 8 * 512 + r.val, by have hN : cfg2.N = 32 := N_2; have := t.isLt; have := r.isLt; omega⟩
def tileCol2 (t : Fin cfg2.N) (e : Fin 1024) : Fin 2048 :=
  ⟨t.val / 4 % 2 * 1024 + e.val, by have := e.isLt; omega⟩

/-- What a flushing point writes back of output 5 is its tile of the new eligibility trace. -/
theorem flushed2_5_eq (c : Dev nD) (t : Fin cfg2.N) (hf : (cfg2.win 5).flush t = true) :
    (dat2 V c).flushed 5 t = ((cfg2.win 5).blk t).view.read (Elt Ideal) (traceNew2 V c) := by
  have h7 : t.val % 4 = 3 := (flush2_5 t).mp hf
  show (cfg2.win 5).cut (grid2.coords t) ((dat2 V c).after 5 t) = _
  rw [after2_5, trace2_last V c t h7]
  refine Cert.Hebbian.Mat.ext (a := 512) (b := 1024) fun r e => ?_
  rw [read_blk2_5 t _ r e (tileRow2 t r) (tileCol2 t e) rfl rfl]
  exact trace_entry2 V c t h7 r e _ _ rfl rfl

/-- And of output 6 its tile of the new Hebbian trace. -/
theorem flushed2_6_eq (c : Dev nD) (t : Fin cfg2.N) (hf : (cfg2.win 6).flush t = true) :
    (dat2 V c).flushed 6 t = ((cfg2.win 6).blk t).view.read (Elt Ideal) (hebNew2 V c) := by
  have h7 : t.val % 4 = 3 := (flush2_6 t).mp hf
  show (cfg2.win 6).cut (grid2.coords t) ((dat2 V c).after 6 t) = _
  rw [after2_6, heb2_last V c t h7]
  refine Cert.Hebbian.Mat.ext (a := 512) (b := 1024) fun r e => ?_
  rw [read_blk2_6 t _ r e (tileRow2 t r) (tileCol2 t e) rfl rfl]
  refine (k2_pay4_apply (bEold2 V c t) _ (bHebold2 V c t) (bDopa2 V c t) r e).trans ?_
  rw [trace_entry2 V c t h7 r e (tileRow2 t r) (tileCol2 t e) rfl rfl,
    bHebold2_apply V c t r e (tileRow2 t r) (tileCol2 t e) rfl rfl, bDopa2_apply V c t]
  rfl

/-! ## The tiles written back cover the arrays -/

theorem mem_blk2_5 (t : Fin cfg2.N) (i : S2048x2048.Idx) :
    i ∈ ((cfg2.win 5).blk t).view.set ↔ ∀ a : Fin 2, win2_5.index t a * S512x1024.size a ≤ (i a).val ∧ (i a).val < win2_5.index t a * S512x1024.size a + S512x1024.size a := by
  show i ∈ ((View.whole main_v25_0).slice (win2_5.rect t)).set ↔ _
  rw [View.set_slice_whole, Rect.mem_set_unit]
  exact Iff.rfl

theorem mem_blk2_6 (t : Fin cfg2.N) (i : S2048x2048.Idx) :
    i ∈ ((cfg2.win 6).blk t).view.set ↔ ∀ a : Fin 2, win2_6.index t a * S512x1024.size a ≤ (i a).val ∧ (i a).val < win2_6.index t a * S512x1024.size a + S512x1024.size a := by
  show i ∈ ((View.whole main_v25_1).slice (win2_6.rect t)).set ↔ _
  rw [View.set_slice_whole, Rect.mem_set_unit]
  exact Iff.rfl

/-- The last point of the run of the tile an entry lies in. -/
def lastPoint2 (i : S2048x2048.Idx) : Fin cfg2.N :=
  ⟨(i 0).val / 512 * 8 + (i 1).val / 1024 * 4 + 3, by
    have hN : cfg2.N = 32 := N_2
    have h0 : (i 0).val < 2048 := (i 0).isLt
    have h1 : (i 1).val < 2048 := (i 1).isLt
    omega⟩

theorem cover2_5 (i : S2048x2048.Idx) : ∃ t : Fin cfg2.N, (cfg2.win 5).flush t = true ∧ i ∈ ((cfg2.win 5).blk t).view.set := by
  have h0 : (i 0).val < 2048 := (i 0).isLt
  have h1 : (i 1).val < 2048 := (i 1).isLt
  refine ⟨lastPoint2 i, (flush2_5 _).mpr (by show ((i 0).val / 512 * 8 + (i 1).val / 1024 * 4 + 3) % 4 = 3; omega), ?_⟩
  rw [mem_blk2_5]
  intro a
  match a with
  | ⟨0, _⟩ =>
    show win2_5.index (lastPoint2 i) (0 : Fin 2) * 512 ≤ (i 0).val ∧ (i 0).val < win2_5.index (lastPoint2 i) (0 : Fin 2) * 512 + 512
    rw [(index2_5 _).1]; show ((i 0).val / 512 * 8 + (i 1).val / 1024 * 4 + 3) / 8 * 512 ≤ (i 0).val ∧ (i 0).val < ((i 0).val / 512 * 8 + (i 1).val / 1024 * 4 + 3) / 8 * 512 + 512; omega
  | ⟨1, _⟩ =>
    show win2_5.index (lastPoint2 i) (1 : Fin 2) * 1024 ≤ (i 1).val ∧ (i 1).val < win2_5.index (lastPoint2 i) (1 : Fin 2) * 1024 + 1024
    rw [(index2_5 _).2]; show ((i 0).val / 512 * 8 + (i 1).val / 1024 * 4 + 3) / 4 % 2 * 1024 ≤ (i 1).val ∧ (i 1).val < ((i 0).val / 512 * 8 + (i 1).val / 1024 * 4 + 3) / 4 % 2 * 1024 + 1024; omega

theorem cover2_6 (i : S2048x2048.Idx) : ∃ t : Fin cfg2.N, (cfg2.win 6).flush t = true ∧ i ∈ ((cfg2.win 6).blk t).view.set := by
  have h0 : (i 0).val < 2048 := (i 0).isLt
  have h1 : (i 1).val < 2048 := (i 1).isLt
  refine ⟨lastPoint2 i, (flush2_6 _).mpr (by show ((i 0).val / 512 * 8 + (i 1).val / 1024 * 4 + 3) % 4 = 3; omega), ?_⟩
  rw [mem_blk2_6]
  intro a
  match a with
  | ⟨0, _⟩ =>
    show win2_6.index (lastPoint2 i) (0 : Fin 2) * 512 ≤ (i 0).val ∧ (i 0).val < win2_6.index (lastPoint2 i) (0 : Fin 2) * 512 + 512
    rw [(index2_6 _).1]; show ((i 0).val / 512 * 8 + (i 1).val / 1024 * 4 + 3) / 8 * 512 ≤ (i 0).val ∧ (i 0).val < ((i 0).val / 512 * 8 + (i 1).val / 1024 * 4 + 3) / 8 * 512 + 512; omega
  | ⟨1, _⟩ =>
    show win2_6.index (lastPoint2 i) (1 : Fin 2) * 1024 ≤ (i 1).val ∧ (i 1).val < win2_6.index (lastPoint2 i) (1 : Fin 2) * 1024 + 1024
    rw [(index2_6 _).2]; show ((i 0).val / 512 * 8 + (i 1).val / 1024 * 4 + 3) / 4 % 2 * 1024 ≤ (i 1).val ∧ (i 1).val < ((i 0).val / 512 * 8 + (i 1).val / 1024 * 4 + 3) / 4 % 2 * 1024 + 1024; omega

end

end R2V

section
variable (V : (c : Dev nD) → (b : Ref sig .tc) → Buf (Elt Ideal) ((c : Thread nD τ).loc b))

/-! ## The arrays after the region -/

theorem final2_5 (c : Dev nD) : (dat2 (F := Ideal) V c).arrAt 5 cfg2.N
    = Cert.Hebbian.trace (V c main_arg5) (Cert.Hebbian.correlate (Cert.Hebbian.relu (V c main_v12_0)) (V c main_v12_1)) :=
  (dat2 V c).arrAt_eq_of_cover 5 (R2V.traceNew2 V c) (R2V.flushed2_5_eq V c) R2V.cover2_5

theorem final2_6 (c : Dev nD) : (dat2 (F := Ideal) V c).arrAt 6 cfg2.N
    = Cert.Hebbian.clampUpdate (V c main_arg8) (Cert.Hebbian.trace (V c main_arg5) (Cert.Hebbian.correlate (Cert.Hebbian.relu (V c main_v12_0)) (V c main_v12_1)))
        (V c main_v23 (ValueIdx.ix2 0 0)) :=
  (dat2 V c).arrAt_eq_of_cover 6 (R2V.hebNew2 V c) (R2V.flushed2_6_eq V c) R2V.cover2_6
end

end Cert.KernelIdeal.Hand

end
-- ==== Proof.KI.R3Pieces.lean ====
/-
  What one step of the third Hebbian update leaves behind, as arithmetic of the blocks it was given.

  Where an accumulation starts the accumulator is cleared and the step's product of the transposed pre-synaptic block
  with the post-synaptic block is added to the cleared value; at every later step the product is added to what the
  step before left; at the last step of an accumulation the new eligibility trace and the new Hebbian trace are
  computed from the accumulator as that step leaves it.  Each buffer is written by stores that cover it whole, so
  what it holds afterwards is the stored value itself.
-/
import proofs.«178145_j14508399526340_2_alg».proof.Proof.KI.R3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every store of the body starts at the origin of its buffer. -/
theorem origin3 : (![0, 0] : Fin 2 → Nat) = fun _ => 0 := funext fun a => by fin_cases a <;> rfl

section Pieces

variable (c : Dev nD) (i : grid3.Coords)
  (arg3 : Memref sig .tc .vmem S1024x256 .bf16) (harg3 : arg3.IsWhole) (arg4 : Memref sig .tc .vmem S1024x2050 .bf16) (harg4 : arg4.IsWhole)
  (arg5 : Memref sig .tc .vmem S256x2050 .f32) (harg5 : arg5.IsWhole) (arg6 : Memref sig .tc .vmem S256x2050 .f32) (harg6 : arg6.IsWhole)
  (arg7 : Memref sig .tc .vmem S1x1 .f32) (harg7 : arg7.IsWhole) (arg8 : Memref sig .tc .vmem S256x2050 .f32) (harg8 : arg8.IsWhole)
  (arg9 : Memref sig .tc .vmem S256x2050 .f32) (harg9 : arg9.IsWhole) (arg10 : Memref sig .tc .vmem S256x2050 .f32) (harg10 : arg10.IsWhole)
  (x0 : Vec F S1024x256 .bf16) (x1 : Vec F S1024x2050 .bf16) (x2 : Vec F S256x2050 .f32) (x3 : Vec F S256x2050 .f32) (x4 : Vec F S1x1 .f32)
  (xs0 : Vec F S256x2050 .f32)

/-- Where an accumulation starts the accumulator ends at the step's product added to the cleared value. -/
theorem sout3_A_0_eq (hc0 : cond3_0 i) (hc1 : ¬cond3_1 i) :
    sout3_A_0 c i arg3 harg3 arg4 harg4 arg5 harg5 arg6 harg6 arg7 harg7 arg8 harg8 arg9 harg9 arg10 harg10 hc0 hc1 x0 x1 x2 x3 x4 = k3_pay2 x0 x1 k3_pay1 := by
  unfold sout3_A_0
  rw [View.read_writes_eq_canon _ _ _ (scover3_A_0 c i arg3 harg3 arg4 harg4 arg5 harg5 arg6 harg6 arg7 harg7 arg8 harg8 arg9 harg9 arg10 harg10 hc0 hc1 x0 x1 x2 x3 x4)]
  unfold kernelRun3_A
  dsimp only
  sl_unfold_words
  rw [View.canon_cons_unit_zero (S := S256x2050) origin3, View.readCov_unit_zero (S := S256x2050) _ origin3]
  simp only [View.readAt_eq_ld, harg3.read_unread, harg4.read_unread, View.ld_unit_zero (S := S1024x256) origin3, View.ld_unit_zero (S := S1024x2050) origin3, View.ld_unit_zero (S := S256x2050) origin3]

/-- In the middle of an accumulation it ends at the step's product added to what it held. -/
theorem sout3_B_0_eq (hc0 : ¬cond3_0 i) (hc1 : ¬cond3_1 i) :
    sout3_B_0 c i arg3 harg3 arg4 harg4 arg5 harg5 arg6 harg6 arg7 harg7 arg8 harg8 arg9 harg9 arg10 harg10 hc0 hc1 x0 x1 x2 x3 x4 xs0 = k3_pay2 x0 x1 xs0 := by
  unfold sout3_B_0
  rw [View.read_writes_eq_canon _ _ _ (scover3_B_0 c i arg3 harg3 arg4 harg4 arg5 harg5 arg6 harg6 arg7 harg7 arg8 harg8 arg9 harg9 arg10 harg10 hc0 hc1 x0 x1 x2 x3 x4 xs0)]
  unfold kernelRun3_B
  dsimp only
  sl_unfold_words
  rw [View.canon_unit_zero origin3]
  simp only [View.readAt_eq_ld, harg3.read_unread, harg4.read_unread, harg10.read_unread, View.ld_unit_zero (S := S1024x256) origin3, View.ld_unit_zero (S := S1024x2050) origin3, View.ld_unit_zero (S := S256x2050) origin3]

/-- At the end of an accumulation likewise … -/
theorem sout3_C_0_eq (hc0 : ¬cond3_0 i) (hc1 : cond3_1 i) :
    sout3_C_0 c i arg3 harg3 arg4 harg4 arg5 harg5 arg6 harg6 arg7 harg7 arg8 harg8 arg9 harg9 arg10 harg10 hc0 hc1 x0 x1 x2 x3 x4 xs0 = k3_pay2 x0 x1 xs0 := by
  unfold sout3_C_0
  rw [View.read_writes_eq_canon _ _ _ (scover3_C_0 c i arg3 harg3 arg4 harg4 arg5 harg5 arg6 harg6 arg7 harg7 arg8 harg8 arg9 harg9 arg10 harg10 hc0 hc1 x0 x1 x2 x3 x4 xs0)]
  unfold kernelRun3_C
  dsimp only
  sl_unfold_words
  rw [View.canon_unit_zero origin3]
  simp only [View.readAt_eq_ld, harg3.read_unread, harg4.read_unread, harg10.read_unread, View.ld_unit_zero (S := S1024x256) origin3, View.ld_unit_zero (S := S1024x2050) origin3, View.ld_unit_zero (S := S256x2050) origin3]

/-- … and the new eligibility trace is computed from the old one and the accumulator as this step leaves it … -/
theorem out3_C_5_eq (hc0 : ¬cond3_0 i) (hc1 : cond3_1 i) :
    out3_C_5 c i arg3 harg3 arg4 harg4 arg5 harg5 arg6 harg6 arg7 harg7 arg8 harg8 arg9 harg9 arg10 harg10 hc0 hc1 x0 x1 x2 x3 x4 xs0 = k3_pay3 x2 (k3_pay2 x0 x1 xs0) := by
  unfold out3_C_5
  rw [View.read_writes_eq_canon _ _ _ (cover3_C_5 c i arg3 harg3 arg4 harg4 arg5 harg5 arg6 harg6 arg7 harg7 arg8 harg8 arg9 harg9 arg10 harg10 hc0 hc1 x0 x1 x2 x3 x4 xs0)]
  unfold kernelRun3_C
  dsimp only
  sl_unfold_words
  rw [View.canon_unit_zero origin3]
  simp only [View.readAt_eq_ld, harg3.read_unread, harg4.read_unread, harg5.read_unread, harg10.read_unread, View.ld_unit_zero (S := S1024x256) origin3, View.ld_unit_zero (S := S1024x2050) origin3, View.ld_unit_zero (S := S256x2050) origin3, View.readCov_unit_zero (S := S256x2050) _ origin3]

/-- … and the new Hebbian trace from the old one, the dopamine scalar and that new eligibility trace. -/
theorem out3_C_6_eq (hc0 : ¬cond3_0 i) (hc1 : cond3_1 i) :
    out3_C_6 c i arg3 harg3 arg4 harg4 arg5 harg5 arg6 harg6 arg7 harg7 arg8 harg8 arg9 harg9 arg10 harg10 hc0 hc1 x0 x1 x2 x3 x4 xs0 = k3_pay4 x2 (k3_pay2 x0 x1 xs0) x3 x4 := by
  unfold out3_C_6
  rw [View.read_writes_eq_canon _ _ _ (cover3_C_6 c i arg3 harg3 arg4 harg4 arg5 harg5 arg6 harg6 arg7 harg7 arg8 harg8 arg9 harg9 arg10 harg10 hc0 hc1 x0 x1 x2 x3 x4 xs0)]
  unfold kernelRun3_C
  dsimp only
  sl_unfold_words
  rw [View.canon_unit_zero origin3]
  simp only [View.readAt_eq_ld, harg3.read_unread, harg4.read_unread, harg5.read_unread, harg6.read_unread, harg7.read_unread, harg10.read_unread, View.ld_unit_zero (S := S1024x256) origin3, View.ld_unit_zero (S := S1024x2050) origin3, View.ld_unit_zero (S := S256x2050) origin3, View.ld_unit_zero (S := S1x1) origin3, View.readCov_unit_zero (S := S256x2050) _ origin3]

end Pieces

/-! ## The same, at the points of the grid

The run of points k = 0 … 3 that share a tile of the traces is one accumulation: its first point starts it, its last
finishes it. -/

section Points

variable (V : (c : Dev nD) → (b : Ref sig .tc) → Buf (Elt F) ((c : Thread nD τ).loc b))

/-- After a point that starts an accumulation the accumulator holds the point's product added to the cleared value. -/
theorem scratch3_reset (c : Dev nD) (t : Fin cfg3.N) (h0 : t.val % 4 = 0) :
    (outsAt3 V c t.val t.isLt).2.2 = k3_pay2 (iblk3 V c 0 t) (iblk3 V c 1 t) k3_pay1 := by
  have h1 : ¬t.val % 4 = 3 := by omega
  rw [outsAt3_A V c t h0 h1]
  dsimp only
  exact sout3_A_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (iblk3 V c 0 t) (iblk3 V c 1 t) (iblk3 V c 2 t) (iblk3 V c 3 t) (iblk3 V c 4 t) ((hcond3_0 t).mpr h0) (fun h => h1 ((hcond3_1 t).mp h))

/-- After any other point it holds the point's product added to what the point before left. -/
theorem scratch3_step (c : Dev nD) (t : Fin cfg3.N) (h0 : ¬t.val % 4 = 0) :
    (outsAt3 V c t.val t.isLt).2.2 = k3_pay2 (iblk3 V c 0 t) (iblk3 V c 1 t) (outsAt3 V c (t.val - 1) (Nat.lt_of_le_of_lt (Nat.sub_le _ _) t.isLt)).2.2 := by
  by_cases h1 : t.val % 4 = 3
  · rw [outsAt3_C V c t h0 h1]
    dsimp only
    exact sout3_C_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (iblk3 V c 0 t) (iblk3 V c 1 t) (iblk3 V c 2 t) (iblk3 V c 3 t) (iblk3 V c 4 t) (outsAt3 V c (t.val - 1) (Nat.lt_of_le_of_lt (Nat.sub_le _ _) t.isLt)).2.2 (fun h => h0 ((hcond3_0 t).mp h)) ((hcond3_1 t).mpr h1)
  · rw [outsAt3_B V c t h0 h1]
    dsimp only
    exact sout3_B_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (iblk3 V c 0 t) (iblk3 V c 1 t) (iblk3 V c 2 t) (iblk3 V c 3 t) (iblk3 V c 4 t) (outsAt3 V c (t.val - 1) (Nat.lt_of_le_of_lt (Nat.sub_le _ _) t.isLt)).2.2 (fun h => h0 ((hcond3_0 t).mp h)) (fun h => h1 ((hcond3_1 t).mp h))

/-- After a point that finishes an accumulation output 5's buffer holds the new eligibility trace of the accumulator as the
    point leaves it … -/
theorem trace3_last (c : Dev nD) (t : Fin cfg3.N) (h1 : t.val % 4 = 3) :
    (outsAt3 V c t.val t.isLt).1 = k3_pay3 (iblk3 V c 2 t) (outsAt3 V c t.val t.isLt).2.2 := by
  have h0 : ¬t.val % 4 = 0 := by omega
  rw [scratch3_step V c t h0, outsAt3_C V c t h0 h1]
  dsimp only
  exact out3_C_5_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (iblk3 V c 0 t) (iblk3 V c 1 t) (iblk3 V c 2 t) (iblk3 V c 3 t) (iblk3 V c 4 t) (outsAt3 V c (t.val - 1) (Nat.lt_of_le_of_lt (Nat.sub_le _ _) t.isLt)).2.2 (fun h => h0 ((hcond3_0 t).mp h)) ((hcond3_1 t).mpr h1)

/-- … and output 6's the new Hebbian trace. -/
theorem heb3_last (c : Dev nD) (t : Fin cfg3.N) (h1 : t.val % 4 = 3) :
    (outsAt3 V c t.val t.isLt).2.1
      = k3_pay4 (iblk3 V c 2 t) (outsAt3 V c t.val t.isLt).2.2 (iblk3 V c 3 t) (iblk3 V c 4 t) := by
  have h0 : ¬t.val % 4 = 0 := by omega
  rw [scratch3_step V c t h0, outsAt3_C V c t h0 h1]
  dsimp only
  exact out3_C_6_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (iblk3 V c 0 t) (iblk3 V c 1 t) (iblk3 V c 2 t) (iblk3 V c 3 t) (iblk3 V c 4 t) (outsAt3 V c (t.val - 1) (Nat.lt_of_le_of_lt (Nat.sub_le _ _) t.isLt)).2.2 (fun h => h0 ((hcond3_0 t).mp h)) ((hcond3_1 t).mpr h1)

end Points

end Cert.KernelIdeal.Hand

end
-- ==== Proof.KI.R3Val.lean ====
/-
  The third Hebbian update, read as whole matrices on the extended reals.

  The grid walks the tiles of the two trace matrices and, for each tile, the blocks of the batch.  Over the run of
  points that share a tile the accumulator gathers, block by block, the products of the transposed pre-synaptic block
  with the post-synaptic block; after the run's last point its entry (r, e) is the sum over the whole batch of
  pre[n, R] · post[n, E], where (R, E) is the entry's place in the whole matrix — the correlation of the two batches.
  That last point stores 0.7 · old + 0.3 · correlation as the tile of the new eligibility trace and the clamped
  old + dopamine · (new eligibility) as the tile of the new Hebbian trace, and only these last points are written back.
  Their tiles cover the two arrays, so after the region the arrays hold the two matrices of the specification.  The
  only laws used are that a sum may be cut into blocks and that zero is neutral, so no entry needs to be finite.
-/
import proofs.«178145_j14508399526340_2_alg».proof.Proof.KI.R3Pieces
import proofs.«178145_j14508399526340_2_alg».proof.Proof.KI.HebbPayload
import proofs.«178145_j14508399526340_2_alg».proof.Proof.KI.BlockAccum
import proofs.«178145_j14508399526340_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hebbian (Mat zero32 keep32 rate32 negRate32)

namespace R3V

section
variable (V : (c : Dev nD) → (b : Ref sig .tc) → Buf (Elt Ideal) ((c : Thread nD τ).loc b))

theorem rows3 : 4 * 1024 = 4096 := rfl

/-- The arrays the update finds, as matrices: the two batches of activity, the old eligibility and Hebbian traces, the
    dopamine scalar. -/
abbrev pre3 (c : Dev nD) : Mat 4096 2048 := V c main_v12_1
abbrev post3 (c : Dev nD) : Mat 4096 2050 := V c main_v12_2
abbrev eold3 (c : Dev nD) : Mat 2048 2050 := V c main_arg6
abbrev hebold3 (c : Dev nD) : Mat 2048 2050 := V c main_arg9
abbrev dopa3 (c : Dev nD) : Mat 1 1 := V c main_v23
/-- The five input blocks at a point. -/
abbrev bPre3 (c : Dev nD) (t : Fin cfg3.N) : Vec Ideal S1024x256 .bf16 := iblk3 V c 0 t
abbrev bPost3 (c : Dev nD) (t : Fin cfg3.N) : Vec Ideal S1024x2050 .bf16 := iblk3 V c 1 t
abbrev bEold3 (c : Dev nD) (t : Fin cfg3.N) : Vec Ideal S256x2050 .f32 := iblk3 V c 2 t
abbrev bHebold3 (c : Dev nD) (t : Fin cfg3.N) : Vec Ideal S256x2050 .f32 := iblk3 V c 3 t
abbrev bDopa3 (c : Dev nD) (t : Fin cfg3.N) : Vec Ideal S1x1 .f32 := iblk3 V c 4 t

/-! ## Where the blocks sit

At a point t of the grid the batch block is k = t.val % 4, the row tile of the traces is i = t.val / 4 and the column tile is
j = 0: the pre-synaptic block is rows 1024 k … of columns 256 i …, the post-synaptic block rows 1024 k … of columns
2050 j …, and the four trace windows are rows 256 i … of columns 2050 j …. -/

theorem index3_0 : ∀ t : Fin cfg3.N, win3_0.index t 0 = t.val % 4 ∧ win3_0.index t 1 = t.val / 4 :=
  (by decide +kernel : ∀ t : Fin grid3.N, win3_0.index t 0 = t.val % 4 ∧ win3_0.index t 1 = t.val / 4)
theorem index3_1 : ∀ t : Fin cfg3.N, win3_1.index t 0 = t.val % 4 ∧ win3_1.index t 1 = 0 :=
  (by decide +kernel : ∀ t : Fin grid3.N, win3_1.index t 0 = t.val % 4 ∧ win3_1.index t 1 = 0)
theorem index3_2 : ∀ t : Fin cfg3.N, win3_2.index t 0 = t.val / 4 ∧ win3_2.index t 1 = 0 :=
  (by decide +kernel : ∀ t : Fin grid3.N, win3_2.index t 0 = t.val / 4 ∧ win3_2.index t 1 = 0)
theorem index3_3 : ∀ t : Fin cfg3.N, win3_3.index t 0 = t.val / 4 ∧ win3_3.index t 1 = 0 :=
  (by decide +kernel : ∀ t : Fin grid3.N, win3_3.index t 0 = t.val / 4 ∧ win3_3.index t 1 = 0)
theorem index3_4 : ∀ t : Fin cfg3.N, win3_4.index t 0 = 0 ∧ win3_4.index t 1 = 0 :=
  (by decide +kernel : ∀ t : Fin grid3.N, win3_4.index t 0 = 0 ∧ win3_4.index t 1 = 0)
theorem index3_5 : ∀ t : Fin cfg3.N, win3_5.index t 0 = t.val / 4 ∧ win3_5.index t 1 = 0 :=
  (by decide +kernel : ∀ t : Fin grid3.N, win3_5.index t 0 = t.val / 4 ∧ win3_5.index t 1 = 0)
theorem index3_6 : ∀ t : Fin cfg3.N, win3_6.index t 0 = t.val / 4 ∧ win3_6.index t 1 = 0 :=
  (by decide +kernel : ∀ t : Fin grid3.N, win3_6.index t 0 = t.val / 4 ∧ win3_6.index t 1 = 0)

theorem bPre3_apply (c : Dev nD) (t : Fin cfg3.N) (b : Fin 1024) (r : Fin 256) (n : Fin 4096) (R : Fin 2048)
    (hn : n.val = t.val % 4 * 1024 + b.val) (hR : R.val = t.val / 4 * 256 + r.val) :
    bPre3 V c t (ix2 b r) = pre3 V c (ix2 n R) := by
  unfold bPre3 pre3 iblk3
  rw [View.read_apply]
  show V c main_v12_1 _ = V c main_v12_1 _
  refine congrArg (V c main_v12_1) (funext fun a => Fin.ext ?_)
  match a with
  | ⟨0, _⟩ => show win3_0.index t 0 * 1024 + 1 * b.val = n.val; rw [(index3_0 t).1, hn]; omega
  | ⟨1, _⟩ => show win3_0.index t 1 * 256 + 1 * r.val = R.val; rw [(index3_0 t).2, hR]; omega

theorem bPost3_apply (c : Dev nD) (t : Fin cfg3.N) (b : Fin 1024) (e : Fin 2050) (n : Fin 4096) (E : Fin 2050)
    (hn : n.val = t.val % 4 * 1024 + b.val) (hE : E.val = 0 * 2050 + e.val) :
    bPost3 V c t (ix2 b e) = post3 V c (ix2 n E) := by
  unfold bPost3 post3 iblk3
  rw [View.read_apply]
  show V c main_v12_2 _ = V c main_v12_2 _
  refine congrArg (V c main_v12_2) (funext fun a => Fin.ext ?_)
  match a with
  | ⟨0, _⟩ => show win3_1.index t 0 * 1024 + 1 * b.val = n.val; rw [(index3_1 t).1, hn]; omega
  | ⟨1, _⟩ => show win3_1.index t 1 * 2050 + 1 * e.val = E.val; rw [(index3_1 t).2, hE]; omega

theorem bEold3_apply (c : Dev nD) (t : Fin cfg3.N) (r : Fin 256) (e : Fin 2050) (R : Fin 2048) (E : Fin 2050)
    (hR : R.val = t.val / 4 * 256 + r.val) (hE : E.val = 0 * 2050 + e.val) :
    bEold3 V c t (ix2 r e) = eold3 V c (ix2 R E) := by
  unfold bEold3 eold3 iblk3
  rw [View.read_apply]
  show V c main_arg6 _ = V c main_arg6 _
  refine congrArg (V c main_arg6) (funext fun a => Fin.ext ?_)
  match a with
  | ⟨0, _⟩ => show win3_2.index t 0 * 256 + 1 * r.val = R.val; rw [(index3_2 t).1, hR]; omega
  | ⟨1, _⟩ => show win3_2.index t 1 * 2050 + 1 * e.val = E.val; rw [(index3_2 t).2, hE]; omega

theorem bHebold3_apply (c : Dev nD) (t : Fin cfg3.N) (r : Fin 256) (e : Fin 2050) (R : Fin 2048) (E : Fin 2050)
    (hR : R.val = t.val / 4 * 256 + r.val) (hE : E.val = 0 * 2050 + e.val) :
    bHebold3 V c t (ix2 r e) = hebold3 V c (ix2 R E) := by
  unfold bHebold3 hebold3 iblk3
  rw [View.read_apply]
  show V c main_arg9 _ = V c main_arg9 _
  refine congrArg (V c main_arg9) (funext fun a => Fin.ext ?_)
  match a with
  | ⟨0, _⟩ => show win3_3.index t 0 * 256 + 1 * r.val = R.val; rw [(index3_3 t).1, hR]; omega
  | ⟨1, _⟩ => show win3_3.index t 1 * 2050 + 1 * e.val = E.val; rw [(index3_3 t).2, hE]; omega

theorem bDopa3_apply (c : Dev nD) (t : Fin cfg3.N) :
    bDopa3 V c t (ix2 0 0) = dopa3 V c (ix2 0 0) := by
  unfold bDopa3 dopa3 iblk3
  rw [View.read_apply]
  show V c main_v23 _ = V c main_v23 _
  refine congrArg (V c main_v23) (funext fun a => Fin.ext ?_)
  match a with
  | ⟨0, _⟩ => show win3_4.index t 0 * 1 + 1 * 0 = 0; rw [(index3_4 t).1]
  | ⟨1, _⟩ => show win3_4.index t 1 * 1 + 1 * 0 = 0; rw [(index3_4 t).2]

/-! ## The accumulator -/

/-- Batch block k's share of entry (R, E) of the correlation of the rectified second pre-activation with the output layer's. -/
def corrBlock3 (c : Dev nD) (R : Fin 2048) (E : Fin 2050) (k : Fin 4) : EReal :=
  ∑ b : Fin 1024, max (pre3 V c (ix2 (rowOf rows3 k b) R)) zero32 * post3 V c (ix2 (rowOf rows3 k b) E)

/-- The blocks' shares add up to the correlation's entry. -/
theorem sum_corrBlock3 (c : Dev nD) (R : Fin 2048) (E : Fin 2050) :
    ∑ k : Fin 4, corrBlock3 V c R E k = Cert.Hebbian.correlate (Cert.Hebbian.relu (pre3 V c)) (post3 V c) (ix2 R E) :=
  sum_blocks rows3 fun n => max (pre3 V c (ix2 n R)) zero32 * post3 V c (ix2 n E)

/-- What one point adds to entry (r, e) of the accumulator: its batch block's share of the entry's place in the whole. -/
theorem point_share3 (c : Dev nD) (t : Fin cfg3.N) (r : Fin 256) (e : Fin 2050) (R : Fin 2048) (E : Fin 2050)
    (hR : R.val = t.val / 4 * 256 + r.val) (hE : E.val = 0 * 2050 + e.val) :
    ∑ b : Fin 1024, max (bPre3 V c t (ix2 b r)) zero32 * bPost3 V c t (ix2 b e)
      = corrBlock3 V c R E ⟨t.val % 4, Nat.mod_lt _ (by decide)⟩ := by
  unfold corrBlock3
  refine Finset.sum_congr rfl fun b _ => ?_
  rw [bPre3_apply V c t b r (rowOf rows3 ⟨t.val % 4, Nat.mod_lt _ (by decide)⟩ b) R rfl hR,
    bPost3_apply V c t b e (rowOf rows3 ⟨t.val % 4, Nat.mod_lt _ (by decide)⟩ b) E rfl hE]

/-- After point n the accumulator's entry holds the shares of the batch blocks 0 … n mod 4 of its run. -/
theorem scratch3_eq (c : Dev nD) : ∀ (n : ℕ) (hn : n < cfg3.N) (r : Fin 256) (e : Fin 2050) (R : Fin 2048) (E : Fin 2050),
    R.val = n / 4 * 256 + r.val → E.val = 0 * 2050 + e.val →
    (outsAt3 V c n hn).2.2 (ix2 r e) = firstBlocks (corrBlock3 V c R E) (n % 4) := by
  intro n
  induction n with
  | zero =>
    intro hn r e R E hR hE
    rw [scratch3_reset V c ⟨0, hn⟩ rfl]
    refine (k3_pay2_apply (bPre3 V c ⟨0, hn⟩) (bPost3 V c ⟨0, hn⟩) (k3_pay1 (F := Ideal)) r e).trans ?_
    rw [k3_pay1_apply, zero32_add, point_share3 V c ⟨0, hn⟩ r e R E hR hE]
    exact (firstBlocks_zero _ (by decide)).symm
  | succ n ih =>
    intro hn r e R E hR hE
    by_cases h0 : (n + 1) % 4 = 0
    · rw [scratch3_reset V c ⟨n + 1, hn⟩ h0]
      refine (k3_pay2_apply (bPre3 V c ⟨n + 1, hn⟩) (bPost3 V c ⟨n + 1, hn⟩) (k3_pay1 (F := Ideal)) r e).trans ?_
      rw [k3_pay1_apply, zero32_add, point_share3 V c ⟨n + 1, hn⟩ r e R E hR hE]
      have hz : (⟨(n + 1) % 4, Nat.mod_lt _ (by decide)⟩ : Fin 4) = ⟨0, by decide⟩ := Fin.ext h0
      rw [hz, h0]
      exact (firstBlocks_zero _ (by decide)).symm
    · rw [scratch3_step V c ⟨n + 1, hn⟩ h0]
      refine (k3_pay2_apply (bPre3 V c ⟨n + 1, hn⟩) (bPost3 V c ⟨n + 1, hn⟩) _ r e).trans ?_
      rw [point_share3 V c ⟨n + 1, hn⟩ r e R E hR hE]
      show (outsAt3 V c n _).2.2 (ix2 r e) + _ = _
      rw [ih (Nat.lt_of_succ_lt hn) r e R E (by omega) (by omega),
        firstBlocks_step (corrBlock3 V c R E) ((n + 1) % 4) h0 (Nat.mod_lt _ (by decide))]
      have hm : (n + 1) % 4 - 1 = n % 4 := by omega
      rw [hm]
end

section
variable (V : (c : Dev nD) → (b : Ref sig .tc) → Buf (Elt Ideal) ((c : Thread nD τ).loc b))

/-! ## The two outputs -/

/-- The new eligibility trace and the new Hebbian trace of the layer, as whole matrices. -/
abbrev traceNew3 (c : Dev nD) : Mat 2048 2050 :=
  Cert.Hebbian.trace (eold3 V c) (Cert.Hebbian.correlate (Cert.Hebbian.relu (pre3 V c)) (post3 V c))
abbrev hebNew3 (c : Dev nD) : Mat 2048 2050 :=
  Cert.Hebbian.clampUpdate (hebold3 V c) (traceNew3 V c) (dopa3 V c (ix2 0 0))

/-- At the last point of a run the accumulator's entry is the whole correlation's entry, so the stored eligibility is the
    new trace's entry at the tile's place in the whole. -/
theorem trace_entry3 (c : Dev nD) (t : Fin cfg3.N) (h7 : t.val % 4 = 3) (r : Fin 256) (e : Fin 2050) (R : Fin 2048) (E : Fin 2050)
    (hR : R.val = t.val / 4 * 256 + r.val) (hE : E.val = 0 * 2050 + e.val) :
    k3_pay3 (bEold3 V c t) (outsAt3 V c t.val t.isLt).2.2 (ix2 r e) = traceNew3 V c (ix2 R E) := by
  refine (k3_pay3_apply (bEold3 V c t) _ r e).trans ?_
  rw [bEold3_apply V c t r e R E hR hE, scratch3_eq V c t.val t.isLt r e R E hR hE,
    firstBlocks_all _ _ (by omega), sum_corrBlock3]
  rfl

/-- A tile of a whole matrix standing at output 5's array, read at a point. -/
theorem read_blk3_5 (t : Fin cfg3.N) (G : Mat 2048 2050) (r : Fin 256) (e : Fin 2050) (R : Fin 2048) (E : Fin 2050)
    (hR : R.val = t.val / 4 * 256 + r.val) (hE : E.val = 0 * 2050 + e.val) :
    (((cfg3.win 5).blk t).view.read (Elt Ideal) G : Mat 256 2050) (ix2 r e) = G (ix2 R E) := by
  rw [View.read_apply]
  show G _ = G _
  refine congrArg G (funext fun a => Fin.ext ?_)
  match a with
  | ⟨0, _⟩ => show win3_5.index t (0 : Fin 2) * 256 + 1 * r.val = R.val; rw [(index3_5 t).1, hR]; omega
  | ⟨1, _⟩ => show win3_5.index t (1 : Fin 2) * 2050 + 1 * e.val = E.val; rw [(index3_5 t).2, hE]; omega

theorem read_blk3_6 (t : Fin cfg3.N) (G : Mat 2048 2050) (r : Fin 256) (e : Fin 2050) (R : Fin 2048) (E : Fin 2050)
    (hR : R.val = t.val / 4 * 256 + r.val) (hE : E.val = 0 * 2050 + e.val) :
    (((cfg3.win 6).blk t).view.read (Elt Ideal) G : Mat 256 2050) (ix2 r e) = G (ix2 R E) := by
  rw [View.read_apply]
  show G _ = G _
  refine congrArg G (funext fun a => Fin.ext ?_)
  match a with
  | ⟨0, _⟩ => show win3_6.index t (0 : Fin 2) * 256 + 1 * r.val = R.val; rw [(index3_6 t).1, hR]; omega
  | ⟨1, _⟩ => show win3_6.index t (1 : Fin 2) * 2050 + 1 * e.val = E.val; rw [(index3_6 t).2, hE]; omega

/-- The place of a tile's entry in the whole matrix. -/
def tileRow3 (t : Fin cfg3.N) (r : Fin 256) : Fin 2048 :=
  ⟨t.val / 4 * 256 + r.val, by have hN : cfg3.N = 32 := N_3; have := t.isLt; have := r.isLt; omega⟩
def tileCol3 (t : Fin cfg3.N) (e : Fin 2050) : Fin 2050 :=
  ⟨0 * 2050 + e.val, by have := e.isLt; omega⟩

/-- What a flushing point writes back of output 5 is its tile of the new eligibility trace. -/
theorem flushed3_5_eq (c : Dev nD) (t : Fin cfg3.N) (hf : (cfg3.win 5).flush t = true) :
    (dat3 V c).flushed 5 t = ((cfg3.win 5).blk t).view.read (Elt Ideal) (traceNew3 V c) := by
  have h7 : t.val % 4 = 3 := (flush3_5 t).mp hf
  show (cfg3.win 5).cut (grid3.coords t) ((dat3 V c).after 5 t) = _
  rw [after3_5, trace3_last V c t h7]
  refine Cert.Hebbian.Mat.ext (a := 256) (b := 2050) fun r e => ?_
  rw [read_blk3_5 t _ r e (tileRow3 t r) (tileCol3 t e) rfl rfl]
  exact trace_entry3 V c t h7 r e _ _ rfl rfl

/-- And of output 6 its tile of the new Hebbian trace. -/
theorem flushed3_6_eq (c : Dev nD) (t : Fin cfg3.N) (hf : (cfg3.win 6).flush t = true) :
    (dat3 V c).flushed 6 t = ((cfg3.win 6).blk t).view.read (Elt Ideal) (hebNew3 V c) := by
  have h7 : t.val % 4 = 3 := (flush3_6 t).mp hf
  show (cfg3.win 6).cut (grid3.coords t) ((dat3 V c).after 6 t) = _
  rw [after3_6, heb3_last V c t h7]
  refine Cert.Hebbian.Mat.ext (a := 256) (b := 2050) fun r e => ?_
  rw [read_blk3_6 t _ r e (tileRow3 t r) (tileCol3 t e) rfl rfl]
  refine (k3_pay4_apply (bEold3 V c t) _ (bHebold3 V c t) (bDopa3 V c t) r e).trans ?_
  rw [trace_entry3 V c t h7 r e (tileRow3 t r) (tileCol3 t e) rfl rfl,
    bHebold3_apply V c t r e (tileRow3 t r) (tileCol3 t e) rfl rfl, bDopa3_apply V c t]
  rfl

/-! ## The tiles written back cover the arrays -/

theorem mem_blk3_5 (t : Fin cfg3.N) (i : S2048x2050.Idx) :
    i ∈ ((cfg3.win 5).blk t).view.set ↔ ∀ a : Fin 2, win3_5.index t a * S256x2050.size a ≤ (i a).val ∧ (i a).val < win3_5.index t a * S256x2050.size a + S256x2050.size a := by
  show i ∈ ((View.whole main_v26_0).slice (win3_5.rect t)).set ↔ _
  rw [View.set_slice_whole, Rect.mem_set_unit]
  exact Iff.rfl

theorem mem_blk3_6 (t : Fin cfg3.N) (i : S2048x2050.Idx) :
    i ∈ ((cfg3.win 6).blk t).view.set ↔ ∀ a : Fin 2, win3_6.index t a * S256x2050.size a ≤ (i a).val ∧ (i a).val < win3_6.index t a * S256x2050.size a + S256x2050.size a := by
  show i ∈ ((View.whole main_v26_1).slice (win3_6.rect t)).set ↔ _
  rw [View.set_slice_whole, Rect.mem_set_unit]
  exact Iff.rfl

/-- The last point of the run of the tile an entry lies in. -/
def lastPoint3 (i : S2048x2050.Idx) : Fin cfg3.N :=
  ⟨(i 0).val / 256 * 4 + 3, by
    have hN : cfg3.N = 32 := N_3
    have h0 : (i 0).val < 2048 := (i 0).isLt
    have h1 : (i 1).val < 2050 := (i 1).isLt
    omega⟩

theorem cover3_5 (i : S2048x2050.Idx) : ∃ t : Fin cfg3.N, (cfg3.win 5).flush t = true ∧ i ∈ ((cfg3.win 5).blk t).view.set := by
  have h0 : (i 0).val < 2048 := (i 0).isLt
  have h1 : (i 1).val < 2050 := (i 1).isLt
  refine ⟨lastPoint3 i, (flush3_5 _).mpr (by show ((i 0).val / 256 * 4 + 3) % 4 = 3; omega), ?_⟩
  rw [mem_blk3_5]
  intro a
  match a with
  | ⟨0, _⟩ =>
    show win3_5.index (lastPoint3 i) (0 : Fin 2) * 256 ≤ (i 0).val ∧ (i 0).val < win3_5.index (lastPoint3 i) (0 : Fin 2) * 256 + 256
    rw [(index3_5 _).1]; show ((i 0).val / 256 * 4 + 3) / 4 * 256 ≤ (i 0).val ∧ (i 0).val < ((i 0).val / 256 * 4 + 3) / 4 * 256 + 256; omega
  | ⟨1, _⟩ =>
    show win3_5.index (lastPoint3 i) (1 : Fin 2) * 2050 ≤ (i 1).val ∧ (i 1).val < win3_5.index (lastPoint3 i) (1 : Fin 2) * 2050 + 2050
    rw [(index3_5 _).2]; show 0 * 2050 ≤ (i 1).val ∧ (i 1).val < 0 * 2050 + 2050; omega

theorem cover3_6 (i : S2048x2050.Idx) : ∃ t : Fin cfg3.N, (cfg3.win 6).flush t = true ∧ i ∈ ((cfg3.win 6).blk t).view.set := by
  have h0 : (i 0).val < 2048 := (i 0).isLt
  have h1 : (i 1).val < 2050 := (i 1).isLt
  refine ⟨lastPoint3 i, (flush3_6 _).mpr (by show ((i 0).val / 256 * 4 + 3) % 4 = 3; omega), ?_⟩
  rw [mem_blk3_6]
  intro a
  match a with
  | ⟨0, _⟩ =>
    show win3_6.index (lastPoint3 i) (0 : Fin 2) * 256 ≤ (i 0).val ∧ (i 0).val < win3_6.index (lastPoint3 i) (0 : Fin 2) * 256 + 256
    rw [(index3_6 _).1]; show ((i 0).val / 256 * 4 + 3) / 4 * 256 ≤ (i 0).val ∧ (i 0).val < ((i 0).val / 256 * 4 + 3) / 4 * 256 + 256; omega
  | ⟨1, _⟩ =>
    show win3_6.index (lastPoint3 i) (1 : Fin 2) * 2050 ≤ (i 1).val ∧ (i 1).val < win3_6.index (lastPoint3 i) (1 : Fin 2) * 2050 + 2050
    rw [(index3_6 _).2]; show 0 * 2050 ≤ (i 1).val ∧ (i 1).val < 0 * 2050 + 2050; omega

end

end R3V

section
variable (V : (c : Dev nD) → (b : Ref sig .tc) → Buf (Elt Ideal) ((c : Thread nD τ).loc b))

/-! ## The arrays after the region -/

theorem final3_5 (c : Dev nD) : (dat3 (F := Ideal) V c).arrAt 5 cfg3.N
    = Cert.Hebbian.trace (V c main_arg6) (Cert.Hebbian.correlate (Cert.Hebbian.relu (V c main_v12_1)) (V c main_v12_2)) :=
  (dat3 V c).arrAt_eq_of_cover 5 (R3V.traceNew3 V c) (R3V.flushed3_5_eq V c) R3V.cover3_5

theorem final3_6 (c : Dev nD) : (dat3 (F := Ideal) V c).arrAt 6 cfg3.N
    = Cert.Hebbian.clampUpdate (V c main_arg9) (Cert.Hebbian.trace (V c main_arg6) (Cert.Hebbian.correlate (Cert.Hebbian.relu (V c main_v12_1)) (V c main_v12_2)))
        (V c main_v23 (ValueIdx.ix2 0 0)) :=
  (dat3 V c).arrAt_eq_of_cover 6 (R3V.hebNew3 V c) (R3V.flushed3_6_eq V c) R3V.cover3_6
end

end Cert.KernelIdeal.Hand

end
-- ==== Proof.KI.HostVal.lean ====
/-
  The two stretches of host operations of the kernel program, read as the specification's functions of whatever the
  buffers hold when a stretch starts. Before the forward kernel, each of the three effective weights is the learned
  weight plus the scalar state times the Hebbian trace (rounding to the narrower format is the identity on the
  extended reals). After it, each modulator is the batch mean of tanh of one column of the output layer.
-/
import proofs.«178145_j14508399526340_2_alg».proof.Proof.Gen.KernelIdeal.Launch
import proofs.«178145_j14508399526340_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Cert.Hebbian

namespace HostVal

/-! ## An effective weight, entry by entry -/

theorem weight_square (w b : (⟨S2048x2048, .f32⟩ : BufTy).Contents (Elt Ideal)) (s : (⟨S_, .f32⟩ : BufTy).Contents (Elt Ideal)) :
    (truncf (F := Ideal) .bf16 (addf w (mulf (broadcastInDim S2048x2048 ![] bcast_S_S2048x2048 s) b)) bitsLt_bf16_f32
        : (⟨S2048x2048, .bf16⟩ : BufTy).Contents (Elt Ideal)) = weight w b (s ix0) := by
  refine Mat.ext fun r e => ?_
  show w (ix2 r e) + broadcastInDim S2048x2048 ![] bcast_S_S2048x2048 s (ix2 r e) * b (ix2 r e) = _
  rw [broadcastInDim_apply _ bcast_S_S2048x2048 s (ix2 r e) ix0 (fun a => a.elim0)]
  rfl

theorem weight_wide (w b : (⟨S2048x2050, .f32⟩ : BufTy).Contents (Elt Ideal)) (s : (⟨S_, .f32⟩ : BufTy).Contents (Elt Ideal)) :
    (truncf (F := Ideal) .bf16 (addf w (mulf (broadcastInDim S2048x2050 ![] bcast_S_S2048x2050 s) b)) bitsLt_bf16_f32
        : (⟨S2048x2050, .bf16⟩ : BufTy).Contents (Elt Ideal)) = weight w b (s ix0) := by
  refine Mat.ext fun r e => ?_
  show w (ix2 r e) + broadcastInDim S2048x2050 ![] bcast_S_S2048x2050 s (ix2 r e) * b (ix2 r e) = _
  rw [broadcastInDim_apply _ bcast_S_S2048x2050 s (ix2 r e) ix0 (fun a => a.elim0)]
  rfl

/-! ## The batch mean of tanh of one column -/

/-- A sum over the indices of a one-column matrix is the sum over its rows. -/
theorem sum_column (f : S4096x1.Idx → EReal) : ∑ j : S4096x1.Idx, f j = ∑ r : Fin 4096, f (ix2 r (0 : Fin 1)) := by
  rw [sum_idx2]
  exact Finset.sum_congr rfl fun r _ => Fin.sum_univ_one _

/-- Column `o` of the output layer, passed through tanh, summed from zero over the batch and divided by the batch
    size, is the specification's mean. -/
theorem meanTanh_val (y : (⟨S4096x2050, .bf16⟩ : BufTy).Contents (Elt Ideal)) (o : ℕ) (ho : o < 2050)
    (h : S4096x2050.Slices ![0, o] S4096x1) :
    Host.divf (F := Ideal) (Host.reduceAdd (F := Ideal) (Host.tanh (F := Ideal) (extf .f32 (extractStridedSlice S4096x1 ![0, o] y h) bitsLt_bf16_f32))
        (constant (F := Ideal) S_ .f32 0x00000000#32) reducesTo_S4096x1_S_d0_1 h_S_) (constant (F := Ideal) S_ .f32 0x45800000#32)
      = fun _ => meanTanhCol y ⟨o, ho⟩ := by
  funext i
  generalize hv : Host.tanh (F := Ideal) (extf .f32 (extractStridedSlice S4096x1 ![0, o] y h) bitsLt_bf16_f32) = v
  have hsum : Host.reduceAdd (F := Ideal) v (constant (F := Ideal) S_ .f32 0x00000000#32) reducesTo_S4096x1_S_d0_1 h_S_ i
      = zero32 + ∑ j : S4096x1.Idx, v j := by
    simp only [Host.reduceAdd, Ideal.hostReduceAdd_def]
    exact Ideal.hostReduceAdd_total reducesTo_S4096x1_S_d0_1 (fun b => b.elim0) v _ i
  show Ideal.div (Host.reduceAdd (F := Ideal) v (constant (F := Ideal) S_ .f32 0x00000000#32) reducesTo_S4096x1_S_d0_1 h_S_ i) batch32 = _
  rw [hsum, sum_column]
  subst hv
  unfold meanTanhCol
  refine congrArg (fun t => Ideal.div (zero32 + t) batch32) (Finset.sum_congr rfl fun r _ => ?_)
  show Ideal.tanh (extractStridedSlice S4096x1 ![0, o] y h (ix2 r (0 : Fin 1))) = _
  rw [extractStridedSlice_apply ![0, o] y h (ix2 r (0 : Fin 1)) (ix2 r ⟨o, ho⟩) (fun a => match a with
    | ⟨0, _⟩ => by show r.val = 0 + r.val; omega
    | ⟨1, _⟩ => by show o = o + 0; rfl)]

end HostVal

open HostVal

/-! ## The first stretch: the three effective weights -/

theorem hostOps0_v3 (W : Valuation τ sig (Elt Ideal)) :
    StableHlo.after (hostOps0 (F := Ideal)) W (Proc.devRef .tc main_v3)
      = weight (W (Proc.devRef .tc main_arg1)) (W (Proc.devRef .tc main_arg7)) (W (Proc.devRef .tc main_arg10) ix0) := by
  after_results
  exact weight_square _ _ _

theorem hostOps0_v7 (W : Valuation τ sig (Elt Ideal)) :
    StableHlo.after (hostOps0 (F := Ideal)) W (Proc.devRef .tc main_v7)
      = weight (W (Proc.devRef .tc main_arg2)) (W (Proc.devRef .tc main_arg8)) (W (Proc.devRef .tc main_arg10) ix0) := by
  after_results
  exact weight_square _ _ _

theorem hostOps0_v11 (W : Valuation τ sig (Elt Ideal)) :
    StableHlo.after (hostOps0 (F := Ideal)) W (Proc.devRef .tc main_v11)
      = weight (W (Proc.devRef .tc main_arg3)) (W (Proc.devRef .tc main_arg9)) (W (Proc.devRef .tc main_arg10) ix0) := by
  after_results
  exact weight_wide _ _ _

/-! ## The second stretch: the two modulators -/

theorem hostOps1_v17 (W : Valuation τ sig (Elt Ideal)) :
    StableHlo.after (hostOps1 (F := Ideal)) W (Proc.devRef .tc main_v17)
      = fun _ => meanTanhCol (W (Proc.devRef .tc main_v12_2)) ⟨2048, by omega⟩ := by
  after_results
  exact meanTanh_val _ 2048 (by omega) _

theorem hostOps1_v22 (W : Valuation τ sig (Elt Ideal)) :
    StableHlo.after (hostOps1 (F := Ideal)) W (Proc.devRef .tc main_v22)
      = fun _ => meanTanhCol (W (Proc.devRef .tc main_v12_2)) ⟨2047, by omega⟩ := by
  after_results
  exact meanTanh_val _ 2047 (by omega) _

/-- The dopamine scalar recast as a one-by-one matrix holds the same number at its one entry. -/
theorem hostOps1_v23 (W : Valuation τ sig (Elt Ideal)) :
    StableHlo.after (hostOps1 (F := Ideal)) W (Proc.devRef .tc main_v23)
      = fun _ => meanTanhCol (W (Proc.devRef .tc main_v12_2)) ⟨2047, by omega⟩ := by
  after_results
  rw [meanTanh_val _ 2047 (by omega) _]
  rfl

end Cert.KernelIdeal.Hand

end
-- ==== Proof.KI.Values.lean ====
/-
  What the program's nine results hold at the end, as the specification's functions of the argument arrays.

  Each result's buffer at the last segment boundary is read back through the fold to the step that produced it: the
  forward region for the three layers, the second stretch of host operations for the two modulators, one Hebbian-update
  region for each pair of traces. What a step finds in an array it did not produce is, again, what an earlier step
  left there — an argument, the weights the first stretch combined, a layer the forward region wrote.
-/
import proofs.«178145_j14508399526340_2_alg».proof.Proof.KI.Halves
import proofs.«178145_j14508399526340_2_alg».proof.Proof.KI.R0Val
import proofs.«178145_j14508399526340_2_alg».proof.Proof.KI.R1Val
import proofs.«178145_j14508399526340_2_alg».proof.Proof.KI.R2Val
import proofs.«178145_j14508399526340_2_alg».proof.Proof.KI.R3Val
import proofs.«178145_j14508399526340_2_alg».proof.Proof.KI.HostVal
import proofs.«178145_j14508399526340_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Hebbian Idealize.ShloMosaic.ValueIdx

variable (m : (ℓ : Loc nD τ sig) → Buf (Elt Ideal) ℓ) (c : Dev nD)

local notation "Hh" => (halves (F := Ideal))

/-! ## Buffers no step so far has written -/

theorem B2_untouched (r : Ref sig .tc) (h0 : ∀ w : Fin cfg0.W, (cfg0.win w).isOut = true → Pipeline.arrRef spec0 w ≠ r)
    (hh0 : r ∉ hostOps0_W) : B2 Hh m c (Proc.devRef .tc r) = m ((c : Thread nD τ).loc r) :=
  (B2_keep Hh m c r h0).trans (B1_keep m c r hh0)
theorem B3_untouched (r : Ref sig .tc) (h0 : ∀ w : Fin cfg0.W, (cfg0.win w).isOut = true → Pipeline.arrRef spec0 w ≠ r)
    (hh0 : r ∉ hostOps0_W) (hh1 : r ∉ hostOps1_W) : B3 Hh m c (Proc.devRef .tc r) = m ((c : Thread nD τ).loc r) :=
  (B3_keep Hh m c r hh1).trans (B2_untouched m c r h0 hh0)
theorem B4_untouched (r : Ref sig .tc) (h0 : ∀ w : Fin cfg0.W, (cfg0.win w).isOut = true → Pipeline.arrRef spec0 w ≠ r)
    (h1 : ∀ w : Fin cfg1.W, (cfg1.win w).isOut = true → Pipeline.arrRef spec1 w ≠ r)
    (hh0 : r ∉ hostOps0_W) (hh1 : r ∉ hostOps1_W) : B4 Hh m c (Proc.devRef .tc r) = m ((c : Thread nD τ).loc r) :=
  (B4_keep Hh m c r h1).trans (B3_untouched m c r h0 hh0 hh1)
theorem B5_untouched (r : Ref sig .tc) (h0 : ∀ w : Fin cfg0.W, (cfg0.win w).isOut = true → Pipeline.arrRef spec0 w ≠ r)
    (h1 : ∀ w : Fin cfg1.W, (cfg1.win w).isOut = true → Pipeline.arrRef spec1 w ≠ r)
    (h2 : ∀ w : Fin cfg2.W, (cfg2.win w).isOut = true → Pipeline.arrRef spec2 w ≠ r)
    (hh0 : r ∉ hostOps0_W) (hh1 : r ∉ hostOps1_W) : B5 Hh m c (Proc.devRef .tc r) = m ((c : Thread nD τ).loc r) :=
  (B5_keep Hh m c r h2).trans (B4_untouched m c r h0 h1 hh0 hh1)

/-! ## The first stretch of host operations: the three weights -/

theorem B1_w1 : B1 m c (Proc.devRef .tc main_v3) = weight (m ((c.tc : Thread nD τ).loc main_arg1)) (m ((c.tc : Thread nD τ).loc main_arg7)) (m ((c.tc : Thread nD τ).loc main_arg10) ix0) := hostOps0_v3 (B0 m c)
theorem B1_w2 : B1 m c (Proc.devRef .tc main_v7) = weight (m ((c.tc : Thread nD τ).loc main_arg2)) (m ((c.tc : Thread nD τ).loc main_arg8)) (m ((c.tc : Thread nD τ).loc main_arg10) ix0) := hostOps0_v7 (B0 m c)
theorem B1_w3 : B1 m c (Proc.devRef .tc main_v11) = weight (m ((c.tc : Thread nD τ).loc main_arg3)) (m ((c.tc : Thread nD τ).loc main_arg9)) (m ((c.tc : Thread nD τ).loc main_arg10) ix0) := hostOps0_v11 (B0 m c)

/-! ## The forward region: the three layers -/

theorem B2_h0x : B2 Hh m c (Proc.devRef .tc main_v12_0) = (h0x (m ((c.tc : Thread nD τ).loc main_arg0)) (m ((c.tc : Thread nD τ).loc main_arg1)) (m ((c.tc : Thread nD τ).loc main_arg7)) (m ((c.tc : Thread nD τ).loc main_arg10) ix0)) :=
  (B2_arr Hh m c 4).trans ((final0_4 (E1 m) c).trans (by
    rw [show E1 m c main_arg0 = (m ((c.tc : Thread nD τ).loc main_arg0)) from B1_keep m c main_arg0 (by decide), show E1 m c main_v3 = _ from B1_w1 m c]; rfl))
theorem B2_h10 : B2 Hh m c (Proc.devRef .tc main_v12_1) = (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0)) :=
  (B2_arr Hh m c 5).trans ((final0_5 (E1 m) c).trans (by
    rw [show E1 m c main_arg0 = (m ((c.tc : Thread nD τ).loc main_arg0)) from B1_keep m c main_arg0 (by decide), show E1 m c main_v3 = _ from B1_w1 m c,
      show E1 m c main_v7 = _ from B1_w2 m c]; rfl))
theorem B2_y1 : B2 Hh m c (Proc.devRef .tc main_v12_2) = (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) :=
  (B2_arr Hh m c 6).trans ((final0_6 (E1 m) c).trans (by
    rw [show E1 m c main_arg0 = (m ((c.tc : Thread nD τ).loc main_arg0)) from B1_keep m c main_arg0 (by decide), show E1 m c main_v3 = _ from B1_w1 m c,
      show E1 m c main_v7 = _ from B1_w2 m c, show E1 m c main_v11 = _ from B1_w3 m c]; rfl))
theorem B2_y : B2 Hh m c (Proc.devRef .tc main_v12_3) = firstCols (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) :=
  (B2_arr Hh m c 7).trans ((final0_7 (E1 m) c).trans (by
    rw [show E1 m c main_arg0 = (m ((c.tc : Thread nD τ).loc main_arg0)) from B1_keep m c main_arg0 (by decide), show E1 m c main_v3 = _ from B1_w1 m c,
      show E1 m c main_v7 = _ from B1_w2 m c, show E1 m c main_v11 = _ from B1_w3 m c]; rfl))

/-! ## The second stretch of host operations: the two modulators -/

theorem B3_state : B3 Hh m c (Proc.devRef .tc main_v17) = (fun _ => (stateNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))) :=
  (hostOps1_v17 (B2 Hh m c)).trans (by rw [B2_y1 m c]; rfl)
theorem B3_dopa : B3 Hh m c (Proc.devRef .tc main_v22) = (fun _ => (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))) :=
  (hostOps1_v22 (B2 Hh m c)).trans (by rw [B2_y1 m c]; rfl)
theorem B3_dopa11 : B3 Hh m c (Proc.devRef .tc main_v23) = (fun _ => (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))) :=
  (hostOps1_v23 (B2 Hh m c)).trans (by rw [B2_y1 m c]; rfl)
theorem B3_h0x : B3 Hh m c (Proc.devRef .tc main_v12_0) = (h0x (m ((c.tc : Thread nD τ).loc main_arg0)) (m ((c.tc : Thread nD τ).loc main_arg1)) (m ((c.tc : Thread nD τ).loc main_arg7)) (m ((c.tc : Thread nD τ).loc main_arg10) ix0)) := (B3_keep Hh m c main_v12_0 (by decide)).trans (B2_h0x m c)
theorem B3_h10 : B3 Hh m c (Proc.devRef .tc main_v12_1) = (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0)) := (B3_keep Hh m c main_v12_1 (by decide)).trans (B2_h10 m c)
theorem B3_y1 : B3 Hh m c (Proc.devRef .tc main_v12_2) = (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) := (B3_keep Hh m c main_v12_2 (by decide)).trans (B2_y1 m c)

/-! ## The first Hebbian-update region -/

theorem B4_e1 : B4 Hh m c (Proc.devRef .tc main_v24_0) = (trace (m ((c.tc : Thread nD τ).loc main_arg4)) (correlate (m ((c.tc : Thread nD τ).loc main_arg0)) (h0x (m ((c.tc : Thread nD τ).loc main_arg0)) (m ((c.tc : Thread nD τ).loc main_arg1)) (m ((c.tc : Thread nD τ).loc main_arg7)) (m ((c.tc : Thread nD τ).loc main_arg10) ix0)))) :=
  (B4_arr Hh m c 5).trans ((final1_5 (E3 Hh m) c).trans (by
    rw [show E3 Hh m c main_arg4 = (m ((c.tc : Thread nD τ).loc main_arg4)) from B3_untouched m c main_arg4 (by decide) (by decide) (by decide),
      show E3 Hh m c main_arg0 = (m ((c.tc : Thread nD τ).loc main_arg0)) from B3_untouched m c main_arg0 (by decide) (by decide) (by decide),
      show E3 Hh m c main_v12_0 = _ from B3_h0x m c]))
theorem B4_b1 : B4 Hh m c (Proc.devRef .tc main_v24_1) = clampUpdate (m ((c.tc : Thread nD τ).loc main_arg7)) (trace (m ((c.tc : Thread nD τ).loc main_arg4)) (correlate (m ((c.tc : Thread nD τ).loc main_arg0)) (h0x (m ((c.tc : Thread nD τ).loc main_arg0)) (m ((c.tc : Thread nD τ).loc main_arg1)) (m ((c.tc : Thread nD τ).loc main_arg7)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) :=
  (B4_arr Hh m c 6).trans ((final1_6 (E3 Hh m) c).trans (by
    rw [show E3 Hh m c main_arg4 = (m ((c.tc : Thread nD τ).loc main_arg4)) from B3_untouched m c main_arg4 (by decide) (by decide) (by decide),
      show E3 Hh m c main_arg0 = (m ((c.tc : Thread nD τ).loc main_arg0)) from B3_untouched m c main_arg0 (by decide) (by decide) (by decide),
      show E3 Hh m c main_arg7 = (m ((c.tc : Thread nD τ).loc main_arg7)) from B3_untouched m c main_arg7 (by decide) (by decide) (by decide),
      show E3 Hh m c main_v12_0 = _ from B3_h0x m c, show E3 Hh m c main_v23 = _ from B3_dopa11 m c]))

/-! ## The second Hebbian-update region -/

theorem B4_h0x : B4 Hh m c (Proc.devRef .tc main_v12_0) = (h0x (m ((c.tc : Thread nD τ).loc main_arg0)) (m ((c.tc : Thread nD τ).loc main_arg1)) (m ((c.tc : Thread nD τ).loc main_arg7)) (m ((c.tc : Thread nD τ).loc main_arg10) ix0)) := (B4_keep Hh m c main_v12_0 (by decide)).trans (B3_h0x m c)
theorem B4_h10 : B4 Hh m c (Proc.devRef .tc main_v12_1) = (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0)) := (B4_keep Hh m c main_v12_1 (by decide)).trans (B3_h10 m c)
theorem B4_y1 : B4 Hh m c (Proc.devRef .tc main_v12_2) = (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) := (B4_keep Hh m c main_v12_2 (by decide)).trans (B3_y1 m c)
theorem B4_dopa11 : B4 Hh m c (Proc.devRef .tc main_v23) = (fun _ => (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))) := (B4_keep Hh m c main_v23 (by decide)).trans (B3_dopa11 m c)
theorem B5_e2 : B5 Hh m c (Proc.devRef .tc main_v25_0) = (trace (m ((c.tc : Thread nD τ).loc main_arg5)) (correlate (relu (h0x (m ((c.tc : Thread nD τ).loc main_arg0)) (m ((c.tc : Thread nD τ).loc main_arg1)) (m ((c.tc : Thread nD τ).loc main_arg7)) (m ((c.tc : Thread nD τ).loc main_arg10) ix0))) (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0)))) :=
  (B5_arr Hh m c 5).trans ((final2_5 (E4 Hh m) c).trans (by
    rw [show E4 Hh m c main_arg5 = (m ((c.tc : Thread nD τ).loc main_arg5)) from B4_untouched m c main_arg5 (by decide) (by decide) (by decide) (by decide),
      show E4 Hh m c main_v12_0 = _ from B4_h0x m c, show E4 Hh m c main_v12_1 = _ from B4_h10 m c]))
theorem B5_b2 : B5 Hh m c (Proc.devRef .tc main_v25_1) = clampUpdate (m ((c.tc : Thread nD τ).loc main_arg8)) (trace (m ((c.tc : Thread nD τ).loc main_arg5)) (correlate (relu (h0x (m ((c.tc : Thread nD τ).loc main_arg0)) (m ((c.tc : Thread nD τ).loc main_arg1)) (m ((c.tc : Thread nD τ).loc main_arg7)) (m ((c.tc : Thread nD τ).loc main_arg10) ix0))) (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) :=
  (B5_arr Hh m c 6).trans ((final2_6 (E4 Hh m) c).trans (by
    rw [show E4 Hh m c main_arg5 = (m ((c.tc : Thread nD τ).loc main_arg5)) from B4_untouched m c main_arg5 (by decide) (by decide) (by decide) (by decide),
      show E4 Hh m c main_arg8 = (m ((c.tc : Thread nD τ).loc main_arg8)) from B4_untouched m c main_arg8 (by decide) (by decide) (by decide) (by decide),
      show E4 Hh m c main_v12_0 = _ from B4_h0x m c, show E4 Hh m c main_v12_1 = _ from B4_h10 m c,
      show E4 Hh m c main_v23 = _ from B4_dopa11 m c]))

/-! ## The third Hebbian-update region -/

theorem B5_h10 : B5 Hh m c (Proc.devRef .tc main_v12_1) = (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0)) := (B5_keep Hh m c main_v12_1 (by decide)).trans (B4_h10 m c)
theorem B5_y1 : B5 Hh m c (Proc.devRef .tc main_v12_2) = (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) := (B5_keep Hh m c main_v12_2 (by decide)).trans (B4_y1 m c)
theorem B5_dopa11 : B5 Hh m c (Proc.devRef .tc main_v23) = (fun _ => (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))) := (B5_keep Hh m c main_v23 (by decide)).trans (B4_dopa11 m c)
theorem B6_e3 : B6 Hh m c (Proc.devRef .tc main_v26_0) = (trace (m ((c.tc : Thread nD τ).loc main_arg6)) (correlate (relu (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0))) (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)))) :=
  (B6_arr Hh m c 5).trans ((final3_5 (E5 Hh m) c).trans (by
    rw [show E5 Hh m c main_arg6 = (m ((c.tc : Thread nD τ).loc main_arg6)) from B5_untouched m c main_arg6 (by decide) (by decide) (by decide) (by decide) (by decide),
      show E5 Hh m c main_v12_1 = _ from B5_h10 m c, show E5 Hh m c main_v12_2 = _ from B5_y1 m c]))
theorem B6_b3 : B6 Hh m c (Proc.devRef .tc main_v26_1) = clampUpdate (m ((c.tc : Thread nD τ).loc main_arg9)) (trace (m ((c.tc : Thread nD τ).loc main_arg6)) (correlate (relu (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0))) (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) :=
  (B6_arr Hh m c 6).trans ((final3_6 (E5 Hh m) c).trans (by
    rw [show E5 Hh m c main_arg6 = (m ((c.tc : Thread nD τ).loc main_arg6)) from B5_untouched m c main_arg6 (by decide) (by decide) (by decide) (by decide) (by decide),
      show E5 Hh m c main_arg9 = (m ((c.tc : Thread nD τ).loc main_arg9)) from B5_untouched m c main_arg9 (by decide) (by decide) (by decide) (by decide) (by decide),
      show E5 Hh m c main_v12_1 = _ from B5_h10 m c, show E5 Hh m c main_v12_2 = _ from B5_y1 m c,
      show E5 Hh m c main_v23 = _ from B5_dopa11 m c]))

/-! ## The nine results at the last boundary -/

theorem B6_y : B6 Hh m c (Proc.devRef .tc main_v12_3) = firstCols (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) :=
  (B6_keep Hh m c main_v12_3 (by decide)).trans <| (B5_keep Hh m c main_v12_3 (by decide)).trans <| (B4_keep Hh m c main_v12_3 (by decide)).trans <|
    (B3_keep Hh m c main_v12_3 (by decide)).trans (B2_y m c)
theorem B6_state : B6 Hh m c (Proc.devRef .tc main_v17) = (fun _ => (stateNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))) :=
  (B6_keep Hh m c main_v17 (by decide)).trans <| (B5_keep Hh m c main_v17 (by decide)).trans <| (B4_keep Hh m c main_v17 (by decide)).trans (B3_state m c)
theorem B6_dopa : B6 Hh m c (Proc.devRef .tc main_v22) = (fun _ => (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))) :=
  (B6_keep Hh m c main_v22 (by decide)).trans <| (B5_keep Hh m c main_v22 (by decide)).trans <| (B4_keep Hh m c main_v22 (by decide)).trans (B3_dopa m c)
theorem B6_e1 : B6 Hh m c (Proc.devRef .tc main_v24_0) = (trace (m ((c.tc : Thread nD τ).loc main_arg4)) (correlate (m ((c.tc : Thread nD τ).loc main_arg0)) (h0x (m ((c.tc : Thread nD τ).loc main_arg0)) (m ((c.tc : Thread nD τ).loc main_arg1)) (m ((c.tc : Thread nD τ).loc main_arg7)) (m ((c.tc : Thread nD τ).loc main_arg10) ix0)))) :=
  (B6_keep Hh m c main_v24_0 (by decide)).trans <| (B5_keep Hh m c main_v24_0 (by decide)).trans (B4_e1 m c)
theorem B6_b1 : B6 Hh m c (Proc.devRef .tc main_v24_1) = clampUpdate (m ((c.tc : Thread nD τ).loc main_arg7)) (trace (m ((c.tc : Thread nD τ).loc main_arg4)) (correlate (m ((c.tc : Thread nD τ).loc main_arg0)) (h0x (m ((c.tc : Thread nD τ).loc main_arg0)) (m ((c.tc : Thread nD τ).loc main_arg1)) (m ((c.tc : Thread nD τ).loc main_arg7)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) :=
  (B6_keep Hh m c main_v24_1 (by decide)).trans <| (B5_keep Hh m c main_v24_1 (by decide)).trans (B4_b1 m c)
theorem B6_e2 : B6 Hh m c (Proc.devRef .tc main_v25_0) = (trace (m ((c.tc : Thread nD τ).loc main_arg5)) (correlate (relu (h0x (m ((c.tc : Thread nD τ).loc main_arg0)) (m ((c.tc : Thread nD τ).loc main_arg1)) (m ((c.tc : Thread nD τ).loc main_arg7)) (m ((c.tc : Thread nD τ).loc main_arg10) ix0))) (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0)))) := (B6_keep Hh m c main_v25_0 (by decide)).trans (B5_e2 m c)
theorem B6_b2 : B6 Hh m c (Proc.devRef .tc main_v25_1) = clampUpdate (m ((c.tc : Thread nD τ).loc main_arg8)) (trace (m ((c.tc : Thread nD τ).loc main_arg5)) (correlate (relu (h0x (m ((c.tc : Thread nD τ).loc main_arg0)) (m ((c.tc : Thread nD τ).loc main_arg1)) (m ((c.tc : Thread nD τ).loc main_arg7)) (m ((c.tc : Thread nD τ).loc main_arg10) ix0))) (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)) := (B6_keep Hh m c main_v25_1 (by decide)).trans (B5_b2 m c)

/-! ## The run, with its results named -/

/-- Every weakly fair execution terminates with each of the nine results at the specification's function of the
    argument arrays, and the arguments as launched. -/
theorem run_spec (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ fun r => ∀ c : Dev nD,
      r.2.mem ((c.tc : Thread nD τ).loc main_v12_3) = firstCols (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))
      ∧ r.2.mem ((c.tc : Thread nD τ).loc main_v17) = (fun _ => (stateNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)))
      ∧ r.2.mem ((c.tc : Thread nD τ).loc main_v22) = (fun _ => (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)))
      ∧ r.2.mem ((c.tc : Thread nD τ).loc main_v24_0) = (trace (m ((c.tc : Thread nD τ).loc main_arg4)) (correlate (m ((c.tc : Thread nD τ).loc main_arg0)) (h0x (m ((c.tc : Thread nD τ).loc main_arg0)) (m ((c.tc : Thread nD τ).loc main_arg1)) (m ((c.tc : Thread nD τ).loc main_arg7)) (m ((c.tc : Thread nD τ).loc main_arg10) ix0))))
      ∧ r.2.mem ((c.tc : Thread nD τ).loc main_v25_0) = (trace (m ((c.tc : Thread nD τ).loc main_arg5)) (correlate (relu (h0x (m ((c.tc : Thread nD τ).loc main_arg0)) (m ((c.tc : Thread nD τ).loc main_arg1)) (m ((c.tc : Thread nD τ).loc main_arg7)) (m ((c.tc : Thread nD τ).loc main_arg10) ix0))) (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0))))
      ∧ r.2.mem ((c.tc : Thread nD τ).loc main_v26_0) = (trace (m ((c.tc : Thread nD τ).loc main_arg6)) (correlate (relu (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0))) (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))))
      ∧ r.2.mem ((c.tc : Thread nD τ).loc main_v24_1) = clampUpdate (m ((c.tc : Thread nD τ).loc main_arg7)) (trace (m ((c.tc : Thread nD τ).loc main_arg4)) (correlate (m ((c.tc : Thread nD τ).loc main_arg0)) (h0x (m ((c.tc : Thread nD τ).loc main_arg0)) (m ((c.tc : Thread nD τ).loc main_arg1)) (m ((c.tc : Thread nD τ).loc main_arg7)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))
      ∧ r.2.mem ((c.tc : Thread nD τ).loc main_v25_1) = clampUpdate (m ((c.tc : Thread nD τ).loc main_arg8)) (trace (m ((c.tc : Thread nD τ).loc main_arg5)) (correlate (relu (h0x (m ((c.tc : Thread nD τ).loc main_arg0)) (m ((c.tc : Thread nD τ).loc main_arg1)) (m ((c.tc : Thread nD τ).loc main_arg7)) (m ((c.tc : Thread nD τ).loc main_arg10) ix0))) (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))
      ∧ r.2.mem ((c.tc : Thread nD τ).loc main_v26_1) = clampUpdate (m ((c.tc : Thread nD τ).loc main_arg9)) (trace (m ((c.tc : Thread nD τ).loc main_arg6)) (correlate (relu (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0))) (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c =>
    ⟨(h c _ (mem_ucH main_v12_3 (by decide))).trans (B6_y m c),
     (h c _ (mem_ucH main_v17 (by decide))).trans (B6_state m c),
     (h c _ (mem_ucH main_v22 (by decide))).trans (B6_dopa m c),
     (h c _ (mem_ucH main_v24_0 (by decide))).trans (B6_e1 m c),
     (h c _ (mem_ucH main_v25_0 (by decide))).trans (B6_e2 m c),
     (h c _ (mem_ucH main_v26_0 (by decide))).trans (B6_e3 m c),
     (h c _ (mem_ucH main_v24_1 (by decide))).trans (B6_b1 m c),
     (h c _ (mem_ucH main_v25_1 (by decide))).trans (B6_b2 m c),
     (h c _ (mem_ucH main_v26_1 (by decide))).trans (B6_b3 m c),
     (h c _ (mem_ucH main_arg0 (by decide))).trans (B6_main_arg0 Hh m c),
     (h c _ (mem_ucH main_arg1 (by decide))).trans (B6_main_arg1 Hh m c),
     (h c _ (mem_ucH main_arg2 (by decide))).trans (B6_main_arg2 Hh m c),
     (h c _ (mem_ucH main_arg3 (by decide))).trans (B6_main_arg3 Hh m c),
     (h c _ (mem_ucH main_arg4 (by decide))).trans (B6_main_arg4 Hh m c),
     (h c _ (mem_ucH main_arg5 (by decide))).trans (B6_main_arg5 Hh m c),
     (h c _ (mem_ucH main_arg6 (by decide))).trans (B6_main_arg6 Hh m c),
     (h c _ (mem_ucH main_arg7 (by decide))).trans (B6_main_arg7 Hh m c),
     (h c _ (mem_ucH main_arg8 (by decide))).trans (B6_main_arg8 Hh m c),
     (h c _ (mem_ucH main_arg9 (by decide))).trans (B6_main_arg9 Hh m c),
     (h c _ (mem_ucH main_arg10 (by decide))).trans (B6_main_arg10 Hh m c)⟩)
    (run_all Hh m ρ)

end Cert.KernelIdeal.Hand

end
-- ==== Proof.RefVal.lean ====
/-
  The reference program computes the specification. Each stage of the reference — the three effective weights, the three
  dense layers with their rectifiers, the two batch means of tanh of an output column, the three correlations of a
  layer's input with its pre-activation output, the three exponential averages and the three clamped updates — is
  identified, entry by entry, with the specification's function of the same name; the nine results of a run are then
  the specification's nine functions of the launch contents.
-/
import proofs.«178145_j14508399526340_2_alg».proof.Proof.Gen.ReferenceIdeal.Run
import proofs.«178145_j14508399526340_2_alg».proof.Proof.Gen.ReferenceIdeal.Read
import proofs.«178145_j14508399526340_2_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.Hebbian

abbrev A4096x2048 : Type := (⟨S4096x2048, .f32⟩ : BufTy).Contents (Elt Ideal)
abbrev A2048x2048 : Type := (⟨S2048x2048, .f32⟩ : BufTy).Contents (Elt Ideal)
abbrev A2048x2050 : Type := (⟨S2048x2050, .f32⟩ : BufTy).Contents (Elt Ideal)
abbrev A4096x2050 : Type := (⟨S4096x2050, .f32⟩ : BufTy).Contents (Elt Ideal)
abbrev Ascalar : Type := (⟨S_, .f32⟩ : BufTy).Contents (Elt Ideal)

/-- Two rank-2 index functions agree when they agree on each of the two axes. -/
local macro "axes2" : tactic => `(tactic| (funext a; match a with | ⟨0, _⟩ => rfl | ⟨1, _⟩ => rfl))

/-! ## The three weights: learned weight plus state times Hebbian trace, entry by entry -/

theorem weight1 (x1 x7 : A2048x2048) (x10 : Ascalar) :
    Read.val_main_v2 (F := Ideal) x1 x7 x10 = weight x1 x7 (x10 ix0) := by
  refine Mat.ext fun r e => ?_
  rw [Read.val_main_v2_apply, Read.val_main_v1_apply, Read.val_main_v0_apply]
  rfl

theorem weight2 (x2 x8 : A2048x2048) (x10 : Ascalar) :
    Read.val_main_v7 (F := Ideal) x2 x8 x10 = weight x2 x8 (x10 ix0) := by
  refine Mat.ext fun r e => ?_
  rw [Read.val_main_v7_apply, Read.val_main_v6_apply, Read.val_main_v5_apply]
  rfl

theorem weight3 (x3 x9 : A2048x2050) (x10 : Ascalar) :
    Read.val_main_v12 (F := Ideal) x3 x9 x10 = weight x3 x9 (x10 ix0) := by
  refine Mat.ext fun r e => ?_
  rw [Read.val_main_v12_apply, Read.val_main_v11_apply, Read.val_main_v10_apply]
  rfl

/-! ## The three layers -/

/-- The first product is the first layer's pre-activation: entry (r, e) sums row r of the input against column e of
    the weight. -/
theorem h0x_eq (x0 : A4096x2048) (x1 x7 : A2048x2048) (x10 : Ascalar) :
    Read.val_main_v3 (F := Ideal) x0 x1 x7 x10 = h0x x0 x1 x7 (x10 ix0) := by
  refine Mat.ext fun r e => ?_
  rw [Read.val_main_v3_apply, weight1]
  unfold h0x layer
  rw [mat_ix2]
  refine Finset.sum_congr rfl fun k _ => ?_
  rw [show Read.lidx_main_v3 (ix2 r e) k = ix2 r k by axes2, show Read.ridx_main_v3 (ix2 r e) k = ix2 k e by axes2]

/-- The rectified first layer. -/
theorem relu0_eq (x0 : A4096x2048) (x1 x7 : A2048x2048) (x10 : Ascalar) :
    Read.val_main_v4 (F := Ideal) x0 x1 x7 x10 = relu (h0x x0 x1 x7 (x10 ix0)) := by
  refine Mat.ext fun r e => ?_
  rw [Read.val_main_v4_apply, h0x_eq, Read.val_main_call0_v0_apply, Read.val_main_call0_cst_apply]
  rfl

theorem h10_eq (x0 : A4096x2048) (x1 x2 x7 x8 : A2048x2048) (x10 : Ascalar) :
    Read.val_main_v8 (F := Ideal) x0 x1 x2 x7 x8 x10 = h10 x0 x1 x2 x7 x8 (x10 ix0) := by
  refine Mat.ext fun r e => ?_
  rw [Read.val_main_v8_apply, relu0_eq, weight2]
  unfold h10 layer
  rw [mat_ix2]
  refine Finset.sum_congr rfl fun k _ => ?_
  rw [show Read.lidx_main_v8 (ix2 r e) k = ix2 r k by axes2, show Read.ridx_main_v8 (ix2 r e) k = ix2 k e by axes2]

theorem relu1_eq (x0 : A4096x2048) (x1 x2 x7 x8 : A2048x2048) (x10 : Ascalar) :
    Read.val_main_v9 (F := Ideal) x0 x1 x2 x7 x8 x10 = relu (h10 x0 x1 x2 x7 x8 (x10 ix0)) := by
  refine Mat.ext fun r e => ?_
  rw [Read.val_main_v9_apply, h10_eq, Read.val_main_call1_v0_apply, Read.val_main_call1_cst_apply]
  rfl

theorem y1_eq (x0 : A4096x2048) (x1 x2 : A2048x2048) (x3 : A2048x2050) (x7 x8 : A2048x2048) (x9 : A2048x2050)
    (x10 : Ascalar) :
    Read.val_main_v13 (F := Ideal) x0 x1 x2 x3 x7 x8 x9 x10 = y1 x0 x1 x2 x3 x7 x8 x9 (x10 ix0) := by
  refine Mat.ext fun r e => ?_
  rw [Read.val_main_v13_apply, relu1_eq, weight3]
  unfold y1 layer
  rw [mat_ix2]
  refine Finset.sum_congr rfl fun k _ => ?_
  rw [show Read.lidx_main_v13 (ix2 r e) k = ix2 r k by axes2, show Read.ridx_main_v13 (ix2 r e) k = ix2 k e by axes2]

/-- The returned activations are the first 2048 columns of the output layer. -/
theorem out_eq (x0 : A4096x2048) (x1 x2 : A2048x2048) (x3 : A2048x2050) (x7 x8 : A2048x2048) (x9 : A2048x2050)
    (x10 : Ascalar) :
    Read.val_main_v55 (F := Ideal) x0 x1 x2 x3 x7 x8 x9 x10 = firstCols (y1 x0 x1 x2 x3 x7 x8 x9 (x10 ix0)) := by
  refine Mat.ext fun r e => ?_
  rw [Read.val_main_v55_apply, y1_eq]
  unfold firstCols
  rw [mat_ix2, show Read.idx_main_v55 (ix2 r e) = ix2 r ⟨e.val, by omega⟩ by axes2]

/-! ## The two modulators: the batch mean of tanh of one column of the output layer -/

/-- A sum over the indices of a one-column matrix is the sum over its rows. -/
theorem sum_column (f : S4096x1.Idx → EReal) : ∑ j : S4096x1.Idx, f j = ∑ r : Fin 4096, f (ix2 r (0 : Fin 1)) := by
  rw [sum_idx2]
  exact Finset.sum_congr rfl fun r _ => Fin.sum_univ_one _

theorem state_eq (x0 : A4096x2048) (x1 x2 : A2048x2048) (x3 : A2048x2050) (x7 x8 : A2048x2048) (x9 : A2048x2050)
    (x10 : Ascalar) :
    Read.val_main_v17 (F := Ideal) x0 x1 x2 x3 x7 x8 x9 x10 = fun _ => stateNew x0 x1 x2 x3 x7 x8 x9 (x10 ix0) := by
  funext i
  rw [Read.val_main_v17_apply, Read.val_main_v16_apply, Read.val_main_cst_apply, Read.val_main_cst_0_apply, sum_column]
  unfold stateNew meanTanhCol
  refine congrArg (fun t => Ideal.div (zero32 + t) batch32) (Finset.sum_congr rfl fun r _ => ?_)
  rw [Read.val_main_v15_apply, Read.val_main_v14_apply, y1_eq,
    show Read.idx_main_v14 (ix2 r (0 : Fin 1)) = ix2 r ⟨2048, by omega⟩ by axes2]
  rfl

theorem dopa_eq (x0 : A4096x2048) (x1 x2 : A2048x2048) (x3 : A2048x2050) (x7 x8 : A2048x2048) (x9 : A2048x2050)
    (x10 : Ascalar) :
    Read.val_main_v21 (F := Ideal) x0 x1 x2 x3 x7 x8 x9 x10 = fun _ => dopa x0 x1 x2 x3 x7 x8 x9 (x10 ix0) := by
  funext i
  rw [Read.val_main_v21_apply, Read.val_main_v20_apply, Read.val_main_cst_1_apply, Read.val_main_cst_2_apply, sum_column]
  unfold dopa meanTanhCol
  refine congrArg (fun t => Ideal.div (zero32 + t) batch32) (Finset.sum_congr rfl fun r _ => ?_)
  rw [Read.val_main_v19_apply, Read.val_main_v18_apply, y1_eq,
    show Read.idx_main_v18 (ix2 r (0 : Fin 1)) = ix2 r ⟨2047, by omega⟩ by axes2]
  rfl

/-! ## The three correlations: the transposed input of a layer against its pre-activation output -/

theorem corr1_eq (x0 : A4096x2048) (x1 x7 : A2048x2048) (x10 : Ascalar) :
    Read.val_main_v47 (F := Ideal) x0 x1 x7 x10 = correlate x0 (h0x x0 x1 x7 (x10 ix0)) := by
  refine Mat.ext fun r e => ?_
  rw [Read.val_main_v47_apply, h0x_eq]
  unfold correlate
  rw [mat_ix2]
  refine Finset.sum_congr rfl fun k _ => ?_
  rw [Read.val_main_v46_apply, show Read.idx_main_v46 (Read.lidx_main_v47 (ix2 r e) k) = ix2 k r by axes2,
    show Read.ridx_main_v47 (ix2 r e) k = ix2 k e by axes2]

theorem corr2_eq (x0 : A4096x2048) (x1 x2 x7 x8 : A2048x2048) (x10 : Ascalar) :
    Read.val_main_v36 (F := Ideal) x0 x1 x2 x7 x8 x10
      = correlate (relu (h0x x0 x1 x7 (x10 ix0))) (h10 x0 x1 x2 x7 x8 (x10 ix0)) := by
  refine Mat.ext fun r e => ?_
  rw [Read.val_main_v36_apply, h10_eq]
  unfold correlate
  rw [mat_ix2]
  refine Finset.sum_congr rfl fun k _ => ?_
  rw [Read.val_main_v35_apply, relu0_eq, show Read.idx_main_v35 (Read.lidx_main_v36 (ix2 r e) k) = ix2 k r by axes2,
    show Read.ridx_main_v36 (ix2 r e) k = ix2 k e by axes2]

theorem corr3_eq (x0 : A4096x2048) (x1 x2 : A2048x2048) (x3 : A2048x2050) (x7 x8 : A2048x2048) (x9 : A2048x2050)
    (x10 : Ascalar) :
    Read.val_main_v25 (F := Ideal) x0 x1 x2 x3 x7 x8 x9 x10
      = correlate (relu (h10 x0 x1 x2 x7 x8 (x10 ix0))) (y1 x0 x1 x2 x3 x7 x8 x9 (x10 ix0)) := by
  refine Mat.ext fun r e => ?_
  rw [Read.val_main_v25_apply, y1_eq]
  unfold correlate
  rw [mat_ix2]
  refine Finset.sum_congr rfl fun k _ => ?_
  rw [Read.val_main_v24_apply, relu1_eq, show Read.idx_main_v24 (Read.lidx_main_v25 (ix2 r e) k) = ix2 k r by axes2,
    show Read.ridx_main_v25 (ix2 r e) k = ix2 k e by axes2]

/-! ## The three new eligibility traces -/

theorem trace1_eq (x0 : A4096x2048) (x1 x4 x7 : A2048x2048) (x10 : Ascalar) :
    Read.val_main_v50 (F := Ideal) x0 x1 x4 x7 x10 = trace x4 (correlate x0 (h0x x0 x1 x7 (x10 ix0))) := by
  refine Mat.ext fun r e => ?_
  rw [Read.val_main_v50_apply, Read.val_main_v45_apply, Read.val_main_v49_apply, Read.val_main_v44_apply,
    Read.val_main_v48_apply, Read.val_main_cst_11_apply, Read.val_main_cst_12_apply, corr1_eq]
  rfl

theorem trace2_eq (x0 : A4096x2048) (x1 x2 x5 x7 x8 : A2048x2048) (x10 : Ascalar) :
    Read.val_main_v39 (F := Ideal) x0 x1 x2 x5 x7 x8 x10
      = trace x5 (correlate (relu (h0x x0 x1 x7 (x10 ix0))) (h10 x0 x1 x2 x7 x8 (x10 ix0))) := by
  refine Mat.ext fun r e => ?_
  rw [Read.val_main_v39_apply, Read.val_main_v34_apply, Read.val_main_v38_apply, Read.val_main_v33_apply,
    Read.val_main_v37_apply, Read.val_main_cst_7_apply, Read.val_main_cst_8_apply, corr2_eq]
  rfl

theorem trace3_eq (x0 : A4096x2048) (x1 x2 : A2048x2048) (x3 x6 : A2048x2050) (x7 x8 : A2048x2048) (x9 : A2048x2050)
    (x10 : Ascalar) :
    Read.val_main_v28 (F := Ideal) x0 x1 x2 x3 x6 x7 x8 x9 x10
      = trace x6 (correlate (relu (h10 x0 x1 x2 x7 x8 (x10 ix0))) (y1 x0 x1 x2 x3 x7 x8 x9 (x10 ix0))) := by
  refine Mat.ext fun r e => ?_
  rw [Read.val_main_v28_apply, Read.val_main_v23_apply, Read.val_main_v27_apply, Read.val_main_v22_apply,
    Read.val_main_v26_apply, Read.val_main_cst_3_apply, Read.val_main_cst_4_apply, corr3_eq]
  rfl

/-! ## The three new Hebbian traces: the old one moved by dopamine times the new eligibility, clamped -/

theorem heb1_eq (x0 : A4096x2048) (x1 x2 : A2048x2048) (x3 : A2048x2050) (x4 x7 x8 : A2048x2048) (x9 : A2048x2050)
    (x10 : Ascalar) :
    Read.val_main_v54 (F := Ideal) x0 x1 x2 x3 x4 x7 x8 x9 x10
      = clampUpdate x7 (trace x4 (correlate x0 (h0x x0 x1 x7 (x10 ix0)))) (dopa x0 x1 x2 x3 x7 x8 x9 (x10 ix0)) := by
  refine Mat.ext fun r e => ?_
  rw [Read.val_main_v54_apply, Read.val_main_call4_v4_apply, Read.val_main_call4_v3_apply, Read.val_main_cst_14_apply,
    Read.val_main_call4_v2_apply, Read.val_main_call4_v1_apply, Read.val_main_call4_v0_apply,
    Read.val_main_cst_13_apply, Read.val_main_v53_apply, Read.val_main_v52_apply, Read.val_main_v51_apply, dopa_eq,
    trace1_eq]
  rfl

theorem heb2_eq (x0 : A4096x2048) (x1 x2 : A2048x2048) (x3 : A2048x2050) (x5 x7 x8 : A2048x2048) (x9 : A2048x2050)
    (x10 : Ascalar) :
    Read.val_main_v43 (F := Ideal) x0 x1 x2 x3 x5 x7 x8 x9 x10
      = clampUpdate x8 (trace x5 (correlate (relu (h0x x0 x1 x7 (x10 ix0))) (h10 x0 x1 x2 x7 x8 (x10 ix0))))
          (dopa x0 x1 x2 x3 x7 x8 x9 (x10 ix0)) := by
  refine Mat.ext fun r e => ?_
  rw [Read.val_main_v43_apply, Read.val_main_call3_v4_apply, Read.val_main_call3_v3_apply, Read.val_main_cst_10_apply,
    Read.val_main_call3_v2_apply, Read.val_main_call3_v1_apply, Read.val_main_call3_v0_apply,
    Read.val_main_cst_9_apply, Read.val_main_v42_apply, Read.val_main_v41_apply, Read.val_main_v40_apply, dopa_eq,
    trace2_eq]
  rfl

theorem heb3_eq (x0 : A4096x2048) (x1 x2 : A2048x2048) (x3 x6 : A2048x2050) (x7 x8 : A2048x2048) (x9 : A2048x2050)
    (x10 : Ascalar) :
    Read.val_main_v32 (F := Ideal) x0 x1 x2 x3 x6 x7 x8 x9 x10
      = clampUpdate x9 (trace x6 (correlate (relu (h10 x0 x1 x2 x7 x8 (x10 ix0))) (y1 x0 x1 x2 x3 x7 x8 x9 (x10 ix0))))
          (dopa x0 x1 x2 x3 x7 x8 x9 (x10 ix0)) := by
  refine Mat.ext fun r e => ?_
  rw [Read.val_main_v32_apply, Read.val_main_call2_v4_apply, Read.val_main_call2_v3_apply, Read.val_main_cst_6_apply,
    Read.val_main_call2_v2_apply, Read.val_main_call2_v1_apply, Read.val_main_call2_v0_apply,
    Read.val_main_cst_5_apply, Read.val_main_v31_apply, Read.val_main_v30_apply, Read.val_main_v29_apply, dopa_eq,
    trace3_eq]
  rfl

/-! ## The reference's run, read as the specification -/

/-- Every weakly fair execution of the reference ends with its nine results at the specification's functions of the
    eleven arguments' launch contents (the state read at the scalar's one index), and the arguments unchanged. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v55) = firstCols (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))
      ∧ r.2.mem ((c.tc : Thread nD τ).loc main_v17) = (fun _ => (stateNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)))
      ∧ r.2.mem ((c.tc : Thread nD τ).loc main_v21) = (fun _ => (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)))
      ∧ r.2.mem ((c.tc : Thread nD τ).loc main_v50) = (trace (m ((c.tc : Thread nD τ).loc main_arg4)) (correlate (m ((c.tc : Thread nD τ).loc main_arg0)) (h0x (m ((c.tc : Thread nD τ).loc main_arg0)) (m ((c.tc : Thread nD τ).loc main_arg1)) (m ((c.tc : Thread nD τ).loc main_arg7)) (m ((c.tc : Thread nD τ).loc main_arg10) ix0))))
      ∧ r.2.mem ((c.tc : Thread nD τ).loc main_v39) = (trace (m ((c.tc : Thread nD τ).loc main_arg5)) (correlate (relu (h0x (m ((c.tc : Thread nD τ).loc main_arg0)) (m ((c.tc : Thread nD τ).loc main_arg1)) (m ((c.tc : Thread nD τ).loc main_arg7)) (m ((c.tc : Thread nD τ).loc main_arg10) ix0))) (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0))))
      ∧ r.2.mem ((c.tc : Thread nD τ).loc main_v28) = (trace (m ((c.tc : Thread nD τ).loc main_arg6)) (correlate (relu (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0))) (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))))
      ∧ r.2.mem ((c.tc : Thread nD τ).loc main_v54) = clampUpdate (m ((c.tc : Thread nD τ).loc main_arg7)) (trace (m ((c.tc : Thread nD τ).loc main_arg4)) (correlate (m ((c.tc : Thread nD τ).loc main_arg0)) (h0x (m ((c.tc : Thread nD τ).loc main_arg0)) (m ((c.tc : Thread nD τ).loc main_arg1)) (m ((c.tc : Thread nD τ).loc main_arg7)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))
      ∧ r.2.mem ((c.tc : Thread nD τ).loc main_v43) = clampUpdate (m ((c.tc : Thread nD τ).loc main_arg8)) (trace (m ((c.tc : Thread nD τ).loc main_arg5)) (correlate (relu (h0x (m ((c.tc : Thread nD τ).loc main_arg0)) (m ((c.tc : Thread nD τ).loc main_arg1)) (m ((c.tc : Thread nD τ).loc main_arg7)) (m ((c.tc : Thread nD τ).loc main_arg10) ix0))) (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))
      ∧ r.2.mem ((c.tc : Thread nD τ).loc main_v32) = clampUpdate (m ((c.tc : Thread nD τ).loc main_arg9)) (trace (m ((c.tc : Thread nD τ).loc main_arg6)) (correlate (relu (h10 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10) ix0))) (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0)))) (dopa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10) ix0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c => ⟨(h c).1.trans ((Read.val_main_v55_eq _ _ _ _ _ _ _ _).trans (out_eq _ _ _ _ _ _ _ _)),
      (h c).2.1.trans ((Read.val_main_v17_eq _ _ _ _ _ _ _ _).trans (state_eq _ _ _ _ _ _ _ _)),
      (h c).2.2.1.trans ((Read.val_main_v21_eq _ _ _ _ _ _ _ _).trans (dopa_eq _ _ _ _ _ _ _ _)),
      (h c).2.2.2.1.trans ((Read.val_main_v50_eq _ _ _ _ _).trans (trace1_eq _ _ _ _ _)),
      (h c).2.2.2.2.1.trans ((Read.val_main_v39_eq _ _ _ _ _ _ _).trans (trace2_eq _ _ _ _ _ _ _)),
      (h c).2.2.2.2.2.1.trans ((Read.val_main_v28_eq _ _ _ _ _ _ _ _ _).trans (trace3_eq _ _ _ _ _ _ _ _ _)),
      (h c).2.2.2.2.2.2.1.trans ((Read.val_main_v54_eq _ _ _ _ _ _ _ _ _).trans (heb1_eq _ _ _ _ _ _ _ _ _)),
      (h c).2.2.2.2.2.2.2.1.trans ((Read.val_main_v43_eq _ _ _ _ _ _ _ _ _).trans (heb2_eq _ _ _ _ _ _ _ _ _)),
      (h c).2.2.2.2.2.2.2.2.1.trans ((Read.val_main_v32_eq _ _ _ _ _ _ _ _ _).trans (heb3_eq _ _ _ _ _ _ _ _ _)),
      (h c).2.2.2.2.2.2.2.2.2.1,
      (h c).2.2.2.2.2.2.2.2.2.2.1,
      (h c).2.2.2.2.2.2.2.2.2.2.2.1,
      (h c).2.2.2.2.2.2.2.2.2.2.2.2.1,
      (h c).2.2.2.2.2.2.2.2.2.2.2.2.2.1,
      (h c).2.2.2.2.2.2.2.2.2.2.2.2.2.2.1,
      (h c).2.2.2.2.2.2.2.2.2.2.2.2.2.2.2.1,
      (h c).2.2.2.2.2.2.2.2.2.2.2.2.2.2.2.2.1,
      (h c).2.2.2.2.2.2.2.2.2.2.2.2.2.2.2.2.2.1,
      (h c).2.2.2.2.2.2.2.2.2.2.2.2.2.2.2.2.2.2.1,
      (h c).2.2.2.2.2.2.2.2.2.2.2.2.2.2.2.2.2.2.2⟩)
    (Cert.ReferenceIdeal.Value.run (F := Ideal) m ρ)

end Cert.ReferenceIdeal.RefValue

end
-- ==== Proof.lean ====
/-
  The certificate. The kernel program is a chain of six segments: a stretch of host operations that combines each
  learned weight with the scalar state times its Hebbian trace, the forward region (three dense layers with rectifiers,
  row block by row block), a stretch of host operations that takes the two modulators as means of tanh over a column
  of the output layer, and three Hebbian-update regions, each of which accumulates the correlation of a layer's input
  with its pre-activation output over blocks of the batch and, at the last block, writes the new eligibility trace and
  the clamped new Hebbian trace. The reference computes the same quantities with whole-matrix operations.

  Frames: each program runs to the end from any launch memory and leaves its eleven argument arrays as launched — for
  the kernel program at both float instances from the run of its six segments, for the reference from its run as a list
  of host operations. The idealization rewrote nothing. At the exact instance the two programs end with equal results:
  both sides are the specification's functions of the arguments (a sum over the batch taken block by block is the sum
  over the batch; no finiteness is needed, only that addition on the extended reals is associative and commutative).
-/
import proofs.«178145_j14508399526340_2_alg».proof.Defs
import proofs.«178145_j14508399526340_2_alg».proof.Proof.Gen.Kernel
import proofs.«178145_j14508399526340_2_alg».proof.Proof.Gen.KernelIdeal
import proofs.«178145_j14508399526340_2_alg».proof.Proof.Gen.ReferenceIdeal
import proofs.«178145_j14508399526340_2_alg».proof.Proof.Gen.ReferenceIdeal.Run
import proofs.«178145_j14508399526340_2_alg».proof.Proof.Gen.Pre_finite_inputs
import proofs.«178145_j14508399526340_2_alg».proof.Proof.K.Halves
import proofs.«178145_j14508399526340_2_alg».proof.Proof.KI.Values
import proofs.«178145_j14508399526340_2_alg».proof.Proof.RefVal
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

/-- The reference's run, its results forgotten. -/
theorem frame_ri : Cert.frame_ReferenceIdeal := fun m ρ _ =>
  (θ_run Cert.ReferenceIdeal.defs _ _).mono (fun _ h c => (h c).2.2.2.2.2.2.2.2.2)
    (Cert.ReferenceIdeal.Value.run (F := Ideal) m ρ)

/-- The idealization is the program's own text read at the exact instance: nothing to restate. -/
theorem preserves : Cert.preserves_Kernel_KernelIdeal := trivial

/-- Both programs end at the specification's functions of their arguments; the arguments agree. -/
theorem algebraic : Cert.algebraic_KernelIdeal_ReferenceIdeal := by
  intro m ρ m' ρ' _ hagree
  refine ⟨_, _, _, _, _, _, _, _, _, Cert.KernelIdeal.Hand.run_spec m ρ, ?_⟩
  refine (θ_run Cert.ReferenceIdeal.defs _ _).mono (fun _ h c => ?_) (Cert.ReferenceIdeal.RefValue.run_spec m' ρ')
  obtain ⟨h1, h2, h3, h4, h5, h6, h7, h8, h9, hargs⟩ := h c
  obtain ⟨a0, a1, a2, a3, a4, a5, a6, a7, a8, a9, a10⟩ := hagree c
  refine ⟨h1.trans ?_, h2.trans ?_, h3.trans ?_, h4.trans ?_, h5.trans ?_, h6.trans ?_, h7.trans ?_, h8.trans ?_, h9.trans ?_, hargs⟩ <;>
    (simp only [a0, a1, a2, a3, a4, a5, a6, a7, a8, a9, a10]; try rfl)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
